-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v5_0)) (v2 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096 : Shape := ⟨2, ![1, 4096]⟩
abbrev S4096x8192 : Shape := ⟨2, ![4096, 8192]⟩
abbrev S4096x1 : Shape := ⟨2, ![4096, 1]⟩
abbrev S32000x4096 : Shape := ⟨2, ![32000, 4096]⟩
abbrev S32000x1 : Shape := ⟨2, ![32000, 1]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  bcast_S_S4096x1 : S_.BroadcastsInDim S4096x1 (![] : Fin 0 → Fin S4096x1.rank)
  reducesTo_S4096x1_S_d0_1 : S4096x1.ReducesTo [0, 1] S_
  bcast_S_S32000x4096 : S_.BroadcastsInDim S32000x4096 (![] : Fin 0 → Fin S32000x4096.rank)
  reducesTo_S32000x4096_S_d0_1 : S32000x4096.ReducesTo [0, 1] S_
  bcast_S_S32000x1 : S_.BroadcastsInDim S32000x1 (![] : Fin 0 → Fin S32000x1.rank)
  reducesTo_S32000x1_S_d0_1 : S32000x1.ReducesTo [0, 1] S_

variable [Facts]

def fn_part3 {F : FTy → Type} [FloatOps F] (main_arg11 : FVec F S32000x4096 .f32) (main_arg12 : FVec F S32000x1 .f32) (main_v48 : IVec S_ 1) (main_v49 : FVec F S4096x1 .f32) (main_v50 : FVec F S4096x1 .f32) : IVec S_ 1 :=
  let main_v51 : IVec S4096x1 1 := cmpf .olt main_v49 main_v50
  let main_c_19 : IVec S_ 1 := constantI S_ 1 1#1
  let main_v52 : IVec S_ 1 := (fun x v => Host.reduce IntOp.andi x v reducesTo_S4096x1_S_d0_1 h_S_) main_v51 main_c_19
  let main_v53 : IVec S_ 1 := andi main_v48 main_v52
  let main_v54 : FVec F S32000x4096 .f32 := Host.absf main_arg11
  let main_cst_20 : FVec F S_ .f32 := constant S_ .f32 0x7F800000#32
  let main_v55 : FVec F S32000x4096 .f32 := broadcastInDim S32000x4096 ![] bcast_S_S32000x4096 main_cst_20
  let main_v56 : IVec S32000x4096 1 := cmpf .olt main_v54 main_v55
  let main_c_21 : IVec S_ 1 := constantI S_ 1 1#1
  let main_v57 : IVec S_ 1 := (fun x v => Host.reduce IntOp.andi x v reducesTo_S32000x4096_S_d0_1 h_S_) main_v56 main_c_21
  let main_v58 : IVec S_ 1 := andi main_v53 main_v57
  let main_v59 : FVec F S32000x1 .f32 := Host.absf main_arg12
  let main_cst_22 : FVec F S_ .f32 := constant S_ .f32 0x7F800000#32
  let main_v60 : FVec F S32000x1 .f32 := broadcastInDim S32000x1 ![] bcast_S_S32000x1 main_cst_22
  let main_v61 : IVec S32000x1 1 := cmpf .olt main_v59 main_v60
  let main_c_23 : IVec S_ 1 := constantI S_ 1 1#1
  let main_v62 : IVec S_ 1 := (fun x v => Host.reduce IntOp.andi x v reducesTo_S32000x1_S_d0_1 h_S_) main_v61 main_c_23
  let main_v63 : IVec S_ 1 := andi main_v58 main_v62
  main_v63

def fn_part2 {F : FTy → Type} [FloatOps F] (main_arg7 : FVec F S4096x8192 .f32) (main_arg8 : FVec F S4096x1 .f32) (main_arg9 : FVec F S4096x8192 .f32) (main_arg10 : FVec F S4096x1 .f32) (main_arg11 : FVec F S32000x4096 .f32) (main_arg12 : FVec F S32000x1 .f32) (main_v33 : IVec S_ 1) : IVec S_ 1 :=
  let main_v34 : FVec F S4096x8192 .f32 := Host.absf main_arg7
  let main_cst_12 : FVec F S_ .f32 := constant S_ .f32 0x7F800000#32
  let main_v35 : FVec F S4096x8192 .f32 := broadcastInDim S4096x8192 ![] bcast_S_S4096x8192 main_cst_12
  let main_v36 : IVec S4096x8192 1 := cmpf .olt main_v34 main_v35
  let main_c_13 : IVec S_ 1 := constantI S_ 1 1#1
  let main_v37 : IVec S_ 1 := (fun x v => Host.reduce IntOp.andi x v reducesTo_S4096x8192_S_d0_1 h_S_) main_v36 main_c_13
  let main_v38 : IVec S_ 1 := andi main_v33 main_v37
  let main_v39 : FVec F S4096x1 .f32 := Host.absf main_arg8
  let main_cst_14 : FVec F S_ .f32 := constant S_ .f32 0x7F800000#32
  let main_v40 : FVec F S4096x1 .f32 := broadcastInDim S4096x1 ![] bcast_S_S4096x1 main_cst_14
  let main_v41 : IVec S4096x1 1 := cmpf .olt main_v39 main_v40
  let main_c_15 : IVec S_ 1 := constantI S_ 1 1#1
  let main_v42 : IVec S_ 1 := (fun x v => Host.reduce IntOp.andi x v reducesTo_S4096x1_S_d0_1 h_S_) main_v41 main_c_15
  let main_v43 : IVec S_ 1 := andi main_v38 main_v42
  let main_v44 : FVec F S4096x8192 .f32 := Host.absf main_arg9
  let main_cst_16 : FVec F S_ .f32 := constant S_ .f32 0x7F800000#32
  let main_v45 : FVec F S4096x8192 .f32 := broadcastInDim S4096x8192 ![] bcast_S_S4096x8192 main_cst_16
  let main_v46 : IVec S4096x8192 1 := cmpf .olt main_v44 main_v45
  let main_c_17 : IVec S_ 1 := constantI S_ 1 1#1
  let main_v47 : IVec S_ 1 := (fun x v => Host.reduce IntOp.andi x v reducesTo_S4096x8192_S_d0_1 h_S_) main_v46 main_c_17
  let main_v48 : IVec S_ 1 := andi main_v43 main_v47
  let main_v49 : FVec F S4096x1 .f32 := Host.absf main_arg10
  let main_cst_18 : FVec F S_ .f32 := constant S_ .f32 0x7F800000#32
  let main_v50 : FVec F S4096x1 .f32 := broadcastInDim S4096x1 ![] bcast_S_S4096x1 main_cst_18
  fn_part3 (F := F) main_arg11 main_arg12 main_v48 main_v49 main_v50

def fn_part1 {F : FTy → Type} [FloatOps F] (main_arg4 : FVec F S4096x1 .f32) (main_arg5 : FVec F S4096x8192 .f32) (main_arg6 : FVec F S4096x1 .f32) (main_arg7 : FVec F S4096x8192 .f32) (main_arg8 : FVec F S4096x1 .f32) (main_arg9 : FVec F S4096x8192 .f32) (main_arg10 : FVec F S4096x1 .f32) (main_arg11 : FVec F S32000x4096 .f32) (main_arg12 : FVec F S32000x1 .f32) (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  let main_v19 : FVec F S4096x1 .f32 := Host.absf main_arg4
  let main_cst_6 : FVec F S_ .f32 := constant S_ .f32 0x7F800000#32
  let main_v20 : FVec F S4096x1 .f32 := broadcastInDim S4096x1 ![] bcast_S_S4096x1 main_cst_6
  let main_v21 : IVec S4096x1 1 := cmpf .olt main_v19 main_v20
  let main_c_7 : IVec S_ 1 := constantI S_ 1 1#1
  let main_v22 : IVec S_ 1 := (fun x v => Host.reduce IntOp.andi x v reducesTo_S4096x1_S_d0_1 h_S_) main_v21 main_c_7
  let main_v23 : IVec S_ 1 := andi main_v18 main_v22
  let main_v24 : FVec F S4096x8192 .f32 := Host.absf main_arg5
  let main_cst_8 : FVec F S_ .f32 := constant S_ .f32 0x7F800000#32
  let main_v25 : FVec F S4096x8192 .f32 := broadcastInDim S4096x8192 ![] bcast_S_S4096x8192 main_cst_8
  let main_v26 : IVec S4096x8192 1 := cmpf .olt main_v24 main_v25
  let main_c_9 : IVec S_ 1 := constantI S_ 1 1#1
  let main_v27 : IVec S_ 1 := (fun x v => Host.reduce IntOp.andi x v reducesTo_S4096x8192_S_d0_1 h_S_) main_v26 main_c_9
  let main_v28 : IVec S_ 1 := andi main_v23 main_v27
  let main_v29 : FVec F S4096x1 .f32 := Host.absf main_arg6
  let main_cst_10 : FVec F S_ .f32 := constant S_ .f32 0x7F800000#32
  let main_v30 : FVec F S4096x1 .f32 := broadcastInDim S4096x1 ![] bcast_S_S4096x1 main_cst_10
  let main_v31 : IVec S4096x1 1 := cmpf .olt main_v29 main_v30
  let main_c_11 : IVec S_ 1 := constantI S_ 1 1#1
  let main_v32 : IVec S_ 1 := (fun x v => Host.reduce IntOp.andi x v reducesTo_S4096x1_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S1x4096 .f32) (main_arg1 : FVec F S1x4096 .f32) (main_arg2 : FVec F S1x4096 .f32) (main_arg3 : FVec F S4096x8192 .f32) (main_arg4 : FVec F S4096x1 .f32) (main_arg5 : FVec F S4096x8192 .f32) (main_arg6 : FVec F S4096x1 .f32) (main_arg7 : FVec F S4096x8192 .f32) (main_arg8 : FVec F S4096x1 .f32) (main_arg9 : FVec F S4096x8192 .f32) (main_arg10 : FVec F S4096x1 .f32) (main_arg11 : FVec F S32000x4096 .f32) (main_arg12 : FVec F S32000x1 .f32) : IVec S_ 1 :=
  let main_v0 : FVec F S1x4096 .f32 := Host.absf main_arg0
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S1x4096 .f32 := Host.absf main_arg1
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S4096x8192 .f32 := Host.absf main_arg3
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_arg4 main_arg5 main_arg6 main_arg7 main_arg8 main_arg9 main_arg10 main_arg11 main_arg12 main_v13 main_v16
-- ==== Kernel.lean ====
abbrev S1x4096 : Shape := ⟨2, ![1, 4096]⟩
abbrev S4096x8192 : Shape := ⟨2, ![4096, 8192]⟩
abbrev S4096x1 : Shape := ⟨2, ![4096, 1]⟩
abbrev S32000x4096 : Shape := ⟨2, ![32000, 4096]⟩
abbrev S32000x1 : Shape := ⟨2, ![32000, 1]⟩
abbrev S1x8192 : Shape := ⟨2, ![1, 8192]⟩
abbrev S1x1024 : Shape := ⟨2, ![1, 1024]⟩
abbrev S1024x1024 : Shape := ⟨2, ![1024, 1024]⟩
abbrev S1x32000 : Shape := ⟨2, ![1, 32000]⟩
abbrev S3200x1024 : Shape := ⟨2, ![3200, 1024]⟩
abbrev S1x3200 : Shape := ⟨2, ![1, 3200]⟩
abbrev S_ : Shape := ⟨0, ![]⟩
abbrev S1 : Shape := ⟨1, ![1]⟩
abbrev S1x1 : Shape := ⟨2, ![1, 1]⟩

abbrev nBuf : Space → Nat
  | .hbm => 37
  | .vmem => 37
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S4096x8192, .f32⟩
  | .hbm, ⟨4, _⟩ => ⟨S4096x1, .f32⟩
  | .hbm, ⟨5, _⟩ => ⟨S4096x8192, .f32⟩
  | .hbm, ⟨6, _⟩ => ⟨S4096x1, .f32⟩
  | .hbm, ⟨7, _⟩ => ⟨S4096x8192, .f32⟩
  | .hbm, ⟨8, _⟩ => ⟨S4096x1, .f32⟩
  | .hbm, ⟨9, _⟩ => ⟨S4096x8192, .f32⟩
  | .hbm, ⟨10, _⟩ => ⟨S4096x1, .f32⟩
  | .hbm, ⟨11, _⟩ => ⟨S32000x4096, .f32⟩
  | .hbm, ⟨12, _⟩ => ⟨S32000x1, .f32⟩
  | .hbm, ⟨13, _⟩ => ⟨S1x8192, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S1x4096, .f32⟩
  | .hbm, ⟨20, _⟩ => ⟨S1x32000, .f32⟩
  | .hbm, ⟨21, _⟩ => ⟨S1x32000, .f32⟩
  | .hbm, ⟨22, _⟩ => ⟨S_, .f32⟩
  | .hbm, ⟨23, _⟩ => ⟨S1, .f32⟩
  | .hbm, ⟨24, _⟩ => ⟨S_, .f32⟩
  | .hbm, ⟨25, _⟩ => ⟨S1, .f32⟩
  | .hbm, ⟨26, _⟩ => ⟨S1, .f32⟩
  | .hbm, ⟨27, _⟩ => ⟨S1x1, .f32⟩
  | .hbm, ⟨28, _⟩ => ⟨S1x32000, .f32⟩
  | .hbm, ⟨29, _⟩ => ⟨S1x32000, .f32⟩
  | .hbm, ⟨30, _⟩ => ⟨S1x32000, .f32⟩
  | .hbm, ⟨31, _⟩ => ⟨S_, .f32⟩
  | .hbm, ⟨32, _⟩ => ⟨S1, .f32⟩
  | .hbm, ⟨33, _⟩ => ⟨S1x1, .f32⟩
  | .hbm, ⟨34, _⟩ => ⟨S1x1, .f32⟩
  | .hbm, ⟨35, _⟩ => ⟨S1x32000, .f32⟩
  | .hbm, ⟨36, _⟩ => ⟨S1x32000, .f32⟩
  | .local _ .vmem, ⟨0, _⟩ => ⟨S1x1024, .f32⟩
  | .local _ .vmem, ⟨1, _⟩ => ⟨S1x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S3200x1024, .f32⟩
  | .local _ .vmem, ⟨31, _⟩ => ⟨S3200x1024, .f32⟩
  | .local _ .vmem, ⟨32, _⟩ => ⟨S1x3200, .f32⟩
  | .local _ .vmem, ⟨33, _⟩ => ⟨S1x3200, .f32⟩
  | .local _ .vmem, ⟨34, _⟩ => ⟨S1x3200, .f32⟩
  | .local _ .vmem, ⟨35, _⟩ => ⟨S1x3200, .f32⟩
  | .local _ .vmem, ⟨36, _⟩ => ⟨S1x3200, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v6 : Ref sig .tc := ⟨.hbm, 20, rfl⟩
abbrev main_v7 : Ref sig .tc := ⟨.hbm, 21, rfl⟩
abbrev main_call0_cst : Ref sig .tc := ⟨.hbm, 22, rfl⟩
abbrev main_call0_v0 : Ref sig .tc := ⟨.hbm, 23, rfl⟩
abbrev main_call0_cst_0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_cst_1 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_v8 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc1_stg0_0 : Ref sig .tc := ⟨.vmem, 28, rfl⟩
abbrev cc1_stg0_1 : Ref sig .tc := ⟨.vmem, 29, rfl⟩
abbrev cc1_stg1_0 : Ref sig .tc := ⟨.vmem, 30, rfl⟩
abbrev cc1_stg1_1 : Ref sig .tc := ⟨.vmem, 31, rfl⟩
abbrev cc1_stg2_0 : Ref sig .tc := ⟨.vmem, 32, rfl⟩
abbrev cc1_stg2_1 : Ref sig .tc := ⟨.vmem, 33, rfl⟩
abbrev cc1_stg3_0 : Ref sig .tc := ⟨.vmem, 34, rfl⟩
abbrev cc1_stg3_1 : Ref sig .tc := ⟨.vmem, 35, rfl⟩
abbrev cc1_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_29 : BitVec 32 := 0#32
  let v35 : BitVec 1 := Scalar.cmpi .ne v34 c0_i32_29
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev grid1 : Pipeline.Grid := ⟨2, ![10, 4], ![false, false]⟩

def k1_cond2 (i : grid1.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S3200x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x3200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  concatenates_S1x4096_S1x4096_S1x8192_d1 : Shape.Concatenates [S1x4096, S1x4096] S1x8192 1
  shapeCasts_S4096x1_S1x4096 : S4096x1.ShapeCasts S1x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  shapeCasts_S32000x1_S1x32000 : S32000x1.ShapeCasts S1x32000
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  inb_S3200x1024_S3200x1024_0_0 : ∀ a, (![0, 0] : Fin 2 → Nat) a + S3200x1024.size a ≤ S3200x1024.size a
  h_S3200x1024 : 0 < S3200x1024.numel
  reducesTo_S1x32000_S1_d1 : S1x32000.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x32000_0_1 : S1x1.BroadcastsInDim S1x32000 (![0, 1] : Fin 2 → Fin S1x32000.rank)
  dot_S1x1024_S1024x1024_S1x1024_1_1_0_0_n_n_wf : DotDims.WF S1x1024 S1024x1024 S1x1024 [1] [1] [0] [0] [] []
  dot_S1x1024_S3200x1024_S1x3200_1_1_0_0_n_n_wf : DotDims.WF S1x1024 S3200x1024 S1x3200 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x8192.size a
  hwx0_0 : ∀ i : grid0.Coords, EltTy.bits .f32 = 32 ∨ (Rect.block (s := S1x8192) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x8192.size a
  hwx0_1 : ∀ i : grid0.Coords, EltTy.bits .f32 = 32 ∨ (Rect.block (s := S4096x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x8192.size a
  hwx0_2 : ∀ i : grid0.Coords, EltTy.bits .f32 = 32 ∨ (Rect.block (s := S4096x8192) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x8192.size a
  hwx0_3 : ∀ i : grid0.Coords, EltTy.bits .f32 = 32 ∨ (Rect.block (s := S4096x8192) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x8192.size a
  hwx0_4 : ∀ i : grid0.Coords, EltTy.bits .f32 = 32 ∨ (Rect.block (s := S4096x8192) S1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x4096.size a
  hwx0_7 : ∀ i : grid0.Coords, EltTy.bits .f32 = 32 ∨ (Rect.block (s := S1x4096) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x4096.size a
  hwx0_8 : ∀ i : grid0.Coords, EltTy.bits .f32 = 32 ∨ (Rect.block (s := S1x4096) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x4096.size a
  hwx0_9 : ∀ i : grid0.Coords, EltTy.bits .f32 = 32 ∨ (Rect.block (s := S1x4096) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x4096.size a
  hwx0_10 : ∀ i : grid0.Coords, EltTy.bits .f32 = 32 ∨ (Rect.block (s := S1x4096) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x4096.size a
  hwx0_11 : ∀ i : grid0.Coords, EltTy.bits .f32 = 32 ∨ (Rect.block (s := S1x4096) S1x1024.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x4096.size a
  hwx1_0 : ∀ i : grid1.Coords, EltTy.bits .f32 = 32 ∨ (Rect.block (s := S1x4096) S1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x1024.size a ≤ S32000x4096.size a
  hwx1_1 : ∀ i : grid1.Coords, EltTy.bits .f32 = 32 ∨ (Rect.block (s := S32000x4096) S3200x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x3200.size a ≤ S1x32000.size a
  hwx1_2 : ∀ i : grid1.Coords, EltTy.bits .f32 = 32 ∨ (Rect.block (s := S1x32000) S1x3200.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x3200.size a ≤ S1x32000.size a
  hwx1_3 : ∀ i : grid1.Coords, EltTy.bits .f32 = 32 ∨ (Rect.block (s := S1x32000) S1x3200.size (cc1_transform_3 i) (hinb1_3 i)).WholeWords (EltTy.packing .f32)

variable [Facts₀]

def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf
def dot_S1x1024_S3200x1024_S1x3200_1_1_0_0_n_n : DotDims S1x1024 S3200x1024 S1x3200 where
  lhsContracting := [1]
  rhsContracting := [1]
  lhsNonContracting := [0]
  rhsNonContracting := [0]
  lhsBatch := []
  rhsBatch := []
  wf := dot_S1x1024_S3200x1024_S1x3200_1_1_0_0_n_n_wf

abbrev win0_0 : Pipeline.Window sig grid0 :=
  Pipeline.Window.ofSpec (Memref.whole main_v0) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1024.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S1x1024.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_0) S1x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_1) S1x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | ⟨_ + 12, h⟩ => absurd h (Nat.not_lt.2 (Nat.le_add_left _ _))

abbrev win1_0 : Pipeline.Window sig grid1 :=
  Pipeline.Window.ofSpec (Memref.whole main_v5_0) S1x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S3200x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x3200.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x3200.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S1x4096 : Shape := ⟨2, ![1, 4096]⟩
abbrev S4096x8192 : Shape := ⟨2, ![4096, 8192]⟩
abbrev S4096x1 : Shape := ⟨2, ![4096, 1]⟩
abbrev S32000x4096 : Shape := ⟨2, ![32000, 4096]⟩
abbrev S32000x1 : Shape := ⟨2, ![32000, 1]⟩
abbrev S1x8192 : Shape := ⟨2, ![1, 8192]⟩
abbrev S8192x1 : Shape := ⟨2, ![8192, 1]⟩
abbrev S_ : Shape := ⟨0, ![]⟩
abbrev S1x32000 : Shape := ⟨2, ![1, 32000]⟩
abbrev S1 : Shape := ⟨1, ![1]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S4096x8192, .f32⟩
  | .hbm, ⟨4, _⟩ => ⟨S4096x1, .f32⟩
  | .hbm, ⟨5, _⟩ => ⟨S4096x8192, .f32⟩
  | .hbm, ⟨6, _⟩ => ⟨S4096x1, .f32⟩
  | .hbm, ⟨7, _⟩ => ⟨S4096x8192, .f32⟩
  | .hbm, ⟨8, _⟩ => ⟨S4096x1, .f32⟩
  | .hbm, ⟨9, _⟩ => ⟨S4096x8192, .f32⟩
  | .hbm, ⟨10, _⟩ => ⟨S4096x1, .f32⟩
  | .hbm, ⟨11, _⟩ => ⟨S32000x4096, .f32⟩
  | .hbm, ⟨12, _⟩ => ⟨S32000x1, .f32⟩
  | .hbm, ⟨13, _⟩ => ⟨S1x8192, .f32⟩
  | .hbm, ⟨14, _⟩ => ⟨S8192x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S32000x1, .f32⟩
  | .hbm, ⟨55, _⟩ => ⟨S32000x1, .f32⟩
  | .hbm, ⟨56, _⟩ => ⟨S1x32000, .f32⟩
  | .hbm, ⟨57, _⟩ => ⟨S_, .f32⟩
  | .hbm, ⟨58, _⟩ => ⟨S1, .f32⟩
  | .hbm, ⟨59, _⟩ => ⟨S_, .f32⟩
  | .hbm, ⟨60, _⟩ => ⟨S1, .f32⟩
  | .hbm, ⟨61, _⟩ => ⟨S1, .f32⟩
  | .hbm, ⟨62, _⟩ => ⟨S1x1, .f32⟩
  | .hbm, ⟨63, _⟩ => ⟨S1x32000, .f32⟩
  | .hbm, ⟨64, _⟩ => ⟨S1x32000, .f32⟩
  | .hbm, ⟨65, _⟩ => ⟨S1x32000, .f32⟩
  | .hbm, ⟨66, _⟩ => ⟨S_, .f32⟩
  | .hbm, ⟨67, _⟩ => ⟨S1, .f32⟩
  | .hbm, ⟨68, _⟩ => ⟨S1x1, .f32⟩
  | .hbm, ⟨69, _⟩ => ⟨S1x1, .f32⟩
  | .hbm, ⟨70, _⟩ => ⟨S1x32000, .f32⟩
  | .hbm, ⟨71, _⟩ => ⟨S1x32000, .f32⟩
  | .hbm, ⟨72, _⟩ => ⟨S1x4096, .f32⟩
  | .hbm, ⟨73, _⟩ => ⟨S1x4096, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call0_cst : Ref sig .tc := ⟨.hbm, 57, rfl⟩
abbrev main_call0_v0 : Ref sig .tc := ⟨.hbm, 58, rfl⟩
abbrev main_call0_cst_0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_cst_1 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩

abbrev nD : Nat := 1
abbrev τ : Topo := Topo.v7x

variable {F : FTy → Type} [FloatOps F]

class Facts₀ : Prop where
  concatenates_S1x4096_S1x4096_S1x8192_d1 : Shape.Concatenates [S1x4096, S1x4096] S1x8192 1
  transposes_S1x8192_S8192x1_1_0 : S1x8192.Transposes [1, 0] S8192x1
  bcast_S_S4096x1 : S_.BroadcastsInDim S4096x1 (![] : Fin 0 → Fin S4096x1.rank)
  transposes_S1x4096_S4096x1_1_0 : S1x4096.Transposes [1, 0] S4096x1
  transposes_S32000x1_S1x32000_1_0 : S32000x1.Transposes [1, 0] S1x32000
  reducesTo_S1x32000_S1_d1 : S1x32000.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x32000_0_1 : S1x1.BroadcastsInDim S1x32000 (![0, 1] : Fin 2 → Fin S1x32000.rank)
  transposes_S4096x1_S1x4096_1_0 : S4096x1.Transposes [1, 0] S1x4096
  dot_S4096x8192_S8192x1_S4096x1_1_0_0_1_n_n_wf : DotDims.WF S4096x8192 S8192x1 S4096x1 [1] [0] [0] [1] [] []
  dot_S32000x4096_S4096x1_S32000x1_1_0_0_1_n_n_wf : DotDims.WF S32000x4096 S4096x1 S32000x1 [1] [0] [0] [1] [] []

variable [Facts₀]

def dot_S4096x8192_S8192x1_S4096x1_1_0_0_1_n_n : DotDims S4096x8192 S8192x1 S4096x1 where
  lhsContracting := [1]
  rhsContracting := [0]
  lhsNonContracting := [0]
  rhsNonContracting := [1]
  lhsBatch := []
  rhsBatch := []
  wf := dot_S4096x8192_S8192x1_S4096x1_1_0_0_1_n_n_wf
def dot_S32000x4096_S4096x1_S32000x1_1_0_0_1_n_n : DotDims S32000x4096 S4096x1 S32000x1 where
  lhsContracting := [1]
  rhsContracting := [0]
  lhsNonContracting := [0]
  rhsNonContracting := [1]
  lhsBatch := []
  rhsBatch := []
  wf := dot_S32000x4096_S4096x1_S32000x1_1_0_0_1_n_n_wf

class Facts : Prop extends Facts₀ where

variable [Facts]
-- ==== Proof.Bits.R0Runs.lean ====
import proofs.«125930_j21131239097236_2_alg».proof.Proof.Gen.Kernel.Launch
import proofs.«125930_j21131239097236_2_alg».proof.Proof.Gen.Kernel.Skeleton
import proofs.«125930_j21131239097236_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the four gate accumulations and the cell update): what its three cases share

The grid is 4 x 8; point `t` has outer coordinate `t / 8` (the block of hidden units) and inner coordinate
`t % 8` (the block of the contraction). Everything here is stated at a PARAMETER `V`: the buffer contents
when the region is entered. -/

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether fetched there or not: where it
is not fetched its block index has not moved since the point before (windows 5 to 9 move only with the outer
coordinate), and the body leaves every input in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two conditionals, decided over the grid -/

/-- The first conditional's test (inner coordinate = 0: zero the four accumulators). -/
abbrev cond0_0 (i : grid0.Coords) : Prop := (Scalar.cmpi .ne (Scalar.extui (Scalar.cmpi .eq (BitVec.ofNat 32 (i 1).val) 0#32)) 0#32) = 1#1
/-- It holds exactly at the points with `t % 8 = 0`. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional's test (inner coordinate = 7: finish the cell update and store both outputs). -/
abbrev cond0_1 (i : grid0.Coords) : Prop := k0_cond2 i = 1#1
/-- It holds exactly at the points with `t % 8 = 7`. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle

The ten inputs are never idle. The two outputs are stored only where the second test holds; elsewhere they are
idle and their blocks are not written back. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11 : ∀ t : Fin cfg0.N, cond0_1 (grid0.coords t) → cfg0.idle 11 (grid0.coords t) = false := by decide +kernel

/-! ## The memrefs the body is called with -/

/-- One staging buffer of each output window, through which its contents are stated (the choice does not matter). -/
abbrev VO0_10 : View sig .tc .vmem S1x1024 .f32 := (Memref.whole cc0_stg10_0 : Memref sig .tc .vmem S1x1024 .f32).view
abbrev VO0_11 : View sig .tc .vmem S1x1024 .f32 := (Memref.whole cc0_stg11_0 : Memref sig .tc .vmem S1x1024 .f32).view
abbrev ms0_0 (t : Fin cfg0.N) : Memref sig .tc .vmem S1x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
/-- The four accumulators: whole scoped buffers of the kernel's own, carried from point to point. -/
abbrev scM0_0 : Memref sig .tc .vmem S1x1024 .f32 := Memref.whole cc0_scratch0
abbrev VS0_0 : View sig .tc .vmem S1x1024 .f32 := scM0_0.view
abbrev scM0_1 : Memref sig .tc .vmem S1x1024 .f32 := Memref.whole cc0_scratch1
abbrev VS0_1 : View sig .tc .vmem S1x1024 .f32 := scM0_1.view
abbrev scM0_2 : Memref sig .tc .vmem S1x1024 .f32 := Memref.whole cc0_scratch2
abbrev VS0_2 : View sig .tc .vmem S1x1024 .f32 := scM0_2.view
abbrev scM0_3 : Memref sig .tc .vmem S1x1024 .f32 := Memref.whole cc0_scratch3
abbrev VS0_3 : View sig .tc .vmem S1x1024 .f32 := scM0_3.view

/-- The scoped buffers of the core that this region never touches (the other region's staging buffers and its
    accumulator), each at some contents. -/
abbrev otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The region's invariant, conjunct by conjunct: the four accumulators each owned at some contents, the untouched
    scoped buffers, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ otherScoped0 (F := F) c) ∗ (∃ r, prngReg c r)) := by
  unfold Pipeline.ΦA; rw [scopedRest0_eq]; simp only [scM0_0, scM0_1, scM0_2, scM0_3, owns_whole]; try rfl

end Cert.Kernel.Hand

end
-- ==== Proof.Bits.R0RunA.lean ====
import proofs.«125930_j21131239097236_2_alg».proof.Proof.Bits.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (inner coordinate 0): the four accumulators, found at anything, are zeroed and then each receives its
    gate's partial product `comb_block · W_block^T`; nothing is stored into the two outputs, whose buffers are handed
    back as found. The pieces written into each accumulator (last first) are the witness; the inputs are returned
    as they were. -/
noncomputable def kernelRun0_A (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) :
    Σ' (LS0 : List (View.Piece (Elt F) S1x1024 .f32)) (LS1 : List (View.Piece (Elt F) S1x1024 .f32)) (LS2 : List (View.Piece (Elt F) S1x1024 .f32)), { LS3 : List (View.Piece (Elt F) S1x1024 .f32) //
      ∀ (xi10 : Vec F S1x1024 .f32) (xi11 : Vec F S1x1024 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare xi10
            ∗ owns (c : Thread nD τ) arg13 fullShare xi11
            ∗ (∃ d, owns (c : Thread nD τ) arg14 fullShare d)
            ∗ (∃ d, owns (c : Thread nD τ) arg15 fullShare d)
            ∗ (∃ d, owns (c : Thread nD τ) arg16 fullShare d)
            ∗ (∃ d, owns (c : Thread nD τ) arg17 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ owns (c : Thread nD τ) arg12 fullShare xi10
                ∗ owns (c : Thread nD τ) arg13 fullShare xi11
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)
                ∗ (∃ f, arg16.view.loc (c : Thread nD τ) ↦[arg16.view.set]{fullShare} arg16.view.writes (Elt F) f LS2)
                ∗ (∃ f, arg17.view.loc (c : Thread nD τ) ↦[arg17.view.set]{fullShare} arg17.view.writes (Elt F) f LS3)) -∗ K ⟨⟩))
          ⊢ wp frame (wpE (defs₀ (F := F)) Variants.none c none) E (cc0__gates_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun xi10 xi11 E K => ?run⟩
  case run =>
    simp only [cc0__gates_kernel_eq_skeleton]; unfold cc0__gates_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    isplitl [HS1]; · iexists _; iexact HS1
    isplitl [HS2]; · iexists _; iexact HS2
    iexists _; iexact HS3

end Cert.Kernel.Hand

end
-- ==== Proof.Bits.R0RunB.lean ====
import proofs.«125930_j21131239097236_2_alg».proof.Proof.Bits.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (inner coordinate 1 to 6): each accumulator, found at what the point before left (`xs·`), receives its
    gate's partial product `comb_block · W_block^T` added to it; nothing is stored into the two outputs, whose
    buffers are handed back as found. The pieces written into each accumulator (last first) are the witness; the
    inputs are returned as they were. -/
noncomputable def kernelRun0_B (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) :
    Σ' (LS0 : List (View.Piece (Elt F) S1x1024 .f32)) (LS1 : List (View.Piece (Elt F) S1x1024 .f32)) (LS2 : List (View.Piece (Elt F) S1x1024 .f32)), { LS3 : List (View.Piece (Elt F) S1x1024 .f32) //
      ∀ (xi10 : Vec F S1x1024 .f32) (xi11 : Vec F S1x1024 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare xi10
            ∗ owns (c : Thread nD τ) arg13 fullShare xi11
            ∗ owns (c : Thread nD τ) arg14 fullShare xs0
            ∗ owns (c : Thread nD τ) arg15 fullShare xs1
            ∗ owns (c : Thread nD τ) arg16 fullShare xs2
            ∗ owns (c : Thread nD τ) arg17 fullShare xs3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ owns (c : Thread nD τ) arg12 fullShare xi10
                ∗ owns (c : Thread nD τ) arg13 fullShare xi11
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)
                ∗ (∃ f, arg16.view.loc (c : Thread nD τ) ↦[arg16.view.set]{fullShare} arg16.view.writes (Elt F) f LS2)
                ∗ (∃ f, arg17.view.loc (c : Thread nD τ) ↦[arg17.view.set]{fullShare} arg17.view.writes (Elt F) f LS3)) -∗ K ⟨⟩))
          ⊢ wp frame (wpE (defs₀ (F := F)) Variants.none c none) E (cc0__gates_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun xi10 xi11 E K => ?run⟩
  case run =>
    simp only [cc0__gates_kernel_eq_skeleton]; unfold cc0__gates_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1; obtain rfl := harg16.eq_unread hfs2; obtain rfl := harg17.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    isplitl [HS1]; · iexists _; iexact HS1
    isplitl [HS2]; · iexists _; iexact HS2
    iexists _; iexact HS3

end Cert.Kernel.Hand

end
-- ==== Proof.Bits.R0RunC.lean ====
import proofs.«125930_j21131239097236_2_alg».proof.Proof.Bits.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE C (inner coordinate 7): each accumulator, found at what the point before left (`xs·`), receives its last
    partial product; then `f = logistic(acc_f + b_f)`, `i = logistic(acc_i + b_i)`, `o = logistic(acc_o + b_o)`,
    `g = tanh(acc_c + b_c)`, `c' = f * c + i * g`, `h' = o * tanh c'` are computed and `h'`, `c'` stored whole
    into the two outputs, found at anything. The pieces written into each output and accumulator (last first) are
    the witness; the inputs are returned as they were. -/
noncomputable def kernelRun0_C (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) :
    Σ' (L10 : List (View.Piece (Elt F) S1x1024 .f32)) (L11 : List (View.Piece (Elt F) S1x1024 .f32)) (LS0 : List (View.Piece (Elt F) S1x1024 .f32)) (LS1 : List (View.Piece (Elt F) S1x1024 .f32)) (LS2 : List (View.Piece (Elt F) S1x1024 .f32)), { LS3 : List (View.Piece (Elt F) S1x1024 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ (∃ d, owns (c : Thread nD τ) arg12 fullShare d)
            ∗ (∃ d, owns (c : Thread nD τ) arg13 fullShare d)
            ∗ owns (c : Thread nD τ) arg14 fullShare xs0
            ∗ owns (c : Thread nD τ) arg15 fullShare xs1
            ∗ owns (c : Thread nD τ) arg16 fullShare xs2
            ∗ owns (c : Thread nD τ) arg17 fullShare xs3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ (∃ f, arg12.view.loc (c : Thread nD τ) ↦[arg12.view.set]{fullShare} arg12.view.writes (Elt F) f L10)
                ∗ (∃ f, arg13.view.loc (c : Thread nD τ) ↦[arg13.view.set]{fullShare} arg13.view.writes (Elt F) f L11)
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)
                ∗ (∃ f, arg16.view.loc (c : Thread nD τ) ↦[arg16.view.set]{fullShare} arg16.view.writes (Elt F) f LS2)
                ∗ (∃ f, arg17.view.loc (c : Thread nD τ) ↦[arg17.view.set]{fullShare} arg17.view.writes (Elt F) f LS3)) -∗ K ⟨⟩))
          ⊢ wp frame (wpE (defs₀ (F := F)) Variants.none c none) E (cc0__gates_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc0__gates_kernel_eq_skeleton]; unfold cc0__gates_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0; obtain rfl := harg15.eq_unread hfs1; obtain rfl := harg16.eq_unread hfs2; obtain rfl := harg17.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]; · iexists _; iexact HS0
    isplitl [HS1]; · iexists _; iexact HS1
    isplitl [HS2]; · iexists _; iexact HS2
    iexists _; iexact HS3

end Cert.Kernel.Hand

end
-- ==== Proof.Bits.R0Frame.lean ====
import proofs.«125930_j21131239097236_2_alg».proof.Proof.Bits.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each case leaves, the contents point by point, the proof data and the body obligation -/

section Region0

variable (V : (c : Dev nD) → (b : Ref sig .tc) → Buf (Elt F) ((c : Thread nD τ).loc b))

/-! ## What each case leaves in the accumulators and the outputs

Every store of the body is of a whole `1 x 1024` buffer, so the pieces written into a buffer cover it, and what the
buffer then holds is the pieces read back over anything. -/

theorem scover0_A_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).1 S1x1024.size (by sl_kernel_rfl) y

/-- What case A leaves in accumulator 0. -/
def sout0_A_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) : Vec F S1x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).1)

theorem scover0_A_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.1 S1x1024.size (by sl_kernel_rfl) y

/-- What case A leaves in accumulator 1. -/
def sout0_A_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) : Vec F S1x1024 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.1)

theorem scover0_A_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.1 S1x1024.size (by sl_kernel_rfl) y

/-- What case A leaves in accumulator 2. -/
def sout0_A_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) : Vec F S1x1024 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.1)

theorem scover0_A_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.1 S1x1024.size (by sl_kernel_rfl) y

/-- What case A leaves in accumulator 3. -/
def sout0_A_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) : Vec F S1x1024 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.1)

theorem scover0_B_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).1 S1x1024.size (by sl_kernel_rfl) y

/-- What case B leaves in accumulator 0. -/
def sout0_B_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).1)

theorem scover0_B_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.1 S1x1024.size (by sl_kernel_rfl) y

/-- What case B leaves in accumulator 1. -/
def sout0_B_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.1)

theorem scover0_B_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.1 S1x1024.size (by sl_kernel_rfl) y

/-- What case B leaves in accumulator 2. -/
def sout0_B_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.1)

theorem scover0_B_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.1 S1x1024.size (by sl_kernel_rfl) y

/-- What case B leaves in accumulator 3. -/
def sout0_B_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.1)

theorem scover0_C_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.1 S1x1024.size (by sl_kernel_rfl) y

/-- What case C leaves in accumulator 0. -/
def sout0_C_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.1)

theorem scover0_C_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.1 S1x1024.size (by sl_kernel_rfl) y

/-- What case C leaves in accumulator 1. -/
def sout0_C_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.1)

theorem scover0_C_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.1 S1x1024.size (by sl_kernel_rfl) y

/-- What case C leaves in accumulator 2. -/
def sout0_C_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.1)

theorem scover0_C_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.2.1 S1x1024.size (by sl_kernel_rfl) y

/-- What case C leaves in accumulator 3. -/
def sout0_C_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.2.1)

theorem cover0_C_10 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).1 S1x1024.size (by sl_kernel_rfl) y

/-- What case C leaves in output window 10's staging buffer (the new hidden state's block). -/
def out0_C_10 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).1)

theorem cover0_C_11 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.1 S1x1024.size (by sl_kernel_rfl) y

/-- What case C leaves in output window 11's staging buffer (the new cell state's block). -/
def out0_C_11 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.1)

/-! ## What the buffers hold after each point -/

/-- The two outputs' staging buffers and the four accumulators after a point's body. -/
structure Outs0 (F : FTy → Type) where
  o10 : Vec F S1x1024 .f32
  o11 : Vec F S1x1024 .f32
  s0 : Vec F S1x1024 .f32
  s1 : Vec F S1x1024 .f32
  s2 : Vec F S1x1024 .f32
  s3 : Vec F S1x1024 .f32

/-- A placeholder for an output's buffer at a point that stores nothing into it: the window is idle there and its
    block is not written back, so nothing consults it. -/
def idleOut0 : Vec F S1x1024 .f32 := VO0_10.read (Elt F) VO0_10.junk

/-- After a point of case A: the accumulators hold the first partial products. -/
def outsA0 (c : Dev nD) (t : Fin cfg0.N) (h0 : t.val % 8 = 0) (h1 : ¬t.val % 8 = 7) : Outs0 F :=
  { o10 := idleOut0, o11 := idleOut0,
    s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
    s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
    s2 := sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
    s3 := sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) }

/-- After a point of case B, from what the point before left (`p`): one more partial product in each accumulator. -/
def outsB0 (c : Dev nD) (t : Fin cfg0.N) (h0 : ¬t.val % 8 = 0) (h1 : ¬t.val % 8 = 7) (p : Outs0 F) : Outs0 F :=
  { o10 := idleOut0, o11 := idleOut0,
    s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.s0 p.s1 p.s2 p.s3,
    s1 := sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.s0 p.s1 p.s2 p.s3,
    s2 := sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.s0 p.s1 p.s2 p.s3,
    s3 := sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.s0 p.s1 p.s2 p.s3 }

/-- After a point of case C, from what the point before left (`p`): the last partial products, and the new hidden
    and cell blocks in the outputs. -/
def outsC0 (c : Dev nD) (t : Fin cfg0.N) (h0 : ¬t.val % 8 = 0) (h1 : t.val % 8 = 7) (p : Outs0 F) : Outs0 F :=
  { o10 := out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.s0 p.s1 p.s2 p.s3,
    o11 := out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.s0 p.s1 p.s2 p.s3,
    s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.s0 p.s1 p.s2 p.s3,
    s1 := sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.s0 p.s1 p.s2 p.s3,
    s2 := sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.s0 p.s1 p.s2 p.s3,
    s3 := sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.s0 p.s1 p.s2 p.s3 }

/-- THE ACCUMULATION, by recursion on the point: the case the point's inner coordinate selects, over what the
    point before left. The inner coordinate cannot be 0 and 7 at once. -/
def outsAt0 (c : Dev nD) : (n : ℕ) → n < cfg0.N → Outs0 F
  | 0, hn => outsA0 V c ⟨0, hn⟩ (Nat.zero_mod _) (fun h => by (try dsimp only at h); omega)
  | n + 1, hn =>
    if h0 : (n + 1) % 8 = 0 then
      if h1 : (n + 1) % 8 = 7 then False.elim (by omega)
      else outsA0 V c ⟨n + 1, hn⟩ h0 h1
    else
      if h1 : (n + 1) % 8 = 7 then outsC0 V c ⟨n + 1, hn⟩ h0 h1 (outsAt0 c n (Nat.lt_of_succ_lt hn))
      else outsB0 V c ⟨n + 1, hn⟩ h0 h1 (outsAt0 c n (Nat.lt_of_succ_lt hn))

theorem outsAt0_A (c : Dev nD) (t : Fin cfg0.N) (h0 : t.val % 8 = 0) (h1 : ¬t.val % 8 = 7) :
    outsAt0 V c t.val t.isLt = outsA0 V c t h0 h1 := by
  obtain ⟨n, hn⟩ := t
  cases n with
  | zero => rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = outsB0 V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt = outsC0 V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The region invariant -/

/-- Before position `n`: at the first point the class's invariant (every accumulator at anything); afterwards the
    four accumulators at what the point before left, the untouched scoped buffers, the generator register. -/
def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).s0 ∗ owns (c : Thread nD τ) scM0_1 fullShare (outsAt0 V c n hn).s1 ∗ owns (c : Thread nD τ) scM0_2 fullShare (outsAt0 V c n hn).s2 ∗ owns (c : Thread nD τ) scM0_3 fullShare (outsAt0 V c n hn).s3 ∗ otherScoped0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (outsAt0 V c n hn).s0 ∗ owns (c : Thread nD τ) scM0_1 fullShare (outsAt0 V c n hn).s1 ∗ owns (c : Thread nD τ) scM0_2 fullShare (outsAt0 V c n hn).s2 ∗ owns (c : Thread nD τ) scM0_3 fullShare (outsAt0 V c n hn).s3 ∗ otherScoped0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (outsAt0 V c (n - 1) (by omega)).s0 ∗ owns (c : Thread nD τ) scM0_1 fullShare (outsAt0 V c (n - 1) (by omega)).s1 ∗ owns (c : Thread nD τ) scM0_2 fullShare (outsAt0 V c (n - 1) (by omega)).s2 ∗ owns (c : Thread nD τ) scM0_3 fullShare (outsAt0 V c (n - 1) (by omega)).s3 ∗ otherScoped0 (F := F) c) ∗ (∃ r, prngReg c r)) := by
  cases n with
  | zero => exact absurd rfl hz
  | succ n => rfl

/-! ## The pipeline's proof data -/

/-- The proof data of region 0 on core `c`: the arrays as the region finds them; after the body at point `t`
    each input's buffer at its block and the outputs' at `outsAt0`'s components; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outsAt0 V c t.val t.isLt).o10
    | ⟨11, _⟩ => (outsAt0 V c t.val t.isLt).o11
  Φ t := PhiS0 V c t.val (Nat.le_of_lt_succ t.isLt)
  q _ := fullShare
  owed _ := 0

theorem dat0_q (c : Dev nD) (w : Fin cfg0.W) : (dat0 V c).q w = fullShare := rfl
theorem dat0_owed (c : Dev nD) (t : Fin (cfg0.N + 1)) : (dat0 V c).owed t = 0 := rfl

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outsAt0 V c t.val t.isLt).o10 := by dsimp only [dat0]
theorem after0_11 (c : Dev nD) (t : Fin cfg0.N) : (dat0 V c).after 11 t = (outsAt0 V c t.val t.isLt).o11 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t)

set_option maxHeartbeats 4800000 in
/-- At a point of case A: the accumulators come in at anything (the class's invariant at the first point, what the point before left afterwards) and go out at this point's first partial products; the outputs are idle and handed back. -/
theorem sound_body0_A (c : Dev nD) (t : Fin cfg0.N) (h0 : t.val % 8 = 0) (h1 : ¬t.val % 8 = 7) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  rw [show (dat0 V c).leavesExact 9 t = owns (c : Thread nD τ) (ms0_9 t) fullShare ((dat0 V c).after 9 t) from by
    unfold Dat.leavesExact; rw [liveAt0_9 t], after0_9]
  rw [Dat.leavesExact_idle (dat0 V c) 10 t (idleAt0_10 t (fun h => h1 ((hcond0_1 t).mp h))) (noFlush0_10 t (fun h => h1 ((hcond0_1 t).mp h)))]
  rw [Dat.leavesExact_idle (dat0 V c) 11 t (idleAt0_11 t (fun h => h1 ((hcond0_1 t).mp h))) (noFlush0_11 t (fun h => h1 ((hcond0_1 t).mp h)))]
  rw [outsAt0_A V c t h0 h1]
  unfold outsA0 sout0_A_0 sout0_A_1 sout0_A_2 sout0_A_3; (try dsimp only)
  by_cases hz : t.val = 0
  · rw [PhiS0_castSucc V c t, PhiS0_zero V c _ _ hz, PhiA0_eq]
    iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    iintro ⟨H0, H1, H2, H3, H4, H5, H6, H7, H8, H9, H10, H11, ⟨%es0, HS0⟩, ⟨%es1, HS1⟩, ⟨%es2, HS2⟩, ⟨%es3, HS3⟩⟩
    isplitl [HS0 HS1 HS2 HS3 HR Hg]
    · isplitl [HS0 HS1 HS2 HS3 HR]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11
  · rw [PhiS0_castSucc V c t, PhiS0_pos V c _ _ hz]
    iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexists _; iexact HS0
    isplitl [HS1]; · iexists _; iexact HS1
    isplitl [HS2]; · iexists _; iexact HS2
    isplitl [HS3]; · iexists _; iexact HS3
    iintro ⟨H0, H1, H2, H3, H4, H5, H6, H7, H8, H9, H10, H11, ⟨%es0, HS0⟩, ⟨%es1, HS1⟩, ⟨%es2, HS2⟩, ⟨%es3, HS3⟩⟩
    isplitl [HS0 HS1 HS2 HS3 HR Hg]
    · isplitl [HS0 HS1 HS2 HS3 HR]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11

set_option maxHeartbeats 4800000 in
/-- At a point of case B: the accumulators come in at what the point before left and go out one partial product further; the outputs are idle and handed back. -/
theorem sound_body0_B (c : Dev nD) (t : Fin cfg0.N) (h0 : ¬t.val % 8 = 0) (h1 : ¬t.val % 8 = 7) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  rw [show (dat0 V c).leavesExact 9 t = owns (c : Thread nD τ) (ms0_9 t) fullShare ((dat0 V c).after 9 t) from by
    unfold Dat.leavesExact; rw [liveAt0_9 t], after0_9]
  rw [Dat.leavesExact_idle (dat0 V c) 10 t (idleAt0_10 t (fun h => h1 ((hcond0_1 t).mp h))) (noFlush0_10 t (fun h => h1 ((hcond0_1 t).mp h)))]
  rw [Dat.leavesExact_idle (dat0 V c) 11 t (idleAt0_11 t (fun h => h1 ((hcond0_1 t).mp h))) (noFlush0_11 t (fun h => h1 ((hcond0_1 t).mp h)))]
  rw [outsAt0_B V c t h0 h1]
  unfold outsB0 sout0_B_0 sout0_B_1 sout0_B_2 sout0_B_3; (try dsimp only)
  have hz : t.val ≠ 0 := fun e => h0 (by omega)
  rw [PhiS0_castSucc V c t, PhiS0_pos V c _ _ hz]
  iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _ _ _).2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  iintro ⟨H0, H1, H2, H3, H4, H5, H6, H7, H8, H9, H10, H11, ⟨%es0, HS0⟩, ⟨%es1, HS1⟩, ⟨%es2, HS2⟩, ⟨%es3, HS3⟩⟩
  isplitl [HS0 HS1 HS2 HS3 HR Hg]
  · isplitl [HS0 HS1 HS2 HS3 HR]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iexists _; iexact H11

set_option maxHeartbeats 4800000 in
/-- At a point of case C: the accumulators come in at what the point before left; the outputs go out at the new hidden and cell blocks. -/
theorem sound_body0_C (c : Dev nD) (t : Fin cfg0.N) (h0 : ¬t.val % 8 = 0) (h1 : t.val % 8 = 7) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  rw [show (dat0 V c).leavesExact 9 t = owns (c : Thread nD τ) (ms0_9 t) fullShare ((dat0 V c).after 9 t) from by
    unfold Dat.leavesExact; rw [liveAt0_9 t], after0_9]
  rw [show (dat0 V c).leavesExact 10 t = owns (c : Thread nD τ) (ms0_10 t) fullShare ((dat0 V c).after 10 t) from by
    unfold Dat.leavesExact; rw [liveAt0_10 t ((hcond0_1 t).mpr h1)], after0_10]
  rw [show (dat0 V c).leavesExact 11 t = owns (c : Thread nD τ) (ms0_11 t) fullShare ((dat0 V c).after 11 t) from by
    unfold Dat.leavesExact; rw [liveAt0_11 t ((hcond0_1 t).mpr h1)], after0_11]
  rw [outsAt0_C V c t h0 h1]
  unfold outsC0 out0_C_10 out0_C_11 sout0_C_0 sout0_C_1 sout0_C_2 sout0_C_3; (try dsimp only)
  have hz : t.val ≠ 0 := fun e => h0 (by omega)
  rw [PhiS0_castSucc V c t, PhiS0_pos V c _ _ hz]
  iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_C c (grid0.coords t) _ _ _ _ _ _ _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _ _ _).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  iintro ⟨H0, H1, H2, H3, H4, H5, H6, H7, H8, H9, ⟨%e10, H10⟩, ⟨%e11, H11⟩, ⟨%es0, HS0⟩, ⟨%es1, HS1⟩, ⟨%es2, HS2⟩, ⟨%es3, HS3⟩⟩
  isplitl [HS0 HS1 HS2 HS3 HR Hg]
  · isplitl [HS0 HS1 HS2 HS3 HR]
    · isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H11
  ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _)

/-- The body at any point: the inner coordinate selects the case. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 8 = 0
  · by_cases h1 : t.val % 8 = 7
    · exfalso; omega
    · exact sound_body0_A V c t h0 h1
  · by_cases h1 : t.val % 8 = 7
    · exact sound_body0_C V c t h0 h1
    · exact sound_body0_B V c t h0 h1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HS3, HR⟩, Hg⟩
  isplitl [HS0 HS1 HS2 HS3 HR]
  · isplitl [HS0]; · iexists _; iexact HS0
    isplitl [HS1]; · iexists _; iexact HS1
    isplitl [HS2]; · iexists _; iexact HS2
    isplitl [HS3]; · iexists _; iexact HS3
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Region0

end Cert.Kernel.Hand

end
-- ==== Proof.Bits.R1Runs.lean ====
/-
  The output projection (the second kernel region), what its per-point proofs share. The grid is 10 × 4: point t
  has row block t / 4 and contraction block t % 4. The accumulator (one scratch row of 3200 entries) is cleared where
  t % 4 = 0, the product of the point's 1 × 1024 block of the hidden state with the transposed 3200 × 1024 block of
  the weights is added at every point, and where t % 4 = 3 the accumulator plus the bias block is stored into the
  output block, which is idle (not stored, not written back) at the other points.
-/
import proofs.«125930_j21131239097236_2_alg».proof.Proof.Gen.Kernel.Launch
import proofs.«125930_j21131239097236_2_alg».proof.Proof.Gen.Kernel.Skeleton
import proofs.«125930_j21131239097236_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks of the arrays as the region finds them -/

/-- Window `w`'s block at point `t`, read off its array at the region's entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden-state window's staging buffer holds its block at every point (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window's staging buffer holds its block at every point: fetched where the row block changes, and
    between two fetches the block index does not move. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first contraction block": the body clears the accumulator. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last contraction block": the body adds the bias and stores the output block. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last contraction block the output block is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- On the last contraction block it is live. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S1x3200 .f32 := (Memref.whole cc1_stg3_0 : Memref sig .tc .vmem S1x3200 .f32).view
abbrev ms1_0 (t : Fin cfg1.N) : Memref sig .tc .vmem S1x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3200x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x3200 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x3200 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1x3200 .f32 := Memref.whole cc1_scratch0
abbrev VS1_0 : View sig .tc .vmem S1x3200 .f32 := scM1_0.view

/-- The class invariant with the accumulator as a memref owned at some contents. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.Kernel.Hand

end
-- ==== Proof.Bits.R1RunB.lean ====
/-
  The output projection's body at a point strictly inside a row block's contraction (neither the first nor the last
  block): the accumulator is read, the block product added, the sum stored back; the output block is not touched.
-/
import proofs.«125930_j21131239097236_2_alg».proof.Proof.Bits.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body between the first and the last contraction block, on whole memrefs: the three inputs at their contents and
    the untouched output block are handed back as found, the accumulator ends with the stores' pieces written. -/
noncomputable def kernelRun1_B (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : ¬cond1_1 i)
    (x0 : Vec F S1x1024 .f32) (x1 : Vec F S3200x1024 .f32) (x2 : Vec F S1x3200 .f32) (xs0 : Vec F S1x3200 .f32) :
    Σ' (L3 : List (View.Piece (Elt F) S1x3200 .f32)), { LS0 : List (View.Piece (Elt F) S1x3200 .f32) //
      ∀ (xi3 : Vec F S1x3200 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__outproj_kernel i arg2 harg2 arg3 harg3 arg4 harg4 arg5 harg5 arg6 harg6) K } := by
  refine ⟨[], ?_, fun xi3 E K => ?run⟩
  case run =>
    simp only [cc1__outproj_kernel_eq_skeleton]; unfold cc1__outproj_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Bits.R1RunA.lean ====
/-
  The output projection's body at the first contraction block of a row block: the accumulator, whatever it held, is
  overwritten with zeros, then read, the block product added, the sum stored back; the output block is not touched.
-/
import proofs.«125930_j21131239097236_2_alg».proof.Proof.Bits.R1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a first contraction block, on whole memrefs: the accumulator may hold anything when the body starts. -/
noncomputable def kernelRun1_A (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : cond1_0 i) (hc1 : ¬cond1_1 i)
    (x0 : Vec F S1x1024 .f32) (x1 : Vec F S3200x1024 .f32) (x2 : Vec F S1x3200 .f32) :
    Σ' (L3 : List (View.Piece (Elt F) S1x3200 .f32)), { LS0 : List (View.Piece (Elt F) S1x3200 .f32) //
      ∀ (xi3 : Vec F S1x3200 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__outproj_kernel i arg2 harg2 arg3 harg3 arg4 harg4 arg5 harg5 arg6 harg6) K } := by
  refine ⟨[], ?_, fun xi3 E K => ?run⟩
  case run =>
    simp only [cc1__outproj_kernel_eq_skeleton]; unfold cc1__outproj_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Bits.R1RunC.lean ====
/-
  The output projection's body at the last contraction block of a row block: the accumulator is read, the block product
  added, the sum stored back; then the accumulator plus the bias block is stored over the whole output block.
-/
import proofs.«125930_j21131239097236_2_alg».proof.Proof.Bits.R1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a last contraction block, on whole memrefs: the output block may hold anything when the body starts and
    ends with the stores' pieces written, as does the accumulator. -/
noncomputable def kernelRun1_C (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : cond1_1 i)
    (x0 : Vec F S1x1024 .f32) (x1 : Vec F S3200x1024 .f32) (x2 : Vec F S1x3200 .f32) (xs0 : Vec F S1x3200 .f32) :
    Σ' (L3 : List (View.Piece (Elt F) S1x3200 .f32)), { LS0 : List (View.Piece (Elt F) S1x3200 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__outproj_kernel i arg2 harg2 arg3 harg3 arg4 harg4 arg5 harg5 arg6 harg6) K } := by
  refine ⟨?_, ?_, fun E K => ?run⟩
  case run =>
    simp only [cc1__outproj_kernel_eq_skeleton]; unfold cc1__outproj_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.Bits.R1Frame.lean ====
/-
  The output projection, point by point: what each of the body's three cases leaves in the accumulator and in the
  output block, the accumulation over the grid's points, the region's invariant with the accumulator at what the point
  before left, the proof data and the body obligation at every point.
-/
import proofs.«125930_j21131239097236_2_alg».proof.Proof.Bits.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover1_A_0 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : cond1_0 i) (hc1 : ¬cond1_1 i)
    (x0 : Vec F S1x1024 .f32) (x1 : Vec F S3200x1024 .f32) (x2 : Vec F S1x3200 .f32) (y : S1x3200.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1x3200.size (by sl_kernel_rfl) y

/-- The accumulator after a first contraction block. -/
def sout1_A_0 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : cond1_0 i) (hc1 : ¬cond1_1 i)
    (x0 : Vec F S1x1024 .f32) (x1 : Vec F S3200x1024 .f32) (x2 : Vec F S1x3200 .f32) : Vec F S1x3200 .f32 :=
  VS1_0.read (Elt F) (VS1_0.writes (Elt F) VS1_0.junk (kernelRun1_A c i arg2 harg2 arg3 harg3 arg4 harg4 arg5 harg5 arg6 harg6 hc0 hc1 x0 x1 x2).2.1)

theorem scover1_B_0 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : ¬cond1_1 i)
    (x0 : Vec F S1x1024 .f32) (x1 : Vec F S3200x1024 .f32) (x2 : Vec F S1x3200 .f32) (xs0 : Vec F S1x3200 .f32) (y : S1x3200.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1x3200.size (by sl_kernel_rfl) y

/-- The accumulator after an inner contraction block, over what the point before left in it. -/
def sout1_B_0 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : ¬cond1_1 i)
    (x0 : Vec F S1x1024 .f32) (x1 : Vec F S3200x1024 .f32) (x2 : Vec F S1x3200 .f32) (xs0 : Vec F S1x3200 .f32) : Vec F S1x3200 .f32 :=
  VS1_0.read (Elt F) (VS1_0.writes (Elt F) VS1_0.junk (kernelRun1_B c i arg2 harg2 arg3 harg3 arg4 harg4 arg5 harg5 arg6 harg6 hc0 hc1 x0 x1 x2 xs0).2.1)

theorem cover1_C_3 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : cond1_1 i)
    (x0 : Vec F S1x1024 .f32) (x1 : Vec F S3200x1024 .f32) (x2 : Vec F S1x3200 .f32) (xs0 : Vec F S1x3200 .f32) (y : S1x3200.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1x3200.size (by sl_kernel_rfl) y

/-- The output block after a last contraction block. -/
def out1_C_3 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : cond1_1 i)
    (x0 : Vec F S1x1024 .f32) (x1 : Vec F S3200x1024 .f32) (x2 : Vec F S1x3200 .f32) (xs0 : Vec F S1x3200 .f32) : Vec F S1x3200 .f32 :=
  VO1_3.read (Elt F) (VO1_3.writes (Elt F) VO1_3.junk (kernelRun1_C c i arg2 harg2 arg3 harg3 arg4 harg4 arg5 harg5 arg6 harg6 hc0 hc1 x0 x1 x2 xs0).1)

theorem scover1_C_0 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : cond1_1 i)
    (x0 : Vec F S1x1024 .f32) (x1 : Vec F S3200x1024 .f32) (x2 : Vec F S1x3200 .f32) (xs0 : Vec F S1x3200 .f32) (y : S1x3200.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1x3200.size (by sl_kernel_rfl) y

/-- The accumulator after a last contraction block. -/
def sout1_C_0 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : cond1_1 i)
    (x0 : Vec F S1x1024 .f32) (x1 : Vec F S3200x1024 .f32) (x2 : Vec F S1x3200 .f32) (xs0 : Vec F S1x3200 .f32) : Vec F S1x3200 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## The accumulation over the points -/

/-- Where the output block is idle nothing reads what this component says: a fixed placeholder. -/
def idleOut1 : Vec F S1x3200 .f32 := VO1_3.read (Elt F) VO1_3.junk

/-- A first contraction block is not a last one. -/
theorem nlast_of_first (t : Fin cfg1.N) (h0 : t.val % 4 = 0) : ¬cond1_1 (grid1.coords t) :=
  fun h => by have h3 := (hcond1_1 t).mp h; omega

/-- What the output block's buffer and the accumulator hold after the body at position `n`: the case the position's
    residue mod 4 selects, run on the point's blocks, the accumulator read at what position `n - 1` left. -/
def outsAt1 (c : Dev nD) : (n : ℕ) → n < cfg1.N → Vec F S1x3200 .f32 × Vec F S1x3200 .f32
  | 0, hn => have h0 : (⟨0, hn⟩ : Fin cfg1.N).val % 4 = 0 := Nat.zero_mod _
    (idleOut1, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr h0) (nlast_of_first ⟨0, hn⟩ h0) (iblk1 V c 0 ⟨0, hn⟩) (iblk1 V c 1 ⟨0, hn⟩) (iblk1 V c 2 ⟨0, hn⟩))
  | n + 1, hn =>
    if h0 : (⟨n + 1, hn⟩ : Fin cfg1.N).val % 4 = 0 then
      (idleOut1, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (nlast_of_first ⟨n + 1, hn⟩ h0) (iblk1 V c 0 ⟨n + 1, hn⟩) (iblk1 V c 1 ⟨n + 1, hn⟩) (iblk1 V c 2 ⟨n + 1, hn⟩))
    else if h1 : (⟨n + 1, hn⟩ : Fin cfg1.N).val % 4 = 3 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
    else
      (idleOut1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) :
    outsAt1 V c t.val t.isLt = (idleOut1, sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (nlast_of_first t h0) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (idleOut1, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region's invariant -/

/-- Before the first point the accumulator holds anything; before a later position it holds what the point before left. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2))
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2))
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body each input's buffer at its block, the output's at the
    accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]

set_option maxHeartbeats 4800000 in
/-- The body at any point: the inputs' buffers hold their blocks; the residue of the point mod 4 says which case it
    is in; the invariant hands the body the accumulator (at what the point before left, or at anything before a first
    block) and takes it back at this point's contents; an idle output block goes back untouched; nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, leaves1_0, leaves1_1, leaves1_2]
  rw [show (dat1 V c).owesAt () t.succ = (dat1 V c).owesAt () t.castSucc from rfl]
  rw [show (dat1 V c).Φ t.succ = PhiS1 V c (t.val + 1) t.isLt from rfl, PhiS1_succ]
  by_cases h0 : t.val % 4 = 0
  · have hc1 : ¬cond1_1 (grid1.coords t) := nlast_of_first t h0
    rw [Dat.leavesExact_idle (dat1 V c) 3 t (idleAt1_3 t hc1) (noFlush1_3 t hc1)]
    rw [outsAt1_A V c t h0]
    unfold sout1_A_0; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) hc1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) hc1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · have hc0 : ¬cond1_0 (grid1.coords t) := fun h => h0 ((hcond1_0 t).mp h)
      have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [outsAt1_C V c t h0 h1]
      unfold out1_C_3 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_C c (grid1.coords t) _ _ _ _ _ _ _ _ _ _ hc0 hc1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 3 t (idleAt1_3 t hc1) (noFlush1_3 t hc1)]
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ hc0 hc1 (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The body obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: what the accumulator holds is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 40 := N_1; omega), PhiA1_eq]
  iintro ⟨⟨HS0, HR⟩, Hg⟩
  isplitl [HS0 HR]
  · isplitl [HS0]
    · iexists _; iexact HS0
    iexact HR
  iexact Hg

end Cert.Kernel.Hand

end
-- ==== Proof.Bits.KRun.lean ====
/-
  The run of the whole program: the host lines before the gates region (joining x and h, the four biases as rows), the
  gates region, the host line between the regions (the output bias as a row), the projection region, and the host
  log-softmax. Between two items every unscoped buffer is held at a named valuation: a host stretch's operations
  applied to the one before, or a region's arrays at what its pipeline leaves and everything else as entered. Every
  weakly fair execution terminates with every unscoped buffer at the last valuation; each argument's buffer is then
  read back to the launch memory, since no host line writes an argument and every region only reads them.
-/
import proofs.«125930_j21131239097236_2_alg».proof.Proof.Bits.R0Frame
import proofs.«125930_j21131239097236_2_alg».proof.Proof.Bits.R1Frame
import proofs.«125930_j21131239097236_2_alg».proof.Proof.Gen.Kernel.Regions
import Idealize.ShloMosaic.Lib.Pipeline.Frame
import Idealize.ShloMosaic.Lib.Pipeline.Regions
import Idealize.ShloMosaic.Lib.Pipeline.FrameSuffix
import Idealize.ShloMosaic.Lib.Pipeline.Kit
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents between the items of the program -/

/-- At launch. -/
abbrev W0 : Dev nD → Valuation τ sig (Elt F) := fun c b => m ((c : Dev nD), b)
/-- After the first host stretch: what the gates region finds. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the gates region: its arrays at what its pipeline leaves, the rest as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host line between the regions: what the projection region finds. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the projection region. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host log-softmax: the contents every execution ends with. -/
abbrev W5 : Dev nD → Valuation τ sig (Elt F) := fun c => StableHlo.after hostOps2 (W4 m c)

/-! ## Every argument ends as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := (W2_arr m c 9).trans (((dat0 (V1 m) c).arrAt_in 9 rfl _).trans (A_eq0 (V1 m) c 9))
    _ = W0 m c (Proc.devRef .tc main_arg2) := StableHlo.after_of_writes_sub hostOps0 _ hostOps0_writes (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := (W2_arr m c 1).trans (((dat0 (V1 m) c).arrAt_in 1 rfl _).trans (A_eq0 (V1 m) c 1))
    _ = W0 m c (Proc.devRef .tc main_arg3) := StableHlo.after_of_writes_sub hostOps0 _ hostOps0_writes (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := (W2_arr m c 2).trans (((dat0 (V1 m) c).arrAt_in 2 rfl _).trans (A_eq0 (V1 m) c 2))
    _ = W0 m c (Proc.devRef .tc main_arg5) := StableHlo.after_of_writes_sub hostOps0 _ hostOps0_writes (by decide)
    _ = m ((c : Thread nD τ).loc main_arg5) := rfl

theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

theorem W5_main_arg7 (c : Dev nD) : W5 m c (Proc.devRef .tc main_arg7) = m ((c : Thread nD τ).loc main_arg7) :=
  calc W5 m c (Proc.devRef .tc main_arg7)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := (W2_arr m c 3).trans (((dat0 (V1 m) c).arrAt_in 3 rfl _).trans (A_eq0 (V1 m) c 3))
    _ = W0 m c (Proc.devRef .tc main_arg7) := StableHlo.after_of_writes_sub hostOps0 _ hostOps0_writes (by decide)
    _ = m ((c : Thread nD τ).loc main_arg7) := rfl

theorem W5_main_arg8 (c : Dev nD) : W5 m c (Proc.devRef .tc main_arg8) = m ((c : Thread nD τ).loc main_arg8) :=
  calc W5 m c (Proc.devRef .tc main_arg8)
    _ = W4 m c (Proc.devRef .tc main_arg8) := StableHlo.after_of_writes_sub hostOps2 _ hostOps2_writes (by decide)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

theorem W5_main_arg9 (c : Dev nD) : W5 m c (Proc.devRef .tc main_arg9) = m ((c : Thread nD τ).loc main_arg9) :=
  calc W5 m c (Proc.devRef .tc main_arg9)
    _ = W4 m c (Proc.devRef .tc main_arg9) := StableHlo.after_of_writes_sub hostOps2 _ hostOps2_writes (by decide)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := (W2_arr m c 4).trans (((dat0 (V1 m) c).arrAt_in 4 rfl _).trans (A_eq0 (V1 m) c 4))
    _ = W0 m c (Proc.devRef .tc main_arg9) := StableHlo.after_of_writes_sub hostOps0 _ hostOps0_writes (by decide)
    _ = m ((c : Thread nD τ).loc main_arg9) := rfl

theorem W5_main_arg10 (c : Dev nD) : W5 m c (Proc.devRef .tc main_arg10) = m ((c : Thread nD τ).loc main_arg10) :=
  calc W5 m c (Proc.devRef .tc main_arg10)
    _ = W4 m c (Proc.devRef .tc main_arg10) := StableHlo.after_of_writes_sub hostOps2 _ hostOps2_writes (by decide)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl

theorem W5_main_arg11 (c : Dev nD) : W5 m c (Proc.devRef .tc main_arg11) = m ((c : Thread nD τ).loc main_arg11) :=
  calc W5 m c (Proc.devRef .tc main_arg11)
    _ = W4 m c (Proc.devRef .tc main_arg11) := StableHlo.after_of_writes_sub hostOps2 _ hostOps2_writes (by decide)
    _ = W3 m c (Proc.devRef .tc main_arg11) := (W4_arr m c 1).trans (((dat1 (V3 m) c).arrAt_in 1 rfl _).trans (A_eq1 (V3 m) c 1))
    _ = W2 m c (Proc.devRef .tc main_arg11) := StableHlo.after_of_writes_sub hostOps1 _ hostOps1_writes (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl

theorem W5_main_arg12 (c : Dev nD) : W5 m c (Proc.devRef .tc main_arg12) = m ((c : Thread nD τ).loc main_arg12) :=
  calc W5 m c (Proc.devRef .tc main_arg12)
    _ = W4 m c (Proc.devRef .tc main_arg12) := StableHlo.after_of_writes_sub hostOps2 _ hostOps2_writes (by decide)
    _ = W3 m c (Proc.devRef .tc main_arg12) := W4_of_ne m c main_arg12 (by decide)
    _ = W2 m c (Proc.devRef .tc main_arg12) := StableHlo.after_of_writes_sub hostOps1 _ hostOps1_writes (by decide)
    _ = W1 m c (Proc.devRef .tc main_arg12) := W2_of_ne m c main_arg12 (by decide)
    _ = W0 m c (Proc.devRef .tc main_arg12) := StableHlo.after_of_writes_sub hostOps0 _ hostOps0_writes (by decide)
    _ = m ((c : Thread nD τ).loc main_arg12) := rfl

/-! ## The proof data family and what rides beside the buffers -/

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered with every unscoped buffer at the contents before it, left with the
    region's arrays at what the pipeline leaves and every other buffer as entered; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the
    region's arrays at what the pipeline leaves and every other buffer as entered; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- From any memory with zero counters, every weakly fair execution of the program terminates, nothing faulting, with
    every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c =>
      (show iprop(StableHlo.held (c : Thread nD τ) (Pipeline.ucRefs τ sig) (W5 m c) ∗ R c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c),
     (h c _ (mem_uc main_arg7 (by decide))).trans (W5_main_arg7 m c),
     (h c _ (mem_uc main_arg8 (by decide))).trans (W5_main_arg8 m c),
     (h c _ (mem_uc main_arg9 (by decide))).trans (W5_main_arg9 m c),
     (h c _ (mem_uc main_arg10 (by decide))).trans (W5_main_arg10 m c),
     (h c _ (mem_uc main_arg11 (by decide))).trans (W5_main_arg11 m c),
     (h c _ (mem_uc main_arg12 (by decide))).trans (W5_main_arg12 m c)⟩)
    (run_all m ρ)

end Cert.Kernel.Hand

end
-- ==== Proof.R0Runs.lean ====
import proofs.«125930_j21131239097236_2_alg».proof.Proof.Gen.KernelIdeal.Launch
import proofs.«125930_j21131239097236_2_alg».proof.Proof.Gen.KernelIdeal.Skeleton
import proofs.«125930_j21131239097236_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the four gate accumulations and the cell update): what its three cases share

The grid is 4 x 8; point `t` has outer coordinate `t / 8` (the block of hidden units) and inner coordinate
`t % 8` (the block of the contraction). Everything here is stated at a PARAMETER `V`: the buffer contents
when the region is entered. -/

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether fetched there or not: where it
is not fetched its block index has not moved since the point before (windows 5 to 9 move only with the outer
coordinate), and the body leaves every input in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two conditionals, decided over the grid -/

/-- The first conditional's test (inner coordinate = 0: zero the four accumulators). -/
abbrev cond0_0 (i : grid0.Coords) : Prop := (Scalar.cmpi .ne (Scalar.extui (Scalar.cmpi .eq (BitVec.ofNat 32 (i 1).val) 0#32)) 0#32) = 1#1
/-- It holds exactly at the points with `t % 8 = 0`. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional's test (inner coordinate = 7: finish the cell update and store both outputs). -/
abbrev cond0_1 (i : grid0.Coords) : Prop := k0_cond2 i = 1#1
/-- It holds exactly at the points with `t % 8 = 7`. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle

The ten inputs are never idle. The two outputs are stored only where the second test holds; elsewhere they are
idle and their blocks are not written back. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11 : ∀ t : Fin cfg0.N, cond0_1 (grid0.coords t) → cfg0.idle 11 (grid0.coords t) = false := by decide +kernel

/-! ## The memrefs the body is called with -/

/-- One staging buffer of each output window, through which its contents are stated (the choice does not matter). -/
abbrev VO0_10 : View sig .tc .vmem S1x1024 .f32 := (Memref.whole cc0_stg10_0 : Memref sig .tc .vmem S1x1024 .f32).view
abbrev VO0_11 : View sig .tc .vmem S1x1024 .f32 := (Memref.whole cc0_stg11_0 : Memref sig .tc .vmem S1x1024 .f32).view
abbrev ms0_0 (t : Fin cfg0.N) : Memref sig .tc .vmem S1x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
/-- The four accumulators: whole scoped buffers of the kernel's own, carried from point to point. -/
abbrev scM0_0 : Memref sig .tc .vmem S1x1024 .f32 := Memref.whole cc0_scratch0
abbrev VS0_0 : View sig .tc .vmem S1x1024 .f32 := scM0_0.view
abbrev scM0_1 : Memref sig .tc .vmem S1x1024 .f32 := Memref.whole cc0_scratch1
abbrev VS0_1 : View sig .tc .vmem S1x1024 .f32 := scM0_1.view
abbrev scM0_2 : Memref sig .tc .vmem S1x1024 .f32 := Memref.whole cc0_scratch2
abbrev VS0_2 : View sig .tc .vmem S1x1024 .f32 := scM0_2.view
abbrev scM0_3 : Memref sig .tc .vmem S1x1024 .f32 := Memref.whole cc0_scratch3
abbrev VS0_3 : View sig .tc .vmem S1x1024 .f32 := scM0_3.view

/-- The scoped buffers of the core that this region never touches (the other region's staging buffers and its
    accumulator), each at some contents. -/
abbrev otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The region's invariant, conjunct by conjunct: the four accumulators each owned at some contents, the untouched
    scoped buffers, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ otherScoped0 (F := F) c) ∗ (∃ r, prngReg c r)) := by
  unfold Pipeline.ΦA; rw [scopedRest0_eq]; simp only [scM0_0, scM0_1, scM0_2, scM0_3, owns_whole]; try rfl

end Cert.KernelIdeal.Hand

end
-- ==== Proof.R0RunA.lean ====
import proofs.«125930_j21131239097236_2_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (inner coordinate 0): the four accumulators, found at anything, are zeroed and then each receives its
    gate's partial product `comb_block · W_block^T`; nothing is stored into the two outputs, whose buffers are handed
    back as found. The pieces written into each accumulator (last first) are the witness; the inputs are returned
    as they were. -/
noncomputable def kernelRun0_A (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) :
    Σ' (LS0 : List (View.Piece (Elt F) S1x1024 .f32)) (LS1 : List (View.Piece (Elt F) S1x1024 .f32)) (LS2 : List (View.Piece (Elt F) S1x1024 .f32)), { LS3 : List (View.Piece (Elt F) S1x1024 .f32) //
      ∀ (xi10 : Vec F S1x1024 .f32) (xi11 : Vec F S1x1024 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare xi10
            ∗ owns (c : Thread nD τ) arg13 fullShare xi11
            ∗ (∃ d, owns (c : Thread nD τ) arg14 fullShare d)
            ∗ (∃ d, owns (c : Thread nD τ) arg15 fullShare d)
            ∗ (∃ d, owns (c : Thread nD τ) arg16 fullShare d)
            ∗ (∃ d, owns (c : Thread nD τ) arg17 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ owns (c : Thread nD τ) arg12 fullShare xi10
                ∗ owns (c : Thread nD τ) arg13 fullShare xi11
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)
                ∗ (∃ f, arg16.view.loc (c : Thread nD τ) ↦[arg16.view.set]{fullShare} arg16.view.writes (Elt F) f LS2)
                ∗ (∃ f, arg17.view.loc (c : Thread nD τ) ↦[arg17.view.set]{fullShare} arg17.view.writes (Elt F) f LS3)) -∗ K ⟨⟩))
          ⊢ wp frame (wpE (defs₀ (F := F)) Variants.none c none) E (cc0__gates_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun xi10 xi11 E K => ?run⟩
  case run =>
    simp only [cc0__gates_kernel_eq_skeleton]; unfold cc0__gates_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    isplitl [HS1]; · iexists _; iexact HS1
    isplitl [HS2]; · iexists _; iexact HS2
    iexists _; iexact HS3

end Cert.KernelIdeal.Hand

end
-- ==== Proof.R0RunB.lean ====
import proofs.«125930_j21131239097236_2_alg».proof.Proof.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (inner coordinate 1 to 6): each accumulator, found at what the point before left (`xs·`), receives its
    gate's partial product `comb_block · W_block^T` added to it; nothing is stored into the two outputs, whose
    buffers are handed back as found. The pieces written into each accumulator (last first) are the witness; the
    inputs are returned as they were. -/
noncomputable def kernelRun0_B (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) :
    Σ' (LS0 : List (View.Piece (Elt F) S1x1024 .f32)) (LS1 : List (View.Piece (Elt F) S1x1024 .f32)) (LS2 : List (View.Piece (Elt F) S1x1024 .f32)), { LS3 : List (View.Piece (Elt F) S1x1024 .f32) //
      ∀ (xi10 : Vec F S1x1024 .f32) (xi11 : Vec F S1x1024 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare xi10
            ∗ owns (c : Thread nD τ) arg13 fullShare xi11
            ∗ owns (c : Thread nD τ) arg14 fullShare xs0
            ∗ owns (c : Thread nD τ) arg15 fullShare xs1
            ∗ owns (c : Thread nD τ) arg16 fullShare xs2
            ∗ owns (c : Thread nD τ) arg17 fullShare xs3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ owns (c : Thread nD τ) arg12 fullShare xi10
                ∗ owns (c : Thread nD τ) arg13 fullShare xi11
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)
                ∗ (∃ f, arg16.view.loc (c : Thread nD τ) ↦[arg16.view.set]{fullShare} arg16.view.writes (Elt F) f LS2)
                ∗ (∃ f, arg17.view.loc (c : Thread nD τ) ↦[arg17.view.set]{fullShare} arg17.view.writes (Elt F) f LS3)) -∗ K ⟨⟩))
          ⊢ wp frame (wpE (defs₀ (F := F)) Variants.none c none) E (cc0__gates_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun xi10 xi11 E K => ?run⟩
  case run =>
    simp only [cc0__gates_kernel_eq_skeleton]; unfold cc0__gates_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1; obtain rfl := harg16.eq_unread hfs2; obtain rfl := harg17.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    isplitl [HS1]; · iexists _; iexact HS1
    isplitl [HS2]; · iexists _; iexact HS2
    iexists _; iexact HS3

end Cert.KernelIdeal.Hand

end
-- ==== Proof.R0RunC.lean ====
import proofs.«125930_j21131239097236_2_alg».proof.Proof.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE C (inner coordinate 7): each accumulator, found at what the point before left (`xs·`), receives its last
    partial product; then `f = logistic(acc_f + b_f)`, `i = logistic(acc_i + b_i)`, `o = logistic(acc_o + b_o)`,
    `g = tanh(acc_c + b_c)`, `c' = f * c + i * g`, `h' = o * tanh c'` are computed and `h'`, `c'` stored whole
    into the two outputs, found at anything. The pieces written into each output and accumulator (last first) are
    the witness; the inputs are returned as they were. -/
noncomputable def kernelRun0_C (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) :
    Σ' (L10 : List (View.Piece (Elt F) S1x1024 .f32)) (L11 : List (View.Piece (Elt F) S1x1024 .f32)) (LS0 : List (View.Piece (Elt F) S1x1024 .f32)) (LS1 : List (View.Piece (Elt F) S1x1024 .f32)) (LS2 : List (View.Piece (Elt F) S1x1024 .f32)), { LS3 : List (View.Piece (Elt F) S1x1024 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ (∃ d, owns (c : Thread nD τ) arg12 fullShare d)
            ∗ (∃ d, owns (c : Thread nD τ) arg13 fullShare d)
            ∗ owns (c : Thread nD τ) arg14 fullShare xs0
            ∗ owns (c : Thread nD τ) arg15 fullShare xs1
            ∗ owns (c : Thread nD τ) arg16 fullShare xs2
            ∗ owns (c : Thread nD τ) arg17 fullShare xs3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ (∃ f, arg12.view.loc (c : Thread nD τ) ↦[arg12.view.set]{fullShare} arg12.view.writes (Elt F) f L10)
                ∗ (∃ f, arg13.view.loc (c : Thread nD τ) ↦[arg13.view.set]{fullShare} arg13.view.writes (Elt F) f L11)
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)
                ∗ (∃ f, arg16.view.loc (c : Thread nD τ) ↦[arg16.view.set]{fullShare} arg16.view.writes (Elt F) f LS2)
                ∗ (∃ f, arg17.view.loc (c : Thread nD τ) ↦[arg17.view.set]{fullShare} arg17.view.writes (Elt F) f LS3)) -∗ K ⟨⟩))
          ⊢ wp frame (wpE (defs₀ (F := F)) Variants.none c none) E (cc0__gates_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc0__gates_kernel_eq_skeleton]; unfold cc0__gates_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0; obtain rfl := harg15.eq_unread hfs1; obtain rfl := harg16.eq_unread hfs2; obtain rfl := harg17.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]; · iexists _; iexact HS0
    isplitl [HS1]; · iexists _; iexact HS1
    isplitl [HS2]; · iexists _; iexact HS2
    iexists _; iexact HS3

end Cert.KernelIdeal.Hand

end
-- ==== Proof.R0Frame.lean ====
import proofs.«125930_j21131239097236_2_alg».proof.Proof.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each case leaves, the contents point by point, the proof data and the body obligation -/

section Region0

variable (V : (c : Dev nD) → (b : Ref sig .tc) → Buf (Elt F) ((c : Thread nD τ).loc b))

/-! ## What each case leaves in the accumulators and the outputs

Every store of the body is of a whole `1 x 1024` buffer, so the pieces written into a buffer cover it, and what the
buffer then holds is the pieces read back over anything. -/

theorem scover0_A_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).1 S1x1024.size (by sl_kernel_rfl) y

/-- What case A leaves in accumulator 0. -/
def sout0_A_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) : Vec F S1x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).1)

theorem scover0_A_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.1 S1x1024.size (by sl_kernel_rfl) y

/-- What case A leaves in accumulator 1. -/
def sout0_A_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) : Vec F S1x1024 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.1)

theorem scover0_A_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.1 S1x1024.size (by sl_kernel_rfl) y

/-- What case A leaves in accumulator 2. -/
def sout0_A_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) : Vec F S1x1024 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.1)

theorem scover0_A_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.1 S1x1024.size (by sl_kernel_rfl) y

/-- What case A leaves in accumulator 3. -/
def sout0_A_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) : Vec F S1x1024 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.1)

theorem scover0_B_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).1 S1x1024.size (by sl_kernel_rfl) y

/-- What case B leaves in accumulator 0. -/
def sout0_B_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).1)

theorem scover0_B_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.1 S1x1024.size (by sl_kernel_rfl) y

/-- What case B leaves in accumulator 1. -/
def sout0_B_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.1)

theorem scover0_B_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.1 S1x1024.size (by sl_kernel_rfl) y

/-- What case B leaves in accumulator 2. -/
def sout0_B_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.1)

theorem scover0_B_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.1 S1x1024.size (by sl_kernel_rfl) y

/-- What case B leaves in accumulator 3. -/
def sout0_B_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.1)

theorem scover0_C_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.1 S1x1024.size (by sl_kernel_rfl) y

/-- What case C leaves in accumulator 0. -/
def sout0_C_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.1)

theorem scover0_C_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.1 S1x1024.size (by sl_kernel_rfl) y

/-- What case C leaves in accumulator 1. -/
def sout0_C_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.1)

theorem scover0_C_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.1 S1x1024.size (by sl_kernel_rfl) y

/-- What case C leaves in accumulator 2. -/
def sout0_C_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.1)

theorem scover0_C_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.2.1 S1x1024.size (by sl_kernel_rfl) y

/-- What case C leaves in accumulator 3. -/
def sout0_C_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.2.2.2.2.1)

theorem cover0_C_10 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).1 S1x1024.size (by sl_kernel_rfl) y

/-- What case C leaves in output window 10's staging buffer (the new hidden state's block). -/
def out0_C_10 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).1)

theorem cover0_C_11 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.1 S1x1024.size (by sl_kernel_rfl) y

/-- What case C leaves in output window 11's staging buffer (the new cell state's block). -/
def out0_C_11 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32) (x9 : Vec F S1x1024 .f32) (xs0 : Vec F S1x1024 .f32) (xs1 : Vec F S1x1024 .f32) (xs2 : Vec F S1x1024 .f32) (xs3 : Vec F S1x1024 .f32) : Vec F S1x1024 .f32 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3).2.1)

/-! ## What the buffers hold after each point -/

/-- The two outputs' staging buffers and the four accumulators after a point's body. -/
structure Outs0 (F : FTy → Type) where
  o10 : Vec F S1x1024 .f32
  o11 : Vec F S1x1024 .f32
  s0 : Vec F S1x1024 .f32
  s1 : Vec F S1x1024 .f32
  s2 : Vec F S1x1024 .f32
  s3 : Vec F S1x1024 .f32

/-- A placeholder for an output's buffer at a point that stores nothing into it: the window is idle there and its
    block is not written back, so nothing consults it. -/
def idleOut0 : Vec F S1x1024 .f32 := VO0_10.read (Elt F) VO0_10.junk

/-- After a point of case A: the accumulators hold the first partial products. -/
def outsA0 (c : Dev nD) (t : Fin cfg0.N) (h0 : t.val % 8 = 0) (h1 : ¬t.val % 8 = 7) : Outs0 F :=
  { o10 := idleOut0, o11 := idleOut0,
    s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
    s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
    s2 := sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
    s3 := sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) }

/-- After a point of case B, from what the point before left (`p`): one more partial product in each accumulator. -/
def outsB0 (c : Dev nD) (t : Fin cfg0.N) (h0 : ¬t.val % 8 = 0) (h1 : ¬t.val % 8 = 7) (p : Outs0 F) : Outs0 F :=
  { o10 := idleOut0, o11 := idleOut0,
    s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.s0 p.s1 p.s2 p.s3,
    s1 := sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.s0 p.s1 p.s2 p.s3,
    s2 := sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.s0 p.s1 p.s2 p.s3,
    s3 := sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.s0 p.s1 p.s2 p.s3 }

/-- After a point of case C, from what the point before left (`p`): the last partial products, and the new hidden
    and cell blocks in the outputs. -/
def outsC0 (c : Dev nD) (t : Fin cfg0.N) (h0 : ¬t.val % 8 = 0) (h1 : t.val % 8 = 7) (p : Outs0 F) : Outs0 F :=
  { o10 := out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.s0 p.s1 p.s2 p.s3,
    o11 := out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.s0 p.s1 p.s2 p.s3,
    s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.s0 p.s1 p.s2 p.s3,
    s1 := sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.s0 p.s1 p.s2 p.s3,
    s2 := sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.s0 p.s1 p.s2 p.s3,
    s3 := sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.s0 p.s1 p.s2 p.s3 }

/-- THE ACCUMULATION, by recursion on the point: the case the point's inner coordinate selects, over what the
    point before left. The inner coordinate cannot be 0 and 7 at once. -/
def outsAt0 (c : Dev nD) : (n : ℕ) → n < cfg0.N → Outs0 F
  | 0, hn => outsA0 V c ⟨0, hn⟩ (Nat.zero_mod _) (fun h => by (try dsimp only at h); omega)
  | n + 1, hn =>
    if h0 : (n + 1) % 8 = 0 then
      if h1 : (n + 1) % 8 = 7 then False.elim (by omega)
      else outsA0 V c ⟨n + 1, hn⟩ h0 h1
    else
      if h1 : (n + 1) % 8 = 7 then outsC0 V c ⟨n + 1, hn⟩ h0 h1 (outsAt0 c n (Nat.lt_of_succ_lt hn))
      else outsB0 V c ⟨n + 1, hn⟩ h0 h1 (outsAt0 c n (Nat.lt_of_succ_lt hn))

theorem outsAt0_A (c : Dev nD) (t : Fin cfg0.N) (h0 : t.val % 8 = 0) (h1 : ¬t.val % 8 = 7) :
    outsAt0 V c t.val t.isLt = outsA0 V c t h0 h1 := by
  obtain ⟨n, hn⟩ := t
  cases n with
  | zero => rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = outsB0 V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt = outsC0 V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The region invariant -/

/-- Before position `n`: at the first point the class's invariant (every accumulator at anything); afterwards the
    four accumulators at what the point before left, the untouched scoped buffers, the generator register. -/
def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).s0 ∗ owns (c : Thread nD τ) scM0_1 fullShare (outsAt0 V c n hn).s1 ∗ owns (c : Thread nD τ) scM0_2 fullShare (outsAt0 V c n hn).s2 ∗ owns (c : Thread nD τ) scM0_3 fullShare (outsAt0 V c n hn).s3 ∗ otherScoped0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (outsAt0 V c n hn).s0 ∗ owns (c : Thread nD τ) scM0_1 fullShare (outsAt0 V c n hn).s1 ∗ owns (c : Thread nD τ) scM0_2 fullShare (outsAt0 V c n hn).s2 ∗ owns (c : Thread nD τ) scM0_3 fullShare (outsAt0 V c n hn).s3 ∗ otherScoped0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (outsAt0 V c (n - 1) (by omega)).s0 ∗ owns (c : Thread nD τ) scM0_1 fullShare (outsAt0 V c (n - 1) (by omega)).s1 ∗ owns (c : Thread nD τ) scM0_2 fullShare (outsAt0 V c (n - 1) (by omega)).s2 ∗ owns (c : Thread nD τ) scM0_3 fullShare (outsAt0 V c (n - 1) (by omega)).s3 ∗ otherScoped0 (F := F) c) ∗ (∃ r, prngReg c r)) := by
  cases n with
  | zero => exact absurd rfl hz
  | succ n => rfl

/-! ## The pipeline's proof data -/

/-- The proof data of region 0 on core `c`: the arrays as the region finds them; after the body at point `t`
    each input's buffer at its block and the outputs' at `outsAt0`'s components; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outsAt0 V c t.val t.isLt).o10
    | ⟨11, _⟩ => (outsAt0 V c t.val t.isLt).o11
  Φ t := PhiS0 V c t.val (Nat.le_of_lt_succ t.isLt)
  q _ := fullShare
  owed _ := 0

theorem dat0_q (c : Dev nD) (w : Fin cfg0.W) : (dat0 V c).q w = fullShare := rfl
theorem dat0_owed (c : Dev nD) (t : Fin (cfg0.N + 1)) : (dat0 V c).owed t = 0 := rfl

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outsAt0 V c t.val t.isLt).o10 := by dsimp only [dat0]
theorem after0_11 (c : Dev nD) (t : Fin cfg0.N) : (dat0 V c).after 11 t = (outsAt0 V c t.val t.isLt).o11 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t)

set_option maxHeartbeats 4800000 in
/-- At a point of case A: the accumulators come in at anything (the class's invariant at the first point, what the point before left afterwards) and go out at this point's first partial products; the outputs are idle and handed back. -/
theorem sound_body0_A (c : Dev nD) (t : Fin cfg0.N) (h0 : t.val % 8 = 0) (h1 : ¬t.val % 8 = 7) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  rw [show (dat0 V c).leavesExact 9 t = owns (c : Thread nD τ) (ms0_9 t) fullShare ((dat0 V c).after 9 t) from by
    unfold Dat.leavesExact; rw [liveAt0_9 t], after0_9]
  rw [Dat.leavesExact_idle (dat0 V c) 10 t (idleAt0_10 t (fun h => h1 ((hcond0_1 t).mp h))) (noFlush0_10 t (fun h => h1 ((hcond0_1 t).mp h)))]
  rw [Dat.leavesExact_idle (dat0 V c) 11 t (idleAt0_11 t (fun h => h1 ((hcond0_1 t).mp h))) (noFlush0_11 t (fun h => h1 ((hcond0_1 t).mp h)))]
  rw [outsAt0_A V c t h0 h1]
  unfold outsA0 sout0_A_0 sout0_A_1 sout0_A_2 sout0_A_3; (try dsimp only)
  by_cases hz : t.val = 0
  · rw [PhiS0_castSucc V c t, PhiS0_zero V c _ _ hz, PhiA0_eq]
    iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    iintro ⟨H0, H1, H2, H3, H4, H5, H6, H7, H8, H9, H10, H11, ⟨%es0, HS0⟩, ⟨%es1, HS1⟩, ⟨%es2, HS2⟩, ⟨%es3, HS3⟩⟩
    isplitl [HS0 HS1 HS2 HS3 HR Hg]
    · isplitl [HS0 HS1 HS2 HS3 HR]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11
  · rw [PhiS0_castSucc V c t, PhiS0_pos V c _ _ hz]
    iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexists _; iexact HS0
    isplitl [HS1]; · iexists _; iexact HS1
    isplitl [HS2]; · iexists _; iexact HS2
    isplitl [HS3]; · iexists _; iexact HS3
    iintro ⟨H0, H1, H2, H3, H4, H5, H6, H7, H8, H9, H10, H11, ⟨%es0, HS0⟩, ⟨%es1, HS1⟩, ⟨%es2, HS2⟩, ⟨%es3, HS3⟩⟩
    isplitl [HS0 HS1 HS2 HS3 HR Hg]
    · isplitl [HS0 HS1 HS2 HS3 HR]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11

set_option maxHeartbeats 4800000 in
/-- At a point of case B: the accumulators come in at what the point before left and go out one partial product further; the outputs are idle and handed back. -/
theorem sound_body0_B (c : Dev nD) (t : Fin cfg0.N) (h0 : ¬t.val % 8 = 0) (h1 : ¬t.val % 8 = 7) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  rw [show (dat0 V c).leavesExact 9 t = owns (c : Thread nD τ) (ms0_9 t) fullShare ((dat0 V c).after 9 t) from by
    unfold Dat.leavesExact; rw [liveAt0_9 t], after0_9]
  rw [Dat.leavesExact_idle (dat0 V c) 10 t (idleAt0_10 t (fun h => h1 ((hcond0_1 t).mp h))) (noFlush0_10 t (fun h => h1 ((hcond0_1 t).mp h)))]
  rw [Dat.leavesExact_idle (dat0 V c) 11 t (idleAt0_11 t (fun h => h1 ((hcond0_1 t).mp h))) (noFlush0_11 t (fun h => h1 ((hcond0_1 t).mp h)))]
  rw [outsAt0_B V c t h0 h1]
  unfold outsB0 sout0_B_0 sout0_B_1 sout0_B_2 sout0_B_3; (try dsimp only)
  have hz : t.val ≠ 0 := fun e => h0 (by omega)
  rw [PhiS0_castSucc V c t, PhiS0_pos V c _ _ hz]
  iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _ _ _).2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  iintro ⟨H0, H1, H2, H3, H4, H5, H6, H7, H8, H9, H10, H11, ⟨%es0, HS0⟩, ⟨%es1, HS1⟩, ⟨%es2, HS2⟩, ⟨%es3, HS3⟩⟩
  isplitl [HS0 HS1 HS2 HS3 HR Hg]
  · isplitl [HS0 HS1 HS2 HS3 HR]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iexists _; iexact H11

set_option maxHeartbeats 4800000 in
/-- At a point of case C: the accumulators come in at what the point before left; the outputs go out at the new hidden and cell blocks. -/
theorem sound_body0_C (c : Dev nD) (t : Fin cfg0.N) (h0 : ¬t.val % 8 = 0) (h1 : t.val % 8 = 7) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  rw [show (dat0 V c).leavesExact 9 t = owns (c : Thread nD τ) (ms0_9 t) fullShare ((dat0 V c).after 9 t) from by
    unfold Dat.leavesExact; rw [liveAt0_9 t], after0_9]
  rw [show (dat0 V c).leavesExact 10 t = owns (c : Thread nD τ) (ms0_10 t) fullShare ((dat0 V c).after 10 t) from by
    unfold Dat.leavesExact; rw [liveAt0_10 t ((hcond0_1 t).mpr h1)], after0_10]
  rw [show (dat0 V c).leavesExact 11 t = owns (c : Thread nD τ) (ms0_11 t) fullShare ((dat0 V c).after 11 t) from by
    unfold Dat.leavesExact; rw [liveAt0_11 t ((hcond0_1 t).mpr h1)], after0_11]
  rw [outsAt0_C V c t h0 h1]
  unfold outsC0 out0_C_10 out0_C_11 sout0_C_0 sout0_C_1 sout0_C_2 sout0_C_3; (try dsimp only)
  have hz : t.val ≠ 0 := fun e => h0 (by omega)
  rw [PhiS0_castSucc V c t, PhiS0_pos V c _ _ hz]
  iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_C c (grid0.coords t) _ _ _ _ _ _ _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _ _ _).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  iintro ⟨H0, H1, H2, H3, H4, H5, H6, H7, H8, H9, ⟨%e10, H10⟩, ⟨%e11, H11⟩, ⟨%es0, HS0⟩, ⟨%es1, HS1⟩, ⟨%es2, HS2⟩, ⟨%es3, HS3⟩⟩
  isplitl [HS0 HS1 HS2 HS3 HR Hg]
  · isplitl [HS0 HS1 HS2 HS3 HR]
    · isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H11
  ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _)

/-- The body at any point: the inner coordinate selects the case. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 8 = 0
  · by_cases h1 : t.val % 8 = 7
    · exfalso; omega
    · exact sound_body0_A V c t h0 h1
  · by_cases h1 : t.val % 8 = 7
    · exact sound_body0_C V c t h0 h1
    · exact sound_body0_B V c t h0 h1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HS3, HR⟩, Hg⟩
  isplitl [HS0 HS1 HS2 HS3 HR]
  · isplitl [HS0]; · iexists _; iexact HS0
    isplitl [HS1]; · iexists _; iexact HS1
    isplitl [HS2]; · iexists _; iexact HS2
    isplitl [HS3]; · iexists _; iexact HS3
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Region0

end Cert.KernelIdeal.Hand

end
-- ==== Proof.R1Runs.lean ====
/-
  The output projection (the second kernel region), what its per-point proofs share. The grid is 10 × 4: point t
  has row block t / 4 and contraction block t % 4. The accumulator (one scratch row of 3200 entries) is cleared where
  t % 4 = 0, the product of the point's 1 × 1024 block of the hidden state with the transposed 3200 × 1024 block of
  the weights is added at every point, and where t % 4 = 3 the accumulator plus the bias block is stored into the
  output block, which is idle (not stored, not written back) at the other points.
-/
import proofs.«125930_j21131239097236_2_alg».proof.Proof.Gen.KernelIdeal.Launch
import proofs.«125930_j21131239097236_2_alg».proof.Proof.Gen.KernelIdeal.Skeleton
import proofs.«125930_j21131239097236_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks of the arrays as the region finds them -/

/-- Window `w`'s block at point `t`, read off its array at the region's entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden-state window's staging buffer holds its block at every point (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window's staging buffer holds its block at every point: fetched where the row block changes, and
    between two fetches the block index does not move. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first contraction block": the body clears the accumulator. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last contraction block": the body adds the bias and stores the output block. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last contraction block the output block is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- On the last contraction block it is live. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S1x3200 .f32 := (Memref.whole cc1_stg3_0 : Memref sig .tc .vmem S1x3200 .f32).view
abbrev ms1_0 (t : Fin cfg1.N) : Memref sig .tc .vmem S1x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3200x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x3200 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x3200 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1x3200 .f32 := Memref.whole cc1_scratch0
abbrev VS1_0 : View sig .tc .vmem S1x3200 .f32 := scM1_0.view

/-- The class invariant with the accumulator as a memref owned at some contents. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Hand

end
-- ==== Proof.R1RunB.lean ====
/-
  The output projection's body at a point strictly inside a row block's contraction (neither the first nor the last
  block): the accumulator is read, the block product added, the sum stored back; the output block is not touched.
-/
import proofs.«125930_j21131239097236_2_alg».proof.Proof.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body between the first and the last contraction block, on whole memrefs: the three inputs at their contents and
    the untouched output block are handed back as found, the accumulator ends with the stores' pieces written. -/
noncomputable def kernelRun1_B (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : ¬cond1_1 i)
    (x0 : Vec F S1x1024 .f32) (x1 : Vec F S3200x1024 .f32) (x2 : Vec F S1x3200 .f32) (xs0 : Vec F S1x3200 .f32) :
    Σ' (L3 : List (View.Piece (Elt F) S1x3200 .f32)), { LS0 : List (View.Piece (Elt F) S1x3200 .f32) //
      ∀ (xi3 : Vec F S1x3200 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__outproj_kernel i arg2 harg2 arg3 harg3 arg4 harg4 arg5 harg5 arg6 harg6) K } := by
  refine ⟨[], ?_, fun xi3 E K => ?run⟩
  case run =>
    simp only [cc1__outproj_kernel_eq_skeleton]; unfold cc1__outproj_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.R1RunA.lean ====
/-
  The output projection's body at the first contraction block of a row block: the accumulator, whatever it held, is
  overwritten with zeros, then read, the block product added, the sum stored back; the output block is not touched.
-/
import proofs.«125930_j21131239097236_2_alg».proof.Proof.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a first contraction block, on whole memrefs: the accumulator may hold anything when the body starts. -/
noncomputable def kernelRun1_A (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : cond1_0 i) (hc1 : ¬cond1_1 i)
    (x0 : Vec F S1x1024 .f32) (x1 : Vec F S3200x1024 .f32) (x2 : Vec F S1x3200 .f32) :
    Σ' (L3 : List (View.Piece (Elt F) S1x3200 .f32)), { LS0 : List (View.Piece (Elt F) S1x3200 .f32) //
      ∀ (xi3 : Vec F S1x3200 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__outproj_kernel i arg2 harg2 arg3 harg3 arg4 harg4 arg5 harg5 arg6 harg6) K } := by
  refine ⟨[], ?_, fun xi3 E K => ?run⟩
  case run =>
    simp only [cc1__outproj_kernel_eq_skeleton]; unfold cc1__outproj_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.R1RunC.lean ====
/-
  The output projection's body at the last contraction block of a row block: the accumulator is read, the block product
  added, the sum stored back; then the accumulator plus the bias block is stored over the whole output block.
-/
import proofs.«125930_j21131239097236_2_alg».proof.Proof.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a last contraction block, on whole memrefs: the output block may hold anything when the body starts and
    ends with the stores' pieces written, as does the accumulator. -/
noncomputable def kernelRun1_C (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : cond1_1 i)
    (x0 : Vec F S1x1024 .f32) (x1 : Vec F S3200x1024 .f32) (x2 : Vec F S1x3200 .f32) (xs0 : Vec F S1x3200 .f32) :
    Σ' (L3 : List (View.Piece (Elt F) S1x3200 .f32)), { LS0 : List (View.Piece (Elt F) S1x3200 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__outproj_kernel i arg2 harg2 arg3 harg3 arg4 harg4 arg5 harg5 arg6 harg6) K } := by
  refine ⟨?_, ?_, fun E K => ?run⟩
  case run =>
    simp only [cc1__outproj_kernel_eq_skeleton]; unfold cc1__outproj_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.R1Frame.lean ====
/-
  The output projection, point by point: what each of the body's three cases leaves in the accumulator and in the
  output block, the accumulation over the grid's points, the region's invariant with the accumulator at what the point
  before left, the proof data and the body obligation at every point.
-/
import proofs.«125930_j21131239097236_2_alg».proof.Proof.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover1_A_0 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : cond1_0 i) (hc1 : ¬cond1_1 i)
    (x0 : Vec F S1x1024 .f32) (x1 : Vec F S3200x1024 .f32) (x2 : Vec F S1x3200 .f32) (y : S1x3200.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1x3200.size (by sl_kernel_rfl) y

/-- The accumulator after a first contraction block. -/
def sout1_A_0 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : cond1_0 i) (hc1 : ¬cond1_1 i)
    (x0 : Vec F S1x1024 .f32) (x1 : Vec F S3200x1024 .f32) (x2 : Vec F S1x3200 .f32) : Vec F S1x3200 .f32 :=
  VS1_0.read (Elt F) (VS1_0.writes (Elt F) VS1_0.junk (kernelRun1_A c i arg2 harg2 arg3 harg3 arg4 harg4 arg5 harg5 arg6 harg6 hc0 hc1 x0 x1 x2).2.1)

theorem scover1_B_0 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : ¬cond1_1 i)
    (x0 : Vec F S1x1024 .f32) (x1 : Vec F S3200x1024 .f32) (x2 : Vec F S1x3200 .f32) (xs0 : Vec F S1x3200 .f32) (y : S1x3200.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1x3200.size (by sl_kernel_rfl) y

/-- The accumulator after an inner contraction block, over what the point before left in it. -/
def sout1_B_0 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : ¬cond1_1 i)
    (x0 : Vec F S1x1024 .f32) (x1 : Vec F S3200x1024 .f32) (x2 : Vec F S1x3200 .f32) (xs0 : Vec F S1x3200 .f32) : Vec F S1x3200 .f32 :=
  VS1_0.read (Elt F) (VS1_0.writes (Elt F) VS1_0.junk (kernelRun1_B c i arg2 harg2 arg3 harg3 arg4 harg4 arg5 harg5 arg6 harg6 hc0 hc1 x0 x1 x2 xs0).2.1)

theorem cover1_C_3 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : cond1_1 i)
    (x0 : Vec F S1x1024 .f32) (x1 : Vec F S3200x1024 .f32) (x2 : Vec F S1x3200 .f32) (xs0 : Vec F S1x3200 .f32) (y : S1x3200.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1x3200.size (by sl_kernel_rfl) y

/-- The output block after a last contraction block. -/
def out1_C_3 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : cond1_1 i)
    (x0 : Vec F S1x1024 .f32) (x1 : Vec F S3200x1024 .f32) (x2 : Vec F S1x3200 .f32) (xs0 : Vec F S1x3200 .f32) : Vec F S1x3200 .f32 :=
  VO1_3.read (Elt F) (VO1_3.writes (Elt F) VO1_3.junk (kernelRun1_C c i arg2 harg2 arg3 harg3 arg4 harg4 arg5 harg5 arg6 harg6 hc0 hc1 x0 x1 x2 xs0).1)

theorem scover1_C_0 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : cond1_1 i)
    (x0 : Vec F S1x1024 .f32) (x1 : Vec F S3200x1024 .f32) (x2 : Vec F S1x3200 .f32) (xs0 : Vec F S1x3200 .f32) (y : S1x3200.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1x3200.size (by sl_kernel_rfl) y

/-- The accumulator after a last contraction block. -/
def sout1_C_0 (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : cond1_1 i)
    (x0 : Vec F S1x1024 .f32) (x1 : Vec F S3200x1024 .f32) (x2 : Vec F S1x3200 .f32) (xs0 : Vec F S1x3200 .f32) : Vec F S1x3200 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## The accumulation over the points -/

/-- Where the output block is idle nothing reads what this component says: a fixed placeholder. -/
def idleOut1 : Vec F S1x3200 .f32 := VO1_3.read (Elt F) VO1_3.junk

/-- A first contraction block is not a last one. -/
theorem nlast_of_first (t : Fin cfg1.N) (h0 : t.val % 4 = 0) : ¬cond1_1 (grid1.coords t) :=
  fun h => by have h3 := (hcond1_1 t).mp h; omega

/-- What the output block's buffer and the accumulator hold after the body at position `n`: the case the position's
    residue mod 4 selects, run on the point's blocks, the accumulator read at what position `n - 1` left. -/
def outsAt1 (c : Dev nD) : (n : ℕ) → n < cfg1.N → Vec F S1x3200 .f32 × Vec F S1x3200 .f32
  | 0, hn => have h0 : (⟨0, hn⟩ : Fin cfg1.N).val % 4 = 0 := Nat.zero_mod _
    (idleOut1, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr h0) (nlast_of_first ⟨0, hn⟩ h0) (iblk1 V c 0 ⟨0, hn⟩) (iblk1 V c 1 ⟨0, hn⟩) (iblk1 V c 2 ⟨0, hn⟩))
  | n + 1, hn =>
    if h0 : (⟨n + 1, hn⟩ : Fin cfg1.N).val % 4 = 0 then
      (idleOut1, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (nlast_of_first ⟨n + 1, hn⟩ h0) (iblk1 V c 0 ⟨n + 1, hn⟩) (iblk1 V c 1 ⟨n + 1, hn⟩) (iblk1 V c 2 ⟨n + 1, hn⟩))
    else if h1 : (⟨n + 1, hn⟩ : Fin cfg1.N).val % 4 = 3 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
    else
      (idleOut1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) :
    outsAt1 V c t.val t.isLt = (idleOut1, sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (nlast_of_first t h0) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (idleOut1, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region's invariant -/

/-- Before the first point the accumulator holds anything; before a later position it holds what the point before left. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2))
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2))
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body each input's buffer at its block, the output's at the
    accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]

set_option maxHeartbeats 4800000 in
/-- The body at any point: the inputs' buffers hold their blocks; the residue of the point mod 4 says which case it
    is in; the invariant hands the body the accumulator (at what the point before left, or at anything before a first
    block) and takes it back at this point's contents; an idle output block goes back untouched; nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, leaves1_0, leaves1_1, leaves1_2]
  rw [show (dat1 V c).owesAt () t.succ = (dat1 V c).owesAt () t.castSucc from rfl]
  rw [show (dat1 V c).Φ t.succ = PhiS1 V c (t.val + 1) t.isLt from rfl, PhiS1_succ]
  by_cases h0 : t.val % 4 = 0
  · have hc1 : ¬cond1_1 (grid1.coords t) := nlast_of_first t h0
    rw [Dat.leavesExact_idle (dat1 V c) 3 t (idleAt1_3 t hc1) (noFlush1_3 t hc1)]
    rw [outsAt1_A V c t h0]
    unfold sout1_A_0; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) hc1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) hc1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · have hc0 : ¬cond1_0 (grid1.coords t) := fun h => h0 ((hcond1_0 t).mp h)
      have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [outsAt1_C V c t h0 h1]
      unfold out1_C_3 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_C c (grid1.coords t) _ _ _ _ _ _ _ _ _ _ hc0 hc1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 3 t (idleAt1_3 t hc1) (noFlush1_3 t hc1)]
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ hc0 hc1 (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The body obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: what the accumulator holds is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 40 := N_1; omega), PhiA1_eq]
  iintro ⟨⟨HS0, HR⟩, Hg⟩
  isplitl [HS0 HR]
  · isplitl [HS0]
    · iexists _; iexact HS0
    iexact HR
  iexact Hg

end Cert.KernelIdeal.Hand

end
-- ==== Proof.KRun.lean ====
/-
  The run of the whole program: the host lines before the gates region (joining x and h, the four biases as rows), the
  gates region, the host line between the regions (the output bias as a row), the projection region, and the host
  log-softmax. Between two items every unscoped buffer is held at a named valuation: a host stretch's operations
  applied to the one before, or a region's arrays at what its pipeline leaves and everything else as entered. Every
  weakly fair execution terminates with every unscoped buffer at the last valuation; each argument's buffer is then
  read back to the launch memory, since no host line writes an argument and every region only reads them.
-/
import proofs.«125930_j21131239097236_2_alg».proof.Proof.R0Frame
import proofs.«125930_j21131239097236_2_alg».proof.Proof.R1Frame
import proofs.«125930_j21131239097236_2_alg».proof.Proof.Gen.KernelIdeal.Regions
import Idealize.ShloMosaic.Lib.Pipeline.Frame
import Idealize.ShloMosaic.Lib.Pipeline.Regions
import Idealize.ShloMosaic.Lib.Pipeline.FrameSuffix
import Idealize.ShloMosaic.Lib.Pipeline.Kit
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents between the items of the program -/

/-- At launch. -/
abbrev W0 : Dev nD → Valuation τ sig (Elt F) := fun c b => m ((c : Dev nD), b)
/-- After the first host stretch: what the gates region finds. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the gates region: its arrays at what its pipeline leaves, the rest as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host line between the regions: what the projection region finds. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the projection region. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host log-softmax: the contents every execution ends with. -/
abbrev W5 : Dev nD → Valuation τ sig (Elt F) := fun c => StableHlo.after hostOps2 (W4 m c)

/-! ## Every argument ends as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := (W2_arr m c 9).trans (((dat0 (V1 m) c).arrAt_in 9 rfl _).trans (A_eq0 (V1 m) c 9))
    _ = W0 m c (Proc.devRef .tc main_arg2) := StableHlo.after_of_writes_sub hostOps0 _ hostOps0_writes (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := (W2_arr m c 1).trans (((dat0 (V1 m) c).arrAt_in 1 rfl _).trans (A_eq0 (V1 m) c 1))
    _ = W0 m c (Proc.devRef .tc main_arg3) := StableHlo.after_of_writes_sub hostOps0 _ hostOps0_writes (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := (W2_arr m c 2).trans (((dat0 (V1 m) c).arrAt_in 2 rfl _).trans (A_eq0 (V1 m) c 2))
    _ = W0 m c (Proc.devRef .tc main_arg5) := StableHlo.after_of_writes_sub hostOps0 _ hostOps0_writes (by decide)
    _ = m ((c : Thread nD τ).loc main_arg5) := rfl

theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

theorem W5_main_arg7 (c : Dev nD) : W5 m c (Proc.devRef .tc main_arg7) = m ((c : Thread nD τ).loc main_arg7) :=
  calc W5 m c (Proc.devRef .tc main_arg7)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := (W2_arr m c 3).trans (((dat0 (V1 m) c).arrAt_in 3 rfl _).trans (A_eq0 (V1 m) c 3))
    _ = W0 m c (Proc.devRef .tc main_arg7) := StableHlo.after_of_writes_sub hostOps0 _ hostOps0_writes (by decide)
    _ = m ((c : Thread nD τ).loc main_arg7) := rfl

theorem W5_main_arg8 (c : Dev nD) : W5 m c (Proc.devRef .tc main_arg8) = m ((c : Thread nD τ).loc main_arg8) :=
  calc W5 m c (Proc.devRef .tc main_arg8)
    _ = W4 m c (Proc.devRef .tc main_arg8) := StableHlo.after_of_writes_sub hostOps2 _ hostOps2_writes (by decide)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

theorem W5_main_arg9 (c : Dev nD) : W5 m c (Proc.devRef .tc main_arg9) = m ((c : Thread nD τ).loc main_arg9) :=
  calc W5 m c (Proc.devRef .tc main_arg9)
    _ = W4 m c (Proc.devRef .tc main_arg9) := StableHlo.after_of_writes_sub hostOps2 _ hostOps2_writes (by decide)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := (W2_arr m c 4).trans (((dat0 (V1 m) c).arrAt_in 4 rfl _).trans (A_eq0 (V1 m) c 4))
    _ = W0 m c (Proc.devRef .tc main_arg9) := StableHlo.after_of_writes_sub hostOps0 _ hostOps0_writes (by decide)
    _ = m ((c : Thread nD τ).loc main_arg9) := rfl

theorem W5_main_arg10 (c : Dev nD) : W5 m c (Proc.devRef .tc main_arg10) = m ((c : Thread nD τ).loc main_arg10) :=
  calc W5 m c (Proc.devRef .tc main_arg10)
    _ = W4 m c (Proc.devRef .tc main_arg10) := StableHlo.after_of_writes_sub hostOps2 _ hostOps2_writes (by decide)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl

theorem W5_main_arg11 (c : Dev nD) : W5 m c (Proc.devRef .tc main_arg11) = m ((c : Thread nD τ).loc main_arg11) :=
  calc W5 m c (Proc.devRef .tc main_arg11)
    _ = W4 m c (Proc.devRef .tc main_arg11) := StableHlo.after_of_writes_sub hostOps2 _ hostOps2_writes (by decide)
    _ = W3 m c (Proc.devRef .tc main_arg11) := (W4_arr m c 1).trans (((dat1 (V3 m) c).arrAt_in 1 rfl _).trans (A_eq1 (V3 m) c 1))
    _ = W2 m c (Proc.devRef .tc main_arg11) := StableHlo.after_of_writes_sub hostOps1 _ hostOps1_writes (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl

theorem W5_main_arg12 (c : Dev nD) : W5 m c (Proc.devRef .tc main_arg12) = m ((c : Thread nD τ).loc main_arg12) :=
  calc W5 m c (Proc.devRef .tc main_arg12)
    _ = W4 m c (Proc.devRef .tc main_arg12) := StableHlo.after_of_writes_sub hostOps2 _ hostOps2_writes (by decide)
    _ = W3 m c (Proc.devRef .tc main_arg12) := W4_of_ne m c main_arg12 (by decide)
    _ = W2 m c (Proc.devRef .tc main_arg12) := StableHlo.after_of_writes_sub hostOps1 _ hostOps1_writes (by decide)
    _ = W1 m c (Proc.devRef .tc main_arg12) := W2_of_ne m c main_arg12 (by decide)
    _ = W0 m c (Proc.devRef .tc main_arg12) := StableHlo.after_of_writes_sub hostOps0 _ hostOps0_writes (by decide)
    _ = m ((c : Thread nD τ).loc main_arg12) := rfl

/-! ## The proof data family and what rides beside the buffers -/

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered with every unscoped buffer at the contents before it, left with the
    region's arrays at what the pipeline leaves and every other buffer as entered; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the
    region's arrays at what the pipeline leaves and every other buffer as entered; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- From any memory with zero counters, every weakly fair execution of the program terminates, nothing faulting, with
    every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c =>
      (show iprop(StableHlo.held (c : Thread nD τ) (Pipeline.ucRefs τ sig) (W5 m c) ∗ R c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c),
     (h c _ (mem_uc main_arg7 (by decide))).trans (W5_main_arg7 m c),
     (h c _ (mem_uc main_arg8 (by decide))).trans (W5_main_arg8 m c),
     (h c _ (mem_uc main_arg9 (by decide))).trans (W5_main_arg9 m c),
     (h c _ (mem_uc main_arg10 (by decide))).trans (W5_main_arg10 m c),
     (h c _ (mem_uc main_arg11 (by decide))).trans (W5_main_arg11 m c),
     (h c _ (mem_uc main_arg12 (by decide))).trans (W5_main_arg12 m c)⟩)
    (run_all m ρ)

end Cert.KernelIdeal.Hand

end
-- ==== Proof.Val0Pieces.lean ====
/-
  What each case of the gates region's body leaves, as the stores' arithmetic.

  The body keeps four accumulators (forget, input, output, candidate), one row of 1024 entries each. At a first
  contraction block each is cleared, read back, and the product of the joined row's block with the gate's weight block
  added; at every later block the product is added to what the accumulator held; and at a last block the new hidden and
  cell blocks are computed from the four updated accumulators, the four bias blocks and the old cell block. Every store
  is of a whole row, so what a buffer holds afterwards is the last store's value, and a load that follows a store of
  the same buffer reads that value.
-/
import proofs.«125930_j21131239097236_2_alg».proof.Proof.R0Frame
import Idealize.ShloMosaic.Lib.Pipeline.Value
import Idealize.ShloMosaic.Lib.ValueIdx

set_option maxRecDepth 16384

noncomputable section

namespace Cert.KernelIdeal.Val0

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Hand

variable {F : FTy → Type} [FloatOps F]

theorem hz : (![0, 0] : Fin 2 → Nat) = fun _ => 0 := funext fun a => by fin_cases a <;> rfl

/-- A first contraction block, the forget accumulator: cleared, read back, and the block product added. -/
theorem sout_A_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 x2 x3 x4 : Vec F S1024x1024 .f32) (x5 x6 x7 x8 x9 : Vec F S1x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = k0_pay9 x0 (k0_pay4 (F := F)) x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words
  rw [View.canon_cons_unit_zero (S := S1x1024) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x1024) hz, View.ld_unit_zero (S := S1024x1024) hz, View.readCov_unit_zero (S := S1x1024) _ hz]

/-- A first contraction block, the input accumulator: cleared, read back, and the block product added. -/
theorem sout_A_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 x2 x3 x4 : Vec F S1024x1024 .f32) (x5 x6 x7 x8 x9 : Vec F S1x1024 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = k0_pay10 x0 (k0_pay5 (F := F)) x2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words
  rw [View.canon_cons_unit_zero (S := S1x1024) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x1024) hz, View.ld_unit_zero (S := S1024x1024) hz, View.readCov_unit_zero (S := S1x1024) _ hz]

/-- A first contraction block, the output accumulator: cleared, read back, and the block product added. -/
theorem sout_A_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 x2 x3 x4 : Vec F S1024x1024 .f32) (x5 x6 x7 x8 x9 : Vec F S1x1024 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = k0_pay11 x0 (k0_pay6 (F := F)) x3 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words
  rw [View.canon_cons_unit_zero (S := S1x1024) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x1024) hz, View.ld_unit_zero (S := S1024x1024) hz, View.readCov_unit_zero (S := S1x1024) _ hz]

/-- A first contraction block, the candidate accumulator: cleared, read back, and the block product added. -/
theorem sout_A_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : cond0_0 i) (hc1 : ¬cond0_1 i)
    (x0 : Vec F S1x1024 .f32) (x1 x2 x3 x4 : Vec F S1024x1024 .f32) (x5 x6 x7 x8 x9 : Vec F S1x1024 .f32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = k0_pay1 (k0_pay8 x0) (k0_pay7 (F := F)) x4 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words
  rw [View.canon_cons_unit_zero (S := S1x1024) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x1024) hz, View.ld_unit_zero (S := S1024x1024) hz, View.readCov_unit_zero (S := S1x1024) _ hz]

/-- An inner contraction block, the forget accumulator: the block product added to what it held. -/
theorem sout_B_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 x2 x3 x4 : Vec F S1024x1024 .f32) (x5 x6 x7 x8 x9 : Vec F S1x1024 .f32) (xs0 xs1 xs2 xs3 : Vec F S1x1024 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay9 x0 xs0 x1 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x1024) hz, View.ld_unit_zero (S := S1024x1024) hz, View.readCov_unit_zero (S := S1x1024) _ hz]

/-- An inner contraction block, the input accumulator: the block product added to what it held. -/
theorem sout_B_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 x2 x3 x4 : Vec F S1024x1024 .f32) (x5 x6 x7 x8 x9 : Vec F S1x1024 .f32) (xs0 xs1 xs2 xs3 : Vec F S1x1024 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay10 x0 xs1 x2 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x1024) hz, View.ld_unit_zero (S := S1024x1024) hz, View.readCov_unit_zero (S := S1x1024) _ hz]

/-- An inner contraction block, the output accumulator: the block product added to what it held. -/
theorem sout_B_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 x2 x3 x4 : Vec F S1024x1024 .f32) (x5 x6 x7 x8 x9 : Vec F S1x1024 .f32) (xs0 xs1 xs2 xs3 : Vec F S1x1024 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay11 x0 xs2 x3 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x1024) hz, View.ld_unit_zero (S := S1024x1024) hz, View.readCov_unit_zero (S := S1x1024) _ hz]

/-- An inner contraction block, the candidate accumulator: the block product added to what it held. -/
theorem sout_B_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : ¬cond0_1 i)
    (x0 : Vec F S1x1024 .f32) (x1 x2 x3 x4 : Vec F S1024x1024 .f32) (x5 x6 x7 x8 x9 : Vec F S1x1024 .f32) (xs0 xs1 xs2 xs3 : Vec F S1x1024 .f32) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay1 (k0_pay8 x0) xs3 x4 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x1024) hz, View.ld_unit_zero (S := S1024x1024) hz, View.readCov_unit_zero (S := S1x1024) _ hz]

/-- A last contraction block, the forget accumulator: the block product added to what it held. -/
theorem sout_C_0 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 x2 x3 x4 : Vec F S1024x1024 .f32) (x5 x6 x7 x8 x9 : Vec F S1x1024 .f32) (xs0 xs1 xs2 xs3 : Vec F S1x1024 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay9 x0 xs0 x1 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x1024) hz, View.ld_unit_zero (S := S1024x1024) hz, View.readCov_unit_zero (S := S1x1024) _ hz]

/-- A last contraction block, the input accumulator: the block product added to what it held. -/
theorem sout_C_1 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 x2 x3 x4 : Vec F S1024x1024 .f32) (x5 x6 x7 x8 x9 : Vec F S1x1024 .f32) (xs0 xs1 xs2 xs3 : Vec F S1x1024 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay10 x0 xs1 x2 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x1024) hz, View.ld_unit_zero (S := S1024x1024) hz, View.readCov_unit_zero (S := S1x1024) _ hz]

/-- A last contraction block, the output accumulator: the block product added to what it held. -/
theorem sout_C_2 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 x2 x3 x4 : Vec F S1024x1024 .f32) (x5 x6 x7 x8 x9 : Vec F S1x1024 .f32) (xs0 xs1 xs2 xs3 : Vec F S1x1024 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay11 x0 xs2 x3 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x1024) hz, View.ld_unit_zero (S := S1024x1024) hz, View.readCov_unit_zero (S := S1x1024) _ hz]

/-- A last contraction block, the candidate accumulator: the block product added to what it held. -/
theorem sout_C_3 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 x2 x3 x4 : Vec F S1024x1024 .f32) (x5 x6 x7 x8 x9 : Vec F S1x1024 .f32) (xs0 xs1 xs2 xs3 : Vec F S1x1024 .f32) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay1 (k0_pay8 x0) xs3 x4 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x1024) hz, View.ld_unit_zero (S := S1024x1024) hz, View.readCov_unit_zero (S := S1x1024) _ hz]

/-- A last contraction block, the new cell block: the cell arithmetic of the updated accumulators, the bias blocks and the
    old cell block. -/
theorem out_C_11 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 x2 x3 x4 : Vec F S1024x1024 .f32) (x5 x6 x7 x8 x9 : Vec F S1x1024 .f32) (xs0 xs1 xs2 xs3 : Vec F S1x1024 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3
      = k0_pay2 (k0_pay9 x0 xs0 x1) x5 (k0_pay10 x0 xs1 x2) x6 (k0_pay1 (k0_pay8 x0) xs3 x4) x8 x9 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x1024) hz, View.ld_unit_zero (S := S1024x1024) hz, View.readCov_unit_zero (S := S1x1024) _ hz]

/-- A last contraction block, the new hidden block. -/
theorem out_C_10 (c : Dev nD) (i : grid0.Coords) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (hc0 : ¬cond0_0 i) (hc1 : cond0_1 i)
    (x0 : Vec F S1x1024 .f32) (x1 x2 x3 x4 : Vec F S1024x1024 .f32) (x5 x6 x7 x8 x9 : Vec F S1x1024 .f32) (xs0 xs1 xs2 xs3 : Vec F S1x1024 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3
      = k0_pay3 (k0_pay9 x0 xs0 x1) x5 (k0_pay10 x0 xs1 x2) x6 (k0_pay11 x0 xs2 x3) x7 (k0_pay1 (k0_pay8 x0) xs3 x4) x8 x9 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x1024) hz, View.ld_unit_zero (S := S1024x1024) hz, View.readCov_unit_zero (S := S1x1024) _ hz]

end Cert.KernelIdeal.Val0

end
-- ==== Proof.Blocks0.lean ====
/-
  Which entries of which arrays the gates region's blocks are: at point t (row block t / 8, contraction block t % 8) the
  joined row's block is its columns (t % 8) * 1024 + ·, a weight block is rows (t / 8) * 1024 + · and columns
  (t % 8) * 1024 + ·, and a bias row's or the cell row's block is its columns (t / 8) * 1024 + ·.
-/
import proofs.«125930_j21131239097236_2_alg».proof.Proof.R0Runs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window 0's block index at point t. -/
theorem idx0_0 : ∀ t : Fin cfg0.N, win0_0.index t 0 = 0 ∧ win0_0.index t 1 = t.val % 8 :=
  (by decide +kernel : ∀ t : Fin grid0.N, win0_0.index t 0 = 0 ∧ win0_0.index t 1 = t.val % 8)

/-- An entry of window 0's block at point t is the array's entry at block index times block size plus the offset. -/
theorem iblk0_0_apply (c : Dev nD) (t : Fin cfg0.N) (y : S1x1024.Idx) (k : S1x8192.Idx)
    (hk0 : (k 0).val = (0) * 1 + (y 0).val) (hk1 : (k 1).val = (t.val % 8) * 1024 + (y 1).val) :
    (iblk0 V c 0 t : Vec F S1x1024 .f32) y = (V c main_v0 : S1x8192.Idx → Elt F .f32) k := by
  unfold iblk0
  rw [View.read_apply]
  show V c main_v0 _ = V c main_v0 _
  congr 1
  funext a
  apply Fin.ext
  match a with
  | ⟨0, _⟩ => show win0_0.index t 0 * 1 + 1 * (y 0).val = (k 0).val; rw [(idx0_0 t).1, hk0]; omega
  | ⟨1, _⟩ => show win0_0.index t 1 * 1024 + 1 * (y 1).val = (k 1).val; rw [(idx0_0 t).2, hk1]; omega

/-- Window 1's block index at point t. -/
theorem idx0_1 : ∀ t : Fin cfg0.N, win0_1.index t 0 = t.val / 8 ∧ win0_1.index t 1 = t.val % 8 :=
  (by decide +kernel : ∀ t : Fin grid0.N, win0_1.index t 0 = t.val / 8 ∧ win0_1.index t 1 = t.val % 8)

/-- An entry of window 1's block at point t is the array's entry at block index times block size plus the offset. -/
theorem iblk0_1_apply (c : Dev nD) (t : Fin cfg0.N) (y : S1024x1024.Idx) (k : S4096x8192.Idx)
    (hk0 : (k 0).val = (t.val / 8) * 1024 + (y 0).val) (hk1 : (k 1).val = (t.val % 8) * 1024 + (y 1).val) :
    (iblk0 V c 1 t : Vec F S1024x1024 .f32) y = (V c main_arg3 : S4096x8192.Idx → Elt F .f32) k := by
  unfold iblk0
  rw [View.read_apply]
  show V c main_arg3 _ = V c main_arg3 _
  congr 1
  funext a
  apply Fin.ext
  match a with
  | ⟨0, _⟩ => show win0_1.index t 0 * 1024 + 1 * (y 0).val = (k 0).val; rw [(idx0_1 t).1, hk0]; omega
  | ⟨1, _⟩ => show win0_1.index t 1 * 1024 + 1 * (y 1).val = (k 1).val; rw [(idx0_1 t).2, hk1]; omega

/-- Window 2's block index at point t. -/
theorem idx0_2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)

/-- An entry of window 2's block at point t is the array's entry at block index times block size plus the offset. -/
theorem iblk0_2_apply (c : Dev nD) (t : Fin cfg0.N) (y : S1024x1024.Idx) (k : S4096x8192.Idx)
    (hk0 : (k 0).val = (t.val / 8) * 1024 + (y 0).val) (hk1 : (k 1).val = (t.val % 8) * 1024 + (y 1).val) :
    (iblk0 V c 2 t : Vec F S1024x1024 .f32) y = (V c main_arg5 : S4096x8192.Idx → Elt F .f32) k := by
  unfold iblk0
  rw [View.read_apply]
  show V c main_arg5 _ = V c main_arg5 _
  congr 1
  funext a
  apply Fin.ext
  match a with
  | ⟨0, _⟩ => show win0_2.index t 0 * 1024 + 1 * (y 0).val = (k 0).val; rw [(idx0_2 t).1, hk0]; omega
  | ⟨1, _⟩ => show win0_2.index t 1 * 1024 + 1 * (y 1).val = (k 1).val; rw [(idx0_2 t).2, hk1]; omega

/-- Window 3's block index at point t. -/
theorem idx0_3 : ∀ t : Fin cfg0.N, win0_3.index t 0 = t.val / 8 ∧ win0_3.index t 1 = t.val % 8 :=
  (by decide +kernel : ∀ t : Fin grid0.N, win0_3.index t 0 = t.val / 8 ∧ win0_3.index t 1 = t.val % 8)

/-- An entry of window 3's block at point t is the array's entry at block index times block size plus the offset. -/
theorem iblk0_3_apply (c : Dev nD) (t : Fin cfg0.N) (y : S1024x1024.Idx) (k : S4096x8192.Idx)
    (hk0 : (k 0).val = (t.val / 8) * 1024 + (y 0).val) (hk1 : (k 1).val = (t.val % 8) * 1024 + (y 1).val) :
    (iblk0 V c 3 t : Vec F S1024x1024 .f32) y = (V c main_arg7 : S4096x8192.Idx → Elt F .f32) k := by
  unfold iblk0
  rw [View.read_apply]
  show V c main_arg7 _ = V c main_arg7 _
  congr 1
  funext a
  apply Fin.ext
  match a with
  | ⟨0, _⟩ => show win0_3.index t 0 * 1024 + 1 * (y 0).val = (k 0).val; rw [(idx0_3 t).1, hk0]; omega
  | ⟨1, _⟩ => show win0_3.index t 1 * 1024 + 1 * (y 1).val = (k 1).val; rw [(idx0_3 t).2, hk1]; omega

/-- Window 4's block index at point t. -/
theorem idx0_4 : ∀ t : Fin cfg0.N, win0_4.index t 0 = t.val / 8 ∧ win0_4.index t 1 = t.val % 8 :=
  (by decide +kernel : ∀ t : Fin grid0.N, win0_4.index t 0 = t.val / 8 ∧ win0_4.index t 1 = t.val % 8)

/-- An entry of window 4's block at point t is the array's entry at block index times block size plus the offset. -/
theorem iblk0_4_apply (c : Dev nD) (t : Fin cfg0.N) (y : S1024x1024.Idx) (k : S4096x8192.Idx)
    (hk0 : (k 0).val = (t.val / 8) * 1024 + (y 0).val) (hk1 : (k 1).val = (t.val % 8) * 1024 + (y 1).val) :
    (iblk0 V c 4 t : Vec F S1024x1024 .f32) y = (V c main_arg9 : S4096x8192.Idx → Elt F .f32) k := by
  unfold iblk0
  rw [View.read_apply]
  show V c main_arg9 _ = V c main_arg9 _
  congr 1
  funext a
  apply Fin.ext
  match a with
  | ⟨0, _⟩ => show win0_4.index t 0 * 1024 + 1 * (y 0).val = (k 0).val; rw [(idx0_4 t).1, hk0]; omega
  | ⟨1, _⟩ => show win0_4.index t 1 * 1024 + 1 * (y 1).val = (k 1).val; rw [(idx0_4 t).2, hk1]; omega

/-- Window 5's block index at point t. -/
theorem idx0_5 : ∀ t : Fin cfg0.N, win0_5.index t 0 = 0 ∧ win0_5.index t 1 = t.val / 8 :=
  (by decide +kernel : ∀ t : Fin grid0.N, win0_5.index t 0 = 0 ∧ win0_5.index t 1 = t.val / 8)

/-- An entry of window 5's block at point t is the array's entry at block index times block size plus the offset. -/
theorem iblk0_5_apply (c : Dev nD) (t : Fin cfg0.N) (y : S1x1024.Idx) (k : S1x4096.Idx)
    (hk0 : (k 0).val = (0) * 1 + (y 0).val) (hk1 : (k 1).val = (t.val / 8) * 1024 + (y 1).val) :
    (iblk0 V c 5 t : Vec F S1x1024 .f32) y = (V c main_v1 : S1x4096.Idx → Elt F .f32) k := by
  unfold iblk0
  rw [View.read_apply]
  show V c main_v1 _ = V c main_v1 _
  congr 1
  funext a
  apply Fin.ext
  match a with
  | ⟨0, _⟩ => show win0_5.index t 0 * 1 + 1 * (y 0).val = (k 0).val; rw [(idx0_5 t).1, hk0]; omega
  | ⟨1, _⟩ => show win0_5.index t 1 * 1024 + 1 * (y 1).val = (k 1).val; rw [(idx0_5 t).2, hk1]; omega

/-- Window 6's block index at point t. -/
theorem idx0_6 : ∀ t : Fin cfg0.N, win0_6.index t 0 = 0 ∧ win0_6.index t 1 = t.val / 8 :=
  (by decide +kernel : ∀ t : Fin grid0.N, win0_6.index t 0 = 0 ∧ win0_6.index t 1 = t.val / 8)

/-- An entry of window 6's block at point t is the array's entry at block index times block size plus the offset. -/
theorem iblk0_6_apply (c : Dev nD) (t : Fin cfg0.N) (y : S1x1024.Idx) (k : S1x4096.Idx)
    (hk0 : (k 0).val = (0) * 1 + (y 0).val) (hk1 : (k 1).val = (t.val / 8) * 1024 + (y 1).val) :
    (iblk0 V c 6 t : Vec F S1x1024 .f32) y = (V c main_v2 : S1x4096.Idx → Elt F .f32) k := by
  unfold iblk0
  rw [View.read_apply]
  show V c main_v2 _ = V c main_v2 _
  congr 1
  funext a
  apply Fin.ext
  match a with
  | ⟨0, _⟩ => show win0_6.index t 0 * 1 + 1 * (y 0).val = (k 0).val; rw [(idx0_6 t).1, hk0]; omega
  | ⟨1, _⟩ => show win0_6.index t 1 * 1024 + 1 * (y 1).val = (k 1).val; rw [(idx0_6 t).2, hk1]; omega

/-- Window 7's block index at point t. -/
theorem idx0_7 : ∀ t : Fin cfg0.N, win0_7.index t 0 = 0 ∧ win0_7.index t 1 = t.val / 8 :=
  (by decide +kernel : ∀ t : Fin grid0.N, win0_7.index t 0 = 0 ∧ win0_7.index t 1 = t.val / 8)

/-- An entry of window 7's block at point t is the array's entry at block index times block size plus the offset. -/
theorem iblk0_7_apply (c : Dev nD) (t : Fin cfg0.N) (y : S1x1024.Idx) (k : S1x4096.Idx)
    (hk0 : (k 0).val = (0) * 1 + (y 0).val) (hk1 : (k 1).val = (t.val / 8) * 1024 + (y 1).val) :
    (iblk0 V c 7 t : Vec F S1x1024 .f32) y = (V c main_v3 : S1x4096.Idx → Elt F .f32) k := by
  unfold iblk0
  rw [View.read_apply]
  show V c main_v3 _ = V c main_v3 _
  congr 1
  funext a
  apply Fin.ext
  match a with
  | ⟨0, _⟩ => show win0_7.index t 0 * 1 + 1 * (y 0).val = (k 0).val; rw [(idx0_7 t).1, hk0]; omega
  | ⟨1, _⟩ => show win0_7.index t 1 * 1024 + 1 * (y 1).val = (k 1).val; rw [(idx0_7 t).2, hk1]; omega

/-- Window 8's block index at point t. -/
theorem idx0_8 : ∀ t : Fin cfg0.N, win0_8.index t 0 = 0 ∧ win0_8.index t 1 = t.val / 8 :=
  (by decide +kernel : ∀ t : Fin grid0.N, win0_8.index t 0 = 0 ∧ win0_8.index t 1 = t.val / 8)

/-- An entry of window 8's block at point t is the array's entry at block index times block size plus the offset. -/
theorem iblk0_8_apply (c : Dev nD) (t : Fin cfg0.N) (y : S1x1024.Idx) (k : S1x4096.Idx)
    (hk0 : (k 0).val = (0) * 1 + (y 0).val) (hk1 : (k 1).val = (t.val / 8) * 1024 + (y 1).val) :
    (iblk0 V c 8 t : Vec F S1x1024 .f32) y = (V c main_v4 : S1x4096.Idx → Elt F .f32) k := by
  unfold iblk0
  rw [View.read_apply]
  show V c main_v4 _ = V c main_v4 _
  congr 1
  funext a
  apply Fin.ext
  match a with
  | ⟨0, _⟩ => show win0_8.index t 0 * 1 + 1 * (y 0).val = (k 0).val; rw [(idx0_8 t).1, hk0]; omega
  | ⟨1, _⟩ => show win0_8.index t 1 * 1024 + 1 * (y 1).val = (k 1).val; rw [(idx0_8 t).2, hk1]; omega

/-- Window 9's block index at point t. -/
theorem idx0_9 : ∀ t : Fin cfg0.N, win0_9.index t 0 = 0 ∧ win0_9.index t 1 = t.val / 8 :=
  (by decide +kernel : ∀ t : Fin grid0.N, win0_9.index t 0 = 0 ∧ win0_9.index t 1 = t.val / 8)

/-- An entry of window 9's block at point t is the array's entry at block index times block size plus the offset. -/
theorem iblk0_9_apply (c : Dev nD) (t : Fin cfg0.N) (y : S1x1024.Idx) (k : S1x4096.Idx)
    (hk0 : (k 0).val = (0) * 1 + (y 0).val) (hk1 : (k 1).val = (t.val / 8) * 1024 + (y 1).val) :
    (iblk0 V c 9 t : Vec F S1x1024 .f32) y = (V c main_arg2 : S1x4096.Idx → Elt F .f32) k := by
  unfold iblk0
  rw [View.read_apply]
  show V c main_arg2 _ = V c main_arg2 _
  congr 1
  funext a
  apply Fin.ext
  match a with
  | ⟨0, _⟩ => show win0_9.index t 0 * 1 + 1 * (y 0).val = (k 0).val; rw [(idx0_9 t).1, hk0]; omega
  | ⟨1, _⟩ => show win0_9.index t 1 * 1024 + 1 * (y 1).val = (k 1).val; rw [(idx0_9 t).2, hk1]; omega

end Cert.KernelIdeal.Hand

end
-- ==== Proof.LibMatmulTransposedRhs.lean ====
/-
  A matrix product with the right operand given row by row, read at one entry, over the extended reals.

  For any extents M, K, N: the product of an M×K matrix and an N×K matrix in which the left operand's axis 1 is
  contracted with the right operand's axis 1 (no batch axes) — the left matrix times the transpose of the right one —,
  accumulated into the zero matrix, is at entry (p, n) the sum over k of left(p, k) · right(n, k). The accumulator
  contributes 0 + ·, the contraction index is one coordinate k, and the operand indices at (p, n) and k are (p, k) and
  (n, k).
-/
import Idealize.ShloMosaic.Lib.ValueIdx
import Idealize.ShloMosaic.PureOps.Ideal.Laws

namespace Cert.LibMatmulTransposedRhs

open Idealize.ShloMosaic Idealize.ShloMosaic.ValueIdx

/-- The left operand's index at result entry `(p, n)` and contraction coordinate `k` is `(p, k)`. -/
theorem lhsIdx_at {M K N : ℕ} (p : Fin M) (n : Fin N) (k : Fin K) :
    (DotDims.transposedRhs M K N).lhsIdx (ix2 p n) ((contrEquiv1 (DotDims.transposedRhs M K N) K rfl rfl).symm k) = ix2 p k :=
  funext fun a => Fin.ext (by
    match a with
    | ⟨0, _⟩ => rfl
    | ⟨1, _⟩ =>
      exact ((DotDims.transposedRhs M K N).lhsIdx_val_of_single rfl _ _).trans
        (contrEquiv1_symm_val (DotDims.transposedRhs M K N) K rfl rfl k))

/-- The right operand's index at result entry `(p, n)` and contraction coordinate `k` is `(n, k)`. -/
theorem rhsIdx_at {M K N : ℕ} (p : Fin M) (n : Fin N) (k : Fin K) :
    (DotDims.transposedRhs M K N).rhsIdx (ix2 p n) ((contrEquiv1 (DotDims.transposedRhs M K N) K rfl rfl).symm k) = ix2 n k :=
  funext fun a => Fin.ext (by
    match a with
    | ⟨0, _⟩ => rfl
    | ⟨1, _⟩ =>
      exact ((DotDims.transposedRhs M K N).rhsIdx_val_of_single rfl _ _).trans
        (contrEquiv1_symm_val (DotDims.transposedRhs M K N) K rfl rfl k))

/-- An M×K matrix times the transpose of an N×K matrix into the zero accumulator, at entry `(p, n)`:
    `∑ k, l (p, k) * r (n, k)`. -/
theorem matmul_zero_apply {M K N : ℕ} {φ₁ φ₂ : FTy} (prec : Option ContractPrecision)
    (l : FVec Ideal ⟨2, ![M, K]⟩ φ₁) (r : FVec Ideal ⟨2, ![N, K]⟩ φ₂) (p : Fin M) (n : Fin N) :
    matmul (DotDims.transposedRhs M K N) prec l r (constant (F := Ideal) ⟨2, ![M, N]⟩ .f32 0x00000000#32) (ix2 p n)
      = ∑ k : Fin K, l (ix2 p k) * r (ix2 n k) := by
  show FloatOps.matmul _ _ _ _ _ _ = _
  rw [Ideal.matmul_constant_zero_apply, ← Equiv.sum_comp (contrEquiv1 (DotDims.transposedRhs M K N) K rfl rfl).symm]
  refine Finset.sum_congr rfl fun k _ => ?_
  rw [lhsIdx_at, rhsIdx_at]

/-- The same for any dimension-numbers record `D` that is this one (a printed program names its own record). -/
theorem matmul_eq_zero_apply {M K N : ℕ} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (p : Fin M) (n : Fin N) :
    matmul D prec l r (constant (F := Ideal) ⟨2, ![M, N]⟩ .f32 0x00000000#32) (ix2 p n)
      = ∑ k : Fin K, l (ix2 p k) * r (ix2 n k) := by
  subst hD; exact matmul_zero_apply prec l r p n

end Cert.LibMatmulTransposedRhs
-- ==== Proof.Pay.lean ====
/-
  The arithmetic of the gates kernel's stores, entry by entry over the extended reals. An accumulator update adds to
  entry j of the accumulator the product of the point's block of the joined row with row j of the point's weight
  block; the clearing stores write zero; at a last contraction block the new cell entry is
  s(f + b_f) * c + s(i + b_i) * tanh(g + b_g) and the new hidden entry s(o + b_o) * tanh of that, with s the logistic
  function and f, i, o, g the four accumulators' entries.
-/
import proofs.«125930_j21131239097236_2_alg».proof.Proof.Gen.KernelIdeal.Skeleton
import proofs.«125930_j21131239097236_2_alg».proof.Proof.LibMatmulTransposedRhs
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.ValueIdx Idealize.ShloMosaic.Pipeline
open Cert.KernelIdeal Cert.KernelIdeal.Gen
open scoped BigOperators

/-! ## The gates kernel -/

/-- The forget accumulator's update at entry j. -/
theorem accF_apply (x acc : Vec Ideal S1x1024 .f32) (w : Vec Ideal S1024x1024 .f32) (j : Fin 1024) :
    k0_pay9 (F := Ideal) x acc w (ix2 (0 : Fin 1) j)
      = acc (ix2 (0 : Fin 1) j) + ∑ k : Fin 1024, x (ix2 (0 : Fin 1) k) * w (ix2 j k) := by
  unfold k0_pay9 k0_pay8
  simp only [shapeCast_self]
  exact congrArg (acc (ix2 (0 : Fin 1) j) + ·)
    (Cert.LibMatmulTransposedRhs.matmul_eq_zero_apply (M := 1) (K := 1024) (N := 1024) _ rfl none x w (0 : Fin 1) j)

/-- The input accumulator's update at entry j. -/
theorem accI_apply (x acc : Vec Ideal S1x1024 .f32) (w : Vec Ideal S1024x1024 .f32) (j : Fin 1024) :
    k0_pay10 (F := Ideal) x acc w (ix2 (0 : Fin 1) j)
      = acc (ix2 (0 : Fin 1) j) + ∑ k : Fin 1024, x (ix2 (0 : Fin 1) k) * w (ix2 j k) := by
  unfold k0_pay10 k0_pay8
  simp only [shapeCast_self]
  exact congrArg (acc (ix2 (0 : Fin 1) j) + ·)
    (Cert.LibMatmulTransposedRhs.matmul_eq_zero_apply (M := 1) (K := 1024) (N := 1024) _ rfl none x w (0 : Fin 1) j)

/-- The output accumulator's update at entry j. -/
theorem accO_apply (x acc : Vec Ideal S1x1024 .f32) (w : Vec Ideal S1024x1024 .f32) (j : Fin 1024) :
    k0_pay11 (F := Ideal) x acc w (ix2 (0 : Fin 1) j)
      = acc (ix2 (0 : Fin 1) j) + ∑ k : Fin 1024, x (ix2 (0 : Fin 1) k) * w (ix2 j k) := by
  unfold k0_pay11 k0_pay8
  simp only [shapeCast_self]
  exact congrArg (acc (ix2 (0 : Fin 1) j) + ·)
    (Cert.LibMatmulTransposedRhs.matmul_eq_zero_apply (M := 1) (K := 1024) (N := 1024) _ rfl none x w (0 : Fin 1) j)

/-- The candidate accumulator's update at entry j (its left operand is the joined row's block itself). -/
theorem accG_apply (x acc : Vec Ideal S1x1024 .f32) (w : Vec Ideal S1024x1024 .f32) (j : Fin 1024) :
    k0_pay1 (F := Ideal) x acc w (ix2 (0 : Fin 1) j)
      = acc (ix2 (0 : Fin 1) j) + ∑ k : Fin 1024, x (ix2 (0 : Fin 1) k) * w (ix2 j k) := by
  unfold k0_pay1
  simp only [shapeCast_self]
  exact congrArg (acc (ix2 (0 : Fin 1) j) + ·)
    (Cert.LibMatmulTransposedRhs.matmul_eq_zero_apply (M := 1) (K := 1024) (N := 1024) _ rfl none x w (0 : Fin 1) j)

/-- The joined row's block passes through a trivial shape cast. -/
theorem row_pass (x : Vec Ideal S1x1024 .f32) : k0_pay8 (F := Ideal) x = x := by
  unfold k0_pay8; exact shapeCast_self _ _

/-- The clearing stores write zero at every entry. -/
theorem clearF_apply (j : S1x1024.Idx) : k0_pay4 (F := Ideal) j = 0 := by
  unfold k0_pay4; simp only [shapeCast_self]; exact Ideal.ofBits_zero_f32
theorem clearI_apply (j : S1x1024.Idx) : k0_pay5 (F := Ideal) j = 0 := by
  unfold k0_pay5; simp only [shapeCast_self]; exact Ideal.ofBits_zero_f32
theorem clearO_apply (j : S1x1024.Idx) : k0_pay6 (F := Ideal) j = 0 := by
  unfold k0_pay6; simp only [shapeCast_self]; exact Ideal.ofBits_zero_f32
theorem clearG_apply (j : S1x1024.Idx) : k0_pay7 (F := Ideal) j = 0 := by
  unfold k0_pay7; simp only [shapeCast_self]; exact Ideal.ofBits_zero_f32

/-- The new cell entry. -/
theorem cell_apply (f bf i bi g bg c : Vec Ideal S1x1024 .f32) (j : S1x1024.Idx) :
    k0_pay2 (F := Ideal) f bf i bi g bg c j
      = Ideal.logistic (f j + bf j) * c j + Ideal.logistic (i j + bi j) * Ideal.tanh (g j + bg j) := by
  unfold k0_pay2; simp only [shapeCast_self]; rfl

/-- The new hidden entry. -/
theorem hidden_apply (f bf i bi o bo g bg c : Vec Ideal S1x1024 .f32) (j : S1x1024.Idx) :
    k0_pay3 (F := Ideal) f bf i bi o bo g bg c j
      = Ideal.logistic (o j + bo j) * Ideal.tanh (k0_pay2 (F := Ideal) f bf i bi g bg c j) := by
  unfold k0_pay3; simp only [shapeCast_self]; rfl

/-! ## The projection kernel -/

/-- The projection accumulator's update at entry j. -/
theorem accP_apply (acc : Vec Ideal S1x3200 .f32) (x : Vec Ideal S1x1024 .f32) (w : Vec Ideal S3200x1024 .f32) (j : Fin 3200) :
    k1_pay2 (F := Ideal) acc x w (ix2 (0 : Fin 1) j)
      = acc (ix2 (0 : Fin 1) j) + ∑ k : Fin 1024, x (ix2 (0 : Fin 1) k) * w (ix2 j k) := by
  unfold k1_pay2
  simp only [shapeCast_self]
  exact congrArg (acc (ix2 (0 : Fin 1) j) + ·)
    (Cert.LibMatmulTransposedRhs.matmul_eq_zero_apply (M := 1) (K := 1024) (N := 3200) _ rfl none x w (0 : Fin 1) j)

theorem clearP_apply (j : S1x3200.Idx) : k1_pay1 (F := Ideal) j = 0 := by
  unfold k1_pay1; simp only [shapeCast_self]; exact Ideal.ofBits_zero_f32

/-- The output block: the accumulator plus the bias block. -/
theorem outP_apply (acc b : Vec Ideal S1x3200 .f32) (j : S1x3200.Idx) :
    k1_pay3 (F := Ideal) acc b j = acc j + b j := by
  unfold k1_pay3; simp only [shapeCast_self]; rfl

end Cert.KernelIdeal.Val

end
-- ==== Proof.LibGemmSplit.lean ====
/-
  Sums cut into equal blocks, and a sum over the four elements of `Fin 4` taken in any order: general facts over an
  additive commutative monoid (the extended reals are one: no finiteness is asked anywhere), and two regroupings of a
  product in a commutative monoid. Nothing here mentions a program.
-/
import Mathlib.Algebra.BigOperators.Fin
import Mathlib.Algebra.BigOperators.Group.Finset.Basic
import Mathlib.Data.Fintype.BigOperators
import Mathlib.Data.EReal.Inv
import Mathlib.Logic.Equiv.Fin.Basic

open scoped BigOperators

namespace Cert.LibGemmSplit

/-- Position `j` of block `c`, of `n` blocks of length `b` laid end to end, is below the total length. -/
theorem blk_lt {N n b : ℕ} (h : n * b = N) (c : Fin n) (j : Fin b) : b * c.val + j.val < N := by
  have hc : c.val + 1 ≤ n := c.isLt
  calc b * c.val + j.val < b * c.val + b := Nat.add_lt_add_left j.isLt _
    _ = b * (c.val + 1) := (Nat.mul_succ _ _).symm
    _ ≤ b * n := Nat.mul_le_mul_left _ hc
    _ = N := by rw [Nat.mul_comm, h]

/-- A sum over `Fin N`, `N = n * b`, is the sum over the `n` consecutive blocks of length `b` of each block's sum:
    `∑ k, f k = ∑ c, ∑ j, f (b * c + j)`. Only commutativity and associativity of `+` are used. -/
theorem sum_blocks {M : Type*} [AddCommMonoid M] {N n b : ℕ} (h : n * b = N) (f : Fin N → M) :
    ∑ k : Fin N, f k = ∑ c : Fin n, ∑ j : Fin b, f ⟨b * c.val + j.val, blk_lt h c j⟩ := by
  subst h
  rw [← Equiv.sum_comp finProdFinEquiv f, Fintype.sum_prod_type]
  refine Finset.sum_congr rfl fun c _ => Finset.sum_congr rfl fun j _ => congrArg f (Fin.ext ?_)
  show j.val + b * c.val = b * c.val + j.val
  exact Nat.add_comm _ _

/-- The case of this file's name: 1024 terms as 4 blocks of 256. -/
theorem sum_1024_eq_4x256 {M : Type*} [AddCommMonoid M] (f : Fin 1024 → M) :
    ∑ k : Fin 1024, f k = ∑ c : Fin 4, ∑ j : Fin 256, f ⟨256 * c.val + j.val, blk_lt (by norm_num) c j⟩ :=
  sum_blocks (n := 4) (b := 256) (by norm_num) f

/-- Four pairwise distinct elements of `Fin 4` are all of them. -/
theorem univ_eq_of_distinct : ∀ a b c d : Fin 4, a ≠ b → a ≠ c → a ≠ d → b ≠ c → b ≠ d → c ≠ d →
    (Finset.univ : Finset (Fin 4)) = {a, b, c, d} := by decide

/-- The values of `g` at four pairwise distinct elements of `Fin 4`, added in that order (grouped from the right),
    are the sum of `g` over `Fin 4`. -/
theorem sum_four_distinct {M : Type*} [AddCommMonoid M] (g : Fin 4 → M) (a b c d : Fin 4)
    (hab : a ≠ b) (hac : a ≠ c) (had : a ≠ d) (hbc : b ≠ c) (hbd : b ≠ d) (hcd : c ≠ d) :
    g a + (g b + (g c + g d)) = ∑ i : Fin 4, g i := by
  rw [univ_eq_of_distinct a b c d hab hac had hbc hbd hcd,
    Finset.sum_insert (by simp [hab, hac, had]), Finset.sum_insert (by simp [hbc, hbd]),
    Finset.sum_insert (by simp [hcd]), Finset.sum_singleton]

/-- The same for the four values of a bijection of `Fin 4`. -/
theorem sum_four_perm {M : Type*} [AddCommMonoid M] (g : Fin 4 → M) (σ : Fin 4 ≃ Fin 4) :
    g (σ 0) + (g (σ 1) + (g (σ 2) + g (σ 3))) = ∑ i : Fin 4, g i := by
  rw [← Equiv.sum_comp σ g, Fin.sum_univ_four, add_assoc, add_assoc]

/-- In a commutative monoid (the extended reals under `*`): `((k * y) * y) * y = k * ((y * y) * y)`. -/
theorem mul_cube_assoc {M : Type*} [CommMonoid M] (k y : M) : ((k * y) * y) * y = k * ((y * y) * y) := by
  rw [mul_assoc k y y, mul_assoc k (y * y) y]

/-- The same on the extended reals, where it is used. -/
theorem ereal_mul_cube_assoc (k y : EReal) : ((k * y) * y) * y = k * ((y * y) * y) := mul_cube_assoc k y

end Cert.LibGemmSplit
-- ==== Proof.LibRunningTotal.lean ====
/-
  A running total over an additive commutative monoid (no subtraction, no order, nothing asked to be finite — the
  extended reals are an instance): starting from zero and adding one term at a time on the right, in order, gives
  the sum of the terms; and the same when the first step overwrites whatever was there with `0 + s 0` instead of
  reading it.  This is the arithmetic of an accumulator that is cleared at the first of `n` consecutive steps and
  added into at every step, for example an output block kept resident while a contraction is taken in `n` blocks.
-/
import Mathlib.Algebra.BigOperators.Fin
import Mathlib.Algebra.BigOperators.Group.Finset.Basic
import Mathlib.Data.Fintype.BigOperators

open scoped BigOperators

namespace Cert.LibRunningTotal

/-- A running total `a` over `n` terms: `a 0 = 0` and each step adds the next term on the right, `a (k + 1) = a k + s k`.
    After `m ≤ n` steps it is the sum of the first `m` terms. -/
theorem acc_prefix {M : Type*} [AddCommMonoid M] {n : ℕ} (s : Fin n → M) (a : ℕ → M) (h0 : a 0 = 0)
    (hstep : ∀ k (hk : k < n), a (k + 1) = a k + s ⟨k, hk⟩) :
    ∀ m (hm : m ≤ n), a m = ∑ k : Fin m, s (Fin.castLE hm k) := by
  intro m
  induction m with
  | zero => intro _; rw [h0]; exact (Finset.sum_empty).symm
  | succ m ih =>
    intro hm
    rw [hstep m hm, ih (Nat.le_of_succ_le hm), Fin.sum_univ_castSucc]
    rfl

/-- After all `n` steps the running total is the sum of all the terms. -/
theorem acc_total {M : Type*} [AddCommMonoid M] {n : ℕ} (s : Fin n → M) (a : ℕ → M) (h0 : a 0 = 0)
    (hstep : ∀ k (hk : k < n), a (k + 1) = a k + s ⟨k, hk⟩) : a n = ∑ k : Fin n, s k :=
  (acc_prefix s a h0 hstep n le_rfl).trans (Finset.sum_congr rfl fun _ _ => congrArg s (Fin.ext rfl))

/-- The same when the first step does not read what was there before but writes `0 + s 0` (the total is cleared, then
    the first term added), and every later step adds its term on the right. -/
theorem acc_total_cleared {M : Type*} [AddCommMonoid M] {n : ℕ} (s : Fin (n + 1) → M) (a : ℕ → M)
    (hfirst : a 1 = 0 + s 0)
    (hstep : ∀ k (hk : k < n + 1), 0 < k → a (k + 1) = a k + s ⟨k, hk⟩) : a (n + 1) = ∑ k : Fin (n + 1), s k := by
  let a' : ℕ → M := fun k => if k = 0 then 0 else a k
  have h0 : a' 0 = 0 := if_pos rfl
  have hs : ∀ k (hk : k < n + 1), a' (k + 1) = a' k + s ⟨k, hk⟩ := by
    intro k hk
    show (if k + 1 = 0 then 0 else a (k + 1)) = (if k = 0 then 0 else a k) + s ⟨k, hk⟩
    rw [if_neg (Nat.succ_ne_zero k)]
    by_cases hk0 : k = 0
    · subst hk0; rw [if_pos rfl]; exact hfirst
    · rw [if_neg hk0]; exact hstep k hk (Nat.pos_of_ne_zero hk0)
  have := acc_total s a' h0 hs
  rwa [show a' (n + 1) = a (n + 1) from if_neg (Nat.succ_ne_zero n)] at this

end Cert.LibRunningTotal
-- ==== Proof.BlockSum.lean ====
/-
  A long sum taken in equal consecutive blocks, and a running total, over any additive commutative monoid (the extended
  reals are one; nothing is asked to be finite: only commutativity and associativity of the sum are used).

  (a) A sum over n * b terms is the sum over the n blocks of the sum over the b positions inside a block, position j of
  block kb being term kb * b + j. The two cases used: 8192 terms as 8 blocks of 1024, and 4096 terms as 4 blocks of 1024.
  (b) A total that starts as 0 + s 0 and has the next term added on the right at every later step is, after step k,
  the sum of the terms 0, ..., k.
-/
import proofs.«125930_j21131239097236_2_alg».proof.Proof.LibGemmSplit
import proofs.«125930_j21131239097236_2_alg».proof.Proof.LibRunningTotal
import Mathlib.Algebra.BigOperators.Intervals

noncomputable section

open scoped BigOperators

namespace Cert.BlockSum

/-! ## Blocks -/

/-- Position j of block kb, of n blocks of length b laid end to end, is below n * b. -/
theorem blk_lt {n b : ℕ} (kb : Fin n) (j : Fin b) : kb.val * b + j.val < n * b := by
  have h := Cert.LibGemmSplit.blk_lt (N := n * b) rfl kb j
  rwa [Nat.mul_comm b kb.val] at h

/-- A sum over n * b terms, block by block. -/
theorem sum_blocks {M : Type*} [AddCommMonoid M] (n b : ℕ) (f : Fin (n * b) → M) :
    ∑ k : Fin (n * b), f k = ∑ kb : Fin n, ∑ j : Fin b, f ⟨kb.val * b + j.val, blk_lt kb j⟩ := by
  rw [Cert.LibGemmSplit.sum_blocks (N := n * b) (n := n) (b := b) rfl f]
  refine Finset.sum_congr rfl fun kb _ => Finset.sum_congr rfl fun j _ => congrArg f (Fin.ext ?_)
  show b * kb.val + j.val = kb.val * b + j.val
  rw [Nat.mul_comm]

/-- 8192 terms as 8 blocks of 1024. -/
theorem sum_8192 {M : Type*} [AddCommMonoid M] (f : Fin 8192 → M) :
    ∑ k : Fin 8192, f k
      = ∑ kb : Fin 8, ∑ j : Fin 1024,
          f ⟨kb.val * 1024 + j.val, by have := kb.isLt; have := j.isLt; omega⟩ := by
  rw [Cert.LibGemmSplit.sum_blocks (N := 8192) (n := 8) (b := 1024) (by norm_num) f]
  refine Finset.sum_congr rfl fun kb _ => Finset.sum_congr rfl fun j _ => congrArg f (Fin.ext ?_)
  show 1024 * kb.val + j.val = kb.val * 1024 + j.val
  omega

/-- 4096 terms as 4 blocks of 1024. -/
theorem sum_4096 {M : Type*} [AddCommMonoid M] (f : Fin 4096 → M) :
    ∑ k : Fin 4096, f k
      = ∑ kb : Fin 4, ∑ j : Fin 1024,
          f ⟨kb.val * 1024 + j.val, by have := kb.isLt; have := j.isLt; omega⟩ := by
  rw [Cert.LibGemmSplit.sum_blocks (N := 4096) (n := 4) (b := 1024) (by norm_num) f]
  refine Finset.sum_congr rfl fun kb _ => Finset.sum_congr rfl fun j _ => congrArg f (Fin.ext ?_)
  show 1024 * kb.val + j.val = kb.val * 1024 + j.val
  omega

/-! ## Running totals -/

/-- After step k the total is the sum of the terms 0, ..., k, when the steps up to a bound n follow the rule. -/
theorem total_prefix {M : Type*} [AddCommMonoid M] (n : ℕ) (s a : ℕ → M) (h0 : a 0 = 0 + s 0)
    (hstep : ∀ k, k + 1 < n → a (k + 1) = a k + s (k + 1)) :
    ∀ k, k < n → a k = ∑ i ∈ Finset.range (k + 1), s i := by
  intro k
  induction k with
  | zero => intro _; rw [h0, zero_add, Finset.sum_range_one]
  | succ k ih =>
    intro hk
    rw [hstep k hk, ih (Nat.lt_of_succ_lt hk)]
    exact (Finset.sum_range_succ s (k + 1)).symm

/-- The same with no bound on the steps. -/
theorem total_range {M : Type*} [AddCommMonoid M] (s a : ℕ → M) (h0 : a 0 = 0 + s 0)
    (hstep : ∀ k, a (k + 1) = a k + s (k + 1)) (k : ℕ) : a k = ∑ i ∈ Finset.range (k + 1), s i :=
  total_prefix (k + 1) s a h0 (fun j _ => hstep j) k (Nat.lt_succ_self k)

/-- After the last of n + 1 steps the total is the sum of all n + 1 terms, indexed by Fin (n + 1). -/
theorem total_fin {M : Type*} [AddCommMonoid M] (n : ℕ) (s a : ℕ → M) (h0 : a 0 = 0 + s 0)
    (hstep : ∀ k, k + 1 < n + 1 → a (k + 1) = a k + s (k + 1)) :
    a n = ∑ i : Fin (n + 1), s i.val := by
  rw [total_prefix (n + 1) s a h0 hstep n (Nat.lt_succ_self n)]
  exact Finset.sum_range s

/-- Eight steps. -/
theorem total_8 {M : Type*} [AddCommMonoid M] (s a : ℕ → M) (h0 : a 0 = 0 + s 0)
    (hstep : ∀ k, k + 1 < 8 → a (k + 1) = a k + s (k + 1)) : a 7 = ∑ i : Fin 8, s i.val :=
  total_fin 7 s a h0 hstep

/-- Four steps. -/
theorem total_4 {M : Type*} [AddCommMonoid M] (s a : ℕ → M) (h0 : a 0 = 0 + s 0)
    (hstep : ∀ k, k + 1 < 4 → a (k + 1) = a k + s (k + 1)) : a 3 = ∑ i : Fin 4, s i.val :=
  total_fin 3 s a h0 hstep

/-- Eight steps, the total indexed by the number of steps taken and the terms by Fin 8: the first step writes
    0 + s 0 whatever was there, every later step adds its term on the right. -/
theorem total_cleared_8 {M : Type*} [AddCommMonoid M] (s : Fin 8 → M) (a : ℕ → M) (hfirst : a 1 = 0 + s 0)
    (hstep : ∀ k (hk : k < 8), 0 < k → a (k + 1) = a k + s ⟨k, hk⟩) : a 8 = ∑ k : Fin 8, s k :=
  Cert.LibRunningTotal.acc_total_cleared (n := 7) s a hfirst hstep

/-- Four steps, in the same form. -/
theorem total_cleared_4 {M : Type*} [AddCommMonoid M] (s : Fin 4 → M) (a : ℕ → M) (hfirst : a 1 = 0 + s 0)
    (hstep : ∀ k (hk : k < 4), 0 < k → a (k + 1) = a k + s ⟨k, hk⟩) : a 4 = ∑ k : Fin 4, s k :=
  Cert.LibRunningTotal.acc_total_cleared (n := 3) s a hfirst hstep

end Cert.BlockSum

end
-- ==== Proof.Spec.lean ====
/-
  One step of a long short-term memory cell on a single row, a linear read-out of the new hidden row, and a
  log-softmax of the read-out, written entry by entry over the extended reals as functions of the argument arrays.

  The arguments: the input row x, the hidden row h and the cell row c, each of 4096 entries; four gate matrices of
  4096 rows and 8192 columns with a bias column each (forget, input, output, candidate); a read-out matrix of 32000 rows
  and 4096 columns with its bias column.

  Write u for the row x followed by the row h (8192 entries). For a gate matrix W with bias b, row r has the
  pre-activation  (sum over k of W[r,k] * u[k]) + b[r].  With s the logistic function,
      c'[r] = s(pre_f r) * c[r] + s(pre_i r) * tanh(pre_c r),      h'[r] = s(pre_o r) * tanh(c'[r]),
      logit[n] = (sum over k of W_out[n,k] * h'[k]) + b_out[n],
  and the first result is the log-softmax of the logit row: the row less its maximum, less the logarithm of the sum of
  the exponentials of that difference. Nothing here mentions a program.
-/
import Idealize.ShloMosaic.PureOps.Ideal
import Idealize.ShloMosaic.Lib.ValueIdx
import Idealize.ShloMosaic.Lib.ValueLayout

noncomputable section

open Idealize.ShloMosaic Idealize.ShloMosaic.ValueIdx
open scoped BigOperators

namespace Cert.Spec

/-! ## The shapes -/

abbrev S1x4096 : Shape := ⟨2, ![1, 4096]⟩
abbrev S1x8192 : Shape := ⟨2, ![1, 8192]⟩
abbrev S4096x8192 : Shape := ⟨2, ![4096, 8192]⟩
abbrev S4096x1 : Shape := ⟨2, ![4096, 1]⟩
abbrev S32000x4096 : Shape := ⟨2, ![32000, 4096]⟩
abbrev S32000x1 : Shape := ⟨2, ![32000, 1]⟩
abbrev S1x32000 : Shape := ⟨2, ![1, 32000]⟩
abbrev S_ : Shape := ⟨0, ![]⟩
abbrev S1 : Shape := ⟨1, ![1]⟩
abbrev S1x1 : Shape := ⟨2, ![1, 1]⟩

/-! ## The joined row -/

/-- Entry k of the row x followed by the row h: x[k] for k below 4096, else h[k - 4096]. -/
def comb {α : Type} (x h : S1x4096.Idx → α) (k : Fin 8192) : α :=
  if hk : k.val < 4096 then x (ix2 (0 : Fin 1) (⟨k.val, hk⟩ : Fin 4096))
  else h (ix2 (0 : Fin 1) (⟨k.val - 4096, by have := k.isLt; omega⟩ : Fin 4096))

theorem comb_of_lt {α : Type} (x h : S1x4096.Idx → α) (k : Fin 8192) (hk : k.val < 4096) :
    comb x h k = x (ix2 (0 : Fin 1) (⟨k.val, hk⟩ : Fin 4096)) := dif_pos hk

theorem comb_of_ge {α : Type} (x h : S1x4096.Idx → α) (k : Fin 8192) (hk : 4096 ≤ k.val) :
    comb x h k = h (ix2 (0 : Fin 1) (⟨k.val - 4096, by have := k.isLt; omega⟩ : Fin 4096)) :=
  dif_neg (Nat.not_lt.2 hk)

/-- The concatenation of the two rows along the second axis, read at column k, is that entry. -/
theorem concatenate_apply {α : Type} (x h : S1x4096.Idx → α) (hc : Shape.Concatenates [S1x4096, S1x4096] S1x8192 1)
    (k : Fin 8192) :
    concatenate S1x8192 1 [⟨S1x4096, x⟩, ⟨S1x4096, h⟩] hc (ix2 (0 : Fin 1) k) = comb x h k := by
  by_cases hk : k.val < 4096
  · rw [comb_of_lt x h k hk]
    refine concatenate_pair_apply_left (1 : Fin S1x8192.rank) x h hc (ix2 (0 : Fin 1) k) rfl _ ?_
    intro b
    match b with
    | ⟨0, _⟩ => rfl
    | ⟨1, _⟩ => rfl
  · have hk' : 4096 ≤ k.val := Nat.not_lt.1 hk
    rw [comb_of_ge x h k hk']
    refine concatenate_pair_apply_right (1 : Fin S1x8192.rank) x h hc (ix2 (0 : Fin 1) k) rfl rfl _ ?_ ?_
    · intro b hb
      match b, hb with
      | ⟨0, _⟩, _ => rfl
      | ⟨1, _⟩, hb => exact absurd rfl hb
    · show k.val - 4096 + 4096 = k.val
      omega

/-! ## The cell -/

/-- Row r of a gate before its activation: the row of W against the joined row, plus the bias. -/
def pre (W : FVec Ideal S4096x8192 .f32) (b : FVec Ideal S4096x1 .f32) (x h : FVec Ideal S1x4096 .f32)
    (r : Fin 4096) : EReal :=
  (∑ k : Fin 8192, W (ix2 r k) * comb x h k) + b (ix2 r (0 : Fin 1))

/-- Entry r of the new cell row: forget gate times the old cell entry, plus input gate times the candidate. -/
def cNew (x h c : FVec Ideal S1x4096 .f32) (Wf : FVec Ideal S4096x8192 .f32) (bf : FVec Ideal S4096x1 .f32)
    (Wi : FVec Ideal S4096x8192 .f32) (bi : FVec Ideal S4096x1 .f32)
    (Wc : FVec Ideal S4096x8192 .f32) (bc : FVec Ideal S4096x1 .f32) (r : Fin 4096) : EReal :=
  Ideal.logistic (pre Wf bf x h r) * c (ix2 (0 : Fin 1) r)
    + Ideal.logistic (pre Wi bi x h r) * Ideal.tanh (pre Wc bc x h r)

/-- Entry r of the new hidden row: output gate times the hyperbolic tangent of the new cell entry. -/
def hNew (x h c : FVec Ideal S1x4096 .f32) (Wf : FVec Ideal S4096x8192 .f32) (bf : FVec Ideal S4096x1 .f32)
    (Wi : FVec Ideal S4096x8192 .f32) (bi : FVec Ideal S4096x1 .f32)
    (Wo : FVec Ideal S4096x8192 .f32) (bo : FVec Ideal S4096x1 .f32)
    (Wc : FVec Ideal S4096x8192 .f32) (bc : FVec Ideal S4096x1 .f32) (r : Fin 4096) : EReal :=
  Ideal.logistic (pre Wo bo x h r) * Ideal.tanh (cNew x h c Wf bf Wi bi Wc bc r)

/-- Entry n of the read-out: row n of the read-out matrix against the new hidden row, plus the bias. -/
def logit (x h c : FVec Ideal S1x4096 .f32) (Wf : FVec Ideal S4096x8192 .f32) (bf : FVec Ideal S4096x1 .f32)
    (Wi : FVec Ideal S4096x8192 .f32) (bi : FVec Ideal S4096x1 .f32)
    (Wo : FVec Ideal S4096x8192 .f32) (bo : FVec Ideal S4096x1 .f32)
    (Wc : FVec Ideal S4096x8192 .f32) (bc : FVec Ideal S4096x1 .f32)
    (Wout : FVec Ideal S32000x4096 .f32) (bout : FVec Ideal S32000x1 .f32) (n : Fin 32000) : EReal :=
  (∑ k : Fin 4096, Wout (ix2 n k) * hNew x h c Wf bf Wi bi Wo bo Wc bc k) + bout (ix2 n (0 : Fin 1))

/-! ## The results as arrays -/

/-- The new cell row as an array of one row and 4096 columns. -/
def cNewArr (x h c : FVec Ideal S1x4096 .f32) (Wf : FVec Ideal S4096x8192 .f32) (bf : FVec Ideal S4096x1 .f32)
    (Wi : FVec Ideal S4096x8192 .f32) (bi : FVec Ideal S4096x1 .f32)
    (Wc : FVec Ideal S4096x8192 .f32) (bc : FVec Ideal S4096x1 .f32) : FVec Ideal S1x4096 .f32 :=
  fun i => cNew x h c Wf bf Wi bi Wc bc (⟨(i 1).val, (i 1).isLt⟩ : Fin 4096)

/-- The new hidden row as an array of one row and 4096 columns. -/
def hNewArr (x h c : FVec Ideal S1x4096 .f32) (Wf : FVec Ideal S4096x8192 .f32) (bf : FVec Ideal S4096x1 .f32)
    (Wi : FVec Ideal S4096x8192 .f32) (bi : FVec Ideal S4096x1 .f32)
    (Wo : FVec Ideal S4096x8192 .f32) (bo : FVec Ideal S4096x1 .f32)
    (Wc : FVec Ideal S4096x8192 .f32) (bc : FVec Ideal S4096x1 .f32) : FVec Ideal S1x4096 .f32 :=
  fun i => hNew x h c Wf bf Wi bi Wo bo Wc bc (⟨(i 1).val, (i 1).isLt⟩ : Fin 4096)

/-- The read-out as an array of one row and 32000 columns. -/
def logits (x h c : FVec Ideal S1x4096 .f32) (Wf : FVec Ideal S4096x8192 .f32) (bf : FVec Ideal S4096x1 .f32)
    (Wi : FVec Ideal S4096x8192 .f32) (bi : FVec Ideal S4096x1 .f32)
    (Wo : FVec Ideal S4096x8192 .f32) (bo : FVec Ideal S4096x1 .f32)
    (Wc : FVec Ideal S4096x8192 .f32) (bc : FVec Ideal S4096x1 .f32)
    (Wout : FVec Ideal S32000x4096 .f32) (bout : FVec Ideal S32000x1 .f32) : FVec Ideal S1x32000 .f32 :=
  fun i => logit x h c Wf bf Wi bi Wo bo Wc bc Wout bout (⟨(i 1).val, (i 1).isLt⟩ : Fin 32000)

theorem cNewArr_ix2 (x h c : FVec Ideal S1x4096 .f32) (Wf : FVec Ideal S4096x8192 .f32) (bf : FVec Ideal S4096x1 .f32)
    (Wi : FVec Ideal S4096x8192 .f32) (bi : FVec Ideal S4096x1 .f32)
    (Wc : FVec Ideal S4096x8192 .f32) (bc : FVec Ideal S4096x1 .f32) (p : Fin 1) (r : Fin 4096) :
    cNewArr x h c Wf bf Wi bi Wc bc (ix2 p r) = cNew x h c Wf bf Wi bi Wc bc r := rfl

theorem hNewArr_ix2 (x h c : FVec Ideal S1x4096 .f32) (Wf : FVec Ideal S4096x8192 .f32) (bf : FVec Ideal S4096x1 .f32)
    (Wi : FVec Ideal S4096x8192 .f32) (bi : FVec Ideal S4096x1 .f32)
    (Wo : FVec Ideal S4096x8192 .f32) (bo : FVec Ideal S4096x1 .f32)
    (Wc : FVec Ideal S4096x8192 .f32) (bc : FVec Ideal S4096x1 .f32) (p : Fin 1) (r : Fin 4096) :
    hNewArr x h c Wf bf Wi bi Wo bo Wc bc (ix2 p r) = hNew x h c Wf bf Wi bi Wo bo Wc bc r := rfl

theorem logits_ix2 (x h c : FVec Ideal S1x4096 .f32) (Wf : FVec Ideal S4096x8192 .f32) (bf : FVec Ideal S4096x1 .f32)
    (Wi : FVec Ideal S4096x8192 .f32) (bi : FVec Ideal S4096x1 .f32)
    (Wo : FVec Ideal S4096x8192 .f32) (bo : FVec Ideal S4096x1 .f32)
    (Wc : FVec Ideal S4096x8192 .f32) (bc : FVec Ideal S4096x1 .f32)
    (Wout : FVec Ideal S32000x4096 .f32) (bout : FVec Ideal S32000x1 .f32) (p : Fin 1) (n : Fin 32000) :
    logits x h c Wf bf Wi bi Wo bo Wc bc Wout bout (ix2 p n) = logit x h c Wf bf Wi bi Wo bo Wc bc Wout bout n := rfl

/-! ## The log-softmax of a row of 32000 entries

Spelt in the host's operations, one for one: the maximum of the row (folded from minus infinity, and once more
against minus infinity), the row less that maximum, the exponentials of the difference summed from zero, the
logarithm of the sum, and the difference less that logarithm. -/

theorem reducesTo_S1x32000_S1 : S1x32000.ReducesTo [1] S1 := by decide
theorem pos_S_ : 0 < S_.numel := by decide
theorem bcast_S_S1 : S_.BroadcastsInDim S1 (![] : Fin 0 → Fin S1.rank) := by decide
theorem bcast_S1_S1x1 : S1.BroadcastsInDim S1x1 (![0] : Fin 1 → Fin S1x1.rank) := by decide
theorem bcast_S1x1_S1x32000 : S1x1.BroadcastsInDim S1x32000 (![0, 1] : Fin 2 → Fin S1x32000.rank) := by decide

/-- The row less its maximum. -/
def shifted (z : FVec Ideal S1x32000 .f32) : FVec Ideal S1x32000 .f32 :=
  subf z (broadcastInDim S1x32000 ![0, 1] bcast_S1x1_S1x32000
    (broadcastInDim S1x1 ![0] bcast_S1_S1x1
      (maximumf (broadcastInDim S1 ![] bcast_S_S1 (constant (F := Ideal) S_ .f32 0xFF800000#32))
        (Host.reduce FloatOps.maximumf z (constant (F := Ideal) S_ .f32 0xFF800000#32) reducesTo_S1x32000_S1 pos_S_))))

/-- The log-softmax of the row. -/
def tail (z : FVec Ideal S1x32000 .f32) : FVec Ideal S1x32000 .f32 :=
  subf (shifted z) (broadcastInDim S1x32000 ![0, 1] bcast_S1x1_S1x32000
    (Host.log (broadcastInDim S1x1 ![0] bcast_S1_S1x1
      (Host.reduceAdd (Host.exp (shifted z)) (constant (F := Ideal) S_ .f32 0x00000000#32)
        reducesTo_S1x32000_S1 pos_S_))))

end Cert.Spec

end
-- ==== Proof.KSpec.lean ====
/-
  The kernel side's closed forms, and that they are the specification's. The gates region works on the joined row u (the
  input row followed by the hidden row, as one array of 8192 columns) and on the biases as ROWS; the specification is
  stated over the two rows separately and over bias COLUMNS. Joining the rows is a concatenation along the columns,
  and a bias column read as a row is the same entries in the same order, so the two statements agree entry by entry.
-/
import proofs.«125930_j21131239097236_2_alg».proof.Proof.Spec
import Idealize.ShloMosaic.Lib.Pipeline.Value
import Idealize.ShloMosaic.Lib.ValueIdx
import Idealize.ShloMosaic.Lib.ValueLayout

noncomputable section

open Idealize.ShloMosaic Idealize.ShloMosaic.ValueIdx Idealize.ShloMosaic.Pipeline
open scoped BigOperators

namespace Cert.KSpec

open Cert.Spec

/-- Row r of a gate before its activation, over the joined row and the bias as a row. -/
def pre (W : FVec Ideal S4096x8192 .f32) (brow : FVec Ideal S1x4096 .f32) (u : FVec Ideal S1x8192 .f32) (r : Fin 4096) : EReal :=
  (∑ k : Fin 8192, W (ix2 r k) * u (ix2 (0 : Fin 1) k)) + brow (ix2 (0 : Fin 1) r)

/-- The new cell row. -/
def GC (u : FVec Ideal S1x8192 .f32) (Wf Wi Wg : FVec Ideal S4096x8192 .f32) (bf bi bg cc : FVec Ideal S1x4096 .f32) :
    FVec Ideal S1x4096 .f32 := fun i =>
  Ideal.logistic (pre Wf bf u ⟨(i 1).val, (i 1).isLt⟩) * cc (ix2 (0 : Fin 1) (⟨(i 1).val, (i 1).isLt⟩ : Fin 4096))
    + Ideal.logistic (pre Wi bi u ⟨(i 1).val, (i 1).isLt⟩) * Ideal.tanh (pre Wg bg u ⟨(i 1).val, (i 1).isLt⟩)

/-- The new hidden row. -/
def GH (u : FVec Ideal S1x8192 .f32) (Wf Wi Wo Wg : FVec Ideal S4096x8192 .f32) (bf bi bo bg cc : FVec Ideal S1x4096 .f32) :
    FVec Ideal S1x4096 .f32 := fun i =>
  Ideal.logistic (pre Wo bo u ⟨(i 1).val, (i 1).isLt⟩)
    * Ideal.tanh (GC u Wf Wi Wg bf bi bg cc (ix2 (0 : Fin 1) (⟨(i 1).val, (i 1).isLt⟩ : Fin 4096)))

theorem GC_ix2 (u : FVec Ideal S1x8192 .f32) (Wf Wi Wg : FVec Ideal S4096x8192 .f32) (bf bi bg cc : FVec Ideal S1x4096 .f32)
    (p : Fin 1) (r : Fin 4096) :
    GC u Wf Wi Wg bf bi bg cc (ix2 p r)
      = Ideal.logistic (pre Wf bf u r) * cc (ix2 (0 : Fin 1) r) + Ideal.logistic (pre Wi bi u r) * Ideal.tanh (pre Wg bg u r) := rfl

theorem GH_ix2 (u : FVec Ideal S1x8192 .f32) (Wf Wi Wo Wg : FVec Ideal S4096x8192 .f32) (bf bi bo bg cc : FVec Ideal S1x4096 .f32)
    (p : Fin 1) (r : Fin 4096) :
    GH u Wf Wi Wo Wg bf bi bo bg cc (ix2 p r)
      = Ideal.logistic (pre Wo bo u r) * Ideal.tanh (GC u Wf Wi Wg bf bi bg cc (ix2 (0 : Fin 1) r)) := rfl

/-! ## The bridge to the specification -/

/-- A bias column read as a row: entry (0, r) of the row is entry (r, 0) of the column. -/
theorem row_of_col (b : FVec Ideal S4096x1 .f32) (h : S4096x1.ShapeCasts S1x4096) (r : Fin 4096) :
    shapeCast S1x4096 b h (ix2 (0 : Fin 1) r) = b (ix2 r (0 : Fin 1)) :=
  shapeCast_apply b h (ix2 (0 : Fin 1) r) (ix2 r (0 : Fin 1)) (by
    rw [Shape.rowMajor_val_two, Shape.rowMajor_val_two]
    show r.val * 1 + 0 = 0 * 4096 + r.val
    omega)

theorem row_of_col_out (b : FVec Ideal S32000x1 .f32) (h : S32000x1.ShapeCasts S1x32000) (n : Fin 32000) :
    shapeCast S1x32000 b h (ix2 (0 : Fin 1) n) = b (ix2 n (0 : Fin 1)) :=
  shapeCast_apply b h (ix2 (0 : Fin 1) n) (ix2 n (0 : Fin 1)) (by
    rw [Shape.rowMajor_val_two, Shape.rowMajor_val_two]
    show n.val * 1 + 0 = 0 * 32000 + n.val
    omega)

/-- The pre-activation over the joined row and the bias row is the specification's. -/
theorem pre_eq (W : FVec Ideal S4096x8192 .f32) (b : FVec Ideal S4096x1 .f32) (x h : FVec Ideal S1x4096 .f32)
    (hc : Shape.Concatenates [S1x4096, S1x4096] S1x8192 1) (hs : S4096x1.ShapeCasts S1x4096) (r : Fin 4096) :
    pre W (shapeCast S1x4096 b hs) (concatenate S1x8192 1 [⟨S1x4096, x⟩, ⟨S1x4096, h⟩] hc) r = Spec.pre W b x h r := by
  unfold pre Spec.pre
  rw [row_of_col]
  congr 1
  exact Finset.sum_congr rfl fun k _ => by rw [Spec.concatenate_apply]

/-- The kernel side's new cell row is the specification's. -/
theorem GC_eq (x h c : FVec Ideal S1x4096 .f32) (Wf : FVec Ideal S4096x8192 .f32) (bf : FVec Ideal S4096x1 .f32)
    (Wi : FVec Ideal S4096x8192 .f32) (bi : FVec Ideal S4096x1 .f32) (Wg : FVec Ideal S4096x8192 .f32) (bg : FVec Ideal S4096x1 .f32)
    (hc : Shape.Concatenates [S1x4096, S1x4096] S1x8192 1) (hs : S4096x1.ShapeCasts S1x4096) :
    GC (concatenate S1x8192 1 [⟨S1x4096, x⟩, ⟨S1x4096, h⟩] hc) Wf Wi Wg (shapeCast S1x4096 bf hs) (shapeCast S1x4096 bi hs)
        (shapeCast S1x4096 bg hs) c
      = Spec.cNewArr x h c Wf bf Wi bi Wg bg := by
  funext i
  obtain ⟨p, r, rfl⟩ : ∃ (p : Fin 1) (r : Fin 4096), i = ix2 p r := ⟨i 0, i 1, eq_ix2 i⟩
  rw [GC_ix2, Spec.cNewArr_ix2, pre_eq, pre_eq, pre_eq]
  rfl

/-- The kernel side's new hidden row is the specification's. -/
theorem GH_eq (x h c : FVec Ideal S1x4096 .f32) (Wf : FVec Ideal S4096x8192 .f32) (bf : FVec Ideal S4096x1 .f32)
    (Wi : FVec Ideal S4096x8192 .f32) (bi : FVec Ideal S4096x1 .f32) (Wo : FVec Ideal S4096x8192 .f32) (bo : FVec Ideal S4096x1 .f32)
    (Wg : FVec Ideal S4096x8192 .f32) (bg : FVec Ideal S4096x1 .f32)
    (hc : Shape.Concatenates [S1x4096, S1x4096] S1x8192 1) (hs : S4096x1.ShapeCasts S1x4096) :
    GH (concatenate S1x8192 1 [⟨S1x4096, x⟩, ⟨S1x4096, h⟩] hc) Wf Wi Wo Wg (shapeCast S1x4096 bf hs) (shapeCast S1x4096 bi hs)
        (shapeCast S1x4096 bo hs) (shapeCast S1x4096 bg hs) c
      = Spec.hNewArr x h c Wf bf Wi bi Wo bo Wg bg := by
  funext i
  obtain ⟨p, r, rfl⟩ : ∃ (p : Fin 1) (r : Fin 4096), i = ix2 p r := ⟨i 0, i 1, eq_ix2 i⟩
  rw [GH_ix2, Spec.hNewArr_ix2, pre_eq, GC_eq, Spec.cNewArr_ix2]
  rfl

/-- The read-out over the new hidden row and the bias as a row is the specification's. -/
theorem logits_eq (x h c : FVec Ideal S1x4096 .f32) (Wf : FVec Ideal S4096x8192 .f32) (bf : FVec Ideal S4096x1 .f32)
    (Wi : FVec Ideal S4096x8192 .f32) (bi : FVec Ideal S4096x1 .f32) (Wo : FVec Ideal S4096x8192 .f32) (bo : FVec Ideal S4096x1 .f32)
    (Wg : FVec Ideal S4096x8192 .f32) (bg : FVec Ideal S4096x1 .f32)
    (Wout : FVec Ideal S32000x4096 .f32) (bout : FVec Ideal S32000x1 .f32) (hs : S32000x1.ShapeCasts S1x32000)
    (z : FVec Ideal S1x32000 .f32)
    (hz : ∀ n : Fin 32000, z (ix2 (0 : Fin 1) n)
      = (∑ k : Fin 4096, Wout (ix2 n k) * Spec.hNewArr x h c Wf bf Wi bi Wo bo Wg bg (ix2 (0 : Fin 1) k))
          + shapeCast S1x32000 bout hs (ix2 (0 : Fin 1) n)) :
    z = Spec.logits x h c Wf bf Wi bi Wo bo Wg bg Wout bout := by
  funext i
  obtain ⟨p, n, rfl⟩ : ∃ (p : Fin 1) (n : Fin 32000), i = ix2 p n := ⟨i 0, i 1, eq_ix2 i⟩
  obtain rfl : p = 0 := Subsingleton.elim _ _
  rw [hz n, row_of_col_out, Spec.logits_ix2]
  rfl

end Cert.KSpec

end
-- ==== Proof.Val0.lean ====
/-
  The gates region's value over the extended reals.

  The grid has 4 row blocks of 1024 gate rows and, inside each, 8 contraction blocks of 1024 columns of the joined row;
  point t has row block t / 8 and contraction block t % 8. Each of the four accumulators is cleared at its row block's
  first contraction block and has the block product of the joined row's block with its gate's weight block added at
  every block, so after the point with contraction block m it holds the sum of the block products 0, ..., m; eight blocks
  of 1024 are the whole contraction of 8192 columns. At the last contraction block the new cell and hidden blocks are
  computed from the four full sums, the four bias rows' blocks and the old cell row's block, and written once each into
  output arrays whose four blocks tile them. So the new cell array holds, at column r,
  s(pre_f r) * c[r] + s(pre_i r) * tanh(pre_g r), and the new hidden array s(pre_o r) * tanh of that, where pre of a gate
  at r is its matrix's row r against the joined row plus its bias entry r, and s is the logistic function.
-/
import proofs.«125930_j21131239097236_2_alg».proof.Proof.Val0Pieces
import proofs.«125930_j21131239097236_2_alg».proof.Proof.Blocks0
import proofs.«125930_j21131239097236_2_alg».proof.Proof.Pay
import proofs.«125930_j21131239097236_2_alg».proof.Proof.BlockSum
import proofs.«125930_j21131239097236_2_alg».proof.Proof.KSpec
import Idealize.ShloMosaic.Lib.Pipeline.Value

set_option maxRecDepth 16384

noncomputable section

namespace Cert.KernelIdeal.Val0

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Hand
open scoped BigOperators

variable (V : (c : Dev nD) → (b : Ref sig .tc) → Buf (Elt Ideal) ((c : Thread nD τ).loc b))

/-! ## The blocks the windows read -/

/-- The joined row's block at point t, entry k: joined entry (t % 8) * 1024 + k. -/
theorem blkU_apply (c : Dev nD) (t : Fin cfg0.N) (k : Fin 1024) :
    (iblk0 V c 0 t : Vec Ideal S1x1024 .f32) (ix2 (0 : Fin 1) k)
      = V c main_v0 (ix2 (0 : Fin 1) (⟨t.val % 8 * 1024 + k.val, by have := k.isLt; omega⟩ : Fin 8192)) :=
  iblk0_0_apply V c t (ix2 (0 : Fin 1) k) (ix2 (0 : Fin 1) (⟨t.val % 8 * 1024 + k.val, by have := k.isLt; omega⟩ : Fin 8192)) rfl rfl

/-- The forget weights' block at point t, entry (e, k): weight ((t / 8) * 1024 + e, (t % 8) * 1024 + k). -/
theorem blkW1_apply (c : Dev nD) (t : Fin cfg0.N) (e k : Fin 1024) :
    (iblk0 V c 1 t : Vec Ideal S1024x1024 .f32) (ix2 e k)
      = V c main_arg3 (ix2 (⟨t.val / 8 * 1024 + e.val, by have := e.isLt; have := t.isLt; have hN : cfg0.N = 32 := N_0; omega⟩ : Fin 4096)
          (⟨t.val % 8 * 1024 + k.val, by have := k.isLt; omega⟩ : Fin 8192)) :=
  iblk0_1_apply V c t (ix2 e k) (ix2 (⟨t.val / 8 * 1024 + e.val, by have := e.isLt; have := t.isLt; have hN : cfg0.N = 32 := N_0; omega⟩ : Fin 4096)
    (⟨t.val % 8 * 1024 + k.val, by have := k.isLt; omega⟩ : Fin 8192)) rfl rfl

/-- The input weights' block at point t, entry (e, k): weight ((t / 8) * 1024 + e, (t % 8) * 1024 + k). -/
theorem blkW2_apply (c : Dev nD) (t : Fin cfg0.N) (e k : Fin 1024) :
    (iblk0 V c 2 t : Vec Ideal S1024x1024 .f32) (ix2 e k)
      = V c main_arg5 (ix2 (⟨t.val / 8 * 1024 + e.val, by have := e.isLt; have := t.isLt; have hN : cfg0.N = 32 := N_0; omega⟩ : Fin 4096)
          (⟨t.val % 8 * 1024 + k.val, by have := k.isLt; omega⟩ : Fin 8192)) :=
  iblk0_2_apply V c t (ix2 e k) (ix2 (⟨t.val / 8 * 1024 + e.val, by have := e.isLt; have := t.isLt; have hN : cfg0.N = 32 := N_0; omega⟩ : Fin 4096)
    (⟨t.val % 8 * 1024 + k.val, by have := k.isLt; omega⟩ : Fin 8192)) rfl rfl

/-- The output weights' block at point t, entry (e, k): weight ((t / 8) * 1024 + e, (t % 8) * 1024 + k). -/
theorem blkW3_apply (c : Dev nD) (t : Fin cfg0.N) (e k : Fin 1024) :
    (iblk0 V c 3 t : Vec Ideal S1024x1024 .f32) (ix2 e k)
      = V c main_arg7 (ix2 (⟨t.val / 8 * 1024 + e.val, by have := e.isLt; have := t.isLt; have hN : cfg0.N = 32 := N_0; omega⟩ : Fin 4096)
          (⟨t.val % 8 * 1024 + k.val, by have := k.isLt; omega⟩ : Fin 8192)) :=
  iblk0_3_apply V c t (ix2 e k) (ix2 (⟨t.val / 8 * 1024 + e.val, by have := e.isLt; have := t.isLt; have hN : cfg0.N = 32 := N_0; omega⟩ : Fin 4096)
    (⟨t.val % 8 * 1024 + k.val, by have := k.isLt; omega⟩ : Fin 8192)) rfl rfl

/-- The candidate weights' block at point t, entry (e, k): weight ((t / 8) * 1024 + e, (t % 8) * 1024 + k). -/
theorem blkW4_apply (c : Dev nD) (t : Fin cfg0.N) (e k : Fin 1024) :
    (iblk0 V c 4 t : Vec Ideal S1024x1024 .f32) (ix2 e k)
      = V c main_arg9 (ix2 (⟨t.val / 8 * 1024 + e.val, by have := e.isLt; have := t.isLt; have hN : cfg0.N = 32 := N_0; omega⟩ : Fin 4096)
          (⟨t.val % 8 * 1024 + k.val, by have := k.isLt; omega⟩ : Fin 8192)) :=
  iblk0_4_apply V c t (ix2 e k) (ix2 (⟨t.val / 8 * 1024 + e.val, by have := e.isLt; have := t.isLt; have hN : cfg0.N = 32 := N_0; omega⟩ : Fin 4096)
    (⟨t.val % 8 * 1024 + k.val, by have := k.isLt; omega⟩ : Fin 8192)) rfl rfl

/-- The forget bias row's block at point t, entry e: entry (t / 8) * 1024 + e of the row. -/
theorem blkR5_apply (c : Dev nD) (t : Fin cfg0.N) (e : Fin 1024) :
    (iblk0 V c 5 t : Vec Ideal S1x1024 .f32) (ix2 (0 : Fin 1) e)
      = V c main_v1 (ix2 (0 : Fin 1) (⟨t.val / 8 * 1024 + e.val, by have := e.isLt; have := t.isLt; have hN : cfg0.N = 32 := N_0; omega⟩ : Fin 4096)) :=
  iblk0_5_apply V c t (ix2 (0 : Fin 1) e) (ix2 (0 : Fin 1) (⟨t.val / 8 * 1024 + e.val, by have := e.isLt; have := t.isLt; have hN : cfg0.N = 32 := N_0; omega⟩ : Fin 4096)) rfl rfl

/-- The input bias row's block at point t, entry e: entry (t / 8) * 1024 + e of the row. -/
theorem blkR6_apply (c : Dev nD) (t : Fin cfg0.N) (e : Fin 1024) :
    (iblk0 V c 6 t : Vec Ideal S1x1024 .f32) (ix2 (0 : Fin 1) e)
      = V c main_v2 (ix2 (0 : Fin 1) (⟨t.val / 8 * 1024 + e.val, by have := e.isLt; have := t.isLt; have hN : cfg0.N = 32 := N_0; omega⟩ : Fin 4096)) :=
  iblk0_6_apply V c t (ix2 (0 : Fin 1) e) (ix2 (0 : Fin 1) (⟨t.val / 8 * 1024 + e.val, by have := e.isLt; have := t.isLt; have hN : cfg0.N = 32 := N_0; omega⟩ : Fin 4096)) rfl rfl

/-- The output bias row's block at point t, entry e: entry (t / 8) * 1024 + e of the row. -/
theorem blkR7_apply (c : Dev nD) (t : Fin cfg0.N) (e : Fin 1024) :
    (iblk0 V c 7 t : Vec Ideal S1x1024 .f32) (ix2 (0 : Fin 1) e)
      = V c main_v3 (ix2 (0 : Fin 1) (⟨t.val / 8 * 1024 + e.val, by have := e.isLt; have := t.isLt; have hN : cfg0.N = 32 := N_0; omega⟩ : Fin 4096)) :=
  iblk0_7_apply V c t (ix2 (0 : Fin 1) e) (ix2 (0 : Fin 1) (⟨t.val / 8 * 1024 + e.val, by have := e.isLt; have := t.isLt; have hN : cfg0.N = 32 := N_0; omega⟩ : Fin 4096)) rfl rfl

/-- The candidate bias row's block at point t, entry e: entry (t / 8) * 1024 + e of the row. -/
theorem blkR8_apply (c : Dev nD) (t : Fin cfg0.N) (e : Fin 1024) :
    (iblk0 V c 8 t : Vec Ideal S1x1024 .f32) (ix2 (0 : Fin 1) e)
      = V c main_v4 (ix2 (0 : Fin 1) (⟨t.val / 8 * 1024 + e.val, by have := e.isLt; have := t.isLt; have hN : cfg0.N = 32 := N_0; omega⟩ : Fin 4096)) :=
  iblk0_8_apply V c t (ix2 (0 : Fin 1) e) (ix2 (0 : Fin 1) (⟨t.val / 8 * 1024 + e.val, by have := e.isLt; have := t.isLt; have hN : cfg0.N = 32 := N_0; omega⟩ : Fin 4096)) rfl rfl

/-- The cell row's block at point t, entry e: entry (t / 8) * 1024 + e of the row. -/
theorem blkR9_apply (c : Dev nD) (t : Fin cfg0.N) (e : Fin 1024) :
    (iblk0 V c 9 t : Vec Ideal S1x1024 .f32) (ix2 (0 : Fin 1) e)
      = V c main_arg2 (ix2 (0 : Fin 1) (⟨t.val / 8 * 1024 + e.val, by have := e.isLt; have := t.isLt; have hN : cfg0.N = 32 := N_0; omega⟩ : Fin 4096)) :=
  iblk0_9_apply V c t (ix2 (0 : Fin 1) e) (ix2 (0 : Fin 1) (⟨t.val / 8 * 1024 + e.val, by have := e.isLt; have := t.isLt; have hN : cfg0.N = 32 := N_0; omega⟩ : Fin 4096)) rfl rfl

/-- The block indices of the two output windows at point t, decided over the 32 points. -/
theorem idx_out : ∀ t : Fin cfg0.N, win0_10.index t (0 : Fin 2) = 0 ∧ win0_10.index t (1 : Fin 2) = t.val / 8
    ∧ win0_11.index t (0 : Fin 2) = 0 ∧ win0_11.index t (1 : Fin 2) = t.val / 8 :=
  (by decide +kernel : ∀ t : Fin grid0.N, _)

/-! ## The accumulators -/

/-- Contraction block kb of row block ni of a gate's matrix against the joined row, at entry e: the 1024 products of that
    block (zero outside the grid). -/
def term (u : Vec Ideal S1x8192 .f32) (W : Vec Ideal S4096x8192 .f32) (ni kb : ℕ) (e : Fin 1024) : EReal :=
  if hb : ni < 4 ∧ kb < 8 then
    ∑ k : Fin 1024, u (ix2 (0 : Fin 1) (⟨kb * 1024 + k.val, by have := k.isLt; omega⟩ : Fin 8192))
      * W (ix2 (⟨ni * 1024 + e.val, by have := e.isLt; omega⟩ : Fin 4096)
          (⟨kb * 1024 + k.val, by have := k.isLt; omega⟩ : Fin 8192))
  else 0

/-- A block product whose operands' entries are the joined row's entries and the weights of contraction block kb of row
    block ni is that block's term. -/
theorem prod_apply (u : Vec Ideal S1x8192 .f32) (W : Vec Ideal S4096x8192 .f32) (x : Vec Ideal S1x1024 .f32)
    (w : Vec Ideal S1024x1024 .f32) (ni kb : ℕ) (hni : ni < 4) (hkb : kb < 8) (e : Fin 1024)
    (hx : ∀ k : Fin 1024, x (ix2 (0 : Fin 1) k)
      = u (ix2 (0 : Fin 1) (⟨kb * 1024 + k.val, by have := k.isLt; omega⟩ : Fin 8192)))
    (hw : ∀ k : Fin 1024, w (ix2 e k)
      = W (ix2 (⟨ni * 1024 + e.val, by have := e.isLt; omega⟩ : Fin 4096)
          (⟨kb * 1024 + k.val, by have := k.isLt; omega⟩ : Fin 8192))) :
    ∑ k : Fin 1024, x (ix2 (0 : Fin 1) k) * w (ix2 e k) = term u W ni kb e := by
  unfold term
  rw [dif_pos ⟨hni, hkb⟩]
  exact Finset.sum_congr rfl fun k _ => by rw [hx k, hw k]

/-- The forget accumulator's update adds the block's term. -/
theorem stepF (u : Vec Ideal S1x8192 .f32) (W : Vec Ideal S4096x8192 .f32) (x acc : Vec Ideal S1x1024 .f32)
    (w : Vec Ideal S1024x1024 .f32) (ni kb : ℕ) (hni : ni < 4) (hkb : kb < 8) (e : Fin 1024)
    (hx : ∀ k : Fin 1024, x (ix2 (0 : Fin 1) k)
      = u (ix2 (0 : Fin 1) (⟨kb * 1024 + k.val, by have := k.isLt; omega⟩ : Fin 8192)))
    (hw : ∀ k : Fin 1024, w (ix2 e k)
      = W (ix2 (⟨ni * 1024 + e.val, by have := e.isLt; omega⟩ : Fin 4096)
          (⟨kb * 1024 + k.val, by have := k.isLt; omega⟩ : Fin 8192))) :
    k0_pay9 (F := Ideal) x acc w (ix2 (0 : Fin 1) e) = acc (ix2 (0 : Fin 1) e) + term u W ni kb e :=
  (Val.accF_apply x acc w e).trans (congrArg (acc (ix2 (0 : Fin 1) e) + ·) (prod_apply u W x w ni kb hni hkb e hx hw))

/-- The input accumulator's update adds the block's term. -/
theorem stepI (u : Vec Ideal S1x8192 .f32) (W : Vec Ideal S4096x8192 .f32) (x acc : Vec Ideal S1x1024 .f32)
    (w : Vec Ideal S1024x1024 .f32) (ni kb : ℕ) (hni : ni < 4) (hkb : kb < 8) (e : Fin 1024)
    (hx : ∀ k : Fin 1024, x (ix2 (0 : Fin 1) k)
      = u (ix2 (0 : Fin 1) (⟨kb * 1024 + k.val, by have := k.isLt; omega⟩ : Fin 8192)))
    (hw : ∀ k : Fin 1024, w (ix2 e k)
      = W (ix2 (⟨ni * 1024 + e.val, by have := e.isLt; omega⟩ : Fin 4096)
          (⟨kb * 1024 + k.val, by have := k.isLt; omega⟩ : Fin 8192))) :
    k0_pay10 (F := Ideal) x acc w (ix2 (0 : Fin 1) e) = acc (ix2 (0 : Fin 1) e) + term u W ni kb e :=
  (Val.accI_apply x acc w e).trans (congrArg (acc (ix2 (0 : Fin 1) e) + ·) (prod_apply u W x w ni kb hni hkb e hx hw))

/-- The output accumulator's update adds the block's term. -/
theorem stepO (u : Vec Ideal S1x8192 .f32) (W : Vec Ideal S4096x8192 .f32) (x acc : Vec Ideal S1x1024 .f32)
    (w : Vec Ideal S1024x1024 .f32) (ni kb : ℕ) (hni : ni < 4) (hkb : kb < 8) (e : Fin 1024)
    (hx : ∀ k : Fin 1024, x (ix2 (0 : Fin 1) k)
      = u (ix2 (0 : Fin 1) (⟨kb * 1024 + k.val, by have := k.isLt; omega⟩ : Fin 8192)))
    (hw : ∀ k : Fin 1024, w (ix2 e k)
      = W (ix2 (⟨ni * 1024 + e.val, by have := e.isLt; omega⟩ : Fin 4096)
          (⟨kb * 1024 + k.val, by have := k.isLt; omega⟩ : Fin 8192))) :
    k0_pay11 (F := Ideal) x acc w (ix2 (0 : Fin 1) e) = acc (ix2 (0 : Fin 1) e) + term u W ni kb e :=
  (Val.accO_apply x acc w e).trans (congrArg (acc (ix2 (0 : Fin 1) e) + ·) (prod_apply u W x w ni kb hni hkb e hx hw))

/-- The candidate accumulator's update adds the block's term. -/
theorem stepG (u : Vec Ideal S1x8192 .f32) (W : Vec Ideal S4096x8192 .f32) (x acc : Vec Ideal S1x1024 .f32)
    (w : Vec Ideal S1024x1024 .f32) (ni kb : ℕ) (hni : ni < 4) (hkb : kb < 8) (e : Fin 1024)
    (hx : ∀ k : Fin 1024, x (ix2 (0 : Fin 1) k)
      = u (ix2 (0 : Fin 1) (⟨kb * 1024 + k.val, by have := k.isLt; omega⟩ : Fin 8192)))
    (hw : ∀ k : Fin 1024, w (ix2 e k)
      = W (ix2 (⟨ni * 1024 + e.val, by have := e.isLt; omega⟩ : Fin 4096)
          (⟨kb * 1024 + k.val, by have := k.isLt; omega⟩ : Fin 8192))) :
    k0_pay1 (F := Ideal) (k0_pay8 x) acc w (ix2 (0 : Fin 1) e) = acc (ix2 (0 : Fin 1) e) + term u W ni kb e := by
  rw [Val.row_pass]
  exact (Val.accG_apply x acc w e).trans (congrArg (acc (ix2 (0 : Fin 1) e) + ·) (prod_apply u W x w ni kb hni hkb e hx hw))

/-- After position n each accumulator holds, at entry e, the contraction blocks 0, ..., n % 8 of row block n / 8 of its
    gate's matrix against the joined row. -/
theorem acc_eq (c : Dev nD) : ∀ (n : ℕ) (hn : n < cfg0.N) (e : Fin 1024),
      (outsAt0 V c n hn).s0 (ix2 (0 : Fin 1) e)
        = ∑ kb ∈ Finset.range (n % 8 + 1), term (V c main_v0) (V c main_arg3) (n / 8) kb e
      ∧ (outsAt0 V c n hn).s1 (ix2 (0 : Fin 1) e)
        = ∑ kb ∈ Finset.range (n % 8 + 1), term (V c main_v0) (V c main_arg5) (n / 8) kb e
      ∧ (outsAt0 V c n hn).s2 (ix2 (0 : Fin 1) e)
        = ∑ kb ∈ Finset.range (n % 8 + 1), term (V c main_v0) (V c main_arg7) (n / 8) kb e
      ∧ (outsAt0 V c n hn).s3 (ix2 (0 : Fin 1) e)
        = ∑ kb ∈ Finset.range (n % 8 + 1), term (V c main_v0) (V c main_arg9) (n / 8) kb e
  | 0, hn, e => by
    have hN : cfg0.N = 32 := N_0
    rw [outsAt0_A V c ⟨0, hn⟩ (Nat.zero_mod 8) (show ¬(0 % 8 = 7) by decide)]
    unfold outsA0
    dsimp only
    rw [sout_A_0, sout_A_1, sout_A_2, sout_A_3]
    refine ⟨?_, ?_, ?_, ?_⟩
    · rw [stepF (V c main_v0) (V c main_arg3) (iblk0 V c 0 ⟨0, hn⟩) _ (iblk0 V c 1 ⟨0, hn⟩) (0 / 8) (0 % 8) (by omega) (by omega) e
            (fun k => blkU_apply V c ⟨0, hn⟩ k) (fun k => blkW1_apply V c ⟨0, hn⟩ e k),
        Val.clearF_apply, zero_add]
      exact (Finset.sum_range_one (fun kb => term (V c main_v0) (V c main_arg3) (0 / 8) kb e)).symm
    · rw [stepI (V c main_v0) (V c main_arg5) (iblk0 V c 0 ⟨0, hn⟩) _ (iblk0 V c 2 ⟨0, hn⟩) (0 / 8) (0 % 8) (by omega) (by omega) e
            (fun k => blkU_apply V c ⟨0, hn⟩ k) (fun k => blkW2_apply V c ⟨0, hn⟩ e k),
        Val.clearI_apply, zero_add]
      exact (Finset.sum_range_one (fun kb => term (V c main_v0) (V c main_arg5) (0 / 8) kb e)).symm
    · rw [stepO (V c main_v0) (V c main_arg7) (iblk0 V c 0 ⟨0, hn⟩) _ (iblk0 V c 3 ⟨0, hn⟩) (0 / 8) (0 % 8) (by omega) (by omega) e
            (fun k => blkU_apply V c ⟨0, hn⟩ k) (fun k => blkW3_apply V c ⟨0, hn⟩ e k),
        Val.clearO_apply, zero_add]
      exact (Finset.sum_range_one (fun kb => term (V c main_v0) (V c main_arg7) (0 / 8) kb e)).symm
    · rw [stepG (V c main_v0) (V c main_arg9) (iblk0 V c 0 ⟨0, hn⟩) _ (iblk0 V c 4 ⟨0, hn⟩) (0 / 8) (0 % 8) (by omega) (by omega) e
            (fun k => blkU_apply V c ⟨0, hn⟩ k) (fun k => blkW4_apply V c ⟨0, hn⟩ e k),
        Val.clearG_apply, zero_add]
      exact (Finset.sum_range_one (fun kb => term (V c main_v0) (V c main_arg9) (0 / 8) kb e)).symm
  | n + 1, hn, e => by
    have hN : cfg0.N = 32 := N_0
    by_cases h0 : (n + 1) % 8 = 0
    · have h1 : ¬(n + 1) % 8 = 7 := by omega
      rw [outsAt0_A V c ⟨n + 1, hn⟩ h0 h1]
      unfold outsA0
      dsimp only
      rw [sout_A_0, sout_A_1, sout_A_2, sout_A_3]
      refine ⟨?_, ?_, ?_, ?_⟩
      · rw [stepF (V c main_v0) (V c main_arg3) (iblk0 V c 0 ⟨n + 1, hn⟩) _ (iblk0 V c 1 ⟨n + 1, hn⟩) ((n + 1) / 8) ((n + 1) % 8) (by omega) (by omega) e
            (fun k => blkU_apply V c ⟨n + 1, hn⟩ k) (fun k => blkW1_apply V c ⟨n + 1, hn⟩ e k),
          Val.clearF_apply, zero_add]
        rw [h0]
        exact (Finset.sum_range_one (fun kb => term (V c main_v0) (V c main_arg3) ((n + 1) / 8) kb e)).symm
      · rw [stepI (V c main_v0) (V c main_arg5) (iblk0 V c 0 ⟨n + 1, hn⟩) _ (iblk0 V c 2 ⟨n + 1, hn⟩) ((n + 1) / 8) ((n + 1) % 8) (by omega) (by omega) e
            (fun k => blkU_apply V c ⟨n + 1, hn⟩ k) (fun k => blkW2_apply V c ⟨n + 1, hn⟩ e k),
          Val.clearI_apply, zero_add]
        rw [h0]
        exact (Finset.sum_range_one (fun kb => term (V c main_v0) (V c main_arg5) ((n + 1) / 8) kb e)).symm
      · rw [stepO (V c main_v0) (V c main_arg7) (iblk0 V c 0 ⟨n + 1, hn⟩) _ (iblk0 V c 3 ⟨n + 1, hn⟩) ((n + 1) / 8) ((n + 1) % 8) (by omega) (by omega) e
            (fun k => blkU_apply V c ⟨n + 1, hn⟩ k) (fun k => blkW3_apply V c ⟨n + 1, hn⟩ e k),
          Val.clearO_apply, zero_add]
        rw [h0]
        exact (Finset.sum_range_one (fun kb => term (V c main_v0) (V c main_arg7) ((n + 1) / 8) kb e)).symm
      · rw [stepG (V c main_v0) (V c main_arg9) (iblk0 V c 0 ⟨n + 1, hn⟩) _ (iblk0 V c 4 ⟨n + 1, hn⟩) ((n + 1) / 8) ((n + 1) % 8) (by omega) (by omega) e
            (fun k => blkU_apply V c ⟨n + 1, hn⟩ k) (fun k => blkW4_apply V c ⟨n + 1, hn⟩ e k),
          Val.clearG_apply, zero_add]
        rw [h0]
        exact (Finset.sum_range_one (fun kb => term (V c main_v0) (V c main_arg9) ((n + 1) / 8) kb e)).symm
    · have e1 : (n + 1) / 8 = n / 8 := by omega
      have e2 : (n + 1) % 8 = n % 8 + 1 := by omega
      obtain ⟨i0, i1, i2, i3⟩ := acc_eq c n (Nat.lt_of_succ_lt hn) e
      by_cases h1 : (n + 1) % 8 = 7
      · rw [outsAt0_C V c ⟨n + 1, hn⟩ h0 h1]
        unfold outsC0
        dsimp only
        rw [sout_C_0, sout_C_1, sout_C_2, sout_C_3]
        refine ⟨?_, ?_, ?_, ?_⟩
        · rw [stepF (V c main_v0) (V c main_arg3) (iblk0 V c 0 ⟨n + 1, hn⟩) _ (iblk0 V c 1 ⟨n + 1, hn⟩) ((n + 1) / 8) ((n + 1) % 8) (by omega) (by omega) e
            (fun k => blkU_apply V c ⟨n + 1, hn⟩ k) (fun k => blkW1_apply V c ⟨n + 1, hn⟩ e k)]
          show (outsAt0 V c n _).s0 (ix2 (0 : Fin 1) e) + term _ _ ((n + 1) / 8) ((n + 1) % 8) e = _
          rw [i0, e1, e2]
          exact (Finset.sum_range_succ _ _).symm
        · rw [stepI (V c main_v0) (V c main_arg5) (iblk0 V c 0 ⟨n + 1, hn⟩) _ (iblk0 V c 2 ⟨n + 1, hn⟩) ((n + 1) / 8) ((n + 1) % 8) (by omega) (by omega) e
            (fun k => blkU_apply V c ⟨n + 1, hn⟩ k) (fun k => blkW2_apply V c ⟨n + 1, hn⟩ e k)]
          show (outsAt0 V c n _).s1 (ix2 (0 : Fin 1) e) + term _ _ ((n + 1) / 8) ((n + 1) % 8) e = _
          rw [i1, e1, e2]
          exact (Finset.sum_range_succ _ _).symm
        · rw [stepO (V c main_v0) (V c main_arg7) (iblk0 V c 0 ⟨n + 1, hn⟩) _ (iblk0 V c 3 ⟨n + 1, hn⟩) ((n + 1) / 8) ((n + 1) % 8) (by omega) (by omega) e
            (fun k => blkU_apply V c ⟨n + 1, hn⟩ k) (fun k => blkW3_apply V c ⟨n + 1, hn⟩ e k)]
          show (outsAt0 V c n _).s2 (ix2 (0 : Fin 1) e) + term _ _ ((n + 1) / 8) ((n + 1) % 8) e = _
          rw [i2, e1, e2]
          exact (Finset.sum_range_succ _ _).symm
        · rw [stepG (V c main_v0) (V c main_arg9) (iblk0 V c 0 ⟨n + 1, hn⟩) _ (iblk0 V c 4 ⟨n + 1, hn⟩) ((n + 1) / 8) ((n + 1) % 8) (by omega) (by omega) e
            (fun k => blkU_apply V c ⟨n + 1, hn⟩ k) (fun k => blkW4_apply V c ⟨n + 1, hn⟩ e k)]
          show (outsAt0 V c n _).s3 (ix2 (0 : Fin 1) e) + term _ _ ((n + 1) / 8) ((n + 1) % 8) e = _
          rw [i3, e1, e2]
          exact (Finset.sum_range_succ _ _).symm
      · rw [outsAt0_B V c ⟨n + 1, hn⟩ h0 h1]
        unfold outsB0
        dsimp only
        rw [sout_B_0, sout_B_1, sout_B_2, sout_B_3]
        refine ⟨?_, ?_, ?_, ?_⟩
        · rw [stepF (V c main_v0) (V c main_arg3) (iblk0 V c 0 ⟨n + 1, hn⟩) _ (iblk0 V c 1 ⟨n + 1, hn⟩) ((n + 1) / 8) ((n + 1) % 8) (by omega) (by omega) e
            (fun k => blkU_apply V c ⟨n + 1, hn⟩ k) (fun k => blkW1_apply V c ⟨n + 1, hn⟩ e k)]
          show (outsAt0 V c n _).s0 (ix2 (0 : Fin 1) e) + term _ _ ((n + 1) / 8) ((n + 1) % 8) e = _
          rw [i0, e1, e2]
          exact (Finset.sum_range_succ _ _).symm
        · rw [stepI (V c main_v0) (V c main_arg5) (iblk0 V c 0 ⟨n + 1, hn⟩) _ (iblk0 V c 2 ⟨n + 1, hn⟩) ((n + 1) / 8) ((n + 1) % 8) (by omega) (by omega) e
            (fun k => blkU_apply V c ⟨n + 1, hn⟩ k) (fun k => blkW2_apply V c ⟨n + 1, hn⟩ e k)]
          show (outsAt0 V c n _).s1 (ix2 (0 : Fin 1) e) + term _ _ ((n + 1) / 8) ((n + 1) % 8) e = _
          rw [i1, e1, e2]
          exact (Finset.sum_range_succ _ _).symm
        · rw [stepO (V c main_v0) (V c main_arg7) (iblk0 V c 0 ⟨n + 1, hn⟩) _ (iblk0 V c 3 ⟨n + 1, hn⟩) ((n + 1) / 8) ((n + 1) % 8) (by omega) (by omega) e
            (fun k => blkU_apply V c ⟨n + 1, hn⟩ k) (fun k => blkW3_apply V c ⟨n + 1, hn⟩ e k)]
          show (outsAt0 V c n _).s2 (ix2 (0 : Fin 1) e) + term _ _ ((n + 1) / 8) ((n + 1) % 8) e = _
          rw [i2, e1, e2]
          exact (Finset.sum_range_succ _ _).symm
        · rw [stepG (V c main_v0) (V c main_arg9) (iblk0 V c 0 ⟨n + 1, hn⟩) _ (iblk0 V c 4 ⟨n + 1, hn⟩) ((n + 1) / 8) ((n + 1) % 8) (by omega) (by omega) e
            (fun k => blkU_apply V c ⟨n + 1, hn⟩ k) (fun k => blkW4_apply V c ⟨n + 1, hn⟩ e k)]
          show (outsAt0 V c n _).s3 (ix2 (0 : Fin 1) e) + term _ _ ((n + 1) / 8) ((n + 1) % 8) e = _
          rw [i3, e1, e2]
          exact (Finset.sum_range_succ _ _).symm

/-! ## The whole contraction -/

/-- The eight contraction blocks of row block ni are the whole sum over the 8192 columns. -/
theorem eight_blocks (u : Vec Ideal S1x8192 .f32) (W : Vec Ideal S4096x8192 .f32) (ni : ℕ) (hni : ni < 4) (e : Fin 1024) :
    ∑ kb ∈ Finset.range 8, term u W ni kb e
      = ∑ k : Fin 8192, W (ix2 (⟨ni * 1024 + e.val, by have := e.isLt; omega⟩ : Fin 4096) k) * u (ix2 (0 : Fin 1) k) := by
  rw [Finset.sum_range, Cert.BlockSum.sum_8192 (fun k : Fin 8192 =>
    W (ix2 (⟨ni * 1024 + e.val, by have := e.isLt; omega⟩ : Fin 4096) k) * u (ix2 (0 : Fin 1) k))]
  refine Finset.sum_congr rfl fun kb _ => ?_
  unfold term
  rw [dif_pos ⟨hni, kb.isLt⟩]
  exact Finset.sum_congr rfl fun k _ => mul_comm _ _

/-! ## The last contraction block -/

/-- The cell and hidden arithmetic at an entry whose four accumulators hold the whole contractions of row r and whose
    bias and cell blocks hold entry r of their rows. -/
theorem point_arith (u : Vec Ideal S1x8192 .f32) (Wf Wi Wo Wg : Vec Ideal S4096x8192 .f32)
    (bf bi bo bg cc : Vec Ideal S1x4096 .f32) (r : Fin 4096) (e : Fin 1024)
    (A B O G x5 x6 x7 x8 x9 : Vec Ideal S1x1024 .f32)
    (hA : A (ix2 (0 : Fin 1) e) = ∑ k : Fin 8192, Wf (ix2 r k) * u (ix2 (0 : Fin 1) k))
    (hB : B (ix2 (0 : Fin 1) e) = ∑ k : Fin 8192, Wi (ix2 r k) * u (ix2 (0 : Fin 1) k))
    (hO : O (ix2 (0 : Fin 1) e) = ∑ k : Fin 8192, Wo (ix2 r k) * u (ix2 (0 : Fin 1) k))
    (hG : G (ix2 (0 : Fin 1) e) = ∑ k : Fin 8192, Wg (ix2 r k) * u (ix2 (0 : Fin 1) k))
    (h5 : x5 (ix2 (0 : Fin 1) e) = bf (ix2 (0 : Fin 1) r)) (h6 : x6 (ix2 (0 : Fin 1) e) = bi (ix2 (0 : Fin 1) r))
    (h7 : x7 (ix2 (0 : Fin 1) e) = bo (ix2 (0 : Fin 1) r)) (h8 : x8 (ix2 (0 : Fin 1) e) = bg (ix2 (0 : Fin 1) r))
    (h9 : x9 (ix2 (0 : Fin 1) e) = cc (ix2 (0 : Fin 1) r)) :
    k0_pay2 (F := Ideal) A x5 B x6 G x8 x9 (ix2 (0 : Fin 1) e)
        = KSpec.GC u Wf Wi Wg bf bi bg cc (ix2 (0 : Fin 1) r)
      ∧ k0_pay3 (F := Ideal) A x5 B x6 O x7 G x8 x9 (ix2 (0 : Fin 1) e)
        = KSpec.GH u Wf Wi Wo Wg bf bi bo bg cc (ix2 (0 : Fin 1) r) := by
  have hc : k0_pay2 (F := Ideal) A x5 B x6 G x8 x9 (ix2 (0 : Fin 1) e)
      = KSpec.GC u Wf Wi Wg bf bi bg cc (ix2 (0 : Fin 1) r) := by
    rw [Val.cell_apply, hA, hB, hG, h5, h6, h8, h9]
    all_goals rfl
  refine ⟨hc, ?_⟩
  rw [Val.hidden_apply, hc, hO, h7]
  all_goals rfl

/-- The two output blocks a last contraction block leaves, at entry e: the closed forms at column (t / 8) * 1024 + e. -/
theorem point_C (c : Dev nD) (t : Fin cfg0.N) (h7 : t.val % 8 = 7) (e : Fin 1024) :
    (outsAt0 V c t.val t.isLt).o11 (ix2 (0 : Fin 1) e)
        = KSpec.GC (V c main_v0) (V c main_arg3) (V c main_arg5) (V c main_arg9) (V c main_v1) (V c main_v2) (V c main_v4) (V c main_arg2) (ix2 (0 : Fin 1) (⟨t.val / 8 * 1024 + e.val, by have := e.isLt; have := t.isLt; have hN : cfg0.N = 32 := N_0; omega⟩ : Fin 4096))
      ∧ (outsAt0 V c t.val t.isLt).o10 (ix2 (0 : Fin 1) e)
        = KSpec.GH (V c main_v0) (V c main_arg3) (V c main_arg5) (V c main_arg7) (V c main_arg9) (V c main_v1) (V c main_v2) (V c main_v3) (V c main_v4) (V c main_arg2) (ix2 (0 : Fin 1) (⟨t.val / 8 * 1024 + e.val, by have := e.isLt; have := t.isLt; have hN : cfg0.N = 32 := N_0; omega⟩ : Fin 4096)) := by
  have hN : cfg0.N = 32 := N_0
  have ht := t.isLt
  have h0 : ¬t.val % 8 = 0 := by omega
  obtain ⟨a0, a1, a2, a3⟩ := acc_eq V c t.val t.isLt e
  rw [outsAt0_C V c t h0 h7] at a0 a1 a2 a3 ⊢
  unfold outsC0 at a0 a1 a2 a3 ⊢
  dsimp only at a0 a1 a2 a3 ⊢
  rw [sout_C_0] at a0
  rw [sout_C_1] at a1
  rw [sout_C_2] at a2
  rw [sout_C_3] at a3
  rw [out_C_11, out_C_10]
  rw [h7] at a0 a1 a2 a3
  exact point_arith _ _ _ _ _ _ _ _ _ _ (⟨t.val / 8 * 1024 + e.val, by have := e.isLt; have := t.isLt; have hN : cfg0.N = 32 := N_0; omega⟩ : Fin 4096) e _ _ _ _ _ _ _ _ _
    (a0.trans (eight_blocks _ _ (t.val / 8) (by omega) e)) (a1.trans (eight_blocks _ _ (t.val / 8) (by omega) e))
    (a2.trans (eight_blocks _ _ (t.val / 8) (by omega) e)) (a3.trans (eight_blocks _ _ (t.val / 8) (by omega) e))
    (blkR5_apply V c t e) (blkR6_apply V c t e) (blkR7_apply V c t e) (blkR8_apply V c t e) (blkR9_apply V c t e)

/-! ## The output arrays -/

/-- What a writing point writes back into the new cell array is its block of the closed form. -/
theorem flushed_eq11 (c : Dev nD) (t : Fin cfg0.N) (hf : (cfg0.win 11).flush t = true) :
    (dat0 V c).flushed 11 t
      = ((cfg0.win 11).blk t).view.read (Elt Ideal) (KSpec.GC (V c main_v0) (V c main_arg3) (V c main_arg5) (V c main_arg9) (V c main_v1) (V c main_v2) (V c main_v4) (V c main_arg2)) := by
  have h7 : t.val % 8 = 7 := (flush0_11 t).mp hf
  obtain ⟨e10a, e10b, e11a, e11b⟩ := idx_out t
  show (cfg0.win 11).cut (grid0.coords t) ((dat0 V c).after 11 t) = _
  rw [after0_11]
  funext y
  have hy0 : (y 0).val < 1 := (y 0).isLt
  have hy1 : (y 1).val < 1024 := (y 1).isLt
  have ey : (cfg0.win 11).xinj (grid0.coords t) y = ix2 (0 : Fin 1) (⟨(y 1).val, hy1⟩ : Fin 1024) :=
    funext fun a => Fin.ext (by
      match a with
      | ⟨0, _⟩ => show (y 0).val = 0; omega
      | ⟨1, _⟩ => rfl)
  show (outsAt0 V c t.val t.isLt).o11 ((cfg0.win 11).xinj (grid0.coords t) y) = _
  rw [ey, (point_C V c t h7 _).1, View.read_apply]
  refine congrArg (KSpec.GC (V c main_v0) (V c main_arg3) (V c main_arg5) (V c main_arg9) (V c main_v1) (V c main_v2) (V c main_v4) (V c main_arg2)) (funext fun a => Fin.ext ?_)
  match a with
  | ⟨0, _⟩ => show 0 = win0_11.index t (0 : Fin 2) * 1 + 1 * (y 0).val; omega
  | ⟨1, _⟩ => show t.val / 8 * 1024 + (y 1).val = win0_11.index t (1 : Fin 2) * 1024 + 1 * (y 1).val; omega

/-- An index of the new cell array is in point t's block iff each coordinate is in the block's range. -/
theorem mem_blk11 (t : Fin cfg0.N) (i : S1x4096.Idx) :
    i ∈ ((cfg0.win 11).blk t).view.set
      ↔ ∀ a : Fin 2, win0_11.index t a * S1x1024.size a ≤ (i a).val ∧ (i a).val < win0_11.index t a * S1x1024.size a + S1x1024.size a := by
  show i ∈ ((View.whole main_v5_1).slice (win0_11.rect t)).set ↔ _
  rw [View.set_slice_whole, Rect.mem_set_unit]
  exact Iff.rfl

/-- Every column of the new cell array is in the block of the last contraction point of its row block. -/
theorem cover11 (i : S1x4096.Idx) : ∃ t : Fin cfg0.N, (cfg0.win 11).flush t = true ∧ i ∈ ((cfg0.win 11).blk t).view.set := by
  have hN : cfg0.N = 32 := N_0
  have hi0 : (i 0).val < 1 := (i 0).isLt
  have hi1 : (i 1).val < 4096 := (i 1).isLt
  let t : Fin cfg0.N := ⟨(i 1).val / 1024 * 8 + 7, by omega⟩
  have htv : t.val = (i 1).val / 1024 * 8 + 7 := rfl
  obtain ⟨e10a, e10b, e11a, e11b⟩ := idx_out t
  refine ⟨t, (flush0_11 t).mpr (by omega), ?_⟩
  rw [mem_blk11]
  intro a
  match a with
  | ⟨0, _⟩ => show win0_11.index t (0 : Fin 2) * 1 ≤ (i 0).val ∧ (i 0).val < win0_11.index t (0 : Fin 2) * 1 + 1; omega
  | ⟨1, _⟩ => show win0_11.index t (1 : Fin 2) * 1024 ≤ (i 1).val ∧ (i 1).val < win0_11.index t (1 : Fin 2) * 1024 + 1024; omega

/-- After the region the new cell array holds the closed form of the arrays as the region found them. -/
theorem final11 (c : Dev nD) :
    (dat0 V c).arrAt 11 cfg0.N = KSpec.GC (V c main_v0) (V c main_arg3) (V c main_arg5) (V c main_arg9) (V c main_v1) (V c main_v2) (V c main_v4) (V c main_arg2) :=
  (dat0 V c).arrAt_eq_of_cover 11 _ (fun t hf => flushed_eq11 V c t hf) cover11

/-- What a writing point writes back into the new hidden array is its block of the closed form. -/
theorem flushed_eq10 (c : Dev nD) (t : Fin cfg0.N) (hf : (cfg0.win 10).flush t = true) :
    (dat0 V c).flushed 10 t
      = ((cfg0.win 10).blk t).view.read (Elt Ideal) (KSpec.GH (V c main_v0) (V c main_arg3) (V c main_arg5) (V c main_arg7) (V c main_arg9) (V c main_v1) (V c main_v2) (V c main_v3) (V c main_v4) (V c main_arg2)) := by
  have h7 : t.val % 8 = 7 := (flush0_10 t).mp hf
  obtain ⟨e10a, e10b, e11a, e11b⟩ := idx_out t
  show (cfg0.win 10).cut (grid0.coords t) ((dat0 V c).after 10 t) = _
  rw [after0_10]
  funext y
  have hy0 : (y 0).val < 1 := (y 0).isLt
  have hy1 : (y 1).val < 1024 := (y 1).isLt
  have ey : (cfg0.win 10).xinj (grid0.coords t) y = ix2 (0 : Fin 1) (⟨(y 1).val, hy1⟩ : Fin 1024) :=
    funext fun a => Fin.ext (by
      match a with
      | ⟨0, _⟩ => show (y 0).val = 0; omega
      | ⟨1, _⟩ => rfl)
  show (outsAt0 V c t.val t.isLt).o10 ((cfg0.win 10).xinj (grid0.coords t) y) = _
  rw [ey, (point_C V c t h7 _).2, View.read_apply]
  refine congrArg (KSpec.GH (V c main_v0) (V c main_arg3) (V c main_arg5) (V c main_arg7) (V c main_arg9) (V c main_v1) (V c main_v2) (V c main_v3) (V c main_v4) (V c main_arg2)) (funext fun a => Fin.ext ?_)
  match a with
  | ⟨0, _⟩ => show 0 = win0_10.index t (0 : Fin 2) * 1 + 1 * (y 0).val; omega
  | ⟨1, _⟩ => show t.val / 8 * 1024 + (y 1).val = win0_10.index t (1 : Fin 2) * 1024 + 1 * (y 1).val; omega

/-- An index of the new hidden array is in point t's block iff each coordinate is in the block's range. -/
theorem mem_blk10 (t : Fin cfg0.N) (i : S1x4096.Idx) :
    i ∈ ((cfg0.win 10).blk t).view.set
      ↔ ∀ a : Fin 2, win0_10.index t a * S1x1024.size a ≤ (i a).val ∧ (i a).val < win0_10.index t a * S1x1024.size a + S1x1024.size a := by
  show i ∈ ((View.whole main_v5_0).slice (win0_10.rect t)).set ↔ _
  rw [View.set_slice_whole, Rect.mem_set_unit]
  exact Iff.rfl

/-- Every column of the new hidden array is in the block of the last contraction point of its row block. -/
theorem cover10 (i : S1x4096.Idx) : ∃ t : Fin cfg0.N, (cfg0.win 10).flush t = true ∧ i ∈ ((cfg0.win 10).blk t).view.set := by
  have hN : cfg0.N = 32 := N_0
  have hi0 : (i 0).val < 1 := (i 0).isLt
  have hi1 : (i 1).val < 4096 := (i 1).isLt
  let t : Fin cfg0.N := ⟨(i 1).val / 1024 * 8 + 7, by omega⟩
  have htv : t.val = (i 1).val / 1024 * 8 + 7 := rfl
  obtain ⟨e10a, e10b, e11a, e11b⟩ := idx_out t
  refine ⟨t, (flush0_10 t).mpr (by omega), ?_⟩
  rw [mem_blk10]
  intro a
  match a with
  | ⟨0, _⟩ => show win0_10.index t (0 : Fin 2) * 1 ≤ (i 0).val ∧ (i 0).val < win0_10.index t (0 : Fin 2) * 1 + 1; omega
  | ⟨1, _⟩ => show win0_10.index t (1 : Fin 2) * 1024 ≤ (i 1).val ∧ (i 1).val < win0_10.index t (1 : Fin 2) * 1024 + 1024; omega

/-- After the region the new hidden array holds the closed form of the arrays as the region found them. -/
theorem final10 (c : Dev nD) :
    (dat0 V c).arrAt 10 cfg0.N = KSpec.GH (V c main_v0) (V c main_arg3) (V c main_arg5) (V c main_arg7) (V c main_arg9) (V c main_v1) (V c main_v2) (V c main_v3) (V c main_v4) (V c main_arg2) :=
  (dat0 V c).arrAt_eq_of_cover 10 _ (fun t hf => flushed_eq10 V c t hf) cover10

end Cert.KernelIdeal.Val0

end
-- ==== Proof.Val1.lean ====
/-
  The output projection's value over the extended reals.

  The grid has 10 row blocks of 3200 read-out rows and, inside each, 4 contraction blocks of 1024 columns; point t has
  row block t / 4 and contraction block t % 4. At its first contraction block the accumulator is cleared and the
  block product added, at every later one the block product is added to what the point before left, and at the last one
  the accumulator plus the bias block is the output block. The block product at entry j of the accumulator is the sum
  over the 1024 columns k of the block of hidden entry (t % 4) * 1024 + k times read-out weight
  ((t / 4) * 3200 + j, (t % 4) * 1024 + k). So after the point with contraction block m the accumulator holds the sum of
  the block products 0, ..., m of its row block; four blocks of 1024 are the whole contraction of 4096 columns; and the
  output array, whose ten blocks are written once each and tile it, ends holding at column n the sum over k of
  weight (n, k) times hidden entry k, plus bias entry n.
-/
import proofs.«125930_j21131239097236_2_alg».proof.Proof.R1Frame
import proofs.«125930_j21131239097236_2_alg».proof.Proof.Pay
import proofs.«125930_j21131239097236_2_alg».proof.Proof.BlockSum
import Idealize.ShloMosaic.Lib.Pipeline.Value

set_option maxRecDepth 16384

noncomputable section

namespace Cert.KernelIdeal.Val1

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Hand
open scoped BigOperators

theorem hz : (![0, 0] : Fin 2 → Nat) = fun _ => 0 := funext fun a => by fin_cases a <;> rfl

/-! ## What each case of the body leaves, as the stores' arithmetic -/

section Pieces

variable {F : FTy → Type} [FloatOps F]

/-- A first contraction block: the accumulator is cleared, read back, and the block product added. -/
theorem sout_A (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : cond1_0 i) (hc1 : ¬cond1_1 i)
    (x0 : Vec F S1x1024 .f32) (x1 : Vec F S3200x1024 .f32) (x2 : Vec F S1x3200 .f32) :
    sout1_A_0 c i arg2 harg2 arg3 harg3 arg4 harg4 arg5 harg5 arg6 harg6 hc0 hc1 x0 x1 x2 = k1_pay2 (k1_pay1 (F := F)) x0 x1 := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S1x3200) hz, View.readCov_unit_zero (S := S1x3200) _ hz]
  simp only [View.readAt_eq_ld, harg2.read_unread, harg3.read_unread, View.ld_unit_zero (S := S1x1024) hz,
    View.ld_unit_zero (S := S3200x1024) hz]

/-- An inner contraction block: the block product added to what the accumulator held. -/
theorem sout_B (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : ¬cond1_1 i)
    (x0 : Vec F S1x1024 .f32) (x1 : Vec F S3200x1024 .f32) (x2 : Vec F S1x3200 .f32) (xs0 : Vec F S1x3200 .f32) :
    sout1_B_0 c i arg2 harg2 arg3 harg3 arg4 harg4 arg5 harg5 arg6 harg6 hc0 hc1 x0 x1 x2 xs0 = k1_pay2 xs0 x0 x1 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero hz]
  simp only [View.readAt_eq_ld, harg2.read_unread, harg3.read_unread, harg6.read_unread, View.ld_unit_zero (S := S1x1024) hz,
    View.ld_unit_zero (S := S3200x1024) hz, View.ld_unit_zero (S := S1x3200) hz]

/-- A last contraction block, the accumulator: the same update. -/
theorem sout_C (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : cond1_1 i)
    (x0 : Vec F S1x1024 .f32) (x1 : Vec F S3200x1024 .f32) (x2 : Vec F S1x3200 .f32) (xs0 : Vec F S1x3200 .f32) :
    sout1_C_0 c i arg2 harg2 arg3 harg3 arg4 harg4 arg5 harg5 arg6 harg6 hc0 hc1 x0 x1 x2 xs0 = k1_pay2 xs0 x0 x1 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero hz]
  simp only [View.readAt_eq_ld, harg2.read_unread, harg3.read_unread, harg6.read_unread, View.ld_unit_zero (S := S1x1024) hz,
    View.ld_unit_zero (S := S3200x1024) hz, View.ld_unit_zero (S := S1x3200) hz]

/-- A last contraction block, the output block: the updated accumulator plus the bias block. -/
theorem out_C (c : Dev nD) (i : grid1.Coords) (arg2 : Memref sig .tc .vmem S1x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S1x3200 .f32) (harg5 : arg5.IsWhole) (arg6 : Memref sig .tc .vmem S1x3200 .f32) (harg6 : arg6.IsWhole) (hc0 : ¬cond1_0 i) (hc1 : cond1_1 i)
    (x0 : Vec F S1x1024 .f32) (x1 : Vec F S3200x1024 .f32) (x2 : Vec F S1x3200 .f32) (xs0 : Vec F S1x3200 .f32) :
    out1_C_3 c i arg2 harg2 arg3 harg3 arg4 harg4 arg5 harg5 arg6 harg6 hc0 hc1 x0 x1 x2 xs0 = k1_pay3 (k1_pay2 xs0 x0 x1) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero hz]
  simp only [View.readAt_eq_ld, harg2.read_unread, harg3.read_unread, harg4.read_unread, harg6.read_unread,
    View.ld_unit_zero (S := S1x1024) hz, View.ld_unit_zero (S := S3200x1024) hz, View.ld_unit_zero (S := S1x3200) hz,
    View.readCov_unit_zero (S := S1x3200) _ hz]

end Pieces

/-! ## The blocks the windows read -/

variable (V : (c : Dev nD) → (b : Ref sig .tc) → Buf (Elt Ideal) ((c : Thread nD τ).loc b))

/-- The block indices of the four windows at point t, decided over the 40 points. -/
theorem idx_facts : ∀ t : Fin cfg1.N, win1_0.index t (0 : Fin 2) = 0 ∧ win1_0.index t (1 : Fin 2) = t.val % 4
    ∧ win1_1.index t (0 : Fin 2) = t.val / 4 ∧ win1_1.index t (1 : Fin 2) = t.val % 4
    ∧ win1_2.index t (0 : Fin 2) = 0 ∧ win1_2.index t (1 : Fin 2) = t.val / 4
    ∧ win1_3.index t (0 : Fin 2) = 0 ∧ win1_3.index t (1 : Fin 2) = t.val / 4 :=
  (by decide +kernel : ∀ t : Fin grid1.N, _)

/-- The hidden row's block at point t, entry k: hidden entry (t % 4) * 1024 + k. -/
theorem blk0_apply (c : Dev nD) (t : Fin cfg1.N) (k : Fin 1024) :
    (iblk1 V c 0 t : Vec Ideal S1x1024 .f32) (ix2 (0 : Fin 1) k)
      = V c main_v5_0 (ix2 (0 : Fin 1) (⟨t.val % 4 * 1024 + k.val, by have := k.isLt; omega⟩ : Fin 4096)) := by
  obtain ⟨e0, e1, -⟩ := idx_facts t
  unfold iblk1
  rw [View.read_apply]
  show V c main_v5_0 (((cfg1.win 0).blk t).view.emb (ix2 (0 : Fin 1) k)) = _
  refine congrArg (V c main_v5_0) (funext fun a => Fin.ext ?_)
  match a with
  | ⟨0, _⟩ => show win1_0.index t (0 : Fin 2) * 1 + 1 * 0 = 0; omega
  | ⟨1, _⟩ => show win1_0.index t (1 : Fin 2) * 1024 + 1 * k.val = t.val % 4 * 1024 + k.val; omega

/-- The weights' block at point t, entry (j, k): weight ((t / 4) * 3200 + j, (t % 4) * 1024 + k). -/
theorem blk1_apply (c : Dev nD) (t : Fin cfg1.N) (j : Fin 3200) (k : Fin 1024) :
    (iblk1 V c 1 t : Vec Ideal S3200x1024 .f32) (ix2 j k)
      = V c main_arg11 (ix2 (⟨t.val / 4 * 3200 + j.val, by
            have := j.isLt; have := t.isLt; have hN : cfg1.N = 40 := N_1; omega⟩ : Fin 32000)
          (⟨t.val % 4 * 1024 + k.val, by have := k.isLt; omega⟩ : Fin 4096)) := by
  obtain ⟨-, -, e2, e3, -⟩ := idx_facts t
  unfold iblk1
  rw [View.read_apply]
  show V c main_arg11 (((cfg1.win 1).blk t).view.emb (ix2 j k)) = _
  refine congrArg (V c main_arg11) (funext fun a => Fin.ext ?_)
  match a with
  | ⟨0, _⟩ => show win1_1.index t (0 : Fin 2) * 3200 + 1 * j.val = t.val / 4 * 3200 + j.val; omega
  | ⟨1, _⟩ => show win1_1.index t (1 : Fin 2) * 1024 + 1 * k.val = t.val % 4 * 1024 + k.val; omega

/-- The bias row's block at point t, entry j: bias entry (t / 4) * 3200 + j. -/
theorem blk2_apply (c : Dev nD) (t : Fin cfg1.N) (j : Fin 3200) :
    (iblk1 V c 2 t : Vec Ideal S1x3200 .f32) (ix2 (0 : Fin 1) j)
      = V c main_v6 (ix2 (0 : Fin 1) (⟨t.val / 4 * 3200 + j.val, by
            have := j.isLt; have := t.isLt; have hN : cfg1.N = 40 := N_1; omega⟩ : Fin 32000)) := by
  obtain ⟨-, -, -, -, e4, e5, -⟩ := idx_facts t
  unfold iblk1
  rw [View.read_apply]
  show V c main_v6 (((cfg1.win 2).blk t).view.emb (ix2 (0 : Fin 1) j)) = _
  refine congrArg (V c main_v6) (funext fun a => Fin.ext ?_)
  match a with
  | ⟨0, _⟩ => show win1_2.index t (0 : Fin 2) * 1 + 1 * 0 = 0; omega
  | ⟨1, _⟩ => show win1_2.index t (1 : Fin 2) * 3200 + 1 * j.val = t.val / 4 * 3200 + j.val; omega

/-! ## The accumulator -/

/-- Contraction block kb of row block ni at entry j: the 1024 products of that block (zero outside the grid). -/
def term (h : Vec Ideal S1x4096 .f32) (W : Vec Ideal S32000x4096 .f32) (ni kb : ℕ) (j : Fin 3200) : EReal :=
  if hb : ni < 10 ∧ kb < 4 then
    ∑ k : Fin 1024, h (ix2 (0 : Fin 1) (⟨kb * 1024 + k.val, by have := k.isLt; omega⟩ : Fin 4096))
      * W (ix2 (⟨ni * 3200 + j.val, by have := j.isLt; omega⟩ : Fin 32000)
          (⟨kb * 1024 + k.val, by have := k.isLt; omega⟩ : Fin 4096))
  else 0

/-- A block product whose operands' entries are the hidden entries and the weights of contraction block kb of row block
    ni is that block's term. -/
theorem prod_apply (h : Vec Ideal S1x4096 .f32) (W : Vec Ideal S32000x4096 .f32) (x : Vec Ideal S1x1024 .f32)
    (w : Vec Ideal S3200x1024 .f32) (ni kb : ℕ) (hni : ni < 10) (hkb : kb < 4) (j : Fin 3200)
    (hx : ∀ k : Fin 1024, x (ix2 (0 : Fin 1) k)
      = h (ix2 (0 : Fin 1) (⟨kb * 1024 + k.val, by have := k.isLt; omega⟩ : Fin 4096)))
    (hw : ∀ k : Fin 1024, w (ix2 j k)
      = W (ix2 (⟨ni * 3200 + j.val, by have := j.isLt; omega⟩ : Fin 32000)
          (⟨kb * 1024 + k.val, by have := k.isLt; omega⟩ : Fin 4096))) :
    ∑ k : Fin 1024, x (ix2 (0 : Fin 1) k) * w (ix2 j k) = term h W ni kb j := by
  unfold term
  rw [dif_pos ⟨hni, hkb⟩]
  exact Finset.sum_congr rfl fun k _ => by rw [hx k, hw k]

/-- After position n the accumulator holds, at entry j, the contraction blocks 0, ..., n % 4 of row block n / 4. -/
theorem acc_eq (c : Dev nD) : ∀ (n : ℕ) (hn : n < cfg1.N) (j : Fin 3200),
    (outsAt1 V c n hn).2 (ix2 (0 : Fin 1) j)
      = ∑ kb ∈ Finset.range (n % 4 + 1), term (V c main_v5_0) (V c main_arg11) (n / 4) kb j
  | 0, hn, j => by
    have hN : cfg1.N = 40 := N_1
    rw [outsAt1_A V c ⟨0, hn⟩ (Nat.zero_mod 4)]
    dsimp only
    rw [sout_A]
    refine (Val.accP_apply _ (iblk1 V c 0 ⟨0, hn⟩) (iblk1 V c 1 ⟨0, hn⟩) j).trans ?_
    rw [Val.clearP_apply, zero_add, prod_apply (V c main_v5_0) (V c main_arg11) (iblk1 V c 0 ⟨0, hn⟩) (iblk1 V c 1 ⟨0, hn⟩) (0 / 4) (0 % 4) (by omega) (by omega) j
      (fun k => blk0_apply V c ⟨0, hn⟩ k) (fun k => blk1_apply V c ⟨0, hn⟩ j k)]
    exact (Finset.sum_range_one (fun kb => term (V c main_v5_0) (V c main_arg11) (0 / 4) kb j)).symm
  | n + 1, hn, j => by
    have hN : cfg1.N = 40 := N_1
    by_cases h0 : (n + 1) % 4 = 0
    · rw [outsAt1_A V c ⟨n + 1, hn⟩ h0]
      dsimp only
      rw [sout_A]
      refine (Val.accP_apply _ (iblk1 V c 0 ⟨n + 1, hn⟩) (iblk1 V c 1 ⟨n + 1, hn⟩) j).trans ?_
      rw [Val.clearP_apply, zero_add, prod_apply (V c main_v5_0) (V c main_arg11) (iblk1 V c 0 ⟨n + 1, hn⟩) (iblk1 V c 1 ⟨n + 1, hn⟩) ((n + 1) / 4) ((n + 1) % 4) (by omega) (by omega) j
        (fun k => blk0_apply V c ⟨n + 1, hn⟩ k) (fun k => blk1_apply V c ⟨n + 1, hn⟩ j k)]
      show term _ _ ((n + 1) / 4) ((n + 1) % 4) j = _
      rw [h0]
      exact (Finset.sum_range_one (fun kb => term (V c main_v5_0) (V c main_arg11) ((n + 1) / 4) kb j)).symm
    · have e1 : (n + 1) / 4 = n / 4 := by omega
      have e2 : (n + 1) % 4 = n % 4 + 1 := by omega
      by_cases h1 : (n + 1) % 4 = 3
      · rw [outsAt1_C V c ⟨n + 1, hn⟩ h0 h1]
        dsimp only
        rw [sout_C]
        refine (Val.accP_apply _ (iblk1 V c 0 ⟨n + 1, hn⟩) (iblk1 V c 1 ⟨n + 1, hn⟩) j).trans ?_
        rw [prod_apply (V c main_v5_0) (V c main_arg11) (iblk1 V c 0 ⟨n + 1, hn⟩) (iblk1 V c 1 ⟨n + 1, hn⟩) ((n + 1) / 4) ((n + 1) % 4) (by omega) (by omega) j
          (fun k => blk0_apply V c ⟨n + 1, hn⟩ k) (fun k => blk1_apply V c ⟨n + 1, hn⟩ j k)]
        show (outsAt1 V c n _).2 (ix2 (0 : Fin 1) j) + term _ _ ((n + 1) / 4) ((n + 1) % 4) j = _
        rw [acc_eq c n _ j, e1, e2]
        exact (Finset.sum_range_succ _ _).symm
      · rw [outsAt1_B V c ⟨n + 1, hn⟩ h0 h1]
        dsimp only
        rw [sout_B]
        refine (Val.accP_apply _ (iblk1 V c 0 ⟨n + 1, hn⟩) (iblk1 V c 1 ⟨n + 1, hn⟩) j).trans ?_
        rw [prod_apply (V c main_v5_0) (V c main_arg11) (iblk1 V c 0 ⟨n + 1, hn⟩) (iblk1 V c 1 ⟨n + 1, hn⟩) ((n + 1) / 4) ((n + 1) % 4) (by omega) (by omega) j
          (fun k => blk0_apply V c ⟨n + 1, hn⟩ k) (fun k => blk1_apply V c ⟨n + 1, hn⟩ j k)]
        show (outsAt1 V c n _).2 (ix2 (0 : Fin 1) j) + term _ _ ((n + 1) / 4) ((n + 1) % 4) j = _
        rw [acc_eq c n _ j, e1, e2]
        exact (Finset.sum_range_succ _ _).symm

/-! ## The whole contraction -/

/-- The four contraction blocks of row block ni are the whole sum over the 4096 columns. -/
theorem four_blocks (h : Vec Ideal S1x4096 .f32) (W : Vec Ideal S32000x4096 .f32) (ni : ℕ) (hni : ni < 10) (j : Fin 3200) :
    ∑ kb ∈ Finset.range 4, term h W ni kb j
      = ∑ k : Fin 4096, W (ix2 (⟨ni * 3200 + j.val, by have := j.isLt; omega⟩ : Fin 32000) k) * h (ix2 (0 : Fin 1) k) := by
  rw [Finset.sum_range, Cert.BlockSum.sum_4096 (fun k : Fin 4096 =>
    W (ix2 (⟨ni * 3200 + j.val, by have := j.isLt; omega⟩ : Fin 32000) k) * h (ix2 (0 : Fin 1) k))]
  refine Finset.sum_congr rfl fun kb _ => ?_
  unfold term
  rw [dif_pos ⟨hni, kb.isLt⟩]
  exact Finset.sum_congr rfl fun k _ => mul_comm _ _

/-! ## The output array -/

/-- The read-out: at column n the sum over k of weight (n, k) times hidden entry k, plus bias entry n. -/
def G1 (h : Vec Ideal S1x4096 .f32) (W : Vec Ideal S32000x4096 .f32) (b : Vec Ideal S1x32000 .f32) :
    Vec Ideal S1x32000 .f32 :=
  fun i => (∑ k : Fin 4096, W (ix2 (⟨(i 1).val, (i 1).isLt⟩ : Fin 32000) k) * h (ix2 (0 : Fin 1) k))
    + b (ix2 (0 : Fin 1) (⟨(i 1).val, (i 1).isLt⟩ : Fin 32000))

theorem G1_ix2 (h : Vec Ideal S1x4096 .f32) (W : Vec Ideal S32000x4096 .f32) (b : Vec Ideal S1x32000 .f32)
    (p : Fin 1) (n : Fin 32000) :
    G1 h W b (ix2 p n) = (∑ k : Fin 4096, W (ix2 n k) * h (ix2 (0 : Fin 1) k)) + b (ix2 (0 : Fin 1) n) := rfl

/-- The output block a last contraction block leaves, at entry j: the read-out at column (t / 4) * 3200 + j. -/
theorem out_apply (c : Dev nD) (t : Fin cfg1.N) (h3 : t.val % 4 = 3) (j : Fin 3200) :
    (outsAt1 V c t.val t.isLt).1 (ix2 (0 : Fin 1) j)
      = G1 (V c main_v5_0) (V c main_arg11) (V c main_v6)
          (ix2 (0 : Fin 1) (⟨t.val / 4 * 3200 + j.val, by
            have := j.isLt; have := t.isLt; have hN : cfg1.N = 40 := N_1; omega⟩ : Fin 32000)) := by
  have hN : cfg1.N = 40 := N_1
  have ht := t.isLt
  have h0 : ¬t.val % 4 = 0 := by omega
  have hacc := acc_eq V c t.val t.isLt j
  rw [outsAt1_C V c t h0 h3] at hacc ⊢
  dsimp only at hacc ⊢
  rw [sout_C] at hacc
  rw [out_C]
  refine (Val.outP_apply _ _ _).trans ?_
  rw [hacc, h3]
  show (∑ kb ∈ Finset.range 4, term _ _ (t.val / 4) kb j) + _ = _
  rw [four_blocks _ _ (t.val / 4) (by omega) j, blk2_apply V c t j, G1_ix2]

/-- What a writing point writes back is its block of the read-out. -/
theorem flushed_eq (c : Dev nD) (t : Fin cfg1.N) (hf : (cfg1.win 3).flush t = true) :
    (dat1 V c).flushed 3 t
      = ((cfg1.win 3).blk t).view.read (Elt Ideal) (G1 (V c main_v5_0) (V c main_arg11) (V c main_v6)) := by
  have h3 : t.val % 4 = 3 := (flush1_3 t).mp hf
  obtain ⟨-, -, -, -, -, -, e6, e7⟩ := idx_facts t
  show (cfg1.win 3).cut (grid1.coords t) ((dat1 V c).after 3 t) = _
  rw [after1_3]
  funext y
  have hy0 : (y 0).val < 1 := (y 0).isLt
  have hy1 : (y 1).val < 3200 := (y 1).isLt
  have ey : (cfg1.win 3).xinj (grid1.coords t) y = ix2 (0 : Fin 1) (⟨(y 1).val, hy1⟩ : Fin 3200) :=
    funext fun a => Fin.ext (by
      match a with
      | ⟨0, _⟩ => show (y 0).val = 0; omega
      | ⟨1, _⟩ => rfl)
  show (outsAt1 V c t.val t.isLt).1 ((cfg1.win 3).xinj (grid1.coords t) y) = _
  rw [ey, out_apply V c t h3, View.read_apply]
  refine congrArg (G1 (V c main_v5_0) (V c main_arg11) (V c main_v6)) (funext fun a => Fin.ext ?_)
  match a with
  | ⟨0, _⟩ => show 0 = win1_3.index t (0 : Fin 2) * 1 + 1 * (y 0).val; omega
  | ⟨1, _⟩ => show t.val / 4 * 3200 + (y 1).val = win1_3.index t (1 : Fin 2) * 3200 + 1 * (y 1).val; omega

/-- An index of the output array is in point t's block iff each coordinate is in the block's range. -/
theorem mem_blk (t : Fin cfg1.N) (i : S1x32000.Idx) :
    i ∈ ((cfg1.win 3).blk t).view.set
      ↔ ∀ a : Fin 2, win1_3.index t a * S1x3200.size a ≤ (i a).val ∧ (i a).val < win1_3.index t a * S1x3200.size a + S1x3200.size a := by
  show i ∈ ((View.whole main_v7).slice (win1_3.rect t)).set ↔ _
  rw [View.set_slice_whole, Rect.mem_set_unit]
  exact Iff.rfl

/-- Every column is in the block of the last contraction point of its row block. -/
theorem cover (i : S1x32000.Idx) : ∃ t : Fin cfg1.N, (cfg1.win 3).flush t = true ∧ i ∈ ((cfg1.win 3).blk t).view.set := by
  have hN : cfg1.N = 40 := N_1
  have hi0 : (i 0).val < 1 := (i 0).isLt
  have hi1 : (i 1).val < 32000 := (i 1).isLt
  let t : Fin cfg1.N := ⟨(i 1).val / 3200 * 4 + 3, by omega⟩
  have htv : t.val = (i 1).val / 3200 * 4 + 3 := rfl
  obtain ⟨-, -, -, -, -, -, e6, e7⟩ := idx_facts t
  refine ⟨t, (flush1_3 t).mpr (by omega), ?_⟩
  rw [mem_blk]
  intro a
  match a with
  | ⟨0, _⟩ => show win1_3.index t (0 : Fin 2) * 1 ≤ (i 0).val ∧ (i 0).val < win1_3.index t (0 : Fin 2) * 1 + 1; omega
  | ⟨1, _⟩ => show win1_3.index t (1 : Fin 2) * 3200 ≤ (i 1).val ∧ (i 1).val < win1_3.index t (1 : Fin 2) * 3200 + 3200; omega

/-- After the region the output array holds the read-out of the hidden row, the weights and the bias row as the
    region found them. -/
theorem final (c : Dev nD) :
    (dat1 V c).arrAt 3 cfg1.N = G1 (V c main_v5_0) (V c main_arg11) (V c main_v6) :=
  (dat1 V c).arrAt_eq_of_cover 3 _ (fun t hf => flushed_eq V c t hf) cover

end Cert.KernelIdeal.Val1

end
-- ==== Proof.LibStageRead.lean ====
/-
  Reading ONE operation's result inside a long line of host operations.
  `StableHlo.after ops V` folds the operations over the buffers' contents `V`. When the line is in single-assignment form —
  the references it writes are listed, in order, by `dsts`, and no later operation writes them again — the contents of the
  buffer `y` that the operation at position `i` writes, after the WHOLE line, are that operation's function of the contents,
  after the whole line, of the buffers it reads: nothing after position `i` writes `y`, and nothing from position `i` on writes
  a buffer it reads. One lemma per shape of operation (no operand, one, two, three, a reshape, four operands packed),
  each closed at a literal line by `rfl` (the operation at position `i`) and `decide` (the two non-memberships).
-/
import Idealize.ShloMosaic.Lib.StableHlo.Run

namespace Idealize.ShloMosaic.StableHlo

variable {τ : Topo} {sig : RefSig} {Val : EltTy → Type}

/-- The line `ops` writes, operation by operation, at most the references `dsts` lists, in order. -/
def WritesAre (ops : List (HloOp τ sig Val)) (dsts : List (Ref sig .tc)) : Prop :=
  List.Forall₂ (fun op d => op.writes ⊆ ({Proc.devRef (τ := τ) .tc d} : Finset (DevRef τ sig))) ops dsts

theorem WritesAre.forall_sub {ops : List (HloOp τ sig Val)} {dsts : List (Ref sig .tc)} (h : WritesAre ops dsts) :
    ops.Forall fun op => op.writes ⊆ (dsts.map (Proc.devRef (τ := τ) .tc)).toFinset := by
  induction h with
  | nil => exact trivial
  | @cons op d ops dsts hd _ ih =>
    rw [List.forall_cons]
    refine ⟨fun b hb => ?_, ?_⟩
    · rw [Finset.mem_singleton.mp (hd hb)]; simp
    · exact List.forall_iff_forall_mem.mpr fun o ho b hb => by
        have := (List.forall_iff_forall_mem.mp ih) o ho hb
        simp only [List.map_cons, List.toFinset_cons, Finset.mem_insert]; exact Or.inr this

theorem WritesAre.drop {ops : List (HloOp τ sig Val)} {dsts : List (Ref sig .tc)} (h : WritesAre ops dsts) (n : ℕ) :
    WritesAre (ops.drop n) (dsts.drop n) := List.forall₂_drop n h

/-- The line run whole is its first `n` operations, then the rest. -/
theorem after_take_drop (ops : List (HloOp τ sig Val)) (n : ℕ) (V : Valuation τ sig Val) :
    after ops V = after (ops.drop n) (after (ops.take n) V) := by
  conv_lhs => rw [← List.take_append_drop n ops]
  induction ops.take n generalizing V with
  | nil => rfl
  | cons op l ih => exact ih (op.result V)

/-- A reference nothing from position `n` on writes holds, after the whole line, what the first `n` operations leave. -/
theorem after_keep_from {ops : List (HloOp τ sig Val)} {dsts : List (Ref sig .tc)} (h : WritesAre ops dsts) (n : ℕ)
    {r : Ref sig .tc} (hr : r ∉ dsts.drop n) (V : Valuation τ sig Val) :
    after ops V (Proc.devRef .tc r) = after (ops.take n) V (Proc.devRef .tc r) := by
  rw [after_take_drop ops n V]
  exact after_of_writes_sub _ _ (h.drop n).forall_sub hr

/-- What the operation at position `i` writes holds, after the whole line, what that operation left there. -/
theorem after_read_at {ops : List (HloOp τ sig Val)} {dsts : List (Ref sig .tc)} (h : WritesAre ops dsts) (i : ℕ)
    {op : HloOp τ sig Val} (hop : ops[i]? = some op) {y : Ref sig .tc} (hy : y ∉ dsts.drop (i + 1)) (V : Valuation τ sig Val) :
    after ops V (Proc.devRef .tc y) = op.result (after (ops.take i) V) (Proc.devRef .tc y) := by
  rw [after_keep_from h (i + 1) hy V, List.take_succ, hop]
  show after (ops.take i ++ [op]) V _ = _
  induction ops.take i generalizing V with
  | nil => rfl
  | cons o l ih => exact ih (o.result V)

section Shapes

variable {ops : List (HloOp τ sig Val)} {dsts : List (Ref sig .tc)} (h : WritesAre ops dsts) (i : ℕ) (V : Valuation τ sig Val)
include h

theorem read_nullary {y : Ref sig .tc} {v : y.ty.Contents Val} {hy}
    (hop : ops[i]? = some (nullary (τ := τ) y v hy)) (hy' : y ∉ dsts.drop (i + 1)) :
    after ops V (Proc.devRef .tc y) = v := by
  rw [after_read_at h i hop hy' V, nullary_result]

theorem read_unary {x y : Ref sig .tc} {f : x.ty.Contents Val → y.ty.Contents Val} {hx hy}
    (hop : ops[i]? = some (unary (τ := τ) x y f hx hy)) (hy' : y ∉ dsts.drop (i + 1)) (hx' : x ∉ dsts.drop i) :
    after ops V (Proc.devRef .tc y) = f (after ops V (Proc.devRef .tc x)) := by
  rw [after_read_at h i hop hy' V, unary_result, after_keep_from h i hx' V]

theorem read_binary {a b y : Ref sig .tc} {f : a.ty.Contents Val → b.ty.Contents Val → y.ty.Contents Val} {ha hb hy}
    (hop : ops[i]? = some (binary (τ := τ) a b y f ha hb hy)) (hy' : y ∉ dsts.drop (i + 1))
    (ha' : a ∉ dsts.drop i) (hb' : b ∉ dsts.drop i) :
    after ops V (Proc.devRef .tc y) = f (after ops V (Proc.devRef .tc a)) (after ops V (Proc.devRef .tc b)) := by
  rw [after_read_at h i hop hy' V, binary_result, after_keep_from h i ha' V, after_keep_from h i hb' V]

theorem read_ternary {c a b y : Ref sig .tc} {f : c.ty.Contents Val → a.ty.Contents Val → b.ty.Contents Val → y.ty.Contents Val} {hc ha hb hy}
    (hop : ops[i]? = some (ternary (τ := τ) c a b y f hc ha hb hy)) (hy' : y ∉ dsts.drop (i + 1))
    (hc' : c ∉ dsts.drop i) (ha' : a ∉ dsts.drop i) (hb' : b ∉ dsts.drop i) :
    after ops V (Proc.devRef .tc y)
      = f (after ops V (Proc.devRef .tc c)) (after ops V (Proc.devRef .tc a)) (after ops V (Proc.devRef .tc b)) := by
  rw [after_read_at h i hop hy' V, ternary_result, after_keep_from h i hc' V, after_keep_from h i ha' V, after_keep_from h i hb' V]

theorem read_reshape {x y : Ref sig .tc} {he : x.ty.elt = y.ty.elt} {hn : x.ty.shape.ShapeCasts y.ty.shape} {hx hy}
    (hop : ops[i]? = some (reshape (τ := τ) (Val := Val) x y he hn hx hy)) (hy' : y ∉ dsts.drop (i + 1)) (hx' : x ∉ dsts.drop i) :
    after ops V (Proc.devRef .tc y) = fun j => he ▸ shapeCast y.ty.shape (after ops V (Proc.devRef .tc x)) hn j := by
  rw [after_read_at h i hop hy' V, reshape_result, after_keep_from h i hx' V]

theorem read_nary4 {x a b c y : Ref sig .tc}
    {f : ((k : Fin 4) → ((![x, a, b, c] : Fin 4 → Ref sig .tc) k).ty.Contents Val) → y.ty.Contents Val} {hxs hy}
    (hop : ops[i]? = some (nary (τ := τ) ![x, a, b, c] y f hxs hy)) (hy' : y ∉ dsts.drop (i + 1))
    (hx' : x ∉ dsts.drop i) (ha' : a ∉ dsts.drop i) (hb' : b ∉ dsts.drop i) (hc' : c ∉ dsts.drop i) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun j => j.elim0))))) := by
  rw [after_read_at h i hop hy' V, nary4_result, after_keep_from h i hx' V, after_keep_from h i ha' V,
    after_keep_from h i hb' V, after_keep_from h i hc' V]

end Shapes

end Idealize.ShloMosaic.StableHlo
-- ==== Proof.TailRead.lean ====
/-
  The host log-softmax line of the kernel program, read one operation at a time. The line writes fifteen buffers, each
  once and in order, so after the whole line the buffer an operation writes holds that operation's function of what its
  operands hold after the whole line; the read-out row itself is not written by the line. Composed, the line's result
  is the row less its maximum, less the logarithm of the sum of the exponentials of that difference.
-/
import proofs.«125930_j21131239097236_2_alg».proof.Proof.Gen.KernelIdeal.Regions
import proofs.«125930_j21131239097236_2_alg».proof.Proof.LibStageRead
import proofs.«125930_j21131239097236_2_alg».proof.Proof.Spec
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-- The buffer each of the fifteen operations writes, in order. -/
abbrev dsts2 : List (Ref sig .tc) :=
  [main_call0_cst, main_call0_v0, main_call0_cst_0, main_call0_v1, main_call0_v2, main_call0_v3, main_call0_v4, main_call0_v5, main_call0_v6, main_call0_cst_1, main_call0_v7, main_call0_v8, main_call0_v9, main_call0_v10, main_v8]

set_option maxRecDepth 65536 in
theorem hW2 : WritesAre (hostOps2 : List (HloOp τ sig (Elt F))) dsts2 :=
  (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) .nil)))))))))))))))

/-- The line does not write the read-out row. -/
theorem tl_in (W : Valuation τ sig (Elt F)) :
    StableHlo.after (hostOps2 (F := F)) W (Proc.devRef .tc main_v7) = W (Proc.devRef .tc main_v7) :=
  StableHlo.after_of_writes_sub hostOps2 W hostOps2_writes (by decide)

set_option maxRecDepth 200000 in
theorem tl_cst (W : Valuation τ sig (Elt F)) :
    StableHlo.after (hostOps2 (F := F)) W (Proc.devRef .tc main_call0_cst) = ((constant (F := F) S_ .f32 0xFF800000#32) : (⟨S_, .f32⟩ : BufTy).Contents (Elt F)) := by
  have h := read_nullary hW2 0 W rfl (by decide)
  exact h

set_option maxRecDepth 200000 in
theorem tl_v0 (W : Valuation τ sig (Elt F)) :
    StableHlo.after (hostOps2 (F := F)) W (Proc.devRef .tc main_call0_v0) = ((Host.reduce FloatOps.maximumf (W (Proc.devRef .tc main_v7)) (constant (F := F) S_ .f32 0xFF800000#32) reducesTo_S1x32000_S1_d1 h_S_) : (⟨S1, .f32⟩ : BufTy).Contents (Elt F)) := by
  have h := read_binary hW2 1 W rfl (by decide) (by decide) (by decide)
  rw [tl_in W, tl_cst W] at h
  exact h

set_option maxRecDepth 200000 in
theorem tl_cst0 (W : Valuation τ sig (Elt F)) :
    StableHlo.after (hostOps2 (F := F)) W (Proc.devRef .tc main_call0_cst_0) = ((constant (F := F) S_ .f32 0xFF800000#32) : (⟨S_, .f32⟩ : BufTy).Contents (Elt F)) := by
  have h := read_nullary hW2 2 W rfl (by decide)
  exact h

set_option maxRecDepth 200000 in
theorem tl_v1 (W : Valuation τ sig (Elt F)) :
    StableHlo.after (hostOps2 (F := F)) W (Proc.devRef .tc main_call0_v1) = ((broadcastInDim S1 ![] bcast_S_S1 (constant (F := F) S_ .f32 0xFF800000#32)) : (⟨S1, .f32⟩ : BufTy).Contents (Elt F)) := by
  have h := read_unary hW2 3 W rfl (by decide) (by decide)
  rw [tl_cst0 W] at h
  exact h

set_option maxRecDepth 200000 in
theorem tl_v2 (W : Valuation τ sig (Elt F)) :
    StableHlo.after (hostOps2 (F := F)) W (Proc.devRef .tc main_call0_v2) = ((maximumf (broadcastInDim S1 ![] bcast_S_S1 (constant (F := F) S_ .f32 0xFF800000#32)) (Host.reduce FloatOps.maximumf (W (Proc.devRef .tc main_v7)) (constant (F := F) S_ .f32 0xFF800000#32) reducesTo_S1x32000_S1_d1 h_S_)) : (⟨S1, .f32⟩ : BufTy).Contents (Elt F)) := by
  have h := read_binary hW2 4 W rfl (by decide) (by decide) (by decide)
  rw [tl_v1 W, tl_v0 W] at h
  exact h

set_option maxRecDepth 200000 in
theorem tl_v3 (W : Valuation τ sig (Elt F)) :
    StableHlo.after (hostOps2 (F := F)) W (Proc.devRef .tc main_call0_v3) = ((broadcastInDim S1x1 ![0] bcast_S1_S1x1_0 (maximumf (broadcastInDim S1 ![] bcast_S_S1 (constant (F := F) S_ .f32 0xFF800000#32)) (Host.reduce FloatOps.maximumf (W (Proc.devRef .tc main_v7)) (constant (F := F) S_ .f32 0xFF800000#32) reducesTo_S1x32000_S1_d1 h_S_))) : (⟨S1x1, .f32⟩ : BufTy).Contents (Elt F)) := by
  have h := read_unary hW2 5 W rfl (by decide) (by decide)
  rw [tl_v2 W] at h
  exact h

set_option maxRecDepth 200000 in
theorem tl_v4 (W : Valuation τ sig (Elt F)) :
    StableHlo.after (hostOps2 (F := F)) W (Proc.devRef .tc main_call0_v4) = ((broadcastInDim S1x32000 ![0, 1] bcast_S1x1_S1x32000_0_1 (broadcastInDim S1x1 ![0] bcast_S1_S1x1_0 (maximumf (broadcastInDim S1 ![] bcast_S_S1 (constant (F := F) S_ .f32 0xFF800000#32)) (Host.reduce FloatOps.maximumf (W (Proc.devRef .tc main_v7)) (constant (F := F) S_ .f32 0xFF800000#32) reducesTo_S1x32000_S1_d1 h_S_)))) : (⟨S1x32000, .f32⟩ : BufTy).Contents (Elt F)) := by
  have h := read_unary hW2 6 W rfl (by decide) (by decide)
  rw [tl_v3 W] at h
  exact h

set_option maxRecDepth 200000 in
theorem tl_v5 (W : Valuation τ sig (Elt F)) :
    StableHlo.after (hostOps2 (F := F)) W (Proc.devRef .tc main_call0_v5) = ((subf (W (Proc.devRef .tc main_v7)) (broadcastInDim S1x32000 ![0, 1] bcast_S1x1_S1x32000_0_1 (broadcastInDim S1x1 ![0] bcast_S1_S1x1_0 (maximumf (broadcastInDim S1 ![] bcast_S_S1 (constant (F := F) S_ .f32 0xFF800000#32)) (Host.reduce FloatOps.maximumf (W (Proc.devRef .tc main_v7)) (constant (F := F) S_ .f32 0xFF800000#32) reducesTo_S1x32000_S1_d1 h_S_))))) : (⟨S1x32000, .f32⟩ : BufTy).Contents (Elt F)) := by
  have h := read_binary hW2 7 W rfl (by decide) (by decide) (by decide)
  rw [tl_in W, tl_v4 W] at h
  exact h

set_option maxRecDepth 200000 in
theorem tl_v6 (W : Valuation τ sig (Elt F)) :
    StableHlo.after (hostOps2 (F := F)) W (Proc.devRef .tc main_call0_v6) = ((Host.exp (subf (W (Proc.devRef .tc main_v7)) (broadcastInDim S1x32000 ![0, 1] bcast_S1x1_S1x32000_0_1 (broadcastInDim S1x1 ![0] bcast_S1_S1x1_0 (maximumf (broadcastInDim S1 ![] bcast_S_S1 (constant (F := F) S_ .f32 0xFF800000#32)) (Host.reduce FloatOps.maximumf (W (Proc.devRef .tc main_v7)) (constant (F := F) S_ .f32 0xFF800000#32) reducesTo_S1x32000_S1_d1 h_S_)))))) : (⟨S1x32000, .f32⟩ : BufTy).Contents (Elt F)) := by
  have h := read_unary hW2 8 W rfl (by decide) (by decide)
  rw [tl_v5 W] at h
  exact h

set_option maxRecDepth 200000 in
theorem tl_cst1 (W : Valuation τ sig (Elt F)) :
    StableHlo.after (hostOps2 (F := F)) W (Proc.devRef .tc main_call0_cst_1) = ((constant (F := F) S_ .f32 0x00000000#32) : (⟨S_, .f32⟩ : BufTy).Contents (Elt F)) := by
  have h := read_nullary hW2 9 W rfl (by decide)
  exact h

set_option maxRecDepth 200000 in
theorem tl_v7 (W : Valuation τ sig (Elt F)) :
    StableHlo.after (hostOps2 (F := F)) W (Proc.devRef .tc main_call0_v7) = ((Host.reduceAdd (Host.exp (subf (W (Proc.devRef .tc main_v7)) (broadcastInDim S1x32000 ![0, 1] bcast_S1x1_S1x32000_0_1 (broadcastInDim S1x1 ![0] bcast_S1_S1x1_0 (maximumf (broadcastInDim S1 ![] bcast_S_S1 (constant (F := F) S_ .f32 0xFF800000#32)) (Host.reduce FloatOps.maximumf (W (Proc.devRef .tc main_v7)) (constant (F := F) S_ .f32 0xFF800000#32) reducesTo_S1x32000_S1_d1 h_S_)))))) (constant (F := F) S_ .f32 0x00000000#32) reducesTo_S1x32000_S1_d1 h_S_) : (⟨S1, .f32⟩ : BufTy).Contents (Elt F)) := by
  have h := read_binary hW2 10 W rfl (by decide) (by decide) (by decide)
  rw [tl_v6 W, tl_cst1 W] at h
  exact h

set_option maxRecDepth 200000 in
theorem tl_v8 (W : Valuation τ sig (Elt F)) :
    StableHlo.after (hostOps2 (F := F)) W (Proc.devRef .tc main_call0_v8) = ((broadcastInDim S1x1 ![0] bcast_S1_S1x1_0 (Host.reduceAdd (Host.exp (subf (W (Proc.devRef .tc main_v7)) (broadcastInDim S1x32000 ![0, 1] bcast_S1x1_S1x32000_0_1 (broadcastInDim S1x1 ![0] bcast_S1_S1x1_0 (maximumf (broadcastInDim S1 ![] bcast_S_S1 (constant (F := F) S_ .f32 0xFF800000#32)) (Host.reduce FloatOps.maximumf (W (Proc.devRef .tc main_v7)) (constant (F := F) S_ .f32 0xFF800000#32) reducesTo_S1x32000_S1_d1 h_S_)))))) (constant (F := F) S_ .f32 0x00000000#32) reducesTo_S1x32000_S1_d1 h_S_)) : (⟨S1x1, .f32⟩ : BufTy).Contents (Elt F)) := by
  have h := read_unary hW2 11 W rfl (by decide) (by decide)
  rw [tl_v7 W] at h
  exact h

set_option maxRecDepth 200000 in
theorem tl_v9 (W : Valuation τ sig (Elt F)) :
    StableHlo.after (hostOps2 (F := F)) W (Proc.devRef .tc main_call0_v9) = ((Host.log (broadcastInDim S1x1 ![0] bcast_S1_S1x1_0 (Host.reduceAdd (Host.exp (subf (W (Proc.devRef .tc main_v7)) (broadcastInDim S1x32000 ![0, 1] bcast_S1x1_S1x32000_0_1 (broadcastInDim S1x1 ![0] bcast_S1_S1x1_0 (maximumf (broadcastInDim S1 ![] bcast_S_S1 (constant (F := F) S_ .f32 0xFF800000#32)) (Host.reduce FloatOps.maximumf (W (Proc.devRef .tc main_v7)) (constant (F := F) S_ .f32 0xFF800000#32) reducesTo_S1x32000_S1_d1 h_S_)))))) (constant (F := F) S_ .f32 0x00000000#32) reducesTo_S1x32000_S1_d1 h_S_))) : (⟨S1x1, .f32⟩ : BufTy).Contents (Elt F)) := by
  have h := read_unary hW2 12 W rfl (by decide) (by decide)
  rw [tl_v8 W] at h
  exact h

set_option maxRecDepth 200000 in
theorem tl_v10 (W : Valuation τ sig (Elt F)) :
    StableHlo.after (hostOps2 (F := F)) W (Proc.devRef .tc main_call0_v10) = ((broadcastInDim S1x32000 ![0, 1] bcast_S1x1_S1x32000_0_1 (Host.log (broadcastInDim S1x1 ![0] bcast_S1_S1x1_0 (Host.reduceAdd (Host.exp (subf (W (Proc.devRef .tc main_v7)) (broadcastInDim S1x32000 ![0, 1] bcast_S1x1_S1x32000_0_1 (broadcastInDim S1x1 ![0] bcast_S1_S1x1_0 (maximumf (broadcastInDim S1 ![] bcast_S_S1 (constant (F := F) S_ .f32 0xFF800000#32)) (Host.reduce FloatOps.maximumf (W (Proc.devRef .tc main_v7)) (constant (F := F) S_ .f32 0xFF800000#32) reducesTo_S1x32000_S1_d1 h_S_)))))) (constant (F := F) S_ .f32 0x00000000#32) reducesTo_S1x32000_S1_d1 h_S_)))) : (⟨S1x32000, .f32⟩ : BufTy).Contents (Elt F)) := by
  have h := read_unary hW2 13 W rfl (by decide) (by decide)
  rw [tl_v9 W] at h
  exact h

set_option maxRecDepth 200000 in
theorem tl_out (W : Valuation τ sig (Elt F)) :
    StableHlo.after (hostOps2 (F := F)) W (Proc.devRef .tc main_v8) = ((subf (subf (W (Proc.devRef .tc main_v7)) (broadcastInDim S1x32000 ![0, 1] bcast_S1x1_S1x32000_0_1 (broadcastInDim S1x1 ![0] bcast_S1_S1x1_0 (maximumf (broadcastInDim S1 ![] bcast_S_S1 (constant (F := F) S_ .f32 0xFF800000#32)) (Host.reduce FloatOps.maximumf (W (Proc.devRef .tc main_v7)) (constant (F := F) S_ .f32 0xFF800000#32) reducesTo_S1x32000_S1_d1 h_S_))))) (broadcastInDim S1x32000 ![0, 1] bcast_S1x1_S1x32000_0_1 (Host.log (broadcastInDim S1x1 ![0] bcast_S1_S1x1_0 (Host.reduceAdd (Host.exp (subf (W (Proc.devRef .tc main_v7)) (broadcastInDim S1x32000 ![0, 1] bcast_S1x1_S1x32000_0_1 (broadcastInDim S1x1 ![0] bcast_S1_S1x1_0 (maximumf (broadcastInDim S1 ![] bcast_S_S1 (constant (F := F) S_ .f32 0xFF800000#32)) (Host.reduce FloatOps.maximumf (W (Proc.devRef .tc main_v7)) (constant (F := F) S_ .f32 0xFF800000#32) reducesTo_S1x32000_S1_d1 h_S_)))))) (constant (F := F) S_ .f32 0x00000000#32) reducesTo_S1x32000_S1_d1 h_S_))))) : (⟨S1x32000, .f32⟩ : BufTy).Contents (Elt F)) := by
  have h := read_binary hW2 14 W rfl (by decide) (by decide) (by decide)
  rw [tl_v5 W, tl_v10 W] at h
  exact h

/-- The whole line: the log-softmax of the read-out row. -/
theorem read_log_softmax (W : Valuation τ sig (Elt Ideal)) :
    StableHlo.after (hostOps2 (F := Ideal)) W (Proc.devRef .tc main_v8) = Cert.Spec.tail (W (Proc.devRef .tc main_v7)) := by
  rw [tl_out (F := Ideal) W]
  unfold Cert.Spec.tail Cert.Spec.shifted
  rfl

end Cert.KernelIdeal.Hand

end
-- ==== Proof.KVal.lean ====
/-
  The kernel program's three results are the specification's arrays. Each result's buffer at the last valuation is
  walked back: a host stretch that does not write it leaves it alone, a region leaves its inputs as entered and its
  outputs at what the per-point analysis says, and the host lines that do write (the joined row, the bias columns as
  rows, the log-softmax) are read as the operations they are.
-/
import proofs.«125930_j21131239097236_2_alg».proof.Proof.KRun
import proofs.«125930_j21131239097236_2_alg».proof.Proof.Val0
import proofs.«125930_j21131239097236_2_alg».proof.Proof.Val1
import proofs.«125930_j21131239097236_2_alg».proof.Proof.KSpec
import proofs.«125930_j21131239097236_2_alg».proof.Proof.TailRead
import Idealize.ShloMosaic.Lib.StableHlo.Run
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

open Idealize.ShloMosaic.StableHlo

variable (m : (ℓ : Loc nD τ sig) → Buf (Elt Ideal) ℓ) (c : Dev nD)

/-! ## The host lines that write, read over any contents -/

theorem read_joined (W : Valuation τ sig (Elt Ideal)) :
    StableHlo.after hostOps0 W (Proc.devRef .tc main_v0)
      = concatenate S1x8192 1 [⟨S1x4096, W (Proc.devRef .tc main_arg0)⟩, ⟨S1x4096, W (Proc.devRef .tc main_arg1)⟩] concatenates_S1x4096_S1x4096_S1x8192_d1 := by
  after_results
  all_goals rfl
theorem read_row1 (W : Valuation τ sig (Elt Ideal)) :
    StableHlo.after hostOps0 W (Proc.devRef .tc main_v1) = shapeCast S1x4096 (W (Proc.devRef .tc main_arg4)) shapeCasts_S4096x1_S1x4096 := by
  after_results
  all_goals rfl
theorem read_row2 (W : Valuation τ sig (Elt Ideal)) :
    StableHlo.after hostOps0 W (Proc.devRef .tc main_v2) = shapeCast S1x4096 (W (Proc.devRef .tc main_arg6)) shapeCasts_S4096x1_S1x4096 := by
  after_results
  all_goals rfl
theorem read_row3 (W : Valuation τ sig (Elt Ideal)) :
    StableHlo.after hostOps0 W (Proc.devRef .tc main_v3) = shapeCast S1x4096 (W (Proc.devRef .tc main_arg8)) shapeCasts_S4096x1_S1x4096 := by
  after_results
  all_goals rfl
theorem read_row4 (W : Valuation τ sig (Elt Ideal)) :
    StableHlo.after hostOps0 W (Proc.devRef .tc main_v4) = shapeCast S1x4096 (W (Proc.devRef .tc main_arg10)) shapeCasts_S4096x1_S1x4096 := by
  after_results
  all_goals rfl
theorem read_out_row (W : Valuation τ sig (Elt Ideal)) :
    StableHlo.after hostOps1 W (Proc.devRef .tc main_v6) = shapeCast S1x32000 (W (Proc.devRef .tc main_arg12)) shapeCasts_S32000x1_S1x32000 := by
  after_results
  all_goals rfl

/-! ## What the gates region finds -/

/-- The joined row: the input row followed by the hidden row. -/
theorem V1_v0 : V1 m c main_v0
    = concatenate S1x8192 1 [⟨S1x4096, (m ((c : Thread nD τ).loc main_arg0))⟩, ⟨S1x4096, (m ((c : Thread nD τ).loc main_arg1))⟩] concatenates_S1x4096_S1x4096_S1x8192_d1 :=
  read_joined (W0 m c)
/-- Bias column 4 as a row. -/
theorem V1_v1 : V1 m c main_v1 = shapeCast S1x4096 (m ((c : Thread nD τ).loc main_arg4)) shapeCasts_S4096x1_S1x4096 :=
  read_row1 (W0 m c)
/-- Bias column 6 as a row. -/
theorem V1_v2 : V1 m c main_v2 = shapeCast S1x4096 (m ((c : Thread nD τ).loc main_arg6)) shapeCasts_S4096x1_S1x4096 :=
  read_row2 (W0 m c)
/-- Bias column 8 as a row. -/
theorem V1_v3 : V1 m c main_v3 = shapeCast S1x4096 (m ((c : Thread nD τ).loc main_arg8)) shapeCasts_S4096x1_S1x4096 :=
  read_row3 (W0 m c)
/-- Bias column 10 as a row. -/
theorem V1_v4 : V1 m c main_v4 = shapeCast S1x4096 (m ((c : Thread nD τ).loc main_arg10)) shapeCasts_S4096x1_S1x4096 :=
  read_row4 (W0 m c)
theorem V1_arg2 : V1 m c main_arg2 = (m ((c : Thread nD τ).loc main_arg2)) :=
  StableHlo.after_of_writes_sub hostOps0 _ hostOps0_writes (by decide)
theorem V1_arg3 : V1 m c main_arg3 = (m ((c : Thread nD τ).loc main_arg3)) :=
  StableHlo.after_of_writes_sub hostOps0 _ hostOps0_writes (by decide)
theorem V1_arg5 : V1 m c main_arg5 = (m ((c : Thread nD τ).loc main_arg5)) :=
  StableHlo.after_of_writes_sub hostOps0 _ hostOps0_writes (by decide)
theorem V1_arg7 : V1 m c main_arg7 = (m ((c : Thread nD τ).loc main_arg7)) :=
  StableHlo.after_of_writes_sub hostOps0 _ hostOps0_writes (by decide)
theorem V1_arg9 : V1 m c main_arg9 = (m ((c : Thread nD τ).loc main_arg9)) :=
  StableHlo.after_of_writes_sub hostOps0 _ hostOps0_writes (by decide)

/-! ## The new hidden row and the new cell row -/

/-- What the gates region leaves in its first output is the specification's new hidden row. -/
theorem hidden_at_W2 : W2 m c (Proc.devRef .tc main_v5_0) = Cert.Spec.hNewArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [show W2 m c (Proc.devRef .tc main_v5_0) = (dat0 (V1 m) c).arrAt 10 cfg0.N from W2_arr m c 10, Cert.KernelIdeal.Val0.final10 (V1 m) c,
    V1_v0, V1_v1, V1_v2, V1_v3, V1_v4, V1_arg2, V1_arg3, V1_arg5, V1_arg7, V1_arg9]
  exact Cert.KSpec.GH_eq _ _ _ _ _ _ _ _ _ _ _ _ _

/-- What it leaves in its second output is the specification's new cell row. -/
theorem cell_at_W2 : W2 m c (Proc.devRef .tc main_v5_1) = Cert.Spec.cNewArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) := by
  rw [show W2 m c (Proc.devRef .tc main_v5_1) = (dat0 (V1 m) c).arrAt 11 cfg0.N from W2_arr m c 11, Cert.KernelIdeal.Val0.final11 (V1 m) c,
    V1_v0, V1_v1, V1_v2, V1_v4, V1_arg2, V1_arg3, V1_arg5, V1_arg9]
  exact Cert.KSpec.GC_eq _ _ _ _ _ _ _ _ _ _ _

/-- The program's second result. -/
theorem hidden_val : W5 m c (Proc.devRef .tc main_v5_0) = Cert.Spec.hNewArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  calc W5 m c (Proc.devRef .tc main_v5_0)
    _ = W4 m c (Proc.devRef .tc main_v5_0) := StableHlo.after_of_writes_sub hostOps2 _ hostOps2_writes (by decide)
    _ = W3 m c (Proc.devRef .tc main_v5_0) := (W4_arr m c 0).trans (((dat1 (V3 m) c).arrAt_in 0 rfl _).trans (A_eq1 (V3 m) c 0))
    _ = W2 m c (Proc.devRef .tc main_v5_0) := StableHlo.after_of_writes_sub hostOps1 _ hostOps1_writes (by decide)
    _ = _ := hidden_at_W2 m c

/-- The program's third result. -/
theorem cell_val : W5 m c (Proc.devRef .tc main_v5_1) = Cert.Spec.cNewArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) :=
  calc W5 m c (Proc.devRef .tc main_v5_1)
    _ = W4 m c (Proc.devRef .tc main_v5_1) := StableHlo.after_of_writes_sub hostOps2 _ hostOps2_writes (by decide)
    _ = W3 m c (Proc.devRef .tc main_v5_1) := W4_of_ne m c main_v5_1 (by decide)
    _ = W2 m c (Proc.devRef .tc main_v5_1) := StableHlo.after_of_writes_sub hostOps1 _ hostOps1_writes (by decide)
    _ = _ := cell_at_W2 m c

/-! ## The read-out and its log-softmax -/

theorem V3_h : V3 m c main_v5_0 = Cert.Spec.hNewArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (StableHlo.after_of_writes_sub hostOps1 _ hostOps1_writes (by decide)).trans (hidden_at_W2 m c)

theorem V3_arg11 : V3 m c main_arg11 = (m ((c : Thread nD τ).loc main_arg11)) :=
  calc W3 m c (Proc.devRef .tc main_arg11)
    _ = W2 m c (Proc.devRef .tc main_arg11) := StableHlo.after_of_writes_sub hostOps1 _ hostOps1_writes (by decide)
    _ = W1 m c (Proc.devRef .tc main_arg11) := W2_of_ne m c main_arg11 (by decide)
    _ = W0 m c (Proc.devRef .tc main_arg11) := StableHlo.after_of_writes_sub hostOps0 _ hostOps0_writes (by decide)
    _ = _ := rfl

theorem W2_arg12 : W2 m c (Proc.devRef .tc main_arg12) = (m ((c : Thread nD τ).loc main_arg12)) :=
  calc W2 m c (Proc.devRef .tc main_arg12)
    _ = W1 m c (Proc.devRef .tc main_arg12) := W2_of_ne m c main_arg12 (by decide)
    _ = W0 m c (Proc.devRef .tc main_arg12) := StableHlo.after_of_writes_sub hostOps0 _ hostOps0_writes (by decide)
    _ = _ := rfl

/-- The read-out's bias column as a row. -/
theorem V3_v6 : V3 m c main_v6 = shapeCast S1x32000 (m ((c : Thread nD τ).loc main_arg12)) shapeCasts_S32000x1_S1x32000 := by
  have e : V3 m c main_v6 = shapeCast S1x32000 (W2 m c (Proc.devRef .tc main_arg12)) shapeCasts_S32000x1_S1x32000 := by
    exact read_out_row (W2 m c)
  rw [e, W2_arg12]

/-- What the projection region leaves in its output is the specification's read-out. -/
theorem logits_at_W4 : W4 m c (Proc.devRef .tc main_v7) = Cert.Spec.logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [show W4 m c (Proc.devRef .tc main_v7) = (dat1 (V3 m) c).arrAt 3 cfg1.N from W4_arr m c 3, Cert.KernelIdeal.Val1.final (V3 m) c,
    V3_h, V3_arg11, V3_v6]
  exact Cert.KSpec.logits_eq _ _ _ _ _ _ _ _ _ _ _ _ _ _ _ (fun n => Cert.KernelIdeal.Val1.G1_ix2 _ _ _ (0 : Fin 1) n)

/-- The program's first result: the log-softmax of the read-out. -/
theorem out_val : W5 m c (Proc.devRef .tc main_v8) = Cert.Spec.tail (Cert.Spec.logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  have e : W5 m c (Proc.devRef .tc main_v8) = Cert.Spec.tail (W4 m c (Proc.devRef .tc main_v7)) := by
    exact read_log_softmax (W4 m c)
  rw [e, logits_at_W4]

end Cert.KernelIdeal.Hand

end
-- ==== Proof.RefStages.lean ====
/-
  The reference computation, one operation at a time, each as a function of the argument arrays it depends on, and each
  read at an index.

  A stage named after a value of the reference is the array that value holds: the two rows joined along the second
  axis, the joined row transposed to a column, a matrix product (at an index, the sum over the contracted index of the
  products of the two operands' entries), an entrywise sum, negation, exponential, quotient, product or hyperbolic
  tangent (at an index, the operation on the operands' entries at that index), a constant spread over a shape (at an
  index, the constant), a transpose (at an index, the operand at the index with its coordinates exchanged), and the
  operations of the log-softmax, which are only named here and never read at an index. The last lemmas say that the
  operations composed into one term are the last stage, for each of the three results.
-/
import proofs.«125930_j21131239097236_2_alg».proof.Proof.Gen.ReferenceIdeal
import Idealize.ShloMosaic.Lib.Pipeline.Value
import Idealize.ShloMosaic.Lib.ValueIdx
import Idealize.ShloMosaic.PureOps.Ideal.Laws

noncomputable section

namespace Cert.RefStages

open Cert.ReferenceIdeal Cert.ReferenceIdeal.Gen Idealize.ShloMosaic Idealize.ShloMosaic.TcCoe Idealize.SL.Sem Idealize.ShloMosaic.StableHlo

variable {F : FTy → Type} [FloatOps F]

def val_main_v0 (x0 x1 : (⟨S1x4096, .f32⟩ : BufTy).Contents (Elt F)) : (⟨S1x8192, .f32⟩ : BufTy).Contents (Elt F) :=
  concatenate S1x8192 1 [⟨S1x4096, (x0)⟩, ⟨S1x4096, (x1)⟩] concatenates_S1x4096_S1x4096_S1x8192_d1

def val_main_v1 (x0 x1 : (⟨S1x4096, .f32⟩ : BufTy).Contents (Elt F)) : (⟨S8192x1, .f32⟩ : BufTy).Contents (Elt F) :=
  transpose S8192x1 [1, 0] (val_main_v0 (F := F) x0 x1) transposes_S1x8192_S8192x1_1_0

abbrev idx_main_v1 (i : S8192x1.Idx) : S1x8192.Idx := fun a => match a with
  | ⟨0, _⟩ => ⟨(i 1).val, (i 1).isLt⟩
  | ⟨1, _⟩ => ⟨(i 0).val, (i 0).isLt⟩

theorem val_main_v1_apply (x0 x1 : (⟨S1x4096, .f32⟩ : BufTy).Contents (Elt F)) (i : S8192x1.Idx) :
    val_main_v1 (F := F) x0 x1 i = val_main_v0 (F := F) x0 x1 (idx_main_v1 i) := by
  unfold val_main_v1
  generalize val_main_v0 (F := F) x0 x1 = y
  exact transpose_apply [1, 0] y transposes_S1x8192_S8192x1_1_0 i (idx_main_v1 i) (fun b => match b with
    | ⟨0, _⟩ => rfl
    | ⟨1, _⟩ => rfl)

def val_main_v2 (x0 x1 : (⟨S1x4096, .f32⟩ : BufTy).Contents (Elt F)) (x3 : (⟨S4096x8192, .f32⟩ : BufTy).Contents (Elt F)) : (⟨S4096x1, .f32⟩ : BufTy).Contents (Elt F) :=
  Host.dotGeneral dot_S4096x8192_S8192x1_S4096x1_1_0_0_1_n_n none (x3) (val_main_v1 (F := F) x0 x1)

theorem lhs_main_v2_0 (i : S4096x1.Idx) (q : dot_S4096x8192_S8192x1_S4096x1_1_0_0_1_n_n.contr.Idx) :
    (dot_S4096x8192_S8192x1_S4096x1_1_0_0_1_n_n.lhsIdx i q 0).val = (i 0).val := by
  unfold DotDims.lhsIdx
  rw [dif_neg (show ¬(0 : Fin S4096x8192.rank) ∈ dot_S4096x8192_S8192x1_S4096x1_1_0_0_1_n_n.lhsBatch by decide), dif_pos (show (0 : Fin S4096x8192.rank) ∈ dot_S4096x8192_S8192x1_S4096x1_1_0_0_1_n_n.lhsNonContracting by decide)]
  rfl

theorem lhs_main_v2_1 (i : S4096x1.Idx) (q : dot_S4096x8192_S8192x1_S4096x1_1_0_0_1_n_n.contr.Idx) :
    (dot_S4096x8192_S8192x1_S4096x1_1_0_0_1_n_n.lhsIdx i q 1).val = (q ⟨0, by decide⟩).val :=
  dot_S4096x8192_S8192x1_S4096x1_1_0_0_1_n_n.lhsIdx_val_of_single rfl i q

theorem rhs_main_v2_0 (i : S4096x1.Idx) (q : dot_S4096x8192_S8192x1_S4096x1_1_0_0_1_n_n.contr.Idx) :
    (dot_S4096x8192_S8192x1_S4096x1_1_0_0_1_n_n.rhsIdx i q 0).val = (q ⟨0, by decide⟩).val :=
  dot_S4096x8192_S8192x1_S4096x1_1_0_0_1_n_n.rhsIdx_val_of_single rfl i q

theorem rhs_main_v2_1 (i : S4096x1.Idx) (q : dot_S4096x8192_S8192x1_S4096x1_1_0_0_1_n_n.contr.Idx) :
    (dot_S4096x8192_S8192x1_S4096x1_1_0_0_1_n_n.rhsIdx i q 1).val = (i 1).val := by
  unfold DotDims.rhsIdx
  rw [dif_neg (show ¬(1 : Fin S8192x1.rank) ∈ dot_S4096x8192_S8192x1_S4096x1_1_0_0_1_n_n.rhsBatch by decide), dif_pos (show (1 : Fin S8192x1.rank) ∈ dot_S4096x8192_S8192x1_S4096x1_1_0_0_1_n_n.rhsNonContracting by decide)]
  rfl

abbrev lidx_main_v2 (i : S4096x1.Idx) (k : Fin 8192) : S4096x8192.Idx := fun a => match a with
  | ⟨0, _⟩ => ⟨(i 0).val, (i 0).isLt⟩
  | ⟨1, _⟩ => ⟨k.val, k.isLt⟩

abbrev ridx_main_v2 (i : S4096x1.Idx) (k : Fin 8192) : S8192x1.Idx := fun a => match a with
  | ⟨0, _⟩ => ⟨k.val, k.isLt⟩
  | ⟨1, _⟩ => ⟨(i 1).val, (i 1).isLt⟩

/-- Stated at `F := Ideal`, where the host's `dot_general` is this sum; at a bit-exact instance it is an opaque function of its operands. -/
theorem val_main_v2_apply (x0 x1 : (⟨S1x4096, .f32⟩ : BufTy).Contents (Elt Ideal)) (x3 : (⟨S4096x8192, .f32⟩ : BufTy).Contents (Elt Ideal)) (i : S4096x1.Idx) :
    val_main_v2 (F := Ideal) x0 x1 x3 i = ∑ k : Fin 8192, x3 (lidx_main_v2 i k) * (val_main_v1 (F := Ideal) x0 x1) (ridx_main_v2 i k) := by
  unfold val_main_v2
  generalize val_main_v1 (F := Ideal) x0 x1 = y0
  simp only [Host.dotGeneral]
  rw [Ideal.dotGeneral_apply, ← Equiv.sum_comp (ValueIdx.contrEquiv1 dot_S4096x8192_S8192x1_S4096x1_1_0_0_1_n_n 8192 rfl rfl).symm]
  refine Finset.sum_congr rfl fun k _ => ?_
  have hk := ValueIdx.contrEquiv1_symm_val dot_S4096x8192_S8192x1_S4096x1_1_0_0_1_n_n 8192 rfl rfl k
  have el : dot_S4096x8192_S8192x1_S4096x1_1_0_0_1_n_n.lhsIdx i ((ValueIdx.contrEquiv1 dot_S4096x8192_S8192x1_S4096x1_1_0_0_1_n_n 8192 rfl rfl).symm k) = lidx_main_v2 i k := funext fun a => Fin.ext (by
    match a with
    | ⟨0, _⟩ => exact lhs_main_v2_0 _ _
    | ⟨1, _⟩ => exact (lhs_main_v2_1 _ _).trans hk)
  have er : dot_S4096x8192_S8192x1_S4096x1_1_0_0_1_n_n.rhsIdx i ((ValueIdx.contrEquiv1 dot_S4096x8192_S8192x1_S4096x1_1_0_0_1_n_n 8192 rfl rfl).symm k) = ridx_main_v2 i k := funext fun a => Fin.ext (by
    match a with
    | ⟨0, _⟩ => exact (rhs_main_v2_0 _ _).trans hk
    | ⟨1, _⟩ => exact rhs_main_v2_1 _ _)
  rw [el, er]

def val_main_v3 (x0 x1 : (⟨S1x4096, .f32⟩ : BufTy).Contents (Elt F)) (x3 : (⟨S4096x8192, .f32⟩ : BufTy).Contents (Elt F)) (x4 : (⟨S4096x1, .f32⟩ : BufTy).Contents (Elt F)) : (⟨S4096x1, .f32⟩ : BufTy).Contents (Elt F) :=
  addf (val_main_v2 (F := F) x0 x1 x3) (x4)

theorem val_main_v3_apply (x0 x1 : (⟨S1x4096, .f32⟩ : BufTy).Contents (Elt F)) (x3 : (⟨S4096x8192, .f32⟩ : BufTy).Contents (Elt F)) (x4 : (⟨S4096x1, .f32⟩ : BufTy).Contents (Elt F)) (i : S4096x1.Idx) :
    val_main_v3 (F := F) x0 x1 x3 x4 i = FloatOps.addf (val_main_v2 (F := F) x0 x1 x3 i) (x4 i) := rfl

def val_main_v4 (x0 x1 : (⟨S1x4096, .f32⟩ : BufTy).Contents (Elt F)) (x3 : (⟨S4096x8192, .f32⟩ : BufTy).Contents (Elt F)) (x4 : (⟨S4096x1, .f32⟩ : BufTy).Contents (Elt F)) : (⟨S4096x1, .f32⟩ : BufTy).Contents (Elt F) :=
  Host.negf (val_main_v3 (F := F) x0 x1 x3 x4)

theorem val_main_v4_apply (x0 x1 : (⟨S1x4096, .f32⟩ : BufTy).Contents (Elt F)) (x3 : (⟨S4096x8192, .f32⟩ : BufTy).Contents (Elt F)) (x4 : (⟨S4096x1, .f32⟩ : BufTy).Contents (Elt F)) (i : S4096x1.Idx) :
    val_main_v4 (F := F) x0 x1 x3 x4 i = FloatOps.hostNegf (val_main_v3 (F := F) x0 x1 x3 x4 i) := rfl

def val_main_v5 (x0 x1 : (⟨S1x4096, .f32⟩ : BufTy).Contents (Elt F)) (x3 : (⟨S4096x8192, .f32⟩ : BufTy).Contents (Elt F)) (x4 : (⟨S4096x1, .f32⟩ : BufTy).Contents (Elt F)) : (⟨S4096x1, .f32⟩ : BufTy).Contents (Elt F) :=
  Host.exp (val_main_v4 (F := F) x0 x1 x3 x4)

theorem val_main_v5_apply (x0 x1 : (⟨S1x4096, .f32⟩ : BufTy).Contents (Elt F)) (x3 : (⟨S4096x8192, .f32⟩ : BufTy).Contents (Elt F)) (x4 : (⟨S4096x1, .f32⟩ : BufTy).Contents (Elt F)) (i : S4096x1.Idx) :
    val_main_v5 (F := F) x0 x1 x3 x4 i = FloatOps.hostUnary .exp (val_main_v4 (F := F) x0 x1 x3 x4 i) := rfl

def val_main_cst : (⟨S_, .f32⟩ : BufTy).Contents (Elt F) :=
  constant S_ .f32 0x3F800000#32

theorem val_main_cst_apply (i : S_.Idx) :
    val_main_cst (F := F) i = FloatOps.ofBits .f32 0x3F800000#32 := rfl

def val_main_v6 : (⟨S4096x1, .f32⟩ : BufTy).Contents (Elt F) :=
  broadcastInDim S4096x1 ![] bcast_S_S4096x1 (val_main_cst (F := F))

abbrev idx_main_v6 (i : S4096x1.Idx) : S_.Idx := fun a => a.elim0

theorem val_main_v6_apply (i : S4096x1.Idx) :
    val_main_v6 (F := F) i = val_main_cst (F := F) (idx_main_v6 i) := by
  unfold val_main_v6
  generalize val_main_cst (F := F) = y
  exact broadcastInDim_apply _ bcast_S_S4096x1 y i (idx_main_v6 i) (fun a => a.elim0)

def val_main_v7 (x0 x1 : (⟨S1x4096, .f32⟩ : BufTy).Contents (Elt F)) (x3 : (⟨S4096x8192, .f32⟩ : BufTy).Contents (Elt F)) (x4 : (⟨S4096x1, .f32⟩ : BufTy).Contents (Elt F)) : (⟨S4096x1, .f32⟩ : BufTy).Contents (Elt F) :=
  addf (val_main_v6 (F := F)) (val_main_v5 (F := F) x0 x1 x3 x4)

theorem val_main_v7_apply (x0 x1 : (⟨S1x4096, .f32⟩ : BufTy).Contents (Elt F)) (x3 : (⟨S4096x8192, .f32⟩ : BufTy).Contents (Elt F)) (x4 : (⟨S4096x1, .f32⟩ : BufTy).Contents (Elt F)) (i : S4096x1.Idx) :
    val_main_v7 (F := F) x0 x1 x3 x4 i = FloatOps.addf (val_main_v6 (F := F) i) (val_main_v5 (F := F) x0 x1 x3 x4 i) := rfl

def val_main_cst_0 : (⟨S_, .f32⟩ : BufTy).Contents (Elt F) :=
  constant S_ .f32 0x3F800000#32

theorem val_main_cst_0_apply (i : S_.Idx) :
    val_main_cst_0 (F := F) i = FloatOps.ofBits .f32 0x3F800000#32 := rfl

def val_main_v8 : (⟨S4096x1, .f32⟩ : BufTy).Contents (Elt F) :=
  broadcastInDim S4096x1 ![] bcast_S_S4096x1 (val_main_cst_0 (F := F))

abbrev idx_main_v8 (i : S4096x1.Idx) : S_.Idx := fun a => a.elim0

theorem val_main_v8_apply (i : S4096x1.Idx) :
    val_main_v8 (F := F) i = val_main_cst_0 (F := F) (idx_main_v8 i) := by
  unfold val_main_v8
  generalize val_main_cst_0 (F := F) = y
  exact broadcastInDim_apply _ bcast_S_S4096x1 y i (idx_main_v8 i) (fun a => a.elim0)

def val_main_v9 (x0 x1 : (⟨S1x4096, .f32⟩ : BufTy).Contents (Elt F)) (x3 : (⟨S4096x8192, .f32⟩ : BufTy).Contents (Elt F)) (x4 : (⟨S4096x1, .f32⟩ : BufTy).Contents (Elt F)) : (⟨S4096x1, .f32⟩ : BufTy).Contents (Elt F) :=
  Host.divf (val_main_v8 (F := F)) (val_main_v7 (F := F) x0 x1 x3 x4)

theorem val_main_v9_apply (x0 x1 : (⟨S1x4096, .f32⟩ : BufTy).Contents (Elt F)) (x3 : (⟨S4096x8192, .f32⟩ : BufTy).Contents (Elt F)) (x4 : (⟨S4096x1, .f32⟩ : BufTy).Contents (Elt F)) (i : S4096x1.Idx) :
    val_main_v9 (F := F) x0 x1 x3 x4 i = FloatOps.hostDivf (val_main_v8 (F := F) i) (val_main_v7 (F := F) x0 x1 x3 x4 i) := rfl

def val_main_v10 (x0 x1 : (⟨S1x4096, .f32⟩ : BufTy).Contents (Elt F)) (x5 : (⟨S4096x8192, .f32⟩ : BufTy).Contents (Elt F)) : (⟨S4096x1, .f32⟩ : BufTy).Contents (Elt F) :=
  Host.dotGeneral dot_S4096x8192_S8192x1_S4096x1_1_0_0_1_n_n none (x5) (val_main_v1 (F := F) x0 x1)

def val_main_v11 (x0 x1 : (⟨S1x4096, .f32⟩ : BufTy).Contents (Elt F)) (x5 : (⟨S4096x8192, .f32⟩ : BufTy).Contents (Elt F)) (x6 : (⟨S4096x1, .f32⟩ : BufTy).Contents (Elt F)) : (⟨S4096x1, .f32⟩ : BufTy).Contents (Elt F) :=
  addf (val_main_v10 (F := F) x0 x1 x5) (x6)

def val_main_v12 (x0 x1 : (⟨S1x4096, .f32⟩ : BufTy).Contents (Elt F)) (x5 : (⟨S4096x8192, .f32⟩ : BufTy).Contents (Elt F)) (x6 : (⟨S4096x1, .f32⟩ : BufTy).Contents (Elt F)) : (⟨S4096x1, .f32⟩ : BufTy).Contents (Elt F) :=
  Host.negf (val_main_v11 (F := F) x0 x1 x5 x6)

def val_main_v13 (x0 x1 : (⟨S1x4096, .f32⟩ : BufTy).Contents (Elt F)) (x5 : (⟨S4096x8192, .f32⟩ : BufTy).Contents (Elt F)) (x6 : (⟨S4096x1, .f32⟩ : BufTy).Contents (Elt F)) : (⟨S4096x1, .f32⟩ : BufTy).Contents (Elt F) :=
  Host.exp (val_main_v12 (F := F) x0 x1 x5 x6)

def val_main_cst_1 : (⟨S_, .f32⟩ : BufTy).Contents (Elt F) :=
  constant S_ .f32 0x3F800000#32

def val_main_v14 : (⟨S4096x1, .f32⟩ : BufTy).Contents (Elt F) :=
  broadcastInDim S4096x1 ![] bcast_S_S4096x1 (val_main_cst_1 (F := F))

def val_main_v15 (x0 x1 : (⟨S1x4096, .f32⟩ : BufTy).Contents (Elt F)) (x5 : (⟨S4096x8192, .f32⟩ : BufTy).Contents (Elt F)) (x6 : (⟨S4096x1, .f32⟩ : BufTy).Contents (Elt F)) : (⟨S4096x1, .f32⟩ : BufTy).Contents (Elt F) :=
  addf (val_main_v14 (F := F)) (val_main_v13 (F := F) x0 x1 x5 x6)

def val_main_cst_2 : (⟨S_, .f32⟩ : BufTy).Contents (Elt F) :=
  constant S_ .f32 0x3F800000#32

def val_main_v16 : (⟨S4096x1, .f32⟩ : BufTy).Contents (Elt F) :=
  broadcastInDim S4096x1 ![] bcast_S_S4096x1 (val_main_cst_2 (F := F))

def val_main_v17 (x0 x1 : (⟨S1x4096, .f32⟩ : BufTy).Contents (Elt F)) (x5 : (⟨S4096x8192, .f32⟩ : BufTy).Contents (Elt F)) (x6 : (⟨S4096x1, .f32⟩ : BufTy).Contents (Elt F)) : (⟨S4096x1, .f32⟩ : BufTy).Contents (Elt F) :=
  Host.divf (val_main_v16 (F := F)) (val_main_v15 (F := F) x0 x1 x5 x6)

def val_main_v18 (x0 x1 : (⟨S1x4096, .f32⟩ : BufTy).Contents (Elt F)) (x7 : (⟨S4096x8192, .f32⟩ : BufTy).Contents (Elt F)) : (⟨S4096x1, .f32⟩ : BufTy).Contents (Elt F) :=
  Host.dotGeneral dot_S4096x8192_S8192x1_S4096x1_1_0_0_1_n_n none (x7) (val_main_v1 (F := F) x0 x1)

def val_main_v19 (x0 x1 : (⟨S1x4096, .f32⟩ : BufTy).Contents (Elt F)) (x7 : (⟨S4096x8192, .f32⟩ : BufTy).Contents (Elt F)) (x8 : (⟨S4096x1, .f32⟩ : BufTy).Contents (Elt F)) : (⟨S4096x1, .f32⟩ : BufTy).Contents (Elt F) :=
  addf (val_main_v18 (F := F) x0 x1 x7) (x8)

def val_main_v20 (x0 x1 : (⟨S1x4096, .f32⟩ : BufTy).Contents (Elt F)) (x7 : (⟨S4096x8192, .f32⟩ : BufTy).Contents (Elt F)) (x8 : (⟨S4096x1, .f32⟩ : BufTy).Contents (Elt F)) : (⟨S4096x1, .f32⟩ : BufTy).Contents (Elt F) :=
  Host.negf (val_main_v19 (F := F) x0 x1 x7 x8)

def val_main_v21 (x0 x1 : (⟨S1x4096, .f32⟩ : BufTy).Contents (Elt F)) (x7 : (⟨S4096x8192, .f32⟩ : BufTy).Contents (Elt F)) (x8 : (⟨S4096x1, .f32⟩ : BufTy).Contents (Elt F)) : (⟨S4096x1, .f32⟩ : BufTy).Contents (Elt F) :=
  Host.exp (val_main_v20 (F := F) x0 x1 x7 x8)

def val_main_cst_3 : (⟨S_, .f32⟩ : BufTy).Contents (Elt F) :=
  constant S_ .f32 0x3F800000#32

def val_main_v22 : (⟨S4096x1, .f32⟩ : BufTy).Contents (Elt F) :=
  broadcastInDim S4096x1 ![] bcast_S_S4096x1 (val_main_cst_3 (F := F))

def val_main_v23 (x0 x1 : (⟨S1x4096, .f32⟩ : BufTy).Contents (Elt F)) (x7 : (⟨S4096x8192, .f32⟩ : BufTy).Contents (Elt F)) (x8 : (⟨S4096x1, .f32⟩ : BufTy).Contents (Elt F)) : (⟨S4096x1, .f32⟩ : BufTy).Contents (Elt F) :=
  addf (val_main_v22 (F := F)) (val_main_v21 (F := F) x0 x1 x7 x8)

def val_main_cst_4 : (⟨S_, .f32⟩ : BufTy).Contents (Elt F) :=
  constant S_ .f32 0x3F800000#32

def val_main_v24 : (⟨S4096x1, .f32⟩ : BufTy).Contents (Elt F) :=
  broadcastInDim S4096x1 ![] bcast_S_S4096x1 (val_main_cst_4 (F := F))

def val_main_v25 (x0 x1 : (⟨S1x4096, .f32⟩ : BufTy).Contents (Elt F)) (x7 : (⟨S4096x8192, .f32⟩ : BufTy).Contents (Elt F)) (x8 : (⟨S4096x1, .f32⟩ : BufTy).Contents (Elt F)) : (⟨S4096x1, .f32⟩ : BufTy).Contents (Elt F) :=
  Host.divf (val_main_v24 (F := F)) (val_main_v23 (F := F) x0 x1 x7 x8)

def val_main_v26 (x0 x1 : (⟨S1x4096, .f32⟩ : BufTy).Contents (Elt F)) (x9 : (⟨S4096x8192, .f32⟩ : BufTy).Contents (Elt F)) : (⟨S4096x1, .f32⟩ : BufTy).Contents (Elt F) :=
  Host.dotGeneral dot_S4096x8192_S8192x1_S4096x1_1_0_0_1_n_n none (x9) (val_main_v1 (F := F) x0 x1)

def val_main_v27 (x0 x1 : (⟨S1x4096, .f32⟩ : BufTy).Contents (Elt F)) (x9 : (⟨S4096x8192, .f32⟩ : BufTy).Contents (Elt F)) (x10 : (⟨S4096x1, .f32⟩ : BufTy).Contents (Elt F)) : (⟨S4096x1, .f32⟩ : BufTy).Contents (Elt F) :=
  addf (val_main_v26 (F := F) x0 x1 x9) (x10)

def val_main_v28 (x0 x1 : (⟨S1x4096, .f32⟩ : BufTy).Contents (Elt F)) (x9 : (⟨S4096x8192, .f32⟩ : BufTy).Contents (Elt F)) (x10 : (⟨S4096x1, .f32⟩ : BufTy).Contents (Elt F)) : (⟨S4096x1, .f32⟩ : BufTy).Contents (Elt F) :=
  Host.tanh (val_main_v27 (F := F) x0 x1 x9 x10)

theorem val_main_v28_apply (x0 x1 : (⟨S1x4096, .f32⟩ : BufTy).Contents (Elt F)) (x9 : (⟨S4096x8192, .f32⟩ : BufTy).Contents (Elt F)) (x10 : (⟨S4096x1, .f32⟩ : BufTy).Contents (Elt F)) (i : S4096x1.Idx) :
    val_main_v28 (F := F) x0 x1 x9 x10 i = FloatOps.hostUnary .tanh (val_main_v27 (F := F) x0 x1 x9 x10 i) := rfl

def val_main_v29 (x2 : (⟨S1x4096, .f32⟩ : BufTy).Contents (Elt F)) : (⟨S4096x1, .f32⟩ : BufTy).Contents (Elt F) :=
  transpose S4096x1 [1, 0] (x2) transposes_S1x4096_S4096x1_1_0

abbrev idx_main_v29 (i : S4096x1.Idx) : S1x4096.Idx := fun a => match a with
  | ⟨0, _⟩ => ⟨(i 1).val, (i 1).isLt⟩
  | ⟨1, _⟩ => ⟨(i 0).val, (i 0).isLt⟩

theorem val_main_v29_apply (x2 : (⟨S1x4096, .f32⟩ : BufTy).Contents (Elt F)) (i : S4096x1.Idx) :
    val_main_v29 (F := F) x2 i = x2 (idx_main_v29 i) := by
  unfold val_main_v29
  exact transpose_apply [1, 0] x2 transposes_S1x4096_S4096x1_1_0 i (idx_main_v29 i) (fun b => match b with
    | ⟨0, _⟩ => rfl
    | ⟨1, _⟩ => rfl)

def val_main_v30 (x0 x1 x2 : (⟨S1x4096, .f32⟩ : BufTy).Contents (Elt F)) (x3 : (⟨S4096x8192, .f32⟩ : BufTy).Contents (Elt F)) (x4 : (⟨S4096x1, .f32⟩ : BufTy).Contents (Elt F)) : (⟨S4096x1, .f32⟩ : BufTy).Contents (Elt F) :=
  mulf (val_main_v9 (F := F) x0 x1 x3 x4) (val_main_v29 (F := F) x2)

theorem val_main_v30_apply (x0 x1 x2 : (⟨S1x4096, .f32⟩ : BufTy).Contents (Elt F)) (x3 : (⟨S4096x8192, .f32⟩ : BufTy).Contents (Elt F)) (x4 : (⟨S4096x1, .f32⟩ : BufTy).Contents (Elt F)) (i : S4096x1.Idx) :
    val_main_v30 (F := F) x0 x1 x2 x3 x4 i = FloatOps.mulf (val_main_v9 (F := F) x0 x1 x3 x4 i) (val_main_v29 (F := F) x2 i) := rfl

def val_main_v31 (x0 x1 : (⟨S1x4096, .f32⟩ : BufTy).Contents (Elt F)) (x5 : (⟨S4096x8192, .f32⟩ : BufTy).Contents (Elt F)) (x6 : (⟨S4096x1, .f32⟩ : BufTy).Contents (Elt F)) (x9 : (⟨S4096x8192, .f32⟩ : BufTy).Contents (Elt F)) (x10 : (⟨S4096x1, .f32⟩ : BufTy).Contents (Elt F)) : (⟨S4096x1, .f32⟩ : BufTy).Contents (Elt F) :=
  mulf (val_main_v17 (F := F) x0 x1 x5 x6) (val_main_v28 (F := F) x0 x1 x9 x10)

theorem val_main_v31_apply (x0 x1 : (⟨S1x4096, .f32⟩ : BufTy).Contents (Elt F)) (x5 : (⟨S4096x8192, .f32⟩ : BufTy).Contents (Elt F)) (x6 : (⟨S4096x1, .f32⟩ : BufTy).Contents (Elt F)) (x9 : (⟨S4096x8192, .f32⟩ : BufTy).Contents (Elt F)) (x10 : (⟨S4096x1, .f32⟩ : BufTy).Contents (Elt F)) (i : S4096x1.Idx) :
    val_main_v31 (F := F) x0 x1 x5 x6 x9 x10 i = FloatOps.mulf (val_main_v17 (F := F) x0 x1 x5 x6 i) (val_main_v28 (F := F) x0 x1 x9 x10 i) := rfl

def val_main_v32 (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x9 : (⟨S4096x8192, .f32⟩ : BufTy).Contents (Elt F)) (x10 : (⟨S4096x1, .f32⟩ : BufTy).Contents (Elt F)) : (⟨S4096x1, .f32⟩ : BufTy).Contents (Elt F) :=
  addf (val_main_v30 (F := F) x0 x1 x2 x3 x4) (val_main_v31 (F := F) x0 x1 x5 x6 x9 x10)

theorem val_main_v32_apply (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x9 : (⟨S4096x8192, .f32⟩ : BufTy).Contents (Elt F)) (x10 : (⟨S4096x1, .f32⟩ : BufTy).Contents (Elt F)) (i : S4096x1.Idx) :
    val_main_v32 (F := F) x0 x1 x2 x3 x4 x5 x6 x9 x10 i = FloatOps.addf (val_main_v30 (F := F) x0 x1 x2 x3 x4 i) (val_main_v31 (F := F) x0 x1 x5 x6 x9 x10 i) := rfl

def val_main_v33 (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x9 : (⟨S4096x8192, .f32⟩ : BufTy).Contents (Elt F)) (x10 : (⟨S4096x1, .f32⟩ : BufTy).Contents (Elt F)) : (⟨S4096x1, .f32⟩ : BufTy).Contents (Elt F) :=
  Host.tanh (val_main_v32 (F := F) x0 x1 x2 x3 x4 x5 x6 x9 x10)

theorem val_main_v33_apply (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x9 : (⟨S4096x8192, .f32⟩ : BufTy).Contents (Elt F)) (x10 : (⟨S4096x1, .f32⟩ : BufTy).Contents (Elt F)) (i : S4096x1.Idx) :
    val_main_v33 (F := F) x0 x1 x2 x3 x4 x5 x6 x9 x10 i = FloatOps.hostUnary .tanh (val_main_v32 (F := F) x0 x1 x2 x3 x4 x5 x6 x9 x10 i) := rfl

def val_main_v34 (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x7 : (⟨S4096x8192, .f32⟩ : BufTy).Contents (Elt F)) (x8 : (⟨S4096x1, .f32⟩ : BufTy).Contents (Elt F)) (x9 : (⟨S4096x8192, .f32⟩ : BufTy).Contents (Elt F)) (x10 : (⟨S4096x1, .f32⟩ : BufTy).Contents (Elt F)) : (⟨S4096x1, .f32⟩ : BufTy).Contents (Elt F) :=
  mulf (val_main_v25 (F := F) x0 x1 x7 x8) (val_main_v33 (F := F) x0 x1 x2 x3 x4 x5 x6 x9 x10)

theorem val_main_v34_apply (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x7 : (⟨S4096x8192, .f32⟩ : BufTy).Contents (Elt F)) (x8 : (⟨S4096x1, .f32⟩ : BufTy).Contents (Elt F)) (x9 : (⟨S4096x8192, .f32⟩ : BufTy).Contents (Elt F)) (x10 : (⟨S4096x1, .f32⟩ : BufTy).Contents (Elt F)) (i : S4096x1.Idx) :
    val_main_v34 (F := F) x0 x1 x2 x3 x4 x5 x6 x7 x8 x9 x10 i = FloatOps.mulf (val_main_v25 (F := F) x0 x1 x7 x8 i) (val_main_v33 (F := F) x0 x1 x2 x3 x4 x5 x6 x9 x10 i) := rfl

def val_main_v35 (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x7 : (⟨S4096x8192, .f32⟩ : BufTy).Contents (Elt F)) (x8 : (⟨S4096x1, .f32⟩ : BufTy).Contents (Elt F)) (x9 : (⟨S4096x8192, .f32⟩ : BufTy).Contents (Elt F)) (x10 : (⟨S4096x1, .f32⟩ : BufTy).Contents (Elt F)) (x11 : (⟨S32000x4096, .f32⟩ : BufTy).Contents (Elt F)) : (⟨S32000x1, .f32⟩ : BufTy).Contents (Elt F) :=
  Host.dotGeneral dot_S32000x4096_S4096x1_S32000x1_1_0_0_1_n_n none (x11) (val_main_v34 (F := F) x0 x1 x2 x3 x4 x5 x6 x7 x8 x9 x10)

theorem lhs_main_v35_0 (i : S32000x1.Idx) (q : dot_S32000x4096_S4096x1_S32000x1_1_0_0_1_n_n.contr.Idx) :
    (dot_S32000x4096_S4096x1_S32000x1_1_0_0_1_n_n.lhsIdx i q 0).val = (i 0).val := by
  unfold DotDims.lhsIdx
  rw [dif_neg (show ¬(0 : Fin S32000x4096.rank) ∈ dot_S32000x4096_S4096x1_S32000x1_1_0_0_1_n_n.lhsBatch by decide), dif_pos (show (0 : Fin S32000x4096.rank) ∈ dot_S32000x4096_S4096x1_S32000x1_1_0_0_1_n_n.lhsNonContracting by decide)]
  rfl

theorem lhs_main_v35_1 (i : S32000x1.Idx) (q : dot_S32000x4096_S4096x1_S32000x1_1_0_0_1_n_n.contr.Idx) :
    (dot_S32000x4096_S4096x1_S32000x1_1_0_0_1_n_n.lhsIdx i q 1).val = (q ⟨0, by decide⟩).val :=
  dot_S32000x4096_S4096x1_S32000x1_1_0_0_1_n_n.lhsIdx_val_of_single rfl i q

theorem rhs_main_v35_0 (i : S32000x1.Idx) (q : dot_S32000x4096_S4096x1_S32000x1_1_0_0_1_n_n.contr.Idx) :
    (dot_S32000x4096_S4096x1_S32000x1_1_0_0_1_n_n.rhsIdx i q 0).val = (q ⟨0, by decide⟩).val :=
  dot_S32000x4096_S4096x1_S32000x1_1_0_0_1_n_n.rhsIdx_val_of_single rfl i q

theorem rhs_main_v35_1 (i : S32000x1.Idx) (q : dot_S32000x4096_S4096x1_S32000x1_1_0_0_1_n_n.contr.Idx) :
    (dot_S32000x4096_S4096x1_S32000x1_1_0_0_1_n_n.rhsIdx i q 1).val = (i 1).val := by
  unfold DotDims.rhsIdx
  rw [dif_neg (show ¬(1 : Fin S4096x1.rank) ∈ dot_S32000x4096_S4096x1_S32000x1_1_0_0_1_n_n.rhsBatch by decide), dif_pos (show (1 : Fin S4096x1.rank) ∈ dot_S32000x4096_S4096x1_S32000x1_1_0_0_1_n_n.rhsNonContracting by decide)]
  rfl

abbrev lidx_main_v35 (i : S32000x1.Idx) (k : Fin 4096) : S32000x4096.Idx := fun a => match a with
  | ⟨0, _⟩ => ⟨(i 0).val, (i 0).isLt⟩
  | ⟨1, _⟩ => ⟨k.val, k.isLt⟩

abbrev ridx_main_v35 (i : S32000x1.Idx) (k : Fin 4096) : S4096x1.Idx := fun a => match a with
  | ⟨0, _⟩ => ⟨k.val, k.isLt⟩
  | ⟨1, _⟩ => ⟨(i 1).val, (i 1).isLt⟩

/-- Stated at `F := Ideal`, where the host's `dot_general` is this sum; at a bit-exact instance it is an opaque function of its operands. -/
theorem val_main_v35_apply (x0 x1 x2 : (⟨S1x4096, .f32⟩ : BufTy).Contents (Elt Ideal)) (x3 : (⟨S4096x8192, .f32⟩ : BufTy).Contents (Elt Ideal)) (x4 : (⟨S4096x1, .f32⟩ : BufTy).Contents (Elt Ideal)) (x5 : (⟨S4096x8192, .f32⟩ : BufTy).Contents (Elt Ideal)) (x6 : (⟨S4096x1, .f32⟩ : BufTy).Contents (Elt Ideal)) (x7 : (⟨S4096x8192, .f32⟩ : BufTy).Contents (Elt Ideal)) (x8 : (⟨S4096x1, .f32⟩ : BufTy).Contents (Elt Ideal)) (x9 : (⟨S4096x8192, .f32⟩ : BufTy).Contents (Elt Ideal)) (x10 : (⟨S4096x1, .f32⟩ : BufTy).Contents (Elt Ideal)) (x11 : (⟨S32000x4096, .f32⟩ : BufTy).Contents (Elt Ideal)) (i : S32000x1.Idx) :
    val_main_v35 (F := Ideal) x0 x1 x2 x3 x4 x5 x6 x7 x8 x9 x10 x11 i = ∑ k : Fin 4096, x11 (lidx_main_v35 i k) * (val_main_v34 (F := Ideal) x0 x1 x2 x3 x4 x5 x6 x7 x8 x9 x10) (ridx_main_v35 i k) := by
  unfold val_main_v35
  generalize val_main_v34 (F := Ideal) x0 x1 x2 x3 x4 x5 x6 x7 x8 x9 x10 = y0
  simp only [Host.dotGeneral]
  rw [Ideal.dotGeneral_apply, ← Equiv.sum_comp (ValueIdx.contrEquiv1 dot_S32000x4096_S4096x1_S32000x1_1_0_0_1_n_n 4096 rfl rfl).symm]
  refine Finset.sum_congr rfl fun k _ => ?_
  have hk := ValueIdx.contrEquiv1_symm_val dot_S32000x4096_S4096x1_S32000x1_1_0_0_1_n_n 4096 rfl rfl k
  have el : dot_S32000x4096_S4096x1_S32000x1_1_0_0_1_n_n.lhsIdx i ((ValueIdx.contrEquiv1 dot_S32000x4096_S4096x1_S32000x1_1_0_0_1_n_n 4096 rfl rfl).symm k) = lidx_main_v35 i k := funext fun a => Fin.ext (by
    match a with
    | ⟨0, _⟩ => exact lhs_main_v35_0 _ _
    | ⟨1, _⟩ => exact (lhs_main_v35_1 _ _).trans hk)
  have er : dot_S32000x4096_S4096x1_S32000x1_1_0_0_1_n_n.rhsIdx i ((ValueIdx.contrEquiv1 dot_S32000x4096_S4096x1_S32000x1_1_0_0_1_n_n 4096 rfl rfl).symm k) = ridx_main_v35 i k := funext fun a => Fin.ext (by
    match a with
    | ⟨0, _⟩ => exact (rhs_main_v35_0 _ _).trans hk
    | ⟨1, _⟩ => exact rhs_main_v35_1 _ _)
  rw [el, er]

def val_main_v36 (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x7 : (⟨S4096x8192, .f32⟩ : BufTy).Contents (Elt F)) (x8 : (⟨S4096x1, .f32⟩ : BufTy).Contents (Elt F)) (x9 : (⟨S4096x8192, .f32⟩ : BufTy).Contents (Elt F)) (x10 : (⟨S4096x1, .f32⟩ : BufTy).Contents (Elt F)) (x11 : (⟨S32000x4096, .f32⟩ : BufTy).Contents (Elt F)) (x12 : (⟨S32000x1, .f32⟩ : BufTy).Contents (Elt F)) : (⟨S32000x1, .f32⟩ : BufTy).Contents (Elt F) :=
  addf (val_main_v35 (F := F) x0 x1 x2 x3 x4 x5 x6 x7 x8 x9 x10 x11) (x12)

theorem val_main_v36_apply (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x7 : (⟨S4096x8192, .f32⟩ : BufTy).Contents (Elt F)) (x8 : (⟨S4096x1, .f32⟩ : BufTy).Contents (Elt F)) (x9 : (⟨S4096x8192, .f32⟩ : BufTy).Contents (Elt F)) (x10 : (⟨S4096x1, .f32⟩ : BufTy).Contents (Elt F)) (x11 : (⟨S32000x4096, .f32⟩ : BufTy).Contents (Elt F)) (x12 : (⟨S32000x1, .f32⟩ : BufTy).Contents (Elt F)) (i : S32000x1.Idx) :
    val_main_v36 (F := F) x0 x1 x2 x3 x4 x5 x6 x7 x8 x9 x10 x11 x12 i = FloatOps.addf (val_main_v35 (F := F) x0 x1 x2 x3 x4 x5 x6 x7 x8 x9 x10 x11 i) (x12 i) := rfl

def val_main_v37 (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x7 : (⟨S4096x8192, .f32⟩ : BufTy).Contents (Elt F)) (x8 : (⟨S4096x1, .f32⟩ : BufTy).Contents (Elt F)) (x9 : (⟨S4096x8192, .f32⟩ : BufTy).Contents (Elt F)) (x10 : (⟨S4096x1, .f32⟩ : BufTy).Contents (Elt F)) (x11 : (⟨S32000x4096, .f32⟩ : BufTy).Contents (Elt F)) (x12 : (⟨S32000x1, .f32⟩ : BufTy).Contents (Elt F)) : (⟨S1x32000, .f32⟩ : BufTy).Contents (Elt F) :=
  transpose S1x32000 [1, 0] (val_main_v36 (F := F) x0 x1 x2 x3 x4 x5 x6 x7 x8 x9 x10 x11 x12) transposes_S32000x1_S1x32000_1_0

abbrev idx_main_v37 (i : S1x32000.Idx) : S32000x1.Idx := fun a => match a with
  | ⟨0, _⟩ => ⟨(i 1).val, (i 1).isLt⟩
  | ⟨1, _⟩ => ⟨(i 0).val, (i 0).isLt⟩

theorem val_main_v37_apply (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x7 : (⟨S4096x8192, .f32⟩ : BufTy).Contents (Elt F)) (x8 : (⟨S4096x1, .f32⟩ : BufTy).Contents (Elt F)) (x9 : (⟨S4096x8192, .f32⟩ : BufTy).Contents (Elt F)) (x10 : (⟨S4096x1, .f32⟩ : BufTy).Contents (Elt F)) (x11 : (⟨S32000x4096, .f32⟩ : BufTy).Contents (Elt F)) (x12 : (⟨S32000x1, .f32⟩ : BufTy).Contents (Elt F)) (i : S1x32000.Idx) :
    val_main_v37 (F := F) x0 x1 x2 x3 x4 x5 x6 x7 x8 x9 x10 x11 x12 i = val_main_v36 (F := F) x0 x1 x2 x3 x4 x5 x6 x7 x8 x9 x10 x11 x12 (idx_main_v37 i) := by
  unfold val_main_v37
  generalize val_main_v36 (F := F) x0 x1 x2 x3 x4 x5 x6 x7 x8 x9 x10 x11 x12 = y
  exact transpose_apply [1, 0] y transposes_S32000x1_S1x32000_1_0 i (idx_main_v37 i) (fun b => match b with
    | ⟨0, _⟩ => rfl
    | ⟨1, _⟩ => rfl)

def val_main_call0_cst : (⟨S_, .f32⟩ : BufTy).Contents (Elt F) :=
  constant S_ .f32 0xFF800000#32

def val_main_call0_v0 (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x7 : (⟨S4096x8192, .f32⟩ : BufTy).Contents (Elt F)) (x8 : (⟨S4096x1, .f32⟩ : BufTy).Contents (Elt F)) (x9 : (⟨S4096x8192, .f32⟩ : BufTy).Contents (Elt F)) (x10 : (⟨S4096x1, .f32⟩ : BufTy).Contents (Elt F)) (x11 : (⟨S32000x4096, .f32⟩ : BufTy).Contents (Elt F)) (x12 : (⟨S32000x1, .f32⟩ : BufTy).Contents (Elt F)) : (⟨S1, .f32⟩ : BufTy).Contents (Elt F) :=
  Host.reduce FloatOps.maximumf (val_main_v37 (F := F) x0 x1 x2 x3 x4 x5 x6 x7 x8 x9 x10 x11 x12) (val_main_call0_cst (F := F)) reducesTo_S1x32000_S1_d1 h_S_

def val_main_call0_cst_0 : (⟨S_, .f32⟩ : BufTy).Contents (Elt F) :=
  constant S_ .f32 0xFF800000#32

def val_main_call0_v1 : (⟨S1, .f32⟩ : BufTy).Contents (Elt F) :=
  broadcastInDim S1 ![] bcast_S_S1 (val_main_call0_cst_0 (F := F))

def val_main_call0_v2 (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x7 : (⟨S4096x8192, .f32⟩ : BufTy).Contents (Elt F)) (x8 : (⟨S4096x1, .f32⟩ : BufTy).Contents (Elt F)) (x9 : (⟨S4096x8192, .f32⟩ : BufTy).Contents (Elt F)) (x10 : (⟨S4096x1, .f32⟩ : BufTy).Contents (Elt F)) (x11 : (⟨S32000x4096, .f32⟩ : BufTy).Contents (Elt F)) (x12 : (⟨S32000x1, .f32⟩ : BufTy).Contents (Elt F)) : (⟨S1, .f32⟩ : BufTy).Contents (Elt F) :=
  maximumf (val_main_call0_v1 (F := F)) (val_main_call0_v0 (F := F) x0 x1 x2 x3 x4 x5 x6 x7 x8 x9 x10 x11 x12)

def val_main_call0_v3 (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x7 : (⟨S4096x8192, .f32⟩ : BufTy).Contents (Elt F)) (x8 : (⟨S4096x1, .f32⟩ : BufTy).Contents (Elt F)) (x9 : (⟨S4096x8192, .f32⟩ : BufTy).Contents (Elt F)) (x10 : (⟨S4096x1, .f32⟩ : BufTy).Contents (Elt F)) (x11 : (⟨S32000x4096, .f32⟩ : BufTy).Contents (Elt F)) (x12 : (⟨S32000x1, .f32⟩ : BufTy).Contents (Elt F)) : (⟨S1x1, .f32⟩ : BufTy).Contents (Elt F) :=
  broadcastInDim S1x1 ![0] bcast_S1_S1x1_0 (val_main_call0_v2 (F := F) x0 x1 x2 x3 x4 x5 x6 x7 x8 x9 x10 x11 x12)

def val_main_call0_v4 (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x7 : (⟨S4096x8192, .f32⟩ : BufTy).Contents (Elt F)) (x8 : (⟨S4096x1, .f32⟩ : BufTy).Contents (Elt F)) (x9 : (⟨S4096x8192, .f32⟩ : BufTy).Contents (Elt F)) (x10 : (⟨S4096x1, .f32⟩ : BufTy).Contents (Elt F)) (x11 : (⟨S32000x4096, .f32⟩ : BufTy).Contents (Elt F)) (x12 : (⟨S32000x1, .f32⟩ : BufTy).Contents (Elt F)) : (⟨S1x32000, .f32⟩ : BufTy).Contents (Elt F) :=
  broadcastInDim S1x32000 ![0, 1] bcast_S1x1_S1x32000_0_1 (val_main_call0_v3 (F := F) x0 x1 x2 x3 x4 x5 x6 x7 x8 x9 x10 x11 x12)

def val_main_call0_v5 (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x7 : (⟨S4096x8192, .f32⟩ : BufTy).Contents (Elt F)) (x8 : (⟨S4096x1, .f32⟩ : BufTy).Contents (Elt F)) (x9 : (⟨S4096x8192, .f32⟩ : BufTy).Contents (Elt F)) (x10 : (⟨S4096x1, .f32⟩ : BufTy).Contents (Elt F)) (x11 : (⟨S32000x4096, .f32⟩ : BufTy).Contents (Elt F)) (x12 : (⟨S32000x1, .f32⟩ : BufTy).Contents (Elt F)) : (⟨S1x32000, .f32⟩ : BufTy).Contents (Elt F) :=
  subf (val_main_v37 (F := F) x0 x1 x2 x3 x4 x5 x6 x7 x8 x9 x10 x11 x12) (val_main_call0_v4 (F := F) x0 x1 x2 x3 x4 x5 x6 x7 x8 x9 x10 x11 x12)

def val_main_call0_v6 (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x7 : (⟨S4096x8192, .f32⟩ : BufTy).Contents (Elt F)) (x8 : (⟨S4096x1, .f32⟩ : BufTy).Contents (Elt F)) (x9 : (⟨S4096x8192, .f32⟩ : BufTy).Contents (Elt F)) (x10 : (⟨S4096x1, .f32⟩ : BufTy).Contents (Elt F)) (x11 : (⟨S32000x4096, .f32⟩ : BufTy).Contents (Elt F)) (x12 : (⟨S32000x1, .f32⟩ : BufTy).Contents (Elt F)) : (⟨S1x32000, .f32⟩ : BufTy).Contents (Elt F) :=
  Host.exp (val_main_call0_v5 (F := F) x0 x1 x2 x3 x4 x5 x6 x7 x8 x9 x10 x11 x12)

def val_main_call0_cst_1 : (⟨S_, .f32⟩ : BufTy).Contents (Elt F) :=
  constant S_ .f32 0x00000000#32

def val_main_call0_v7 (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x7 : (⟨S4096x8192, .f32⟩ : BufTy).Contents (Elt F)) (x8 : (⟨S4096x1, .f32⟩ : BufTy).Contents (Elt F)) (x9 : (⟨S4096x8192, .f32⟩ : BufTy).Contents (Elt F)) (x10 : (⟨S4096x1, .f32⟩ : BufTy).Contents (Elt F)) (x11 : (⟨S32000x4096, .f32⟩ : BufTy).Contents (Elt F)) (x12 : (⟨S32000x1, .f32⟩ : BufTy).Contents (Elt F)) : (⟨S1, .f32⟩ : BufTy).Contents (Elt F) :=
  Host.reduceAdd (val_main_call0_v6 (F := F) x0 x1 x2 x3 x4 x5 x6 x7 x8 x9 x10 x11 x12) (val_main_call0_cst_1 (F := F)) reducesTo_S1x32000_S1_d1 h_S_

def val_main_call0_v8 (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x7 : (⟨S4096x8192, .f32⟩ : BufTy).Contents (Elt F)) (x8 : (⟨S4096x1, .f32⟩ : BufTy).Contents (Elt F)) (x9 : (⟨S4096x8192, .f32⟩ : BufTy).Contents (Elt F)) (x10 : (⟨S4096x1, .f32⟩ : BufTy).Contents (Elt F)) (x11 : (⟨S32000x4096, .f32⟩ : BufTy).Contents (Elt F)) (x12 : (⟨S32000x1, .f32⟩ : BufTy).Contents (Elt F)) : (⟨S1x1, .f32⟩ : BufTy).Contents (Elt F) :=
  broadcastInDim S1x1 ![0] bcast_S1_S1x1_0 (val_main_call0_v7 (F := F) x0 x1 x2 x3 x4 x5 x6 x7 x8 x9 x10 x11 x12)

def val_main_call0_v9 (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x7 : (⟨S4096x8192, .f32⟩ : BufTy).Contents (Elt F)) (x8 : (⟨S4096x1, .f32⟩ : BufTy).Contents (Elt F)) (x9 : (⟨S4096x8192, .f32⟩ : BufTy).Contents (Elt F)) (x10 : (⟨S4096x1, .f32⟩ : BufTy).Contents (Elt F)) (x11 : (⟨S32000x4096, .f32⟩ : BufTy).Contents (Elt F)) (x12 : (⟨S32000x1, .f32⟩ : BufTy).Contents (Elt F)) : (⟨S1x1, .f32⟩ : BufTy).Contents (Elt F) :=
  Host.log (val_main_call0_v8 (F := F) x0 x1 x2 x3 x4 x5 x6 x7 x8 x9 x10 x11 x12)

def val_main_call0_v10 (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x7 : (⟨S4096x8192, .f32⟩ : BufTy).Contents (Elt F)) (x8 : (⟨S4096x1, .f32⟩ : BufTy).Contents (Elt F)) (x9 : (⟨S4096x8192, .f32⟩ : BufTy).Contents (Elt F)) (x10 : (⟨S4096x1, .f32⟩ : BufTy).Contents (Elt F)) (x11 : (⟨S32000x4096, .f32⟩ : BufTy).Contents (Elt F)) (x12 : (⟨S32000x1, .f32⟩ : BufTy).Contents (Elt F)) : (⟨S1x32000, .f32⟩ : BufTy).Contents (Elt F) :=
  broadcastInDim S1x32000 ![0, 1] bcast_S1x1_S1x32000_0_1 (val_main_call0_v9 (F := F) x0 x1 x2 x3 x4 x5 x6 x7 x8 x9 x10 x11 x12)

def val_main_v38 (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x7 : (⟨S4096x8192, .f32⟩ : BufTy).Contents (Elt F)) (x8 : (⟨S4096x1, .f32⟩ : BufTy).Contents (Elt F)) (x9 : (⟨S4096x8192, .f32⟩ : BufTy).Contents (Elt F)) (x10 : (⟨S4096x1, .f32⟩ : BufTy).Contents (Elt F)) (x11 : (⟨S32000x4096, .f32⟩ : BufTy).Contents (Elt F)) (x12 : (⟨S32000x1, .f32⟩ : BufTy).Contents (Elt F)) : (⟨S1x32000, .f32⟩ : BufTy).Contents (Elt F) :=
  subf (val_main_call0_v5 (F := F) x0 x1 x2 x3 x4 x5 x6 x7 x8 x9 x10 x11 x12) (val_main_call0_v10 (F := F) x0 x1 x2 x3 x4 x5 x6 x7 x8 x9 x10 x11 x12)

def val_main_v39 (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x7 : (⟨S4096x8192, .f32⟩ : BufTy).Contents (Elt F)) (x8 : (⟨S4096x1, .f32⟩ : BufTy).Contents (Elt F)) (x9 : (⟨S4096x8192, .f32⟩ : BufTy).Contents (Elt F)) (x10 : (⟨S4096x1, .f32⟩ : BufTy).Contents (Elt F)) : (⟨S1x4096, .f32⟩ : BufTy).Contents (Elt F) :=
  transpose S1x4096 [1, 0] (val_main_v34 (F := F) x0 x1 x2 x3 x4 x5 x6 x7 x8 x9 x10) transposes_S4096x1_S1x4096_1_0

abbrev idx_main_v39 (i : S1x4096.Idx) : S4096x1.Idx := fun a => match a with
  | ⟨0, _⟩ => ⟨(i 1).val, (i 1).isLt⟩
  | ⟨1, _⟩ => ⟨(i 0).val, (i 0).isLt⟩

theorem val_main_v39_apply (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x7 : (⟨S4096x8192, .f32⟩ : BufTy).Contents (Elt F)) (x8 : (⟨S4096x1, .f32⟩ : BufTy).Contents (Elt F)) (x9 : (⟨S4096x8192, .f32⟩ : BufTy).Contents (Elt F)) (x10 : (⟨S4096x1, .f32⟩ : BufTy).Contents (Elt F)) (i : S1x4096.Idx) :
    val_main_v39 (F := F) x0 x1 x2 x3 x4 x5 x6 x7 x8 x9 x10 i = val_main_v34 (F := F) x0 x1 x2 x3 x4 x5 x6 x7 x8 x9 x10 (idx_main_v39 i) := by
  unfold val_main_v39
  generalize val_main_v34 (F := F) x0 x1 x2 x3 x4 x5 x6 x7 x8 x9 x10 = y
  exact transpose_apply [1, 0] y transposes_S4096x1_S1x4096_1_0 i (idx_main_v39 i) (fun b => match b with
    | ⟨0, _⟩ => rfl
    | ⟨1, _⟩ => rfl)

def val_main_v40 (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x9 : (⟨S4096x8192, .f32⟩ : BufTy).Contents (Elt F)) (x10 : (⟨S4096x1, .f32⟩ : BufTy).Contents (Elt F)) : (⟨S1x4096, .f32⟩ : BufTy).Contents (Elt F) :=
  transpose S1x4096 [1, 0] (val_main_v32 (F := F) x0 x1 x2 x3 x4 x5 x6 x9 x10) transposes_S4096x1_S1x4096_1_0

abbrev idx_main_v40 (i : S1x4096.Idx) : S4096x1.Idx := fun a => match a with
  | ⟨0, _⟩ => ⟨(i 1).val, (i 1).isLt⟩
  | ⟨1, _⟩ => ⟨(i 0).val, (i 0).isLt⟩

theorem val_main_v40_apply (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x9 : (⟨S4096x8192, .f32⟩ : BufTy).Contents (Elt F)) (x10 : (⟨S4096x1, .f32⟩ : BufTy).Contents (Elt F)) (i : S1x4096.Idx) :
    val_main_v40 (F := F) x0 x1 x2 x3 x4 x5 x6 x9 x10 i = val_main_v32 (F := F) x0 x1 x2 x3 x4 x5 x6 x9 x10 (idx_main_v40 i) := by
  unfold val_main_v40
  generalize val_main_v32 (F := F) x0 x1 x2 x3 x4 x5 x6 x9 x10 = y
  exact transpose_apply [1, 0] y transposes_S4096x1_S1x4096_1_0 i (idx_main_v40 i) (fun b => match b with
    | ⟨0, _⟩ => rfl
    | ⟨1, _⟩ => rfl)

/-- The reference's operations composed, for its second result, are the last stage. -/
theorem val_main_v39_eq (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x7 : (⟨S4096x8192, .f32⟩ : BufTy).Contents (Elt F)) (x8 : (⟨S4096x1, .f32⟩ : BufTy).Contents (Elt F)) (x9 : (⟨S4096x8192, .f32⟩ : BufTy).Contents (Elt F)) (x10 : (⟨S4096x1, .f32⟩ : BufTy).Contents (Elt F)) :
    transpose S1x4096 [1, 0] (mulf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x8192_S8192x1_S4096x1_1_0_0_1_n_n none (x7) (transpose S8192x1 [1, 0] (concatenate S1x8192 1 [⟨S1x4096, (x0)⟩, ⟨S1x4096, (x1)⟩] concatenates_S1x4096_S1x4096_S1x8192_d1) transposes_S1x8192_S8192x1_1_0)) (x8)))))) (Host.tanh (addf (mulf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x8192_S8192x1_S4096x1_1_0_0_1_n_n none (x3) (transpose S8192x1 [1, 0] (concatenate S1x8192 1 [⟨S1x4096, (x0)⟩, ⟨S1x4096, (x1)⟩] concatenates_S1x4096_S1x4096_S1x8192_d1) transposes_S1x8192_S8192x1_1_0)) (x4)))))) (transpose S4096x1 [1, 0] (x2) transposes_S1x4096_S4096x1_1_0)) (mulf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x8192_S8192x1_S4096x1_1_0_0_1_n_n none (x5) (transpose S8192x1 [1, 0] (concatenate S1x8192 1 [⟨S1x4096, (x0)⟩, ⟨S1x4096, (x1)⟩] concatenates_S1x4096_S1x4096_S1x8192_d1) transposes_S1x8192_S8192x1_1_0)) (x6)))))) (Host.tanh (addf (Host.dotGeneral dot_S4096x8192_S8192x1_S4096x1_1_0_0_1_n_n none (x9) (transpose S8192x1 [1, 0] (concatenate S1x8192 1 [⟨S1x4096, (x0)⟩, ⟨S1x4096, (x1)⟩] concatenates_S1x4096_S1x4096_S1x8192_d1) transposes_S1x8192_S8192x1_1_0)) (x10))))))) transposes_S4096x1_S1x4096_1_0
      = val_main_v39 (F := F) x0 x1 x2 x3 x4 x5 x6 x7 x8 x9 x10 := rfl

/-- The reference's operations composed, for its third result, are the last stage. -/
theorem val_main_v40_eq (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x9 : (⟨S4096x8192, .f32⟩ : BufTy).Contents (Elt F)) (x10 : (⟨S4096x1, .f32⟩ : BufTy).Contents (Elt F)) :
    transpose S1x4096 [1, 0] (addf (mulf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x8192_S8192x1_S4096x1_1_0_0_1_n_n none (x3) (transpose S8192x1 [1, 0] (concatenate S1x8192 1 [⟨S1x4096, (x0)⟩, ⟨S1x4096, (x1)⟩] concatenates_S1x4096_S1x4096_S1x8192_d1) transposes_S1x8192_S8192x1_1_0)) (x4)))))) (transpose S4096x1 [1, 0] (x2) transposes_S1x4096_S4096x1_1_0)) (mulf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x8192_S8192x1_S4096x1_1_0_0_1_n_n none (x5) (transpose S8192x1 [1, 0] (concatenate S1x8192 1 [⟨S1x4096, (x0)⟩, ⟨S1x4096, (x1)⟩] concatenates_S1x4096_S1x4096_S1x8192_d1) transposes_S1x8192_S8192x1_1_0)) (x6)))))) (Host.tanh (addf (Host.dotGeneral dot_S4096x8192_S8192x1_S4096x1_1_0_0_1_n_n none (x9) (transpose S8192x1 [1, 0] (concatenate S1x8192 1 [⟨S1x4096, (x0)⟩, ⟨S1x4096, (x1)⟩] concatenates_S1x4096_S1x4096_S1x8192_d1) transposes_S1x8192_S8192x1_1_0)) (x10))))) transposes_S4096x1_S1x4096_1_0
      = val_main_v40 (F := F) x0 x1 x2 x3 x4 x5 x6 x9 x10 := rfl

/-- The reference's operations composed, for its first result, are the last stage. -/
theorem val_main_v38_eq (x0 x1 x2 : (⟨S1x4096, .f32⟩ : BufTy).Contents (Elt F)) (x3 : (⟨S4096x8192, .f32⟩ : BufTy).Contents (Elt F)) (x4 : (⟨S4096x1, .f32⟩ : BufTy).Contents (Elt F)) (x5 : (⟨S4096x8192, .f32⟩ : BufTy).Contents (Elt F)) (x6 : (⟨S4096x1, .f32⟩ : BufTy).Contents (Elt F)) (x7 : (⟨S4096x8192, .f32⟩ : BufTy).Contents (Elt F)) (x8 : (⟨S4096x1, .f32⟩ : BufTy).Contents (Elt F)) (x9 : (⟨S4096x8192, .f32⟩ : BufTy).Contents (Elt F)) (x10 : (⟨S4096x1, .f32⟩ : BufTy).Contents (Elt F)) (x11 : (⟨S32000x4096, .f32⟩ : BufTy).Contents (Elt F)) (x12 : (⟨S32000x1, .f32⟩ : BufTy).Contents (Elt F)) :
    subf (subf (transpose S1x32000 [1, 0] (addf (Host.dotGeneral dot_S32000x4096_S4096x1_S32000x1_1_0_0_1_n_n none (x11) (mulf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x8192_S8192x1_S4096x1_1_0_0_1_n_n none (x7) (transpose S8192x1 [1, 0] (concatenate S1x8192 1 [⟨S1x4096, (x0)⟩, ⟨S1x4096, (x1)⟩] concatenates_S1x4096_S1x4096_S1x8192_d1) transposes_S1x8192_S8192x1_1_0)) (x8)))))) (Host.tanh (addf (mulf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x8192_S8192x1_S4096x1_1_0_0_1_n_n none (x3) (transpose S8192x1 [1, 0] (concatenate S1x8192 1 [⟨S1x4096, (x0)⟩, ⟨S1x4096, (x1)⟩] concatenates_S1x4096_S1x4096_S1x8192_d1) transposes_S1x8192_S8192x1_1_0)) (x4)))))) (transpose S4096x1 [1, 0] (x2) transposes_S1x4096_S4096x1_1_0)) (mulf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x8192_S8192x1_S4096x1_1_0_0_1_n_n none (x5) (transpose S8192x1 [1, 0] (concatenate S1x8192 1 [⟨S1x4096, (x0)⟩, ⟨S1x4096, (x1)⟩] concatenates_S1x4096_S1x4096_S1x8192_d1) transposes_S1x8192_S8192x1_1_0)) (x6)))))) (Host.tanh (addf (Host.dotGeneral dot_S4096x8192_S8192x1_S4096x1_1_0_0_1_n_n none (x9) (transpose S8192x1 [1, 0] (concatenate S1x8192 1 [⟨S1x4096, (x0)⟩, ⟨S1x4096, (x1)⟩] concatenates_S1x4096_S1x4096_S1x8192_d1) transposes_S1x8192_S8192x1_1_0)) (x10)))))))) (x12)) transposes_S32000x1_S1x32000_1_0) (broadcastInDim S1x32000 ![0, 1] bcast_S1x1_S1x32000_0_1 (broadcastInDim S1x1 ![0] bcast_S1_S1x1_0 (maximumf (broadcastInDim S1 ![] bcast_S_S1 (constant S_ .f32 0xFF800000#32)) (Host.reduce FloatOps.maximumf (transpose S1x32000 [1, 0] (addf (Host.dotGeneral dot_S32000x4096_S4096x1_S32000x1_1_0_0_1_n_n none (x11) (mulf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x8192_S8192x1_S4096x1_1_0_0_1_n_n none (x7) (transpose S8192x1 [1, 0] (concatenate S1x8192 1 [⟨S1x4096, (x0)⟩, ⟨S1x4096, (x1)⟩] concatenates_S1x4096_S1x4096_S1x8192_d1) transposes_S1x8192_S8192x1_1_0)) (x8)))))) (Host.tanh (addf (mulf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x8192_S8192x1_S4096x1_1_0_0_1_n_n none (x3) (transpose S8192x1 [1, 0] (concatenate S1x8192 1 [⟨S1x4096, (x0)⟩, ⟨S1x4096, (x1)⟩] concatenates_S1x4096_S1x4096_S1x8192_d1) transposes_S1x8192_S8192x1_1_0)) (x4)))))) (transpose S4096x1 [1, 0] (x2) transposes_S1x4096_S4096x1_1_0)) (mulf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x8192_S8192x1_S4096x1_1_0_0_1_n_n none (x5) (transpose S8192x1 [1, 0] (concatenate S1x8192 1 [⟨S1x4096, (x0)⟩, ⟨S1x4096, (x1)⟩] concatenates_S1x4096_S1x4096_S1x8192_d1) transposes_S1x8192_S8192x1_1_0)) (x6)))))) (Host.tanh (addf (Host.dotGeneral dot_S4096x8192_S8192x1_S4096x1_1_0_0_1_n_n none (x9) (transpose S8192x1 [1, 0] (concatenate S1x8192 1 [⟨S1x4096, (x0)⟩, ⟨S1x4096, (x1)⟩] concatenates_S1x4096_S1x4096_S1x8192_d1) transposes_S1x8192_S8192x1_1_0)) (x10)))))))) (x12)) transposes_S32000x1_S1x32000_1_0) (constant S_ .f32 0xFF800000#32) reducesTo_S1x32000_S1_d1 h_S_))))) (broadcastInDim S1x32000 ![0, 1] bcast_S1x1_S1x32000_0_1 (Host.log (broadcastInDim S1x1 ![0] bcast_S1_S1x1_0 (Host.reduceAdd (Host.exp (subf (transpose S1x32000 [1, 0] (addf (Host.dotGeneral dot_S32000x4096_S4096x1_S32000x1_1_0_0_1_n_n none (x11) (mulf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x8192_S8192x1_S4096x1_1_0_0_1_n_n none (x7) (transpose S8192x1 [1, 0] (concatenate S1x8192 1 [⟨S1x4096, (x0)⟩, ⟨S1x4096, (x1)⟩] concatenates_S1x4096_S1x4096_S1x8192_d1) transposes_S1x8192_S8192x1_1_0)) (x8)))))) (Host.tanh (addf (mulf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x8192_S8192x1_S4096x1_1_0_0_1_n_n none (x3) (transpose S8192x1 [1, 0] (concatenate S1x8192 1 [⟨S1x4096, (x0)⟩, ⟨S1x4096, (x1)⟩] concatenates_S1x4096_S1x4096_S1x8192_d1) transposes_S1x8192_S8192x1_1_0)) (x4)))))) (transpose S4096x1 [1, 0] (x2) transposes_S1x4096_S4096x1_1_0)) (mulf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x8192_S8192x1_S4096x1_1_0_0_1_n_n none (x5) (transpose S8192x1 [1, 0] (concatenate S1x8192 1 [⟨S1x4096, (x0)⟩, ⟨S1x4096, (x1)⟩] concatenates_S1x4096_S1x4096_S1x8192_d1) transposes_S1x8192_S8192x1_1_0)) (x6)))))) (Host.tanh (addf (Host.dotGeneral dot_S4096x8192_S8192x1_S4096x1_1_0_0_1_n_n none (x9) (transpose S8192x1 [1, 0] (concatenate S1x8192 1 [⟨S1x4096, (x0)⟩, ⟨S1x4096, (x1)⟩] concatenates_S1x4096_S1x4096_S1x8192_d1) transposes_S1x8192_S8192x1_1_0)) (x10)))))))) (x12)) transposes_S32000x1_S1x32000_1_0) (broadcastInDim S1x32000 ![0, 1] bcast_S1x1_S1x32000_0_1 (broadcastInDim S1x1 ![0] bcast_S1_S1x1_0 (maximumf (broadcastInDim S1 ![] bcast_S_S1 (constant S_ .f32 0xFF800000#32)) (Host.reduce FloatOps.maximumf (transpose S1x32000 [1, 0] (addf (Host.dotGeneral dot_S32000x4096_S4096x1_S32000x1_1_0_0_1_n_n none (x11) (mulf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x8192_S8192x1_S4096x1_1_0_0_1_n_n none (x7) (transpose S8192x1 [1, 0] (concatenate S1x8192 1 [⟨S1x4096, (x0)⟩, ⟨S1x4096, (x1)⟩] concatenates_S1x4096_S1x4096_S1x8192_d1) transposes_S1x8192_S8192x1_1_0)) (x8)))))) (Host.tanh (addf (mulf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x8192_S8192x1_S4096x1_1_0_0_1_n_n none (x3) (transpose S8192x1 [1, 0] (concatenate S1x8192 1 [⟨S1x4096, (x0)⟩, ⟨S1x4096, (x1)⟩] concatenates_S1x4096_S1x4096_S1x8192_d1) transposes_S1x8192_S8192x1_1_0)) (x4)))))) (transpose S4096x1 [1, 0] (x2) transposes_S1x4096_S4096x1_1_0)) (mulf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x8192_S8192x1_S4096x1_1_0_0_1_n_n none (x5) (transpose S8192x1 [1, 0] (concatenate S1x8192 1 [⟨S1x4096, (x0)⟩, ⟨S1x4096, (x1)⟩] concatenates_S1x4096_S1x4096_S1x8192_d1) transposes_S1x8192_S8192x1_1_0)) (x6)))))) (Host.tanh (addf (Host.dotGeneral dot_S4096x8192_S8192x1_S4096x1_1_0_0_1_n_n none (x9) (transpose S8192x1 [1, 0] (concatenate S1x8192 1 [⟨S1x4096, (x0)⟩, ⟨S1x4096, (x1)⟩] concatenates_S1x4096_S1x4096_S1x8192_d1) transposes_S1x8192_S8192x1_1_0)) (x10)))))))) (x12)) transposes_S32000x1_S1x32000_1_0) (constant S_ .f32 0xFF800000#32) reducesTo_S1x32000_S1_d1 h_S_)))))) (constant S_ .f32 0x00000000#32) reducesTo_S1x32000_S1_d1 h_S_))))
      = val_main_v38 (F := F) x0 x1 x2 x3 x4 x5 x6 x7 x8 x9 x10 x11 x12 := rfl

end Cert.RefStages

end
-- ==== Proof.RefRun.lean ====
import proofs.«125930_j21131239097236_2_alg».proof.Proof.Gen.ReferenceIdeal
import proofs.«125930_j21131239097236_2_alg».proof.Proof.RefStages
import proofs.«125930_j21131239097236_2_alg».proof.Proof.LibStageRead
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! # The reference's run, read back stage by stage

The reference is a straight line of 61 operations in single-assignment form: every operation writes one buffer, and no
later operation writes it again. So after the whole line each buffer holds its operation's function of what the
operand buffers hold after the whole line, and by induction along the line each buffer holds its stage of the
argument arrays. -/

/-- The reference's 61 operations, in order (the log-softmax's fifteen stand in its call's place). -/
abbrev ops : List (HloOp τ sig (Elt F)) :=
  [ binary main_arg0 main_arg1 main_v0 ((fun a b => concatenate S1x8192 1 [⟨S1x4096, a⟩, ⟨S1x4096, b⟩] concatenates_S1x4096_S1x4096_S1x8192_d1) : (⟨S1x4096, .f32⟩ : BufTy).Contents (Elt F) → (⟨S1x4096, .f32⟩ : BufTy).Contents (Elt F) → (⟨S1x8192, .f32⟩ : BufTy).Contents (Elt F)),
    unary main_v0 main_v1 ((transpose S8192x1 [1, 0] · transposes_S1x8192_S8192x1_1_0) : (⟨S1x8192, .f32⟩ : BufTy).Contents (Elt F) → (⟨S8192x1, .f32⟩ : BufTy).Contents (Elt F)),
    binary main_arg3 main_v1 main_v2 ((fun l r => Host.dotGeneral dot_S4096x8192_S8192x1_S4096x1_1_0_0_1_n_n none l r) : (⟨S4096x8192, .f32⟩ : BufTy).Contents (Elt F) → (⟨S8192x1, .f32⟩ : BufTy).Contents (Elt F) → (⟨S4096x1, .f32⟩ : BufTy).Contents (Elt F)),
    binary main_v2 main_arg4 main_v3 (addf : (⟨S4096x1, .f32⟩ : BufTy).Contents (Elt F) → (⟨S4096x1, .f32⟩ : BufTy).Contents (Elt F) → (⟨S4096x1, .f32⟩ : BufTy).Contents (Elt F)),
    unary main_v3 main_v4 (Host.negf : (⟨S4096x1, .f32⟩ : BufTy).Contents (Elt F) → (⟨S4096x1, .f32⟩ : BufTy).Contents (Elt F)),
    unary main_v4 main_v5 (Host.exp : (⟨S4096x1, .f32⟩ : BufTy).Contents (Elt F) → (⟨S4096x1, .f32⟩ : BufTy).Contents (Elt F)),
    nullary main_cst (constant S_ .f32 0x3F800000#32),
    unary main_cst main_v6 (broadcastInDim S4096x1 ![] bcast_S_S4096x1 : (⟨S_, .f32⟩ : BufTy).Contents (Elt F) → (⟨S4096x1, .f32⟩ : BufTy).Contents (Elt F)),
    binary main_v6 main_v5 main_v7 (addf : (⟨S4096x1, .f32⟩ : BufTy).Contents (Elt F) → (⟨S4096x1, .f32⟩ : BufTy).Contents (Elt F) → (⟨S4096x1, .f32⟩ : BufTy).Contents (Elt F)),
    nullary main_cst_0 (constant S_ .f32 0x3F800000#32),
    unary main_cst_0 main_v8 (broadcastInDim S4096x1 ![] bcast_S_S4096x1 : (⟨S_, .f32⟩ : BufTy).Contents (Elt F) → (⟨S4096x1, .f32⟩ : BufTy).Contents (Elt F)),
    binary main_v8 main_v7 main_v9 (Host.divf : (⟨S4096x1, .f32⟩ : BufTy).Contents (Elt F) → (⟨S4096x1, .f32⟩ : BufTy).Contents (Elt F) → (⟨S4096x1, .f32⟩ : BufTy).Contents (Elt F)),
    binary main_arg5 main_v1 main_v10 ((fun l r => Host.dotGeneral dot_S4096x8192_S8192x1_S4096x1_1_0_0_1_n_n none l r) : (⟨S4096x8192, .f32⟩ : BufTy).Contents (Elt F) → (⟨S8192x1, .f32⟩ : BufTy).Contents (Elt F) → (⟨S4096x1, .f32⟩ : BufTy).Contents (Elt F)),
    binary main_v10 main_arg6 main_v11 (addf : (⟨S4096x1, .f32⟩ : BufTy).Contents (Elt F) → (⟨S4096x1, .f32⟩ : BufTy).Contents (Elt F) → (⟨S4096x1, .f32⟩ : BufTy).Contents (Elt F)),
    unary main_v11 main_v12 (Host.negf : (⟨S4096x1, .f32⟩ : BufTy).Contents (Elt F) → (⟨S4096x1, .f32⟩ : BufTy).Contents (Elt F)),
    unary main_v12 main_v13 (Host.exp : (⟨S4096x1, .f32⟩ : BufTy).Contents (Elt F) → (⟨S4096x1, .f32⟩ : BufTy).Contents (Elt F)),
    nullary main_cst_1 (constant S_ .f32 0x3F800000#32),
    unary main_cst_1 main_v14 (broadcastInDim S4096x1 ![] bcast_S_S4096x1 : (⟨S_, .f32⟩ : BufTy).Contents (Elt F) → (⟨S4096x1, .f32⟩ : BufTy).Contents (Elt F)),
    binary main_v14 main_v13 main_v15 (addf : (⟨S4096x1, .f32⟩ : BufTy).Contents (Elt F) → (⟨S4096x1, .f32⟩ : BufTy).Contents (Elt F) → (⟨S4096x1, .f32⟩ : BufTy).Contents (Elt F)),
    nullary main_cst_2 (constant S_ .f32 0x3F800000#32),
    unary main_cst_2 main_v16 (broadcastInDim S4096x1 ![] bcast_S_S4096x1 : (⟨S_, .f32⟩ : BufTy).Contents (Elt F) → (⟨S4096x1, .f32⟩ : BufTy).Contents (Elt F)),
    binary main_v16 main_v15 main_v17 (Host.divf : (⟨S4096x1, .f32⟩ : BufTy).Contents (Elt F) → (⟨S4096x1, .f32⟩ : BufTy).Contents (Elt F) → (⟨S4096x1, .f32⟩ : BufTy).Contents (Elt F)),
    binary main_arg7 main_v1 main_v18 ((fun l r => Host.dotGeneral dot_S4096x8192_S8192x1_S4096x1_1_0_0_1_n_n none l r) : (⟨S4096x8192, .f32⟩ : BufTy).Contents (Elt F) → (⟨S8192x1, .f32⟩ : BufTy).Contents (Elt F) → (⟨S4096x1, .f32⟩ : BufTy).Contents (Elt F)),
    binary main_v18 main_arg8 main_v19 (addf : (⟨S4096x1, .f32⟩ : BufTy).Contents (Elt F) → (⟨S4096x1, .f32⟩ : BufTy).Contents (Elt F) → (⟨S4096x1, .f32⟩ : BufTy).Contents (Elt F)),
    unary main_v19 main_v20 (Host.negf : (⟨S4096x1, .f32⟩ : BufTy).Contents (Elt F) → (⟨S4096x1, .f32⟩ : BufTy).Contents (Elt F)),
    unary main_v20 main_v21 (Host.exp : (⟨S4096x1, .f32⟩ : BufTy).Contents (Elt F) → (⟨S4096x1, .f32⟩ : BufTy).Contents (Elt F)),
    nullary main_cst_3 (constant S_ .f32 0x3F800000#32),
    unary main_cst_3 main_v22 (broadcastInDim S4096x1 ![] bcast_S_S4096x1 : (⟨S_, .f32⟩ : BufTy).Contents (Elt F) → (⟨S4096x1, .f32⟩ : BufTy).Contents (Elt F)),
    binary main_v22 main_v21 main_v23 (addf : (⟨S4096x1, .f32⟩ : BufTy).Contents (Elt F) → (⟨S4096x1, .f32⟩ : BufTy).Contents (Elt F) → (⟨S4096x1, .f32⟩ : BufTy).Contents (Elt F)),
    nullary main_cst_4 (constant S_ .f32 0x3F800000#32),
    unary main_cst_4 main_v24 (broadcastInDim S4096x1 ![] bcast_S_S4096x1 : (⟨S_, .f32⟩ : BufTy).Contents (Elt F) → (⟨S4096x1, .f32⟩ : BufTy).Contents (Elt F)),
    binary main_v24 main_v23 main_v25 (Host.divf : (⟨S4096x1, .f32⟩ : BufTy).Contents (Elt F) → (⟨S4096x1, .f32⟩ : BufTy).Contents (Elt F) → (⟨S4096x1, .f32⟩ : BufTy).Contents (Elt F)),
    binary main_arg9 main_v1 main_v26 ((fun l r => Host.dotGeneral dot_S4096x8192_S8192x1_S4096x1_1_0_0_1_n_n none l r) : (⟨S4096x8192, .f32⟩ : BufTy).Contents (Elt F) → (⟨S8192x1, .f32⟩ : BufTy).Contents (Elt F) → (⟨S4096x1, .f32⟩ : BufTy).Contents (Elt F)),
    binary main_v26 main_arg10 main_v27 (addf : (⟨S4096x1, .f32⟩ : BufTy).Contents (Elt F) → (⟨S4096x1, .f32⟩ : BufTy).Contents (Elt F) → (⟨S4096x1, .f32⟩ : BufTy).Contents (Elt F)),
    unary main_v27 main_v28 (Host.tanh : (⟨S4096x1, .f32⟩ : BufTy).Contents (Elt F) → (⟨S4096x1, .f32⟩ : BufTy).Contents (Elt F)),
    unary main_arg2 main_v29 ((transpose S4096x1 [1, 0] · transposes_S1x4096_S4096x1_1_0) : (⟨S1x4096, .f32⟩ : BufTy).Contents (Elt F) → (⟨S4096x1, .f32⟩ : BufTy).Contents (Elt F)),
    binary main_v9 main_v29 main_v30 (mulf : (⟨S4096x1, .f32⟩ : BufTy).Contents (Elt F) → (⟨S4096x1, .f32⟩ : BufTy).Contents (Elt F) → (⟨S4096x1, .f32⟩ : BufTy).Contents (Elt F)),
    binary main_v17 main_v28 main_v31 (mulf : (⟨S4096x1, .f32⟩ : BufTy).Contents (Elt F) → (⟨S4096x1, .f32⟩ : BufTy).Contents (Elt F) → (⟨S4096x1, .f32⟩ : BufTy).Contents (Elt F)),
    binary main_v30 main_v31 main_v32 (addf : (⟨S4096x1, .f32⟩ : BufTy).Contents (Elt F) → (⟨S4096x1, .f32⟩ : BufTy).Contents (Elt F) → (⟨S4096x1, .f32⟩ : BufTy).Contents (Elt F)),
    unary main_v32 main_v33 (Host.tanh : (⟨S4096x1, .f32⟩ : BufTy).Contents (Elt F) → (⟨S4096x1, .f32⟩ : BufTy).Contents (Elt F)),
    binary main_v25 main_v33 main_v34 (mulf : (⟨S4096x1, .f32⟩ : BufTy).Contents (Elt F) → (⟨S4096x1, .f32⟩ : BufTy).Contents (Elt F) → (⟨S4096x1, .f32⟩ : BufTy).Contents (Elt F)),
    binary main_arg11 main_v34 main_v35 ((fun l r => Host.dotGeneral dot_S32000x4096_S4096x1_S32000x1_1_0_0_1_n_n none l r) : (⟨S32000x4096, .f32⟩ : BufTy).Contents (Elt F) → (⟨S4096x1, .f32⟩ : BufTy).Contents (Elt F) → (⟨S32000x1, .f32⟩ : BufTy).Contents (Elt F)),
    binary main_v35 main_arg12 main_v36 (addf : (⟨S32000x1, .f32⟩ : BufTy).Contents (Elt F) → (⟨S32000x1, .f32⟩ : BufTy).Contents (Elt F) → (⟨S32000x1, .f32⟩ : BufTy).Contents (Elt F)),
    unary main_v36 main_v37 ((transpose S1x32000 [1, 0] · transposes_S32000x1_S1x32000_1_0) : (⟨S32000x1, .f32⟩ : BufTy).Contents (Elt F) → (⟨S1x32000, .f32⟩ : BufTy).Contents (Elt F)),
    TRef.nullary (TRef.of (T := ⟨S_, .f32⟩) main_call0_cst) (constant S_ .f32 0xFF800000#32),
    TRef.binary (TRef.of (T := ⟨S1x32000, .f32⟩) main_v37) (TRef.of (T := ⟨S_, .f32⟩) main_call0_cst) (TRef.of (T := ⟨S1, .f32⟩) main_call0_v0) (fun x v => Host.reduce FloatOps.maximumf x v reducesTo_S1x32000_S1_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S1, .f32⟩) main_call0_v1) (broadcastInDim S1 ![] bcast_S_S1),
    TRef.binary (TRef.of (T := ⟨S1, .f32⟩) main_call0_v1) (TRef.of (T := ⟨S1, .f32⟩) main_call0_v0) (TRef.of (T := ⟨S1, .f32⟩) main_call0_v2) maximumf,
    TRef.unary (TRef.of (T := ⟨S1, .f32⟩) main_call0_v2) (TRef.of (T := ⟨S1x1, .f32⟩) main_call0_v3) (broadcastInDim S1x1 ![0] bcast_S1_S1x1_0),
    TRef.unary (TRef.of (T := ⟨S1x1, .f32⟩) main_call0_v3) (TRef.of (T := ⟨S1x32000, .f32⟩) main_call0_v4) (broadcastInDim S1x32000 ![0, 1] bcast_S1x1_S1x32000_0_1),
    TRef.binary (TRef.of (T := ⟨S1x32000, .f32⟩) main_v37) (TRef.of (T := ⟨S1x32000, .f32⟩) main_call0_v4) (TRef.of (T := ⟨S1x32000, .f32⟩) main_call0_v5) subf,
    TRef.unary (TRef.of (T := ⟨S1x32000, .f32⟩) main_call0_v5) (TRef.of (T := ⟨S1x32000, .f32⟩) main_call0_v6) Host.exp,
    TRef.nullary (TRef.of (T := ⟨S_, .f32⟩) main_call0_cst_1) (constant S_ .f32 0x00000000#32),
    TRef.binary (TRef.of (T := ⟨S1x32000, .f32⟩) main_call0_v6) (TRef.of (T := ⟨S_, .f32⟩) main_call0_cst_1) (TRef.of (T := ⟨S1, .f32⟩) main_call0_v7) (fun x v => Host.reduceAdd x v reducesTo_S1x32000_S1_d1 h_S_),
    TRef.unary (TRef.of (T := ⟨S1, .f32⟩) main_call0_v7) (TRef.of (T := ⟨S1x1, .f32⟩) main_call0_v8) (broadcastInDim S1x1 ![0] bcast_S1_S1x1_0),
    TRef.unary (TRef.of (T := ⟨S1x1, .f32⟩) main_call0_v8) (TRef.of (T := ⟨S1x1, .f32⟩) main_call0_v9) Host.log,
    TRef.unary (TRef.of (T := ⟨S1x1, .f32⟩) main_call0_v9) (TRef.of (T := ⟨S1x32000, .f32⟩) main_call0_v10) (broadcastInDim S1x32000 ![0, 1] bcast_S1x1_S1x32000_0_1),
    TRef.binary (TRef.of (T := ⟨S1x32000, .f32⟩) main_call0_v5) (TRef.of (T := ⟨S1x32000, .f32⟩) main_call0_v10) (TRef.of (T := ⟨S1x32000, .f32⟩) main_v38) subf,
    unary main_v34 main_v39 ((transpose S1x4096 [1, 0] · transposes_S4096x1_S1x4096_1_0) : (⟨S4096x1, .f32⟩ : BufTy).Contents (Elt F) → (⟨S1x4096, .f32⟩ : BufTy).Contents (Elt F)),
    unary main_v32 main_v40 ((transpose S1x4096 [1, 0] · transposes_S4096x1_S1x4096_1_0) : (⟨S4096x1, .f32⟩ : BufTy).Contents (Elt F) → (⟨S1x4096, .f32⟩ : BufTy).Contents (Elt F)) ]

set_option maxRecDepth 65536 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 65536 in
theorem ops_sub : (ops : List (HloOp τ sig (Elt F))).Forall fun op => op.bufs ⊆ tcRefs τ sig :=
  ⟨binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub .., binary_bufs_sub .., unary_bufs_sub .., binary_bufs_sub .., binary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub ..⟩

/-- The buffer each operation writes, in order. -/
abbrev dsts : List (Ref sig .tc) :=
  [main_v0, main_v1, main_v2, main_v3, main_v4, main_v5, main_cst, main_v6, main_v7, main_cst_0, main_v8, main_v9, main_v10, main_v11, main_v12, main_v13, main_cst_1, main_v14, main_v15, main_cst_2, main_v16, main_v17, main_v18, main_v19, main_v20, main_v21, main_cst_3, main_v22, main_v23, main_cst_4, main_v24, main_v25, main_v26, main_v27, main_v28, main_v29, main_v30, main_v31, main_v32, main_v33, main_v34, main_v35, main_v36, main_v37, main_call0_cst, main_call0_v0, main_call0_cst_0, main_call0_v1, main_call0_v2, main_call0_v3, main_call0_v4, main_call0_v5, main_call0_v6, main_call0_cst_1, main_call0_v7, main_call0_v8, main_call0_v9, main_call0_v10, main_v38, main_v39, main_v40]

set_option maxRecDepth 65536 in
/-- Each operation writes its one buffer. -/
theorem hW : WritesAre (ops : List (HloOp τ sig (Elt F))) dsts :=
  (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) (.cons (Finset.Subset.refl _) .nil)))))))))))))))))))))))))))))))))))))))))))))))))))))))))))))

/-! ## The arguments are written by no operation -/

theorem arg_main_arg0 (V : Valuation τ sig (Elt F)) : after ops V (Proc.devRef .tc main_arg0) = V (Proc.devRef .tc main_arg0) :=
  after_of_writes_sub ops V (hW (F := F)).forall_sub (by decide)

theorem arg_main_arg1 (V : Valuation τ sig (Elt F)) : after ops V (Proc.devRef .tc main_arg1) = V (Proc.devRef .tc main_arg1) :=
  after_of_writes_sub ops V (hW (F := F)).forall_sub (by decide)

theorem arg_main_arg2 (V : Valuation τ sig (Elt F)) : after ops V (Proc.devRef .tc main_arg2) = V (Proc.devRef .tc main_arg2) :=
  after_of_writes_sub ops V (hW (F := F)).forall_sub (by decide)

theorem arg_main_arg3 (V : Valuation τ sig (Elt F)) : after ops V (Proc.devRef .tc main_arg3) = V (Proc.devRef .tc main_arg3) :=
  after_of_writes_sub ops V (hW (F := F)).forall_sub (by decide)

theorem arg_main_arg4 (V : Valuation τ sig (Elt F)) : after ops V (Proc.devRef .tc main_arg4) = V (Proc.devRef .tc main_arg4) :=
  after_of_writes_sub ops V (hW (F := F)).forall_sub (by decide)

theorem arg_main_arg5 (V : Valuation τ sig (Elt F)) : after ops V (Proc.devRef .tc main_arg5) = V (Proc.devRef .tc main_arg5) :=
  after_of_writes_sub ops V (hW (F := F)).forall_sub (by decide)

theorem arg_main_arg6 (V : Valuation τ sig (Elt F)) : after ops V (Proc.devRef .tc main_arg6) = V (Proc.devRef .tc main_arg6) :=
  after_of_writes_sub ops V (hW (F := F)).forall_sub (by decide)

theorem arg_main_arg7 (V : Valuation τ sig (Elt F)) : after ops V (Proc.devRef .tc main_arg7) = V (Proc.devRef .tc main_arg7) :=
  after_of_writes_sub ops V (hW (F := F)).forall_sub (by decide)

theorem arg_main_arg8 (V : Valuation τ sig (Elt F)) : after ops V (Proc.devRef .tc main_arg8) = V (Proc.devRef .tc main_arg8) :=
  after_of_writes_sub ops V (hW (F := F)).forall_sub (by decide)

theorem arg_main_arg9 (V : Valuation τ sig (Elt F)) : after ops V (Proc.devRef .tc main_arg9) = V (Proc.devRef .tc main_arg9) :=
  after_of_writes_sub ops V (hW (F := F)).forall_sub (by decide)

theorem arg_main_arg10 (V : Valuation τ sig (Elt F)) : after ops V (Proc.devRef .tc main_arg10) = V (Proc.devRef .tc main_arg10) :=
  after_of_writes_sub ops V (hW (F := F)).forall_sub (by decide)

theorem arg_main_arg11 (V : Valuation τ sig (Elt F)) : after ops V (Proc.devRef .tc main_arg11) = V (Proc.devRef .tc main_arg11) :=
  after_of_writes_sub ops V (hW (F := F)).forall_sub (by decide)

theorem arg_main_arg12 (V : Valuation τ sig (Elt F)) : after ops V (Proc.devRef .tc main_arg12) = V (Proc.devRef .tc main_arg12) :=
  after_of_writes_sub ops V (hW (F := F)).forall_sub (by decide)

/-! ## Each buffer after the whole line: its stage of the arguments -/

theorem st_main_v0 (V : Valuation τ sig (Elt F)) :
    after ops V (Proc.devRef .tc main_v0) = Cert.RefStages.val_main_v0 (F := F) (V (Proc.devRef .tc main_arg0)) (V (Proc.devRef .tc main_arg1)) := by
  have h := read_binary (hW (F := F)) 0 V rfl (by decide) (by decide) (by decide)
  rw [arg_main_arg0 V, arg_main_arg1 V] at h
  exact h

theorem st_main_v1 (V : Valuation τ sig (Elt F)) :
    after ops V (Proc.devRef .tc main_v1) = Cert.RefStages.val_main_v1 (F := F) (V (Proc.devRef .tc main_arg0)) (V (Proc.devRef .tc main_arg1)) := by
  have h := read_unary (hW (F := F)) 1 V rfl (by decide) (by decide)
  rw [st_main_v0 V] at h
  exact h

theorem st_main_v2 (V : Valuation τ sig (Elt F)) :
    after ops V (Proc.devRef .tc main_v2) = Cert.RefStages.val_main_v2 (F := F) (V (Proc.devRef .tc main_arg0)) (V (Proc.devRef .tc main_arg1)) (V (Proc.devRef .tc main_arg3)) := by
  have h := read_binary (hW (F := F)) 2 V rfl (by decide) (by decide) (by decide)
  rw [arg_main_arg3 V, st_main_v1 V] at h
  exact h

theorem st_main_v3 (V : Valuation τ sig (Elt F)) :
    after ops V (Proc.devRef .tc main_v3) = Cert.RefStages.val_main_v3 (F := F) (V (Proc.devRef .tc main_arg0)) (V (Proc.devRef .tc main_arg1)) (V (Proc.devRef .tc main_arg3)) (V (Proc.devRef .tc main_arg4)) := by
  have h := read_binary (hW (F := F)) 3 V rfl (by decide) (by decide) (by decide)
  rw [st_main_v2 V, arg_main_arg4 V] at h
  exact h

theorem st_main_v4 (V : Valuation τ sig (Elt F)) :
    after ops V (Proc.devRef .tc main_v4) = Cert.RefStages.val_main_v4 (F := F) (V (Proc.devRef .tc main_arg0)) (V (Proc.devRef .tc main_arg1)) (V (Proc.devRef .tc main_arg3)) (V (Proc.devRef .tc main_arg4)) := by
  have h := read_unary (hW (F := F)) 4 V rfl (by decide) (by decide)
  rw [st_main_v3 V] at h
  exact h

theorem st_main_v5 (V : Valuation τ sig (Elt F)) :
    after ops V (Proc.devRef .tc main_v5) = Cert.RefStages.val_main_v5 (F := F) (V (Proc.devRef .tc main_arg0)) (V (Proc.devRef .tc main_arg1)) (V (Proc.devRef .tc main_arg3)) (V (Proc.devRef .tc main_arg4)) := by
  have h := read_unary (hW (F := F)) 5 V rfl (by decide) (by decide)
  rw [st_main_v4 V] at h
  exact h

theorem st_main_cst (V : Valuation τ sig (Elt F)) :
    after ops V (Proc.devRef .tc main_cst) = Cert.RefStages.val_main_cst (F := F) := by
  have h := read_nullary (hW (F := F)) 6 V rfl (by decide)
  exact h

theorem st_main_v6 (V : Valuation τ sig (Elt F)) :
    after ops V (Proc.devRef .tc main_v6) = Cert.RefStages.val_main_v6 (F := F) := by
  have h := read_unary (hW (F := F)) 7 V rfl (by decide) (by decide)
  rw [st_main_cst V] at h
  exact h

theorem st_main_v7 (V : Valuation τ sig (Elt F)) :
    after ops V (Proc.devRef .tc main_v7) = Cert.RefStages.val_main_v7 (F := F) (V (Proc.devRef .tc main_arg0)) (V (Proc.devRef .tc main_arg1)) (V (Proc.devRef .tc main_arg3)) (V (Proc.devRef .tc main_arg4)) := by
  have h := read_binary (hW (F := F)) 8 V rfl (by decide) (by decide) (by decide)
  rw [st_main_v6 V, st_main_v5 V] at h
  exact h

theorem st_main_cst_0 (V : Valuation τ sig (Elt F)) :
    after ops V (Proc.devRef .tc main_cst_0) = Cert.RefStages.val_main_cst_0 (F := F) := by
  have h := read_nullary (hW (F := F)) 9 V rfl (by decide)
  exact h

theorem st_main_v8 (V : Valuation τ sig (Elt F)) :
    after ops V (Proc.devRef .tc main_v8) = Cert.RefStages.val_main_v8 (F := F) := by
  have h := read_unary (hW (F := F)) 10 V rfl (by decide) (by decide)
  rw [st_main_cst_0 V] at h
  exact h

theorem st_main_v9 (V : Valuation τ sig (Elt F)) :
    after ops V (Proc.devRef .tc main_v9) = Cert.RefStages.val_main_v9 (F := F) (V (Proc.devRef .tc main_arg0)) (V (Proc.devRef .tc main_arg1)) (V (Proc.devRef .tc main_arg3)) (V (Proc.devRef .tc main_arg4)) := by
  have h := read_binary (hW (F := F)) 11 V rfl (by decide) (by decide) (by decide)
  rw [st_main_v8 V, st_main_v7 V] at h
  exact h

theorem st_main_v10 (V : Valuation τ sig (Elt F)) :
    after ops V (Proc.devRef .tc main_v10) = Cert.RefStages.val_main_v10 (F := F) (V (Proc.devRef .tc main_arg0)) (V (Proc.devRef .tc main_arg1)) (V (Proc.devRef .tc main_arg5)) := by
  have h := read_binary (hW (F := F)) 12 V rfl (by decide) (by decide) (by decide)
  rw [arg_main_arg5 V, st_main_v1 V] at h
  exact h

theorem st_main_v11 (V : Valuation τ sig (Elt F)) :
    after ops V (Proc.devRef .tc main_v11) = Cert.RefStages.val_main_v11 (F := F) (V (Proc.devRef .tc main_arg0)) (V (Proc.devRef .tc main_arg1)) (V (Proc.devRef .tc main_arg5)) (V (Proc.devRef .tc main_arg6)) := by
  have h := read_binary (hW (F := F)) 13 V rfl (by decide) (by decide) (by decide)
  rw [st_main_v10 V, arg_main_arg6 V] at h
  exact h

theorem st_main_v12 (V : Valuation τ sig (Elt F)) :
    after ops V (Proc.devRef .tc main_v12) = Cert.RefStages.val_main_v12 (F := F) (V (Proc.devRef .tc main_arg0)) (V (Proc.devRef .tc main_arg1)) (V (Proc.devRef .tc main_arg5)) (V (Proc.devRef .tc main_arg6)) := by
  have h := read_unary (hW (F := F)) 14 V rfl (by decide) (by decide)
  rw [st_main_v11 V] at h
  exact h

theorem st_main_v13 (V : Valuation τ sig (Elt F)) :
    after ops V (Proc.devRef .tc main_v13) = Cert.RefStages.val_main_v13 (F := F) (V (Proc.devRef .tc main_arg0)) (V (Proc.devRef .tc main_arg1)) (V (Proc.devRef .tc main_arg5)) (V (Proc.devRef .tc main_arg6)) := by
  have h := read_unary (hW (F := F)) 15 V rfl (by decide) (by decide)
  rw [st_main_v12 V] at h
  exact h

theorem st_main_cst_1 (V : Valuation τ sig (Elt F)) :
    after ops V (Proc.devRef .tc main_cst_1) = Cert.RefStages.val_main_cst_1 (F := F) := by
  have h := read_nullary (hW (F := F)) 16 V rfl (by decide)
  exact h

theorem st_main_v14 (V : Valuation τ sig (Elt F)) :
    after ops V (Proc.devRef .tc main_v14) = Cert.RefStages.val_main_v14 (F := F) := by
  have h := read_unary (hW (F := F)) 17 V rfl (by decide) (by decide)
  rw [st_main_cst_1 V] at h
  exact h

theorem st_main_v15 (V : Valuation τ sig (Elt F)) :
    after ops V (Proc.devRef .tc main_v15) = Cert.RefStages.val_main_v15 (F := F) (V (Proc.devRef .tc main_arg0)) (V (Proc.devRef .tc main_arg1)) (V (Proc.devRef .tc main_arg5)) (V (Proc.devRef .tc main_arg6)) := by
  have h := read_binary (hW (F := F)) 18 V rfl (by decide) (by decide) (by decide)
  rw [st_main_v14 V, st_main_v13 V] at h
  exact h

theorem st_main_cst_2 (V : Valuation τ sig (Elt F)) :
    after ops V (Proc.devRef .tc main_cst_2) = Cert.RefStages.val_main_cst_2 (F := F) := by
  have h := read_nullary (hW (F := F)) 19 V rfl (by decide)
  exact h

theorem st_main_v16 (V : Valuation τ sig (Elt F)) :
    after ops V (Proc.devRef .tc main_v16) = Cert.RefStages.val_main_v16 (F := F) := by
  have h := read_unary (hW (F := F)) 20 V rfl (by decide) (by decide)
  rw [st_main_cst_2 V] at h
  exact h

theorem st_main_v17 (V : Valuation τ sig (Elt F)) :
    after ops V (Proc.devRef .tc main_v17) = Cert.RefStages.val_main_v17 (F := F) (V (Proc.devRef .tc main_arg0)) (V (Proc.devRef .tc main_arg1)) (V (Proc.devRef .tc main_arg5)) (V (Proc.devRef .tc main_arg6)) := by
  have h := read_binary (hW (F := F)) 21 V rfl (by decide) (by decide) (by decide)
  rw [st_main_v16 V, st_main_v15 V] at h
  exact h

theorem st_main_v18 (V : Valuation τ sig (Elt F)) :
    after ops V (Proc.devRef .tc main_v18) = Cert.RefStages.val_main_v18 (F := F) (V (Proc.devRef .tc main_arg0)) (V (Proc.devRef .tc main_arg1)) (V (Proc.devRef .tc main_arg7)) := by
  have h := read_binary (hW (F := F)) 22 V rfl (by decide) (by decide) (by decide)
  rw [arg_main_arg7 V, st_main_v1 V] at h
  exact h

theorem st_main_v19 (V : Valuation τ sig (Elt F)) :
    after ops V (Proc.devRef .tc main_v19) = Cert.RefStages.val_main_v19 (F := F) (V (Proc.devRef .tc main_arg0)) (V (Proc.devRef .tc main_arg1)) (V (Proc.devRef .tc main_arg7)) (V (Proc.devRef .tc main_arg8)) := by
  have h := read_binary (hW (F := F)) 23 V rfl (by decide) (by decide) (by decide)
  rw [st_main_v18 V, arg_main_arg8 V] at h
  exact h

theorem st_main_v20 (V : Valuation τ sig (Elt F)) :
    after ops V (Proc.devRef .tc main_v20) = Cert.RefStages.val_main_v20 (F := F) (V (Proc.devRef .tc main_arg0)) (V (Proc.devRef .tc main_arg1)) (V (Proc.devRef .tc main_arg7)) (V (Proc.devRef .tc main_arg8)) := by
  have h := read_unary (hW (F := F)) 24 V rfl (by decide) (by decide)
  rw [st_main_v19 V] at h
  exact h

theorem st_main_v21 (V : Valuation τ sig (Elt F)) :
    after ops V (Proc.devRef .tc main_v21) = Cert.RefStages.val_main_v21 (F := F) (V (Proc.devRef .tc main_arg0)) (V (Proc.devRef .tc main_arg1)) (V (Proc.devRef .tc main_arg7)) (V (Proc.devRef .tc main_arg8)) := by
  have h := read_unary (hW (F := F)) 25 V rfl (by decide) (by decide)
  rw [st_main_v20 V] at h
  exact h

theorem st_main_cst_3 (V : Valuation τ sig (Elt F)) :
    after ops V (Proc.devRef .tc main_cst_3) = Cert.RefStages.val_main_cst_3 (F := F) := by
  have h := read_nullary (hW (F := F)) 26 V rfl (by decide)
  exact h

theorem st_main_v22 (V : Valuation τ sig (Elt F)) :
    after ops V (Proc.devRef .tc main_v22) = Cert.RefStages.val_main_v22 (F := F) := by
  have h := read_unary (hW (F := F)) 27 V rfl (by decide) (by decide)
  rw [st_main_cst_3 V] at h
  exact h

theorem st_main_v23 (V : Valuation τ sig (Elt F)) :
    after ops V (Proc.devRef .tc main_v23) = Cert.RefStages.val_main_v23 (F := F) (V (Proc.devRef .tc main_arg0)) (V (Proc.devRef .tc main_arg1)) (V (Proc.devRef .tc main_arg7)) (V (Proc.devRef .tc main_arg8)) := by
  have h := read_binary (hW (F := F)) 28 V rfl (by decide) (by decide) (by decide)
  rw [st_main_v22 V, st_main_v21 V] at h
  exact h

theorem st_main_cst_4 (V : Valuation τ sig (Elt F)) :
    after ops V (Proc.devRef .tc main_cst_4) = Cert.RefStages.val_main_cst_4 (F := F) := by
  have h := read_nullary (hW (F := F)) 29 V rfl (by decide)
  exact h

theorem st_main_v24 (V : Valuation τ sig (Elt F)) :
    after ops V (Proc.devRef .tc main_v24) = Cert.RefStages.val_main_v24 (F := F) := by
  have h := read_unary (hW (F := F)) 30 V rfl (by decide) (by decide)
  rw [st_main_cst_4 V] at h
  exact h

theorem st_main_v25 (V : Valuation τ sig (Elt F)) :
    after ops V (Proc.devRef .tc main_v25) = Cert.RefStages.val_main_v25 (F := F) (V (Proc.devRef .tc main_arg0)) (V (Proc.devRef .tc main_arg1)) (V (Proc.devRef .tc main_arg7)) (V (Proc.devRef .tc main_arg8)) := by
  have h := read_binary (hW (F := F)) 31 V rfl (by decide) (by decide) (by decide)
  rw [st_main_v24 V, st_main_v23 V] at h
  exact h

theorem st_main_v26 (V : Valuation τ sig (Elt F)) :
    after ops V (Proc.devRef .tc main_v26) = Cert.RefStages.val_main_v26 (F := F) (V (Proc.devRef .tc main_arg0)) (V (Proc.devRef .tc main_arg1)) (V (Proc.devRef .tc main_arg9)) := by
  have h := read_binary (hW (F := F)) 32 V rfl (by decide) (by decide) (by decide)
  rw [arg_main_arg9 V, st_main_v1 V] at h
  exact h

theorem st_main_v27 (V : Valuation τ sig (Elt F)) :
    after ops V (Proc.devRef .tc main_v27) = Cert.RefStages.val_main_v27 (F := F) (V (Proc.devRef .tc main_arg0)) (V (Proc.devRef .tc main_arg1)) (V (Proc.devRef .tc main_arg9)) (V (Proc.devRef .tc main_arg10)) := by
  have h := read_binary (hW (F := F)) 33 V rfl (by decide) (by decide) (by decide)
  rw [st_main_v26 V, arg_main_arg10 V] at h
  exact h

theorem st_main_v28 (V : Valuation τ sig (Elt F)) :
    after ops V (Proc.devRef .tc main_v28) = Cert.RefStages.val_main_v28 (F := F) (V (Proc.devRef .tc main_arg0)) (V (Proc.devRef .tc main_arg1)) (V (Proc.devRef .tc main_arg9)) (V (Proc.devRef .tc main_arg10)) := by
  have h := read_unary (hW (F := F)) 34 V rfl (by decide) (by decide)
  rw [st_main_v27 V] at h
  exact h

theorem st_main_v29 (V : Valuation τ sig (Elt F)) :
    after ops V (Proc.devRef .tc main_v29) = Cert.RefStages.val_main_v29 (F := F) (V (Proc.devRef .tc main_arg2)) := by
  have h := read_unary (hW (F := F)) 35 V rfl (by decide) (by decide)
  rw [arg_main_arg2 V] at h
  exact h

theorem st_main_v30 (V : Valuation τ sig (Elt F)) :
    after ops V (Proc.devRef .tc main_v30) = Cert.RefStages.val_main_v30 (F := F) (V (Proc.devRef .tc main_arg0)) (V (Proc.devRef .tc main_arg1)) (V (Proc.devRef .tc main_arg2)) (V (Proc.devRef .tc main_arg3)) (V (Proc.devRef .tc main_arg4)) := by
  have h := read_binary (hW (F := F)) 36 V rfl (by decide) (by decide) (by decide)
  rw [st_main_v9 V, st_main_v29 V] at h
  exact h

theorem st_main_v31 (V : Valuation τ sig (Elt F)) :
    after ops V (Proc.devRef .tc main_v31) = Cert.RefStages.val_main_v31 (F := F) (V (Proc.devRef .tc main_arg0)) (V (Proc.devRef .tc main_arg1)) (V (Proc.devRef .tc main_arg5)) (V (Proc.devRef .tc main_arg6)) (V (Proc.devRef .tc main_arg9)) (V (Proc.devRef .tc main_arg10)) := by
  have h := read_binary (hW (F := F)) 37 V rfl (by decide) (by decide) (by decide)
  rw [st_main_v17 V, st_main_v28 V] at h
  exact h

theorem st_main_v32 (V : Valuation τ sig (Elt F)) :
    after ops V (Proc.devRef .tc main_v32) = Cert.RefStages.val_main_v32 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg9)) (V (Proc.devRef .tc main_arg10)) := by
  have h := read_binary (hW (F := F)) 38 V rfl (by decide) (by decide) (by decide)
  rw [st_main_v30 V, st_main_v31 V] at h
  exact h

theorem st_main_v33 (V : Valuation τ sig (Elt F)) :
    after ops V (Proc.devRef .tc main_v33) = Cert.RefStages.val_main_v33 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg9)) (V (Proc.devRef .tc main_arg10)) := by
  have h := read_unary (hW (F := F)) 39 V rfl (by decide) (by decide)
  rw [st_main_v32 V] at h
  exact h

theorem st_main_v34 (V : Valuation τ sig (Elt F)) :
    after ops V (Proc.devRef .tc main_v34) = Cert.RefStages.val_main_v34 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  have h := read_binary (hW (F := F)) 40 V rfl (by decide) (by decide) (by decide)
  rw [st_main_v25 V, st_main_v33 V] at h
  exact h

theorem st_main_v35 (V : Valuation τ sig (Elt F)) :
    after ops V (Proc.devRef .tc main_v35) = Cert.RefStages.val_main_v35 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  have h := read_binary (hW (F := F)) 41 V rfl (by decide) (by decide) (by decide)
  rw [arg_main_arg11 V, st_main_v34 V] at h
  exact h

theorem st_main_v36 (V : Valuation τ sig (Elt F)) :
    after ops V (Proc.devRef .tc main_v36) = Cert.RefStages.val_main_v36 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  have h := read_binary (hW (F := F)) 42 V rfl (by decide) (by decide) (by decide)
  rw [st_main_v35 V, arg_main_arg12 V] at h
  exact h

theorem st_main_v37 (V : Valuation τ sig (Elt F)) :
    after ops V (Proc.devRef .tc main_v37) = Cert.RefStages.val_main_v37 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  have h := read_unary (hW (F := F)) 43 V rfl (by decide) (by decide)
  rw [st_main_v36 V] at h
  exact h

theorem st_main_call0_cst (V : Valuation τ sig (Elt F)) :
    after ops V (Proc.devRef .tc main_call0_cst) = Cert.RefStages.val_main_call0_cst (F := F) := by
  have h := read_nullary (hW (F := F)) 44 V rfl (by decide)
  exact h

set_option maxRecDepth 200000 in
theorem st_main_call0_v0 (V : Valuation τ sig (Elt F)) :
    after ops V (Proc.devRef .tc main_call0_v0) = Cert.RefStages.val_main_call0_v0 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  have h := read_binary (hW (F := F)) 45 V rfl (by decide) (by decide) (by decide)
  rw [st_main_v37 V, st_main_call0_cst V] at h
  exact h

theorem st_main_call0_cst_0 (V : Valuation τ sig (Elt F)) :
    after ops V (Proc.devRef .tc main_call0_cst_0) = Cert.RefStages.val_main_call0_cst_0 (F := F) := by
  have h := read_nullary (hW (F := F)) 46 V rfl (by decide)
  exact h

theorem st_main_call0_v1 (V : Valuation τ sig (Elt F)) :
    after ops V (Proc.devRef .tc main_call0_v1) = Cert.RefStages.val_main_call0_v1 (F := F) := by
  have h := read_unary (hW (F := F)) 47 V rfl (by decide) (by decide)
  rw [st_main_call0_cst_0 V] at h
  exact h

set_option maxRecDepth 200000 in
theorem st_main_call0_v2 (V : Valuation τ sig (Elt F)) :
    after ops V (Proc.devRef .tc main_call0_v2) = Cert.RefStages.val_main_call0_v2 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  have h := read_binary (hW (F := F)) 48 V rfl (by decide) (by decide) (by decide)
  rw [st_main_call0_v1 V, st_main_call0_v0 V] at h
  exact h

theorem st_main_call0_v3 (V : Valuation τ sig (Elt F)) :
    after ops V (Proc.devRef .tc main_call0_v3) = Cert.RefStages.val_main_call0_v3 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  have h := read_unary (hW (F := F)) 49 V rfl (by decide) (by decide)
  rw [st_main_call0_v2 V] at h
  exact h

theorem st_main_call0_v4 (V : Valuation τ sig (Elt F)) :
    after ops V (Proc.devRef .tc main_call0_v4) = Cert.RefStages.val_main_call0_v4 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  have h := read_unary (hW (F := F)) 50 V rfl (by decide) (by decide)
  rw [st_main_call0_v3 V] at h
  exact h

theorem st_main_call0_v5 (V : Valuation τ sig (Elt F)) :
    after ops V (Proc.devRef .tc main_call0_v5) = Cert.RefStages.val_main_call0_v5 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  have h := read_binary (hW (F := F)) 51 V rfl (by decide) (by decide) (by decide)
  rw [st_main_v37 V, st_main_call0_v4 V] at h
  exact h

theorem st_main_call0_v6 (V : Valuation τ sig (Elt F)) :
    after ops V (Proc.devRef .tc main_call0_v6) = Cert.RefStages.val_main_call0_v6 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  have h := read_unary (hW (F := F)) 52 V rfl (by decide) (by decide)
  rw [st_main_call0_v5 V] at h
  exact h

theorem st_main_call0_cst_1 (V : Valuation τ sig (Elt F)) :
    after ops V (Proc.devRef .tc main_call0_cst_1) = Cert.RefStages.val_main_call0_cst_1 (F := F) := by
  have h := read_nullary (hW (F := F)) 53 V rfl (by decide)
  exact h

theorem st_main_call0_v7 (V : Valuation τ sig (Elt F)) :
    after ops V (Proc.devRef .tc main_call0_v7) = Cert.RefStages.val_main_call0_v7 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  have h := read_binary (hW (F := F)) 54 V rfl (by decide) (by decide) (by decide)
  rw [st_main_call0_v6 V, st_main_call0_cst_1 V] at h
  exact h

theorem st_main_call0_v8 (V : Valuation τ sig (Elt F)) :
    after ops V (Proc.devRef .tc main_call0_v8) = Cert.RefStages.val_main_call0_v8 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  have h := read_unary (hW (F := F)) 55 V rfl (by decide) (by decide)
  rw [st_main_call0_v7 V] at h
  exact h

theorem st_main_call0_v9 (V : Valuation τ sig (Elt F)) :
    after ops V (Proc.devRef .tc main_call0_v9) = Cert.RefStages.val_main_call0_v9 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  have h := read_unary (hW (F := F)) 56 V rfl (by decide) (by decide)
  rw [st_main_call0_v8 V] at h
  exact h

theorem st_main_call0_v10 (V : Valuation τ sig (Elt F)) :
    after ops V (Proc.devRef .tc main_call0_v10) = Cert.RefStages.val_main_call0_v10 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  have h := read_unary (hW (F := F)) 57 V rfl (by decide) (by decide)
  rw [st_main_call0_v9 V] at h
  exact h

theorem st_main_v38 (V : Valuation τ sig (Elt F)) :
    after ops V (Proc.devRef .tc main_v38) = Cert.RefStages.val_main_v38 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  have h := read_binary (hW (F := F)) 58 V rfl (by decide) (by decide) (by decide)
  rw [st_main_call0_v5 V, st_main_call0_v10 V] at h
  exact h

theorem st_main_v39 (V : Valuation τ sig (Elt F)) :
    after ops V (Proc.devRef .tc main_v39) = Cert.RefStages.val_main_v39 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  have h := read_unary (hW (F := F)) 59 V rfl (by decide) (by decide)
  rw [st_main_v34 V] at h
  exact h

theorem st_main_v40 (V : Valuation τ sig (Elt F)) :
    after ops V (Proc.devRef .tc main_v40) = Cert.RefStages.val_main_v40 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg9)) (V (Proc.devRef .tc main_arg10)) := by
  have h := read_unary (hW (F := F)) 60 V rfl (by decide) (by decide)
  rw [st_main_v32 V] at h
  exact h

/-! ## The run -/

set_option maxRecDepth 65536 in
set_option maxHeartbeats 4000000 in
/-- On every device, for any float values, from any memory with zero counters: every weakly fair execution of the
    reference terminates with each result at its last stage of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = Cert.RefStages.val_main_v38 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v39) = Cert.RefStages.val_main_v39 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v40) = Cert.RefStages.val_main_v40 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v38).trans (st_main_v38 (launchContents m c)),
      (h c main_v39).trans (st_main_v39 (launchContents m c)),
      (h c main_v40).trans (st_main_v40 (launchContents m c)),
      (h c main_arg0).trans (arg_main_arg0 (launchContents m c)),
      (h c main_arg1).trans (arg_main_arg1 (launchContents m c)),
      (h c main_arg2).trans (arg_main_arg2 (launchContents m c)),
      (h c main_arg3).trans (arg_main_arg3 (launchContents m c)),
      (h c main_arg4).trans (arg_main_arg4 (launchContents m c)),
      (h c main_arg5).trans (arg_main_arg5 (launchContents m c)),
      (h c main_arg6).trans (arg_main_arg6 (launchContents m c)),
      (h c main_arg7).trans (arg_main_arg7 (launchContents m c)),
      (h c main_arg8).trans (arg_main_arg8 (launchContents m c)),
      (h c main_arg9).trans (arg_main_arg9 (launchContents m c)),
      (h c main_arg10).trans (arg_main_arg10 (launchContents m c)),
      (h c main_arg11).trans (arg_main_arg11 (launchContents m c)),
      (h c main_arg12).trans (arg_main_arg12 (launchContents m c))⟩)
    (run_seq scopedRefs_eq scopedSems_eq defs main (fun _ => ops) main_eq (fun _ => ops_sub) m ρ)

end Cert.RefRun

end
-- ==== Proof.LibLogisticForm.lean ====
/-
  The logistic function written as a quotient, over the extended reals.

  A program may apply the logistic function as one operation or spell it `1 / (1 + e^(-z))` with the 32-bit pattern of
  the number one, a negation, an exponential, a sum and a quotient. Over the extended reals the two are the same function:
  the pattern `0x3F800000` denotes one, and the logistic function is defined as that quotient, with the conventions
  `e^(-∞) = 0` and `1 / ∞ = 0` giving the limits `1` at `+∞` and `0` at `-∞`.
-/
import Idealize.ShloMosaic.PureOps.Ideal

noncomputable section

namespace Idealize.ShloMosaic.LogisticForm

open Idealize.ShloMosaic

/-- The bit pattern `0x3F800000` of the 32-bit format denotes the number one. -/
theorem one_f32 : Ideal.ofBits .f32 0x3F800000#32 = 1 := by
  simp [Ideal.ofBits, Ideal.ieee, -EReal.coe_mul]; norm_num

/-- One over one plus the exponential of the negation, in the host's operations and with the number one given by its
    32-bit pattern, is the logistic function. -/
theorem logistic_spelt (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = Ideal.logistic z := by
  rw [Ideal.ofBits_def, one_f32]
  rfl

end Idealize.ShloMosaic.LogisticForm

end
-- ==== Proof.RefSpec.lean ====
/-
  The reference program's results are the specification's.

  The reference joins the rows x and h, transposes the joined row into a column, multiplies each gate matrix against
  it, adds the bias column, applies the gate's activation (the logistic function spelt as one over one plus the
  exponential of the negation; the hyperbolic tangent for the candidate), forms the new cell and hidden columns,
  multiplies the read-out matrix against the hidden column, adds its bias, and transposes the columns back into rows.
  A transpose only exchanges the two coordinates of an index, the joined row at k is x[k] or h[k - 4096], and a matrix
  product at a row is the sum over the contracted index, so each stage read at an index is the specification's entry.
  The log-softmax is kept closed: the first result is the specification's log-softmax applied to the read-out row.
-/
import proofs.«125930_j21131239097236_2_alg».proof.Proof.RefStages
import proofs.«125930_j21131239097236_2_alg».proof.Proof.Spec
import proofs.«125930_j21131239097236_2_alg».proof.Proof.LibLogisticForm

noncomputable section

/-! The reference's results, stage by stage, are the specification's entries. -/

namespace Cert.RefSpec

open Cert.ReferenceIdeal Cert.ReferenceIdeal.Gen Cert.RefStages Idealize.ShloMosaic Idealize.ShloMosaic.ValueIdx
open Idealize.ShloMosaic.TcCoe
open scoped BigOperators

/-- The transposed joined row at row k is entry k of the row x followed by the row h. -/
theorem joined_apply (x0 x1 : (⟨S1x4096, .f32⟩ : BufTy).Contents (Elt Ideal)) (k : Fin 8192) :
    val_main_v1 (F := Ideal) x0 x1 (ix2 k (0 : Fin 1)) = Spec.comb x0 x1 k := by
  rw [val_main_v1_apply]
  have e : idx_main_v1 (ix2 k (0 : Fin 1)) = ix2 (0 : Fin 1) k :=
    funext fun a => Fin.ext (by match a with | ⟨0, _⟩ => rfl | ⟨1, _⟩ => rfl)
  rw [e]
  unfold val_main_v0
  exact Spec.concatenate_apply x0 x1 _ k

/-- A gate's matrix against the transposed joined row, plus its bias column, at row r. -/
theorem gate_pre (x0 x1 : (⟨S1x4096, .f32⟩ : BufTy).Contents (Elt Ideal))
    (W : (⟨S4096x8192, .f32⟩ : BufTy).Contents (Elt Ideal)) (b : (⟨S4096x1, .f32⟩ : BufTy).Contents (Elt Ideal))
    (r : Fin 4096) :
    val_main_v3 (F := Ideal) x0 x1 W b (ix2 r (0 : Fin 1)) = Spec.pre W b x0 x1 r := by
  rw [val_main_v3_apply, val_main_v2_apply]
  unfold Spec.pre
  rw [Ideal.addf_def]
  refine congrArg (· + b (ix2 r (0 : Fin 1))) (Finset.sum_congr rfl fun k _ => ?_)
  have el : lidx_main_v2 (ix2 r (0 : Fin 1)) k = ix2 r k :=
    funext fun a => Fin.ext (by match a with | ⟨0, _⟩ => rfl | ⟨1, _⟩ => rfl)
  have er : ridx_main_v2 (ix2 r (0 : Fin 1)) k = ix2 k (0 : Fin 1) :=
    funext fun a => Fin.ext (by match a with | ⟨0, _⟩ => rfl | ⟨1, _⟩ => rfl)
  rw [el, er, joined_apply]

/-- The four gates are one function of their matrix and bias. -/
theorem pre_i_eq (x0 x1 : (⟨S1x4096, .f32⟩ : BufTy).Contents (Elt Ideal))
    (W : (⟨S4096x8192, .f32⟩ : BufTy).Contents (Elt Ideal)) (b : (⟨S4096x1, .f32⟩ : BufTy).Contents (Elt Ideal)) :
    val_main_v11 (F := Ideal) x0 x1 W b = val_main_v3 (F := Ideal) x0 x1 W b := rfl
theorem pre_o_eq (x0 x1 : (⟨S1x4096, .f32⟩ : BufTy).Contents (Elt Ideal))
    (W : (⟨S4096x8192, .f32⟩ : BufTy).Contents (Elt Ideal)) (b : (⟨S4096x1, .f32⟩ : BufTy).Contents (Elt Ideal)) :
    val_main_v19 (F := Ideal) x0 x1 W b = val_main_v3 (F := Ideal) x0 x1 W b := rfl
theorem pre_c_eq (x0 x1 : (⟨S1x4096, .f32⟩ : BufTy).Contents (Elt Ideal))
    (W : (⟨S4096x8192, .f32⟩ : BufTy).Contents (Elt Ideal)) (b : (⟨S4096x1, .f32⟩ : BufTy).Contents (Elt Ideal)) :
    val_main_v27 (F := Ideal) x0 x1 W b = val_main_v3 (F := Ideal) x0 x1 W b := rfl

/-- One over one plus the exponential of the negated pre-activation is the logistic function of it. -/
theorem gate_logistic (x0 x1 : (⟨S1x4096, .f32⟩ : BufTy).Contents (Elt Ideal))
    (W : (⟨S4096x8192, .f32⟩ : BufTy).Contents (Elt Ideal)) (b : (⟨S4096x1, .f32⟩ : BufTy).Contents (Elt Ideal))
    (r : Fin 4096) :
    val_main_v9 (F := Ideal) x0 x1 W b (ix2 r (0 : Fin 1)) = Ideal.logistic (Spec.pre W b x0 x1 r) := by
  rw [val_main_v9_apply, val_main_v8_apply, val_main_cst_0_apply, val_main_v7_apply, val_main_v6_apply,
    val_main_cst_apply, val_main_v5_apply, val_main_v4_apply, gate_pre]
  exact LogisticForm.logistic_spelt _

theorem gate_i_eq (x0 x1 : (⟨S1x4096, .f32⟩ : BufTy).Contents (Elt Ideal))
    (W : (⟨S4096x8192, .f32⟩ : BufTy).Contents (Elt Ideal)) (b : (⟨S4096x1, .f32⟩ : BufTy).Contents (Elt Ideal)) :
    val_main_v17 (F := Ideal) x0 x1 W b = val_main_v9 (F := Ideal) x0 x1 W b := rfl
theorem gate_o_eq (x0 x1 : (⟨S1x4096, .f32⟩ : BufTy).Contents (Elt Ideal))
    (W : (⟨S4096x8192, .f32⟩ : BufTy).Contents (Elt Ideal)) (b : (⟨S4096x1, .f32⟩ : BufTy).Contents (Elt Ideal)) :
    val_main_v25 (F := Ideal) x0 x1 W b = val_main_v9 (F := Ideal) x0 x1 W b := rfl

/-- The candidate: the hyperbolic tangent of its pre-activation. -/
theorem gate_tanh (x0 x1 : (⟨S1x4096, .f32⟩ : BufTy).Contents (Elt Ideal))
    (W : (⟨S4096x8192, .f32⟩ : BufTy).Contents (Elt Ideal)) (b : (⟨S4096x1, .f32⟩ : BufTy).Contents (Elt Ideal))
    (r : Fin 4096) :
    val_main_v28 (F := Ideal) x0 x1 W b (ix2 r (0 : Fin 1)) = Ideal.tanh (Spec.pre W b x0 x1 r) := by
  rw [val_main_v28_apply, pre_c_eq, gate_pre]
  rfl

/-- The new cell column at row r. -/
theorem cell_apply (x0 x1 x2 : (⟨S1x4096, .f32⟩ : BufTy).Contents (Elt Ideal))
    (x3 : (⟨S4096x8192, .f32⟩ : BufTy).Contents (Elt Ideal)) (x4 : (⟨S4096x1, .f32⟩ : BufTy).Contents (Elt Ideal))
    (x5 : (⟨S4096x8192, .f32⟩ : BufTy).Contents (Elt Ideal)) (x6 : (⟨S4096x1, .f32⟩ : BufTy).Contents (Elt Ideal))
    (x9 : (⟨S4096x8192, .f32⟩ : BufTy).Contents (Elt Ideal)) (x10 : (⟨S4096x1, .f32⟩ : BufTy).Contents (Elt Ideal))
    (r : Fin 4096) :
    val_main_v32 (F := Ideal) x0 x1 x2 x3 x4 x5 x6 x9 x10 (ix2 r (0 : Fin 1))
      = Spec.cNew x0 x1 x2 x3 x4 x5 x6 x9 x10 r := by
  have e : idx_main_v29 (ix2 r (0 : Fin 1)) = ix2 (0 : Fin 1) r :=
    funext fun a => Fin.ext (by match a with | ⟨0, _⟩ => rfl | ⟨1, _⟩ => rfl)
  rw [val_main_v32_apply, val_main_v30_apply, val_main_v31_apply, val_main_v29_apply, gate_logistic, gate_i_eq,
    gate_logistic, gate_tanh, e]
  rfl

/-- The new hidden column at row r. -/
theorem hidden_apply (x0 x1 x2 : (⟨S1x4096, .f32⟩ : BufTy).Contents (Elt Ideal))
    (x3 : (⟨S4096x8192, .f32⟩ : BufTy).Contents (Elt Ideal)) (x4 : (⟨S4096x1, .f32⟩ : BufTy).Contents (Elt Ideal))
    (x5 : (⟨S4096x8192, .f32⟩ : BufTy).Contents (Elt Ideal)) (x6 : (⟨S4096x1, .f32⟩ : BufTy).Contents (Elt Ideal))
    (x7 : (⟨S4096x8192, .f32⟩ : BufTy).Contents (Elt Ideal)) (x8 : (⟨S4096x1, .f32⟩ : BufTy).Contents (Elt Ideal))
    (x9 : (⟨S4096x8192, .f32⟩ : BufTy).Contents (Elt Ideal)) (x10 : (⟨S4096x1, .f32⟩ : BufTy).Contents (Elt Ideal))
    (r : Fin 4096) :
    val_main_v34 (F := Ideal) x0 x1 x2 x3 x4 x5 x6 x7 x8 x9 x10 (ix2 r (0 : Fin 1))
      = Spec.hNew x0 x1 x2 x3 x4 x5 x6 x7 x8 x9 x10 r := by
  rw [val_main_v34_apply, val_main_v33_apply, gate_o_eq, gate_logistic, cell_apply]
  rfl

/-- The reference's second result is the new hidden row. -/
theorem ref_hidden (x0 x1 x2 : (⟨S1x4096, .f32⟩ : BufTy).Contents (Elt Ideal))
    (x3 : (⟨S4096x8192, .f32⟩ : BufTy).Contents (Elt Ideal)) (x4 : (⟨S4096x1, .f32⟩ : BufTy).Contents (Elt Ideal))
    (x5 : (⟨S4096x8192, .f32⟩ : BufTy).Contents (Elt Ideal)) (x6 : (⟨S4096x1, .f32⟩ : BufTy).Contents (Elt Ideal))
    (x7 : (⟨S4096x8192, .f32⟩ : BufTy).Contents (Elt Ideal)) (x8 : (⟨S4096x1, .f32⟩ : BufTy).Contents (Elt Ideal))
    (x9 : (⟨S4096x8192, .f32⟩ : BufTy).Contents (Elt Ideal)) (x10 : (⟨S4096x1, .f32⟩ : BufTy).Contents (Elt Ideal)) :
    val_main_v39 (F := Ideal) x0 x1 x2 x3 x4 x5 x6 x7 x8 x9 x10
      = Spec.hNewArr x0 x1 x2 x3 x4 x5 x6 x7 x8 x9 x10 := by
  funext i
  obtain ⟨p, q, rfl⟩ : ∃ (p : Fin 1) (q : Fin 4096), i = ix2 p q := ⟨i 0, i 1, eq_ix2 i⟩
  obtain rfl : p = 0 := Subsingleton.elim _ _
  have e : idx_main_v39 (ix2 (0 : Fin 1) q) = ix2 q (0 : Fin 1) :=
    funext fun a => Fin.ext (by match a with | ⟨0, _⟩ => rfl | ⟨1, _⟩ => rfl)
  rw [val_main_v39_apply, e, hidden_apply]
  rfl

/-- The reference's third result is the new cell row. -/
theorem ref_cell (x0 x1 x2 : (⟨S1x4096, .f32⟩ : BufTy).Contents (Elt Ideal))
    (x3 : (⟨S4096x8192, .f32⟩ : BufTy).Contents (Elt Ideal)) (x4 : (⟨S4096x1, .f32⟩ : BufTy).Contents (Elt Ideal))
    (x5 : (⟨S4096x8192, .f32⟩ : BufTy).Contents (Elt Ideal)) (x6 : (⟨S4096x1, .f32⟩ : BufTy).Contents (Elt Ideal))
    (x9 : (⟨S4096x8192, .f32⟩ : BufTy).Contents (Elt Ideal)) (x10 : (⟨S4096x1, .f32⟩ : BufTy).Contents (Elt Ideal)) :
    val_main_v40 (F := Ideal) x0 x1 x2 x3 x4 x5 x6 x9 x10 = Spec.cNewArr x0 x1 x2 x3 x4 x5 x6 x9 x10 := by
  funext i
  obtain ⟨p, q, rfl⟩ : ∃ (p : Fin 1) (q : Fin 4096), i = ix2 p q := ⟨i 0, i 1, eq_ix2 i⟩
  obtain rfl : p = 0 := Subsingleton.elim _ _
  have e : idx_main_v40 (ix2 (0 : Fin 1) q) = ix2 q (0 : Fin 1) :=
    funext fun a => Fin.ext (by match a with | ⟨0, _⟩ => rfl | ⟨1, _⟩ => rfl)
  rw [val_main_v40_apply, e, cell_apply]
  rfl

/-- The read-out before the log-softmax is the specification's read-out row. -/
theorem ref_logits (x0 x1 x2 : (⟨S1x4096, .f32⟩ : BufTy).Contents (Elt Ideal))
    (x3 : (⟨S4096x8192, .f32⟩ : BufTy).Contents (Elt Ideal)) (x4 : (⟨S4096x1, .f32⟩ : BufTy).Contents (Elt Ideal))
    (x5 : (⟨S4096x8192, .f32⟩ : BufTy).Contents (Elt Ideal)) (x6 : (⟨S4096x1, .f32⟩ : BufTy).Contents (Elt Ideal))
    (x7 : (⟨S4096x8192, .f32⟩ : BufTy).Contents (Elt Ideal)) (x8 : (⟨S4096x1, .f32⟩ : BufTy).Contents (Elt Ideal))
    (x9 : (⟨S4096x8192, .f32⟩ : BufTy).Contents (Elt Ideal)) (x10 : (⟨S4096x1, .f32⟩ : BufTy).Contents (Elt Ideal))
    (x11 : (⟨S32000x4096, .f32⟩ : BufTy).Contents (Elt Ideal)) (x12 : (⟨S32000x1, .f32⟩ : BufTy).Contents (Elt Ideal)) :
    val_main_v37 (F := Ideal) x0 x1 x2 x3 x4 x5 x6 x7 x8 x9 x10 x11 x12
      = Spec.logits x0 x1 x2 x3 x4 x5 x6 x7 x8 x9 x10 x11 x12 := by
  funext i
  obtain ⟨p, n, rfl⟩ : ∃ (p : Fin 1) (n : Fin 32000), i = ix2 p n := ⟨i 0, i 1, eq_ix2 i⟩
  obtain rfl : p = 0 := Subsingleton.elim _ _
  have e : idx_main_v37 (ix2 (0 : Fin 1) n) = ix2 n (0 : Fin 1) :=
    funext fun a => Fin.ext (by match a with | ⟨0, _⟩ => rfl | ⟨1, _⟩ => rfl)
  rw [val_main_v37_apply, e, val_main_v36_apply, val_main_v35_apply, Spec.logits_ix2]
  unfold Spec.logit
  rw [Ideal.addf_def]
  refine congrArg (· + x12 (ix2 n (0 : Fin 1))) (Finset.sum_congr rfl fun k _ => ?_)
  have el : lidx_main_v35 (ix2 n (0 : Fin 1)) k = ix2 n k :=
    funext fun a => Fin.ext (by match a with | ⟨0, _⟩ => rfl | ⟨1, _⟩ => rfl)
  have er : ridx_main_v35 (ix2 n (0 : Fin 1)) k = ix2 k (0 : Fin 1) :=
    funext fun a => Fin.ext (by match a with | ⟨0, _⟩ => rfl | ⟨1, _⟩ => rfl)
  rw [el, er, hidden_apply]

/-- The reference's first result is the log-softmax, in the host's own operations, of the read-out stage. -/
theorem ref_tail_stage (x0 x1 x2 : (⟨S1x4096, .f32⟩ : BufTy).Contents (Elt Ideal))
    (x3 : (⟨S4096x8192, .f32⟩ : BufTy).Contents (Elt Ideal)) (x4 : (⟨S4096x1, .f32⟩ : BufTy).Contents (Elt Ideal))
    (x5 : (⟨S4096x8192, .f32⟩ : BufTy).Contents (Elt Ideal)) (x6 : (⟨S4096x1, .f32⟩ : BufTy).Contents (Elt Ideal))
    (x7 : (⟨S4096x8192, .f32⟩ : BufTy).Contents (Elt Ideal)) (x8 : (⟨S4096x1, .f32⟩ : BufTy).Contents (Elt Ideal))
    (x9 : (⟨S4096x8192, .f32⟩ : BufTy).Contents (Elt Ideal)) (x10 : (⟨S4096x1, .f32⟩ : BufTy).Contents (Elt Ideal))
    (x11 : (⟨S32000x4096, .f32⟩ : BufTy).Contents (Elt Ideal)) (x12 : (⟨S32000x1, .f32⟩ : BufTy).Contents (Elt Ideal)) :
    val_main_v38 (F := Ideal) x0 x1 x2 x3 x4 x5 x6 x7 x8 x9 x10 x11 x12
      = Spec.tail (val_main_v37 (F := Ideal) x0 x1 x2 x3 x4 x5 x6 x7 x8 x9 x10 x11 x12) := rfl

/-- The reference's first result is the log-softmax of the specification's read-out row. -/
theorem ref_out (x0 x1 x2 : (⟨S1x4096, .f32⟩ : BufTy).Contents (Elt Ideal))
    (x3 : (⟨S4096x8192, .f32⟩ : BufTy).Contents (Elt Ideal)) (x4 : (⟨S4096x1, .f32⟩ : BufTy).Contents (Elt Ideal))
    (x5 : (⟨S4096x8192, .f32⟩ : BufTy).Contents (Elt Ideal)) (x6 : (⟨S4096x1, .f32⟩ : BufTy).Contents (Elt Ideal))
    (x7 : (⟨S4096x8192, .f32⟩ : BufTy).Contents (Elt Ideal)) (x8 : (⟨S4096x1, .f32⟩ : BufTy).Contents (Elt Ideal))
    (x9 : (⟨S4096x8192, .f32⟩ : BufTy).Contents (Elt Ideal)) (x10 : (⟨S4096x1, .f32⟩ : BufTy).Contents (Elt Ideal))
    (x11 : (⟨S32000x4096, .f32⟩ : BufTy).Contents (Elt Ideal)) (x12 : (⟨S32000x1, .f32⟩ : BufTy).Contents (Elt Ideal)) :
    val_main_v38 (F := Ideal) x0 x1 x2 x3 x4 x5 x6 x7 x8 x9 x10 x11 x12
      = Spec.tail (Spec.logits x0 x1 x2 x3 x4 x5 x6 x7 x8 x9 x10 x11 x12) := by
  rw [ref_tail_stage, ref_logits]

end Cert.RefSpec

end
-- ==== Proof.lean ====
/-
  One step of a long short-term memory cell on a single row, the linear read-out of the new hidden row and the
  log-softmax of the read-out: the kernel (a gates region that accumulates the four gate products block by block over
  the joined row and finishes each block of 1024 rows with the cell update, a projection region that accumulates the
  read-out block by block, and a host log-softmax) against the reference (whole matrix products on the host).

  The frames. Each kernel region is run point by point: at the first contraction block of a row block the accumulators
  are cleared, at every block the block product is added, at the last block the outputs are stored; the accumulators'
  contents are tracked from point to point, the inputs' blocks are found where the index maps put them, and the outputs
  are written back only after a last block. The whole program is the chain of its host lines and its two regions;
  no host line writes an argument and the regions only read them, so every argument ends as launched. The same text
  serves the word-level program and the idealized one. The reference is a straight line of host operations.

  The values, over the extended reals. An accumulator that is cleared and then increased by eight (four) block products
  holds their sum, and the sum over the blocks of a row is the sum over the row, by commutativity and associativity alone:
  nothing is asked to be finite. The logistic function is one function in the kernel's and the reference's spelling. So
  both programs end with the same three arrays: the log-softmax of the read-out, the new hidden row, the new cell row.
-/
import proofs.«125930_j21131239097236_2_alg».proof.Defs
import proofs.«125930_j21131239097236_2_alg».proof.Proof.Gen.Kernel
import proofs.«125930_j21131239097236_2_alg».proof.Proof.Gen.KernelIdeal
import proofs.«125930_j21131239097236_2_alg».proof.Proof.Gen.ReferenceIdeal
import proofs.«125930_j21131239097236_2_alg».proof.Proof.Gen.Pre_finite_inputs
import proofs.«125930_j21131239097236_2_alg».proof.Proof.Bits.KRun
import proofs.«125930_j21131239097236_2_alg».proof.Proof.KVal
import proofs.«125930_j21131239097236_2_alg».proof.Proof.RefRun
import proofs.«125930_j21131239097236_2_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Hand.frame (F := Bits) m ρ

/-- So does the idealized kernel. -/
theorem frame_kernel_ideal : Cert.frame_KernelIdeal := fun m ρ _ => Cert.KernelIdeal.Hand.frame (F := Ideal) m ρ

/-- So does the reference: its run, with the results dropped. -/
theorem frame_reference : Cert.frame_ReferenceIdeal := fun m ρ _ =>
  (θ_run Cert.ReferenceIdeal.defs _ _).mono (fun _ h c => (h c).2.2.2) (Cert.RefRun.run (F := Ideal) m ρ)

/-- The idealization rewrote no operation. -/
theorem preserves : Cert.preserves_Kernel_KernelIdeal := trivial

set_option maxHeartbeats 4000000 in
/-- From memories that agree on the arguments both programs end with the specification's three arrays. -/
theorem algebraic : Cert.algebraic_KernelIdeal_ReferenceIdeal := by
  intro m ρ m' ρ' _ hagree
  refine ⟨fun c => Cert.Spec.tail (Cert.Spec.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))),
    fun c => Cert.Spec.hNewArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Spec.cNewArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c =>
      ⟨(h c _ (Cert.KernelIdeal.Hand.mem_uc Cert.KernelIdeal.main_v8 (by decide))).trans (Cert.KernelIdeal.Hand.out_val m c),
       (h c _ (Cert.KernelIdeal.Hand.mem_uc Cert.KernelIdeal.main_v5_0 (by decide))).trans (Cert.KernelIdeal.Hand.hidden_val m c),
       (h c _ (Cert.KernelIdeal.Hand.mem_uc Cert.KernelIdeal.main_v5_1 (by decide))).trans (Cert.KernelIdeal.Hand.cell_val m c),
       (h c _ (Cert.KernelIdeal.Hand.mem_uc Cert.KernelIdeal.main_arg0 (by decide))).trans (Cert.KernelIdeal.Hand.W5_main_arg0 m c),
       (h c _ (Cert.KernelIdeal.Hand.mem_uc Cert.KernelIdeal.main_arg1 (by decide))).trans (Cert.KernelIdeal.Hand.W5_main_arg1 m c),
       (h c _ (Cert.KernelIdeal.Hand.mem_uc Cert.KernelIdeal.main_arg2 (by decide))).trans (Cert.KernelIdeal.Hand.W5_main_arg2 m c),
       (h c _ (Cert.KernelIdeal.Hand.mem_uc Cert.KernelIdeal.main_arg3 (by decide))).trans (Cert.KernelIdeal.Hand.W5_main_arg3 m c),
       (h c _ (Cert.KernelIdeal.Hand.mem_uc Cert.KernelIdeal.main_arg4 (by decide))).trans (Cert.KernelIdeal.Hand.W5_main_arg4 m c),
       (h c _ (Cert.KernelIdeal.Hand.mem_uc Cert.KernelIdeal.main_arg5 (by decide))).trans (Cert.KernelIdeal.Hand.W5_main_arg5 m c),
       (h c _ (Cert.KernelIdeal.Hand.mem_uc Cert.KernelIdeal.main_arg6 (by decide))).trans (Cert.KernelIdeal.Hand.W5_main_arg6 m c),
       (h c _ (Cert.KernelIdeal.Hand.mem_uc Cert.KernelIdeal.main_arg7 (by decide))).trans (Cert.KernelIdeal.Hand.W5_main_arg7 m c),
       (h c _ (Cert.KernelIdeal.Hand.mem_uc Cert.KernelIdeal.main_arg8 (by decide))).trans (Cert.KernelIdeal.Hand.W5_main_arg8 m c),
       (h c _ (Cert.KernelIdeal.Hand.mem_uc Cert.KernelIdeal.main_arg9 (by decide))).trans (Cert.KernelIdeal.Hand.W5_main_arg9 m c),
       (h c _ (Cert.KernelIdeal.Hand.mem_uc Cert.KernelIdeal.main_arg10 (by decide))).trans (Cert.KernelIdeal.Hand.W5_main_arg10 m c),
       (h c _ (Cert.KernelIdeal.Hand.mem_uc Cert.KernelIdeal.main_arg11 (by decide))).trans (Cert.KernelIdeal.Hand.W5_main_arg11 m c),
       (h c _ (Cert.KernelIdeal.Hand.mem_uc Cert.KernelIdeal.main_arg12 (by decide))).trans (Cert.KernelIdeal.Hand.W5_main_arg12 m c)⟩)
      (Cert.KernelIdeal.Hand.run_all (F := Ideal) m ρ)
  · refine (θ_run Cert.ReferenceIdeal.defs _ _).mono (fun r h c => ?_) (Cert.RefRun.run (F := Ideal) m' ρ')
    obtain ⟨h38, h39, h40, hargs⟩ := h c
    obtain ⟨e0, e1, e2, e3, e4, e5, e6, e7, e8, e9, e10, e11, e12⟩ := hagree c
    refine ⟨?_, ?_, ?_, hargs⟩
    · rw [h38, Cert.RefSpec.ref_out, e0, e1, e2, e3, e4, e5, e6, e7, e8, e9, e10, e11, e12]
    · rw [h39, Cert.RefSpec.ref_hidden, e0, e1, e2, e3, e4, e5, e6, e7, e8, e9, e10]
    · rw [h40, Cert.RefSpec.ref_cell, e0, e1, e2, e3, e4, e5, e6, e9, e10]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
